-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v233)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v233) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x3x128x128 : Shape := ⟨4, ![3, 3, 128, 128]⟩
abbrev S3x3x128 : Shape := ⟨3, ![3, 3, 128]⟩
abbrev S640000 : Shape := ⟨1, ![640000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S3x3x128 : S_.BroadcastsInDim S3x3x128 (![] : Fin 0 → Fin S3x3x128.rank)
  reducesTo_S3x3x128_S_d0_1_2 : S3x3x128.ReducesTo [0, 1, 2] S_

variable [Facts]

def fn_part1 {F : FTy → Type} [FloatOps F] (main_v13 : IVec S_ 1) (main_v16 : IVec S3x3x128 1) : IVec S_ 1 :=
  let main_c_5 : IVec S_ 1 := constantI S_ 1 1#1
  let main_v17 : IVec S_ 1 := (fun x v => Host.reduce IntOp.andi x v reducesTo_S3x3x128_S_d0_1_2 h_S_) main_v16 main_c_5
  let main_v18 : IVec S_ 1 := andi main_v13 main_v17
  main_v18

def fn {F : FTy → Type} [FloatOps F] (main_arg0 : FVec F S100000x128 .f32) (main_arg1 : FVec F S100000x128 .f32) (main_arg2 : FVec F S3x3x128x128 .f32) (main_arg3 : FVec F S3x3x128 .f32) (main_arg4 : IVec S640000 32) (main_arg5 : IVec S640000 32) (main_arg6 : IVec S640000 32) (main_arg7 : IVec S640000 32) (main_arg8 : IVec S640000 32) (main_arg9 : IVec S640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S3x3x128x128 .f32 := Host.absf main_arg2
  let main_cst_2 : FVec F S_ .f32 := constant S_ .f32 0x7F800000#32
  let main_v10 : FVec F S3x3x128x128 .f32 := broadcastInDim S3x3x128x128 ![] bcast_S_S3x3x128x128 main_cst_2
  let main_v11 : IVec S3x3x128x128 1 := cmpf .olt main_v9 main_v10
  let main_c_3 : IVec S_ 1 := constantI S_ 1 1#1
  let main_v12 : IVec S_ 1 := (fun x v => Host.reduce IntOp.andi x v reducesTo_S3x3x128x128_S_d0_1_2_3 h_S_) main_v11 main_c_3
  let main_v13 : IVec S_ 1 := andi main_v8 main_v12
  let main_v14 : FVec F S3x3x128 .f32 := Host.absf main_arg3
  let main_cst_4 : FVec F S_ .f32 := constant S_ .f32 0x7F800000#32
  let main_v15 : FVec F S3x3x128 .f32 := broadcastInDim S3x3x128 ![] bcast_S_S3x3x128 main_cst_4
  let main_v16 : IVec S3x3x128 1 := cmpf .olt main_v14 main_v15
  fn_part1 (F := F) main_v13 main_v16
-- ==== Kernel.lean ====
abbrev S100000x128 : Shape := ⟨2, ![100000, 128]⟩
abbrev S3x3x128x128 : Shape := ⟨4, ![3, 3, 128, 128]⟩
abbrev S3x3x128 : Shape := ⟨3, ![3, 3, 128]⟩
abbrev S640000 : Shape := ⟨1, ![640000]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S5000x128 : Shape := ⟨2, ![5000, 128]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x100000x128 : Shape := ⟨3, ![1, 100000, 128]⟩
abbrev S2x100000x128 : Shape := ⟨3, ![2, 100000, 128]⟩

abbrev nBuf : Space → Nat
  | .hbm => 298
  | .vmem => 84
  | .smem => 0
  | _ => 0

abbrev hbmTy0_0 (i : Nat) : BufTy := match i % 128 with
  | 0 => ⟨S100000x128, .f32⟩
  | 1 => ⟨S100000x128, .f32⟩
  | 2 => ⟨S3x3x128x128, .f32⟩
  | 3 => ⟨S3x3x128, .f32⟩
  | 4 => ⟨S640000, .i32⟩
  | 5 => ⟨S640000, .i32⟩
  | 6 => ⟨S640000, .i32⟩
  | 7 => ⟨S640000, .i32⟩
  | 8 => ⟨S640000, .i32⟩
  | 9 => ⟨S640000, .i32⟩
  | 10 => ⟨S1x1x128x128, .f32⟩
  | 11 => ⟨S128x128, .f32⟩
  | 12 => ⟨S1x1x128, .f32⟩
  | 13 => ⟨S128, .f32⟩
  | 14 => ⟨S1x128, .f32⟩
  | 15 => ⟨S100000x128, .f32⟩
  | 16 => ⟨S1x1x128x128, .f32⟩
  | 17 => ⟨S128x128, .f32⟩
  | 18 => ⟨S1x1x128, .f32⟩
  | 19 => ⟨S128, .f32⟩
  | 20 => ⟨S1x128, .f32⟩
  | 21 => ⟨S100000x128, .f32⟩
  | 22 => ⟨S1x1x128x128, .f32⟩
  | 23 => ⟨S128x128, .f32⟩
  | 24 => ⟨S1x1x128, .f32⟩
  | 25 => ⟨S128, .f32⟩
  | 26 => ⟨S1x128, .f32⟩
  | 27 => ⟨S100000x128, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000x128, .f32⟩
  | 37 => ⟨S_, .f32⟩
  | 38 => ⟨S100000x128, .f32⟩
  | 39 => ⟨S640000x1, .i32⟩
  | 40 => ⟨S100000x128, .f32⟩
  | 41 => ⟨S_, .f32⟩
  | 42 => ⟨S640000, .f32⟩
  | 43 => ⟨S_, .f32⟩
  | 44 => ⟨S100000, .f32⟩
  | 45 => ⟨S640000x1, .i32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x128, .f32⟩
  | 52 => ⟨S100000x128, .f32⟩
  | 53 => ⟨S_, .i32⟩
  | 54 => ⟨S640000, .i32⟩
  | 55 => ⟨S640000, .i1⟩
  | 56 => ⟨S_, .i32⟩
  | 57 => ⟨S640000, .i32⟩
  | 58 => ⟨S640000, .i32⟩
  | 59 => ⟨S640000, .i32⟩
  | 60 => ⟨S640000x1, .i32⟩
  | 61 => ⟨S640000x128, .f32⟩
  | 62 => ⟨S_, .f32⟩
  | 63 => ⟨S100000x128, .f32⟩
  | 64 => ⟨S640000x1, .i32⟩
  | 65 => ⟨S100000x128, .f32⟩
  | 66 => ⟨S_, .f32⟩
  | 67 => ⟨S640000, .f32⟩
  | 68 => ⟨S_, .f32⟩
  | 69 => ⟨S100000, .f32⟩
  | 70 => ⟨S640000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x128, .f32⟩
  | 77 => ⟨S100000x128, .f32⟩
  | 78 => ⟨S_, .i32⟩
  | 79 => ⟨S640000, .i32⟩
  | 80 => ⟨S640000, .i1⟩
  | 81 => ⟨S_, .i32⟩
  | 82 => ⟨S640000, .i32⟩
  | 83 => ⟨S640000, .i32⟩
  | 84 => ⟨S640000, .i32⟩
  | 85 => ⟨S640000x1, .i32⟩
  | 86 => ⟨S640000x128, .f32⟩
  | 87 => ⟨S_, .f32⟩
  | 88 => ⟨S100000x128, .f32⟩
  | 89 => ⟨S640000x1, .i32⟩
  | 90 => ⟨S100000x128, .f32⟩
  | 91 => ⟨S_, .f32⟩
  | 92 => ⟨S640000, .f32⟩
  | 93 => ⟨S_, .f32⟩
  | 94 => ⟨S100000, .f32⟩
  | 95 => ⟨S640000x1, .i32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x128, .f32⟩
  | 102 => ⟨S100000x128, .f32⟩
  | 103 => ⟨S100000x128, .f32⟩
  | 104 => ⟨S100000x128, .f32⟩
  | 105 => ⟨S1x1x128x128, .f32⟩
  | 106 => ⟨S128x128, .f32⟩
  | 107 => ⟨S1x1x128, .f32⟩
  | 108 => ⟨S128, .f32⟩
  | 109 => ⟨S1x128, .f32⟩
  | 110 => ⟨S100000x128, .f32⟩
  | 111 => ⟨S1x1x128x128, .f32⟩
  | 112 => ⟨S128x128, .f32⟩
  | 113 => ⟨S1x1x128, .f32⟩
  | 114 => ⟨S128, .f32⟩
  | 115 => ⟨S1x128, .f32⟩
  | 116 => ⟨S100000x128, .f32⟩
  | 117 => ⟨S1x1x128x128, .f32⟩
  | 118 => ⟨S128x128, .f32⟩
  | 119 => ⟨S1x1x128, .f32⟩
  | 120 => ⟨S128, .f32⟩
  | 121 => ⟨S1x128, .f32⟩
  | 122 => ⟨S100000x128, .f32⟩
  | 123 => ⟨S_, .i32⟩
  | 124 => ⟨S640000, .i32⟩
  | 125 => ⟨S640000, .i1⟩
  | 126 => ⟨S_, .i32⟩
  | 127 => ⟨S640000, .i32⟩
  | _ => ⟨S100000x128, .f32⟩

abbrev hbmTy0_1 (i : Nat) : BufTy := match i % 128 with
  | 0 => ⟨S640000, .i32⟩
  | 1 => ⟨S640000, .i32⟩
  | 2 => ⟨S640000x1, .i32⟩
  | 3 => ⟨S640000x128, .f32⟩
  | 4 => ⟨S_, .f32⟩
  | 5 => ⟨S100000x128, .f32⟩
  | 6 => ⟨S640000x1, .i32⟩
  | 7 => ⟨S100000x128, .f32⟩
  | 8 => ⟨S_, .f32⟩
  | 9 => ⟨S640000, .f32⟩
  | 10 => ⟨S_, .f32⟩
  | 11 => ⟨S100000, .f32⟩
  | 12 => ⟨S640000x1, .i32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x128, .f32⟩
  | 19 => ⟨S100000x128, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S_, .f32⟩
  | 30 => ⟨S100000x128, .f32⟩
  | 31 => ⟨S640000x1, .i32⟩
  | 32 => ⟨S100000x128, .f32⟩
  | 33 => ⟨S_, .f32⟩
  | 34 => ⟨S640000, .f32⟩
  | 35 => ⟨S_, .f32⟩
  | 36 => ⟨S100000, .f32⟩
  | 37 => ⟨S640000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x128, .f32⟩
  | 44 => ⟨S100000x128, .f32⟩
  | 45 => ⟨S_, .i32⟩
  | 46 => ⟨S640000, .i32⟩
  | 47 => ⟨S640000, .i1⟩
  | 48 => ⟨S_, .i32⟩
  | 49 => ⟨S640000, .i32⟩
  | 50 => ⟨S640000, .i32⟩
  | 51 => ⟨S640000, .i32⟩
  | 52 => ⟨S640000x1, .i32⟩
  | 53 => ⟨S640000x128, .f32⟩
  | 54 => ⟨S_, .f32⟩
  | 55 => ⟨S100000x128, .f32⟩
  | 56 => ⟨S640000x1, .i32⟩
  | 57 => ⟨S100000x128, .f32⟩
  | 58 => ⟨S_, .f32⟩
  | 59 => ⟨S640000, .f32⟩
  | 60 => ⟨S_, .f32⟩
  | 61 => ⟨S100000, .f32⟩
  | 62 => ⟨S640000x1, .i32⟩
  | 63 => ⟨S100000, .f32⟩
  | 64 => ⟨S_, .f32⟩
  | 65 => ⟨S100000, .f32⟩
  | 66 => ⟨S100000, .f32⟩
  | 67 => ⟨S100000x1, .f32⟩
  | 68 => ⟨S100000x128, .f32⟩
  | 69 => ⟨S100000x128, .f32⟩
  | 70 => ⟨S100000x128, .f32⟩
  | 71 => ⟨S100000x128, .f32⟩
  | 72 => ⟨S1x1x128x128, .f32⟩
  | 73 => ⟨S128x128, .f32⟩
  | 74 => ⟨S1x1x128, .f32⟩
  | 75 => ⟨S128, .f32⟩
  | 76 => ⟨S1x128, .f32⟩
  | 77 => ⟨S100000x128, .f32⟩
  | 78 => ⟨S1x1x128x128, .f32⟩
  | 79 => ⟨S128x128, .f32⟩
  | 80 => ⟨S1x1x128, .f32⟩
  | 81 => ⟨S128, .f32⟩
  | 82 => ⟨S1x128, .f32⟩
  | 83 => ⟨S100000x128, .f32⟩
  | 84 => ⟨S1x1x128x128, .f32⟩
  | 85 => ⟨S128x128, .f32⟩
  | 86 => ⟨S1x1x128, .f32⟩
  | 87 => ⟨S128, .f32⟩
  | 88 => ⟨S1x128, .f32⟩
  | 89 => ⟨S100000x128, .f32⟩
  | 90 => ⟨S_, .i32⟩
  | 91 => ⟨S640000, .i32⟩
  | 92 => ⟨S640000, .i1⟩
  | 93 => ⟨S_, .i32⟩
  | 94 => ⟨S640000, .i32⟩
  | 95 => ⟨S640000, .i32⟩
  | 96 => ⟨S640000, .i32⟩
  | 97 => ⟨S640000x1, .i32⟩
  | 98 => ⟨S640000x128, .f32⟩
  | 99 => ⟨S_, .f32⟩
  | 100 => ⟨S100000x128, .f32⟩
  | 101 => ⟨S640000x1, .i32⟩
  | 102 => ⟨S100000x128, .f32⟩
  | 103 => ⟨S_, .f32⟩
  | 104 => ⟨S640000, .f32⟩
  | 105 => ⟨S_, .f32⟩
  | 106 => ⟨S100000, .f32⟩
  | 107 => ⟨S640000x1, .i32⟩
  | 108 => ⟨S100000, .f32⟩
  | 109 => ⟨S_, .f32⟩
  | 110 => ⟨S100000, .f32⟩
  | 111 => ⟨S100000, .f32⟩
  | 112 => ⟨S100000x1, .f32⟩
  | 113 => ⟨S100000x128, .f32⟩
  | 114 => ⟨S100000x128, .f32⟩
  | 115 => ⟨S_, .i32⟩
  | 116 => ⟨S640000, .i32⟩
  | 117 => ⟨S640000, .i1⟩
  | 118 => ⟨S_, .i32⟩
  | 119 => ⟨S640000, .i32⟩
  | 120 => ⟨S640000, .i32⟩
  | 121 => ⟨S640000, .i32⟩
  | 122 => ⟨S640000x1, .i32⟩
  | 123 => ⟨S640000x128, .f32⟩
  | 124 => ⟨S_, .f32⟩
  | 125 => ⟨S100000x128, .f32⟩
  | 126 => ⟨S640000x1, .i32⟩
  | 127 => ⟨S100000x128, .f32⟩
  | _ => ⟨S100000x128, .f32⟩

abbrev hbmTy0_2 (i : Nat) : BufTy := match i % 128 with
  | 0 => ⟨S_, .f32⟩
  | 1 => ⟨S640000, .f32⟩
  | 2 => ⟨S_, .f32⟩
  | 3 => ⟨S100000, .f32⟩
  | 4 => ⟨S640000x1, .i32⟩
  | 5 => ⟨S100000, .f32⟩
  | 6 => ⟨S_, .f32⟩
  | 7 => ⟨S100000, .f32⟩
  | 8 => ⟨S100000, .f32⟩
  | 9 => ⟨S100000x1, .f32⟩
  | 10 => ⟨S100000x128, .f32⟩
  | 11 => ⟨S100000x128, .f32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000x128, .f32⟩
  | 21 => ⟨S_, .f32⟩
  | 22 => ⟨S100000x128, .f32⟩
  | 23 => ⟨S640000x1, .i32⟩
  | 24 => ⟨S100000x128, .f32⟩
  | 25 => ⟨S_, .f32⟩
  | 26 => ⟨S640000, .f32⟩
  | 27 => ⟨S_, .f32⟩
  | 28 => ⟨S100000, .f32⟩
  | 29 => ⟨S640000x1, .i32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x128, .f32⟩
  | 36 => ⟨S100000x128, .f32⟩
  | 37 => ⟨S100000x128, .f32⟩
  | 38 => ⟨S100000x128, .f32⟩
  | 39 => ⟨S1x100000x128, .f32⟩
  | 40 => ⟨S1x100000x128, .f32⟩
  | 41 => ⟨S2x100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S128x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S128x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_v37 : Ref sig .tc := ⟨.hbm, 54, rfl⟩
abbrev main_v38 : Ref sig .tc := ⟨.hbm, 55, rfl⟩
abbrev main_c_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_c_16 : Ref sig .tc := ⟨.hbm, 123, rfl⟩
abbrev main_v95 : Ref sig .tc := ⟨.hbm, 124, rfl⟩
abbrev main_v96 : Ref sig .tc := ⟨.hbm, 125, rfl⟩
abbrev main_c_17 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_18 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_19 : Ref sig .tc := ⟨.hbm, 136, rfl⟩
abbrev main_v105 : Ref sig .tc := ⟨.hbm, 137, rfl⟩
abbrev main_cst_20 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_21 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_c_22 : Ref sig .tc := ⟨.hbm, 148, rfl⟩
abbrev main_v114 : Ref sig .tc := ⟨.hbm, 149, rfl⟩
abbrev main_v115 : Ref sig .tc := ⟨.hbm, 150, rfl⟩
abbrev main_c_23 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_24 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_25 : Ref sig .tc := ⟨.hbm, 161, rfl⟩
abbrev main_v124 : Ref sig .tc := ⟨.hbm, 162, rfl⟩
abbrev main_cst_26 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_27 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_c_28 : Ref sig .tc := ⟨.hbm, 173, rfl⟩
abbrev main_v133 : Ref sig .tc := ⟨.hbm, 174, rfl⟩
abbrev main_v134 : Ref sig .tc := ⟨.hbm, 175, rfl⟩
abbrev main_c_29 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_30 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_cst_31 : Ref sig .tc := ⟨.hbm, 186, rfl⟩
abbrev main_v143 : Ref sig .tc := ⟨.hbm, 187, rfl⟩
abbrev main_cst_32 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_33 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_c_34 : Ref sig .tc := ⟨.hbm, 218, rfl⟩
abbrev main_v172 : Ref sig .tc := ⟨.hbm, 219, rfl⟩
abbrev main_v173 : Ref sig .tc := ⟨.hbm, 220, rfl⟩
abbrev main_c_35 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_cst_36 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_cst_37 : Ref sig .tc := ⟨.hbm, 231, rfl⟩
abbrev main_v182 : Ref sig .tc := ⟨.hbm, 232, rfl⟩
abbrev main_cst_38 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_cst_39 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_c_40 : Ref sig .tc := ⟨.hbm, 243, rfl⟩
abbrev main_v191 : Ref sig .tc := ⟨.hbm, 244, rfl⟩
abbrev main_v192 : Ref sig .tc := ⟨.hbm, 245, rfl⟩
abbrev main_c_41 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_cst_42 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_cst_43 : Ref sig .tc := ⟨.hbm, 256, rfl⟩
abbrev main_v201 : Ref sig .tc := ⟨.hbm, 257, rfl⟩
abbrev main_cst_44 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_cst_45 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_c_46 : Ref sig .tc := ⟨.hbm, 268, rfl⟩
abbrev main_v210 : Ref sig .tc := ⟨.hbm, 269, rfl⟩
abbrev main_v211 : Ref sig .tc := ⟨.hbm, 270, rfl⟩
abbrev main_c_47 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_cst_48 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_cst_49 : Ref sig .tc := ⟨.hbm, 281, rfl⟩
abbrev main_v220 : Ref sig .tc := ⟨.hbm, 282, rfl⟩
abbrev main_cst_50 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_cst_51 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg3_0 : Ref sig .tc := ⟨.vmem, 38, rfl⟩
abbrev cc6_stg3_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg2_0 : Ref sig .tc := ⟨.vmem, 43, rfl⟩
abbrev cc7_stg3_0 : Ref sig .tc := ⟨.vmem, 44, rfl⟩
abbrev cc7_stg3_1 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg1_1 : Ref sig .tc := ⟨.vmem, 49, rfl⟩
abbrev cc8_stg2_0 : Ref sig .tc := ⟨.vmem, 50, rfl⟩
abbrev cc8_stg2_1 : Ref sig .tc := ⟨.vmem, 51, rfl⟩
abbrev cc9_stg0_0 : Ref sig .tc := ⟨.vmem, 52, rfl⟩
abbrev cc9_stg0_1 : Ref sig .tc := ⟨.vmem, 53, rfl⟩
abbrev cc9_stg1_0 : Ref sig .tc := ⟨.vmem, 54, rfl⟩
abbrev cc9_stg1_1 : Ref sig .tc := ⟨.vmem, 55, rfl⟩
abbrev cc10_stg0_0 : Ref sig .tc := ⟨.vmem, 56, rfl⟩
abbrev cc10_stg0_1 : Ref sig .tc := ⟨.vmem, 57, rfl⟩
abbrev cc10_stg1_0 : Ref sig .tc := ⟨.vmem, 58, rfl⟩
abbrev cc10_stg2_0 : Ref sig .tc := ⟨.vmem, 59, rfl⟩
abbrev cc10_stg3_0 : Ref sig .tc := ⟨.vmem, 60, rfl⟩
abbrev cc10_stg3_1 : Ref sig .tc := ⟨.vmem, 61, rfl⟩
abbrev cc11_stg0_0 : Ref sig .tc := ⟨.vmem, 62, rfl⟩
abbrev cc11_stg0_1 : Ref sig .tc := ⟨.vmem, 63, rfl⟩
abbrev cc11_stg1_0 : Ref sig .tc := ⟨.vmem, 64, rfl⟩
abbrev cc11_stg2_0 : Ref sig .tc := ⟨.vmem, 65, rfl⟩
abbrev cc11_stg3_0 : Ref sig .tc := ⟨.vmem, 66, rfl⟩
abbrev cc11_stg3_1 : Ref sig .tc := ⟨.vmem, 67, rfl⟩
abbrev cc12_stg0_0 : Ref sig .tc := ⟨.vmem, 68, rfl⟩
abbrev cc12_stg0_1 : Ref sig .tc := ⟨.vmem, 69, rfl⟩
abbrev cc12_stg1_0 : Ref sig .tc := ⟨.vmem, 70, rfl⟩
abbrev cc12_stg2_0 : Ref sig .tc := ⟨.vmem, 71, rfl⟩
abbrev cc12_stg3_0 : Ref sig .tc := ⟨.vmem, 72, rfl⟩
abbrev cc12_stg3_1 : Ref sig .tc := ⟨.vmem, 73, rfl⟩
abbrev cc13_stg0_0 : Ref sig .tc := ⟨.vmem, 74, rfl⟩
abbrev cc13_stg0_1 : Ref sig .tc := ⟨.vmem, 75, rfl⟩
abbrev cc13_stg1_0 : Ref sig .tc := ⟨.vmem, 76, rfl⟩
abbrev cc13_stg1_1 : Ref sig .tc := ⟨.vmem, 77, rfl⟩
abbrev cc13_stg2_0 : Ref sig .tc := ⟨.vmem, 78, rfl⟩
abbrev cc13_stg2_1 : Ref sig .tc := ⟨.vmem, 79, rfl⟩
abbrev cc14_stg0_0 : Ref sig .tc := ⟨.vmem, 80, rfl⟩
abbrev cc14_stg0_1 : Ref sig .tc := ⟨.vmem, 81, rfl⟩
abbrev cc14_stg1_0 : Ref sig .tc := ⟨.vmem, 82, rfl⟩
abbrev cc14_stg1_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem3_0 : DmaSem sig := 38
abbrev cc6_sem3_1 : DmaSem sig := 39
abbrev cc7_sem0_0 : DmaSem sig := 40
abbrev cc7_sem0_1 : DmaSem sig := 41
abbrev cc7_sem1_0 : DmaSem sig := 42
abbrev cc7_sem2_0 : DmaSem sig := 43
abbrev cc7_sem3_0 : DmaSem sig := 44
abbrev cc7_sem3_1 : DmaSem sig := 45
abbrev cc8_sem0_0 : DmaSem sig := 46
abbrev cc8_sem0_1 : DmaSem sig := 47
abbrev cc8_sem1_0 : DmaSem sig := 48
abbrev cc8_sem1_1 : DmaSem sig := 49
abbrev cc8_sem2_0 : DmaSem sig := 50
abbrev cc8_sem2_1 : DmaSem sig := 51
abbrev cc9_sem0_0 : DmaSem sig := 52
abbrev cc9_sem0_1 : DmaSem sig := 53
abbrev cc9_sem1_0 : DmaSem sig := 54
abbrev cc9_sem1_1 : DmaSem sig := 55
abbrev cc10_sem0_0 : DmaSem sig := 56
abbrev cc10_sem0_1 : DmaSem sig := 57
abbrev cc10_sem1_0 : DmaSem sig := 58
abbrev cc10_sem2_0 : DmaSem sig := 59
abbrev cc10_sem3_0 : DmaSem sig := 60
abbrev cc10_sem3_1 : DmaSem sig := 61
abbrev cc11_sem0_0 : DmaSem sig := 62
abbrev cc11_sem0_1 : DmaSem sig := 63
abbrev cc11_sem1_0 : DmaSem sig := 64
abbrev cc11_sem2_0 : DmaSem sig := 65
abbrev cc11_sem3_0 : DmaSem sig := 66
abbrev cc11_sem3_1 : DmaSem sig := 67
abbrev cc12_sem0_0 : DmaSem sig := 68
abbrev cc12_sem0_1 : DmaSem sig := 69
abbrev cc12_sem1_0 : DmaSem sig := 70
abbrev cc12_sem2_0 : DmaSem sig := 71
abbrev cc12_sem3_0 : DmaSem sig := 72
abbrev cc12_sem3_1 : DmaSem sig := 73
abbrev cc13_sem0_0 : DmaSem sig := 74
abbrev cc13_sem0_1 : DmaSem sig := 75
abbrev cc13_sem1_0 : DmaSem sig := 76
abbrev cc13_sem1_1 : DmaSem sig := 77
abbrev cc13_sem2_0 : DmaSem sig := 78
abbrev cc13_sem2_1 : DmaSem sig := 79
abbrev cc14_sem0_0 : DmaSem sig := 80
abbrev cc14_sem0_1 : DmaSem sig := 81
abbrev cc14_sem1_0 : DmaSem sig := 82
abbrev cc14_sem1_1 : DmaSem sig := 83

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S5000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S5000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

class Facts₀ : Prop where
  slices_S3x3x128x128_S1x1x128x128_0_0_0_0 : S3x3x128x128.Slices ![0, 0, 0, 0] S1x1x128x128
  shapeCasts_S1x1x128x128_S128x128 : S1x1x128x128.ShapeCasts S128x128
  slices_S3x3x128_S1x1x128_0_0_0 : S3x3x128.Slices ![0, 0, 0] S1x1x128
  shapeCasts_S1x1x128_S128 : S1x1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x3x128x128_S1x1x128x128_0_1_0_0 : S3x3x128x128.Slices ![0, 1, 0, 0] S1x1x128x128
  slices_S3x3x128_S1x1x128_0_1_0 : S3x3x128.Slices ![0, 1, 0] S1x1x128
  slices_S3x3x128x128_S1x1x128x128_0_2_0_0 : S3x3x128x128.Slices ![0, 2, 0, 0] S1x1x128x128
  slices_S3x3x128_S1x1x128_0_2_0 : S3x3x128.Slices ![0, 2, 0] S1x1x128
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  slices_S3x3x128x128_S1x1x128x128_1_0_0_0 : S3x3x128x128.Slices ![1, 0, 0, 0] S1x1x128x128
  slices_S3x3x128_S1x1x128_1_0_0 : S3x3x128.Slices ![1, 0, 0] S1x1x128
  slices_S3x3x128x128_S1x1x128x128_1_1_0_0 : S3x3x128x128.Slices ![1, 1, 0, 0] S1x1x128x128
  slices_S3x3x128_S1x1x128_1_1_0 : S3x3x128.Slices ![1, 1, 0] S1x1x128
  slices_S3x3x128x128_S1x1x128x128_1_2_0_0 : S3x3x128x128.Slices ![1, 2, 0, 0] S1x1x128x128
  slices_S3x3x128_S1x1x128_1_2_0 : S3x3x128.Slices ![1, 2, 0] S1x1x128
  slices_S3x3x128x128_S1x1x128x128_2_0_0_0 : S3x3x128x128.Slices ![2, 0, 0, 0] S1x1x128x128
  slices_S3x3x128_S1x1x128_2_0_0 : S3x3x128.Slices ![2, 0, 0] S1x1x128
  slices_S3x3x128x128_S1x1x128x128_2_1_0_0 : S3x3x128x128.Slices ![2, 1, 0, 0] S1x1x128x128
  slices_S3x3x128_S1x1x128_2_1_0 : S3x3x128.Slices ![2, 1, 0] S1x1x128
  slices_S3x3x128x128_S1x1x128x128_2_2_0_0 : S3x3x128x128.Slices ![2, 2, 0, 0] S1x1x128x128
  slices_S3x3x128_S1x1x128_2_2_0 : S3x3x128.Slices ![2, 2, 0] S1x1x128
  bcast_S100000x128_S1x100000x128_1_2 : S100000x128.BroadcastsInDim S1x100000x128 (![1, 2] : Fin 2 → Fin S1x100000x128.rank)
  concatenates_S1x100000x128_S1x100000x128_S2x100000x128_d0 : Shape.Concatenates [S1x100000x128, S1x100000x128] S2x100000x128 0
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S100000x128.size a
  hwx8_1 : ∀ i : grid8.Coords, EltTy.bits .f32 = 32 ∨ (Rect.block (s := S100000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S100000x128.size a
  hwx9_1 : ∀ i : grid9.Coords, EltTy.bits .f32 = 32 ∨ (Rect.block (s := S100000x128) S5000x128.size (cc9_transform_1 i) (hinb9_1 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x128.size a ≤ S100000x128.size a
  hwx10_3 : ∀ i : grid10.Coords, EltTy.bits .f32 = 32 ∨ (Rect.block (s := S100000x128) S5000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x128.size a ≤ S100000x128.size a
  hwx11_3 : ∀ i : grid11.Coords, EltTy.bits .f32 = 32 ∨ (Rect.block (s := S100000x128) S5000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S100000x128.size a
  hwx12_0 : ∀ i : grid12.Coords, EltTy.bits .f32 = 32 ∨ (Rect.block (s := S100000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x128.size a ≤ S100000x128.size a
  hwx12_3 : ∀ i : grid12.Coords, EltTy.bits .f32 = 32 ∨ (Rect.block (s := S100000x128) S5000x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S100000x128.size a
  hwx13_0 : ∀ i : grid13.Coords, EltTy.bits .f32 = 32 ∨ (Rect.block (s := S100000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x128.size a ≤ S100000x128.size a
  hwx13_1 : ∀ i : grid13.Coords, EltTy.bits .f32 = 32 ∨ (Rect.block (s := S100000x128) S5000x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x128.size a ≤ S100000x128.size a
  hwx13_2 : ∀ i : grid13.Coords, EltTy.bits .f32 = 32 ∨ (Rect.block (s := S100000x128) S5000x128.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S100000x128.size a
  hwx14_0 : ∀ i : grid14.Coords, EltTy.bits .f32 = 32 ∨ (Rect.block (s := S100000x128) S5000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x128.size a ≤ S100000x128.size a
  hwx14_1 : ∀ i : grid14.Coords, EltTy.bits .f32 = 32 ∨ (Rect.block (s := S100000x128) S5000x128.size (cc14_transform_1 i) (hinb14_1 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v55) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S5000x128.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v75) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v76) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v90) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v94) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v113) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v151) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v152) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v132) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v153) S5000x128.size cc9_transform_1 reads9_1 true false 2 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

abbrev win10_0 : Pipeline.Window sig grid10 :=
  Pipeline.Window.ofSpec (Memref.whole main_v152) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v155) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v158) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v159) S5000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v152) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v161) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v164) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v165) S5000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v153) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v167) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v170) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v171) S5000x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v190) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v228) S5000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v229) S5000x128.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v209) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v230) S5000x128.size cc14_transform_1 reads14_1 true false 2 stage14_1 sem14_1
    hrank14 hreads14_1 hinb14_1 nbuf14_1 (Memref.isWhole_whole _) hwx14_1 hstage14_1

abbrev win14 : Fin 2 → Pipeline.Window sig grid14 := fun | 0 => win14_0 | 1 => win14_1 | ⟨_ + 2, h⟩ => absurd h (Nat.not_lt.2 (Nat.le_add_left _ _))
abbrev spec14 : Fin 2 → Pipeline.WinSpec sig grid14.rank := fun w => (win14 w).toWinSpec

class Facts : Prop extends Facts₀ where

variable [Facts]
-- ==== ReferenceIdeal.lean ====
abbrev S100000x128 : Shape := ⟨2, ![100000, 128]⟩
abbrev S3x3x128x128 : Shape := ⟨4, ![3, 3, 128, 128]⟩
abbrev S3x3x128 : Shape := ⟨3, ![3, 3, 128]⟩
abbrev S640000 : Shape := ⟨1, ![640000]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x100000x128 : Shape := ⟨3, ![1, 100000, 128]⟩
abbrev S2x100000x128 : Shape := ⟨3, ![2, 100000, 128]⟩

abbrev nBuf : Space → Nat
  | .hbm => 361
  | .vmem => 0
  | .smem => 0
  | _ => 0

abbrev hbmTy0_0 (i : Nat) : BufTy := match i % 128 with
  | 0 => ⟨S100000x128, .f32⟩
  | 1 => ⟨S100000x128, .f32⟩
  | 2 => ⟨S3x3x128x128, .f32⟩
  | 3 => ⟨S3x3x128, .f32⟩
  | 4 => ⟨S640000, .i32⟩
  | 5 => ⟨S640000, .i32⟩
  | 6 => ⟨S640000, .i32⟩
  | 7 => ⟨S640000, .i32⟩
  | 8 => ⟨S640000, .i32⟩
  | 9 => ⟨S640000, .i32⟩
  | 10 => ⟨S1x1x128x128, .f32⟩
  | 11 => ⟨S128x128, .f32⟩
  | 12 => ⟨S1x1x128, .f32⟩
  | 13 => ⟨S128, .f32⟩
  | 14 => ⟨S100000x128, .f32⟩
  | 15 => ⟨S1x128, .f32⟩
  | 16 => ⟨S100000x128, .f32⟩
  | 17 => ⟨S100000x128, .f32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000x128, .f32⟩
  | 27 => ⟨S_, .f32⟩
  | 28 => ⟨S100000x128, .f32⟩
  | 29 => ⟨S640000x1, .i32⟩
  | 30 => ⟨S100000x128, .f32⟩
  | 31 => ⟨S_, .f32⟩
  | 32 => ⟨S640000, .f32⟩
  | 33 => ⟨S_, .f32⟩
  | 34 => ⟨S100000, .f32⟩
  | 35 => ⟨S640000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x128, .f32⟩
  | 42 => ⟨S100000x128, .f32⟩
  | 43 => ⟨S1x1x128x128, .f32⟩
  | 44 => ⟨S128x128, .f32⟩
  | 45 => ⟨S1x1x128, .f32⟩
  | 46 => ⟨S128, .f32⟩
  | 47 => ⟨S100000x128, .f32⟩
  | 48 => ⟨S1x128, .f32⟩
  | 49 => ⟨S100000x128, .f32⟩
  | 50 => ⟨S100000x128, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x128, .f32⟩
  | 60 => ⟨S_, .f32⟩
  | 61 => ⟨S100000x128, .f32⟩
  | 62 => ⟨S640000x1, .i32⟩
  | 63 => ⟨S100000x128, .f32⟩
  | 64 => ⟨S_, .f32⟩
  | 65 => ⟨S640000, .f32⟩
  | 66 => ⟨S_, .f32⟩
  | 67 => ⟨S100000, .f32⟩
  | 68 => ⟨S640000x1, .i32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x128, .f32⟩
  | 75 => ⟨S100000x128, .f32⟩
  | 76 => ⟨S100000x128, .f32⟩
  | 77 => ⟨S1x1x128x128, .f32⟩
  | 78 => ⟨S128x128, .f32⟩
  | 79 => ⟨S1x1x128, .f32⟩
  | 80 => ⟨S128, .f32⟩
  | 81 => ⟨S100000x128, .f32⟩
  | 82 => ⟨S1x128, .f32⟩
  | 83 => ⟨S100000x128, .f32⟩
  | 84 => ⟨S100000x128, .f32⟩
  | 85 => ⟨S_, .i32⟩
  | 86 => ⟨S640000, .i32⟩
  | 87 => ⟨S640000, .i1⟩
  | 88 => ⟨S_, .i32⟩
  | 89 => ⟨S640000, .i32⟩
  | 90 => ⟨S640000, .i32⟩
  | 91 => ⟨S640000, .i32⟩
  | 92 => ⟨S640000x1, .i32⟩
  | 93 => ⟨S640000x128, .f32⟩
  | 94 => ⟨S_, .f32⟩
  | 95 => ⟨S100000x128, .f32⟩
  | 96 => ⟨S640000x1, .i32⟩
  | 97 => ⟨S100000x128, .f32⟩
  | 98 => ⟨S_, .f32⟩
  | 99 => ⟨S640000, .f32⟩
  | 100 => ⟨S_, .f32⟩
  | 101 => ⟨S100000, .f32⟩
  | 102 => ⟨S640000x1, .i32⟩
  | 103 => ⟨S100000, .f32⟩
  | 104 => ⟨S_, .f32⟩
  | 105 => ⟨S100000, .f32⟩
  | 106 => ⟨S100000, .f32⟩
  | 107 => ⟨S100000x1, .f32⟩
  | 108 => ⟨S100000x128, .f32⟩
  | 109 => ⟨S100000x128, .f32⟩
  | 110 => ⟨S_, .f32⟩
  | 111 => ⟨S_, .f32⟩
  | 112 => ⟨S100000x128, .f32⟩
  | 113 => ⟨S100000x128, .i1⟩
  | 114 => ⟨S_, .f32⟩
  | 115 => ⟨S100000x128, .f32⟩
  | 116 => ⟨S100000x128, .f32⟩
  | 117 => ⟨S100000x128, .f32⟩
  | 118 => ⟨S_, .f32⟩
  | 119 => ⟨S_, .f32⟩
  | 120 => ⟨S100000x128, .f32⟩
  | 121 => ⟨S100000x128, .i1⟩
  | 122 => ⟨S_, .f32⟩
  | 123 => ⟨S100000x128, .f32⟩
  | 124 => ⟨S100000x128, .f32⟩
  | 125 => ⟨S100000x128, .f32⟩
  | 126 => ⟨S1x1x128x128, .f32⟩
  | 127 => ⟨S128x128, .f32⟩
  | _ => ⟨S100000x128, .f32⟩

abbrev hbmTy0_1 (i : Nat) : BufTy := match i % 128 with
  | 0 => ⟨S1x1x128, .f32⟩
  | 1 => ⟨S128, .f32⟩
  | 2 => ⟨S100000x128, .f32⟩
  | 3 => ⟨S1x128, .f32⟩
  | 4 => ⟨S100000x128, .f32⟩
  | 5 => ⟨S100000x128, .f32⟩
  | 6 => ⟨S_, .i32⟩
  | 7 => ⟨S640000, .i32⟩
  | 8 => ⟨S640000, .i1⟩
  | 9 => ⟨S_, .i32⟩
  | 10 => ⟨S640000, .i32⟩
  | 11 => ⟨S640000, .i32⟩
  | 12 => ⟨S640000, .i32⟩
  | 13 => ⟨S640000x1, .i32⟩
  | 14 => ⟨S640000x128, .f32⟩
  | 15 => ⟨S_, .f32⟩
  | 16 => ⟨S100000x128, .f32⟩
  | 17 => ⟨S640000x1, .i32⟩
  | 18 => ⟨S100000x128, .f32⟩
  | 19 => ⟨S_, .f32⟩
  | 20 => ⟨S640000, .f32⟩
  | 21 => ⟨S_, .f32⟩
  | 22 => ⟨S100000, .f32⟩
  | 23 => ⟨S640000x1, .i32⟩
  | 24 => ⟨S100000, .f32⟩
  | 25 => ⟨S_, .f32⟩
  | 26 => ⟨S100000, .f32⟩
  | 27 => ⟨S100000, .f32⟩
  | 28 => ⟨S100000x1, .f32⟩
  | 29 => ⟨S100000x128, .f32⟩
  | 30 => ⟨S100000x128, .f32⟩
  | 31 => ⟨S1x1x128x128, .f32⟩
  | 32 => ⟨S128x128, .f32⟩
  | 33 => ⟨S1x1x128, .f32⟩
  | 34 => ⟨S128, .f32⟩
  | 35 => ⟨S100000x128, .f32⟩
  | 36 => ⟨S1x128, .f32⟩
  | 37 => ⟨S100000x128, .f32⟩
  | 38 => ⟨S100000x128, .f32⟩
  | 39 => ⟨S_, .i32⟩
  | 40 => ⟨S640000, .i32⟩
  | 41 => ⟨S640000, .i1⟩
  | 42 => ⟨S_, .i32⟩
  | 43 => ⟨S640000, .i32⟩
  | 44 => ⟨S640000, .i32⟩
  | 45 => ⟨S640000, .i32⟩
  | 46 => ⟨S640000x1, .i32⟩
  | 47 => ⟨S640000x128, .f32⟩
  | 48 => ⟨S_, .f32⟩
  | 49 => ⟨S100000x128, .f32⟩
  | 50 => ⟨S640000x1, .i32⟩
  | 51 => ⟨S100000x128, .f32⟩
  | 52 => ⟨S_, .f32⟩
  | 53 => ⟨S640000, .f32⟩
  | 54 => ⟨S_, .f32⟩
  | 55 => ⟨S100000, .f32⟩
  | 56 => ⟨S640000x1, .i32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x128, .f32⟩
  | 63 => ⟨S100000x128, .f32⟩
  | 64 => ⟨S100000x128, .f32⟩
  | 65 => ⟨S1x1x128x128, .f32⟩
  | 66 => ⟨S128x128, .f32⟩
  | 67 => ⟨S1x1x128, .f32⟩
  | 68 => ⟨S128, .f32⟩
  | 69 => ⟨S100000x128, .f32⟩
  | 70 => ⟨S1x128, .f32⟩
  | 71 => ⟨S100000x128, .f32⟩
  | 72 => ⟨S100000x128, .f32⟩
  | 73 => ⟨S_, .i32⟩
  | 74 => ⟨S640000, .i32⟩
  | 75 => ⟨S640000, .i1⟩
  | 76 => ⟨S_, .i32⟩
  | 77 => ⟨S640000, .i32⟩
  | 78 => ⟨S640000, .i32⟩
  | 79 => ⟨S640000, .i32⟩
  | 80 => ⟨S640000x1, .i32⟩
  | 81 => ⟨S640000x128, .f32⟩
  | 82 => ⟨S_, .f32⟩
  | 83 => ⟨S100000x128, .f32⟩
  | 84 => ⟨S640000x1, .i32⟩
  | 85 => ⟨S100000x128, .f32⟩
  | 86 => ⟨S_, .f32⟩
  | 87 => ⟨S640000, .f32⟩
  | 88 => ⟨S_, .f32⟩
  | 89 => ⟨S100000, .f32⟩
  | 90 => ⟨S640000x1, .i32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x128, .f32⟩
  | 97 => ⟨S100000x128, .f32⟩
  | 98 => ⟨S_, .f32⟩
  | 99 => ⟨S_, .f32⟩
  | 100 => ⟨S100000x128, .f32⟩
  | 101 => ⟨S100000x128, .i1⟩
  | 102 => ⟨S_, .f32⟩
  | 103 => ⟨S100000x128, .f32⟩
  | 104 => ⟨S100000x128, .f32⟩
  | 105 => ⟨S100000x128, .f32⟩
  | 106 => ⟨S_, .f32⟩
  | 107 => ⟨S_, .f32⟩
  | 108 => ⟨S100000x128, .f32⟩
  | 109 => ⟨S100000x128, .i1⟩
  | 110 => ⟨S_, .f32⟩
  | 111 => ⟨S100000x128, .f32⟩
  | 112 => ⟨S100000x128, .f32⟩
  | 113 => ⟨S100000x128, .f32⟩
  | 114 => ⟨S1x1x128x128, .f32⟩
  | 115 => ⟨S128x128, .f32⟩
  | 116 => ⟨S1x1x128, .f32⟩
  | 117 => ⟨S128, .f32⟩
  | 118 => ⟨S100000x128, .f32⟩
  | 119 => ⟨S1x128, .f32⟩
  | 120 => ⟨S100000x128, .f32⟩
  | 121 => ⟨S100000x128, .f32⟩
  | 122 => ⟨S_, .i32⟩
  | 123 => ⟨S640000, .i32⟩
  | 124 => ⟨S640000, .i1⟩
  | 125 => ⟨S_, .i32⟩
  | 126 => ⟨S640000, .i32⟩
  | 127 => ⟨S640000, .i32⟩
  | _ => ⟨S100000x128, .f32⟩

abbrev hbmTy0_2 (i : Nat) : BufTy := match i % 128 with
  | 0 => ⟨S640000, .i32⟩
  | 1 => ⟨S640000x1, .i32⟩
  | 2 => ⟨S640000x128, .f32⟩
  | 3 => ⟨S_, .f32⟩
  | 4 => ⟨S100000x128, .f32⟩
  | 5 => ⟨S640000x1, .i32⟩
  | 6 => ⟨S100000x128, .f32⟩
  | 7 => ⟨S_, .f32⟩
  | 8 => ⟨S640000, .f32⟩
  | 9 => ⟨S_, .f32⟩
  | 10 => ⟨S100000, .f32⟩
  | 11 => ⟨S640000x1, .i32⟩
  | 12 => ⟨S100000, .f32⟩
  | 13 => ⟨S_, .f32⟩
  | 14 => ⟨S100000, .f32⟩
  | 15 => ⟨S100000, .f32⟩
  | 16 => ⟨S100000x1, .f32⟩
  | 17 => ⟨S100000x128, .f32⟩
  | 18 => ⟨S100000x128, .f32⟩
  | 19 => ⟨S1x1x128x128, .f32⟩
  | 20 => ⟨S128x128, .f32⟩
  | 21 => ⟨S1x1x128, .f32⟩
  | 22 => ⟨S128, .f32⟩
  | 23 => ⟨S100000x128, .f32⟩
  | 24 => ⟨S1x128, .f32⟩
  | 25 => ⟨S100000x128, .f32⟩
  | 26 => ⟨S100000x128, .f32⟩
  | 27 => ⟨S_, .i32⟩
  | 28 => ⟨S640000, .i32⟩
  | 29 => ⟨S640000, .i1⟩
  | 30 => ⟨S_, .i32⟩
  | 31 => ⟨S640000, .i32⟩
  | 32 => ⟨S640000, .i32⟩
  | 33 => ⟨S640000, .i32⟩
  | 34 => ⟨S640000x1, .i32⟩
  | 35 => ⟨S640000x128, .f32⟩
  | 36 => ⟨S_, .f32⟩
  | 37 => ⟨S100000x128, .f32⟩
  | 38 => ⟨S640000x1, .i32⟩
  | 39 => ⟨S100000x128, .f32⟩
  | 40 => ⟨S_, .f32⟩
  | 41 => ⟨S640000, .f32⟩
  | 42 => ⟨S_, .f32⟩
  | 43 => ⟨S100000, .f32⟩
  | 44 => ⟨S640000x1, .i32⟩
  | 45 => ⟨S100000, .f32⟩
  | 46 => ⟨S_, .f32⟩
  | 47 => ⟨S100000, .f32⟩
  | 48 => ⟨S100000, .f32⟩
  | 49 => ⟨S100000x1, .f32⟩
  | 50 => ⟨S100000x128, .f32⟩
  | 51 => ⟨S100000x128, .f32⟩
  | 52 => ⟨S100000x128, .f32⟩
  | 53 => ⟨S1x1x128x128, .f32⟩
  | 54 => ⟨S128x128, .f32⟩
  | 55 => ⟨S1x1x128, .f32⟩
  | 56 => ⟨S128, .f32⟩
  | 57 => ⟨S100000x128, .f32⟩
  | 58 => ⟨S1x128, .f32⟩
  | 59 => ⟨S100000x128, .f32⟩
  | 60 => ⟨S100000x128, .f32⟩
  | 61 => ⟨S_, .i32⟩
  | 62 => ⟨S640000, .i32⟩
  | 63 => ⟨S640000, .i1⟩
  | 64 => ⟨S_, .i32⟩
  | 65 => ⟨S640000, .i32⟩
  | 66 => ⟨S640000, .i32⟩
  | 67 => ⟨S640000, .i32⟩
  | 68 => ⟨S640000x1, .i32⟩
  | 69 => ⟨S640000x128, .f32⟩
  | 70 => ⟨S_, .f32⟩
  | 71 => ⟨S100000x128, .f32⟩
  | 72 => ⟨S640000x1, .i32⟩
  | 73 => ⟨S100000x128, .f32⟩
  | 74 => ⟨S_, .f32⟩
  | 75 => ⟨S640000, .f32⟩
  | 76 => ⟨S_, .f32⟩
  | 77 => ⟨S100000, .f32⟩
  | 78 => ⟨S640000x1, .i32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x128, .f32⟩
  | 85 => ⟨S100000x128, .f32⟩
  | 86 => ⟨S_, .f32⟩
  | 87 => ⟨S_, .f32⟩
  | 88 => ⟨S100000x128, .f32⟩
  | 89 => ⟨S100000x128, .i1⟩
  | 90 => ⟨S_, .f32⟩
  | 91 => ⟨S100000x128, .f32⟩
  | 92 => ⟨S100000x128, .f32⟩
  | 93 => ⟨S100000x128, .f32⟩
  | 94 => ⟨S_, .f32⟩
  | 95 => ⟨S_, .f32⟩
  | 96 => ⟨S100000x128, .f32⟩
  | 97 => ⟨S100000x128, .i1⟩
  | 98 => ⟨S_, .f32⟩
  | 99 => ⟨S100000x128, .f32⟩
  | 100 => ⟨S100000x128, .f32⟩
  | 101 => ⟨S100000x128, .f32⟩
  | 102 => ⟨S1x100000x128, .f32⟩
  | 103 => ⟨S1x100000x128, .f32⟩
  | 104 => ⟨S2x100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_4 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_10 : Ref sig .tc := ⟨.hbm, 85, rfl⟩
abbrev main_v63 : Ref sig .tc := ⟨.hbm, 86, rfl⟩
abbrev main_v64 : Ref sig .tc := ⟨.hbm, 87, rfl⟩
abbrev main_c_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_call0_cst : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_v82 : Ref sig .tc := ⟨.hbm, 117, rfl⟩
abbrev main_cst_17 : Ref sig .tc := ⟨.hbm, 118, rfl⟩
abbrev main_call1_cst : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_call1_v3 : Ref sig .tc := ⟨.hbm, 123, rfl⟩
abbrev main_call1_v4 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_c_18 : Ref sig .tc := ⟨.hbm, 134, rfl⟩
abbrev main_v92 : Ref sig .tc := ⟨.hbm, 135, rfl⟩
abbrev main_v93 : Ref sig .tc := ⟨.hbm, 136, rfl⟩
abbrev main_c_19 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_20 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_21 : Ref sig .tc := ⟨.hbm, 147, rfl⟩
abbrev main_v102 : Ref sig .tc := ⟨.hbm, 148, rfl⟩
abbrev main_cst_22 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_23 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_24 : Ref sig .tc := ⟨.hbm, 167, rfl⟩
abbrev main_v119 : Ref sig .tc := ⟨.hbm, 168, rfl⟩
abbrev main_v120 : Ref sig .tc := ⟨.hbm, 169, rfl⟩
abbrev main_c_25 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_26 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_27 : Ref sig .tc := ⟨.hbm, 180, rfl⟩
abbrev main_v129 : Ref sig .tc := ⟨.hbm, 181, rfl⟩
abbrev main_cst_28 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_cst_29 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_c_30 : Ref sig .tc := ⟨.hbm, 201, rfl⟩
abbrev main_v147 : Ref sig .tc := ⟨.hbm, 202, rfl⟩
abbrev main_v148 : Ref sig .tc := ⟨.hbm, 203, rfl⟩
abbrev main_c_31 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_cst_32 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_33 : Ref sig .tc := ⟨.hbm, 214, rfl⟩
abbrev main_v157 : Ref sig .tc := ⟨.hbm, 215, rfl⟩
abbrev main_cst_34 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_cst_35 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_cst_36 : Ref sig .tc := ⟨.hbm, 226, rfl⟩
abbrev main_call2_cst : Ref sig .tc := ⟨.hbm, 227, rfl⟩
abbrev main_call2_v0 : Ref sig .tc := ⟨.hbm, 228, rfl⟩
abbrev main_call2_v1 : Ref sig .tc := ⟨.hbm, 229, rfl⟩
abbrev main_call2_v2 : Ref sig .tc := ⟨.hbm, 230, rfl⟩
abbrev main_call2_v3 : Ref sig .tc := ⟨.hbm, 231, rfl⟩
abbrev main_call2_v4 : Ref sig .tc := ⟨.hbm, 232, rfl⟩
abbrev main_v166 : Ref sig .tc := ⟨.hbm, 233, rfl⟩
abbrev main_cst_37 : Ref sig .tc := ⟨.hbm, 234, rfl⟩
abbrev main_call3_cst : Ref sig .tc := ⟨.hbm, 235, rfl⟩
abbrev main_call3_v0 : Ref sig .tc := ⟨.hbm, 236, rfl⟩
abbrev main_call3_v1 : Ref sig .tc := ⟨.hbm, 237, rfl⟩
abbrev main_call3_v2 : Ref sig .tc := ⟨.hbm, 238, rfl⟩
abbrev main_call3_v3 : Ref sig .tc := ⟨.hbm, 239, rfl⟩
abbrev main_call3_v4 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_c_38 : Ref sig .tc := ⟨.hbm, 250, rfl⟩
abbrev main_v176 : Ref sig .tc := ⟨.hbm, 251, rfl⟩
abbrev main_v177 : Ref sig .tc := ⟨.hbm, 252, rfl⟩
abbrev main_c_39 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_cst_40 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_cst_41 : Ref sig .tc := ⟨.hbm, 263, rfl⟩
abbrev main_v186 : Ref sig .tc := ⟨.hbm, 264, rfl⟩
abbrev main_cst_42 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_cst_43 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_c_44 : Ref sig .tc := ⟨.hbm, 283, rfl⟩
abbrev main_v203 : Ref sig .tc := ⟨.hbm, 284, rfl⟩
abbrev main_v204 : Ref sig .tc := ⟨.hbm, 285, rfl⟩
abbrev main_c_45 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_cst_46 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_cst_47 : Ref sig .tc := ⟨.hbm, 296, rfl⟩
abbrev main_v213 : Ref sig .tc := ⟨.hbm, 297, rfl⟩
abbrev main_cst_48 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_cst_49 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_c_50 : Ref sig .tc := ⟨.hbm, 317, rfl⟩
abbrev main_v231 : Ref sig .tc := ⟨.hbm, 318, rfl⟩
abbrev main_v232 : Ref sig .tc := ⟨.hbm, 319, rfl⟩
abbrev main_c_51 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_cst_52 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_cst_53 : Ref sig .tc := ⟨.hbm, 330, rfl⟩
abbrev main_v241 : Ref sig .tc := ⟨.hbm, 331, rfl⟩
abbrev main_cst_54 : Ref sig .tc := ⟨.hbm, 332, rfl⟩
abbrev main_v242 : Ref sig .tc := ⟨.hbm, 333, rfl⟩
abbrev main_v243 : Ref sig .tc := ⟨.hbm, 334, rfl⟩
abbrev main_v244 : Ref sig .tc := ⟨.hbm, 335, rfl⟩
abbrev main_cst_55 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_v248 : Ref sig .tc := ⟨.hbm, 340, rfl⟩
abbrev main_v249 : Ref sig .tc := ⟨.hbm, 341, rfl⟩
abbrev main_cst_56 : Ref sig .tc := ⟨.hbm, 342, rfl⟩
abbrev main_call4_cst : Ref sig .tc := ⟨.hbm, 343, rfl⟩
abbrev main_call4_v0 : Ref sig .tc := ⟨.hbm, 344, rfl⟩
abbrev main_call4_v1 : Ref sig .tc := ⟨.hbm, 345, rfl⟩
abbrev main_call4_v2 : Ref sig .tc := ⟨.hbm, 346, rfl⟩
abbrev main_call4_v3 : Ref sig .tc := ⟨.hbm, 347, rfl⟩
abbrev main_call4_v4 : Ref sig .tc := ⟨.hbm, 348, rfl⟩
abbrev main_v250 : Ref sig .tc := ⟨.hbm, 349, rfl⟩
abbrev main_cst_57 : Ref sig .tc := ⟨.hbm, 350, rfl⟩
abbrev main_call5_cst : Ref sig .tc := ⟨.hbm, 351, rfl⟩
abbrev main_call5_v0 : Ref sig .tc := ⟨.hbm, 352, rfl⟩
abbrev main_call5_v1 : Ref sig .tc := ⟨.hbm, 353, rfl⟩
abbrev main_call5_v2 : Ref sig .tc := ⟨.hbm, 354, rfl⟩
abbrev main_call5_v3 : Ref sig .tc := ⟨.hbm, 355, rfl⟩
abbrev main_call5_v4 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_v254 : Ref sig .tc := ⟨.hbm, 360, rfl⟩

abbrev nD : Nat := 1
abbrev τ : Topo := Topo.v7x

variable {F : FTy → Type} [FloatOps F]

class Facts₀ : Prop where
  slices_S3x3x128x128_S1x1x128x128_0_0_0_0 : S3x3x128x128.Slices ![0, 0, 0, 0] S1x1x128x128
  shapeCasts_S1x1x128x128_S128x128 : S1x1x128x128.ShapeCasts S128x128
  slices_S3x3x128_S1x1x128_0_0_0 : S3x3x128.Slices ![0, 0, 0] S1x1x128
  shapeCasts_S1x1x128_S128 : S1x1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x3x128x128_S1x1x128x128_0_2_0_0 : S3x3x128x128.Slices ![0, 2, 0, 0] S1x1x128x128
  slices_S3x3x128_S1x1x128_0_2_0 : S3x3x128.Slices ![0, 2, 0] S1x1x128
  slices_S3x3x128x128_S1x1x128x128_0_1_0_0 : S3x3x128x128.Slices ![0, 1, 0, 0] S1x1x128x128
  slices_S3x3x128_S1x1x128_0_1_0 : S3x3x128.Slices ![0, 1, 0] S1x1x128
  slices_S3x3x128x128_S1x1x128x128_1_0_0_0 : S3x3x128x128.Slices ![1, 0, 0, 0] S1x1x128x128
  slices_S3x3x128_S1x1x128_1_0_0 : S3x3x128.Slices ![1, 0, 0] S1x1x128
  slices_S3x3x128x128_S1x1x128x128_1_2_0_0 : S3x3x128x128.Slices ![1, 2, 0, 0] S1x1x128x128
  slices_S3x3x128_S1x1x128_1_2_0 : S3x3x128.Slices ![1, 2, 0] S1x1x128
  slices_S3x3x128x128_S1x1x128x128_1_1_0_0 : S3x3x128x128.Slices ![1, 1, 0, 0] S1x1x128x128
  slices_S3x3x128_S1x1x128_1_1_0 : S3x3x128.Slices ![1, 1, 0] S1x1x128
  slices_S3x3x128x128_S1x1x128x128_2_0_0_0 : S3x3x128x128.Slices ![2, 0, 0, 0] S1x1x128x128
  slices_S3x3x128_S1x1x128_2_0_0 : S3x3x128.Slices ![2, 0, 0] S1x1x128
  slices_S3x3x128x128_S1x1x128x128_2_2_0_0 : S3x3x128x128.Slices ![2, 2, 0, 0] S1x1x128x128
  slices_S3x3x128_S1x1x128_2_2_0 : S3x3x128.Slices ![2, 2, 0] S1x1x128
  slices_S3x3x128x128_S1x1x128x128_2_1_0_0 : S3x3x128x128.Slices ![2, 1, 0, 0] S1x1x128x128
  slices_S3x3x128_S1x1x128_2_1_0 : S3x3x128.Slices ![2, 1, 0] S1x1x128
  bcast_S100000x128_S1x100000x128_1_2 : S100000x128.BroadcastsInDim S1x100000x128 (![1, 2] : Fin 2 → Fin S1x100000x128.rank)
  concatenates_S1x100000x128_S1x100000x128_S2x100000x128_d0 : Shape.Concatenates [S1x100000x128, S1x100000x128] S2x100000x128 0
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf

class Facts : Prop extends Facts₀ where

variable [Facts]
-- ==== Proof.KRun.lean ====
/-
  The idealized kernel program's run with its result kept. The program is fifteen kernel regions among stretches
  of host operations; its frame's launch already reads every unscoped buffer, after the last segment, at the
  contents the last boundary names (the fold `W28` of the stretches' results and the regions' write-backs over
  the launch memory). Kept here besides the unchanged arguments: the result buffer, at that fold.
-/
import proofs.«102427_j13013750907161_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the ten argument arrays as launched. -/
theorem run_full : θ_run defs (onTc (τ := τ) (main (F := F))) ⟨m, fun _ => 0, ρ⟩ (fun r => ∀ c : Dev nD,
      r.2.mem ((c.tc : Thread nD τ).loc main_v233) = W28 m ρ c (Proc.devRef .tc main_v233)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c =>
      ⟨h c _ (mem_uc main_v233 (by decide)),
       (h c _ (mem_uc main_arg0 (by decide))).trans (W28_main_arg0 m ρ c),
       (h c _ (mem_uc main_arg1 (by decide))).trans (W28_main_arg1 m ρ c),
       (h c _ (mem_uc main_arg2 (by decide))).trans (W28_main_arg2 m ρ c),
       (h c _ (mem_uc main_arg3 (by decide))).trans (W28_main_arg3 m ρ c),
       (h c _ (mem_uc main_arg4 (by decide))).trans (W28_main_arg4 m ρ c),
       (h c _ (mem_uc main_arg5 (by decide))).trans (W28_main_arg5 m ρ c),
       (h c _ (mem_uc main_arg6 (by decide))).trans (W28_main_arg6 m ρ c),
       (h c _ (mem_uc main_arg7 (by decide))).trans (W28_main_arg7 m ρ c),
       (h c _ (mem_uc main_arg8 (by decide))).trans (W28_main_arg8 m ρ c),
       (h c _ (mem_uc main_arg9 (by decide))).trans (W28_main_arg9 m ρ c)⟩)

end Cert.KernelIdeal.KRun

end
-- ==== Proof.RefSpec.lean ====
/-
  The value both programs compute, as ONE function of the ten argument arrays, spelt with the reference's own
  host operations. A relation's message pass is a dense map `h ↦ h · W + b` on the source nodes, a gather of its rows
  along the edges' sources, a sum of the gathered rows into the edges' targets, and a division of each target row by
  the number of edges that reach it (at least one). A layer adds the two passes that reach the users, takes the one
  that reaches the items, and applies the leaky rectifier `x ↦ x` if `x ≥ 0`, else `x / 100` (the shared literal).
  Three layers, then the two node tables stacked.
-/
import proofs.«102427_j13013750907161_1_alg».proof.Proof.Gen.ReferenceIdeal
import Idealize.ShloMosaic.PureOps.Ideal

noncomputable section

namespace Cert.ReferenceIdeal.RefSpec

open Cert.ReferenceIdeal Cert.ReferenceIdeal.Gen Idealize.ShloMosaic

variable {F : FTy → Type} [FloatOps F]

/-- The weight matrix and the bias row of layer `l`, relation `r`. -/
def wAt00 (W : (⟨S3x3x128x128, .f32⟩ : BufTy).Contents (Elt F)) : (⟨S128x128, .f32⟩ : BufTy).Contents (Elt F) :=
  shapeCast S128x128 (extractStridedSlice S1x1x128x128 ![0, 0, 0, 0] W slices_S3x3x128x128_S1x1x128x128_0_0_0_0) shapeCasts_S1x1x128x128_S128x128
def bAt00 (b : (⟨S3x3x128, .f32⟩ : BufTy).Contents (Elt F)) : (⟨S128, .f32⟩ : BufTy).Contents (Elt F) :=
  shapeCast S128 (extractStridedSlice S1x1x128 ![0, 0, 0] b slices_S3x3x128_S1x1x128_0_0_0) shapeCasts_S1x1x128_S128
def wAt01 (W : (⟨S3x3x128x128, .f32⟩ : BufTy).Contents (Elt F)) : (⟨S128x128, .f32⟩ : BufTy).Contents (Elt F) :=
  shapeCast S128x128 (extractStridedSlice S1x1x128x128 ![0, 1, 0, 0] W slices_S3x3x128x128_S1x1x128x128_0_1_0_0) shapeCasts_S1x1x128x128_S128x128
def bAt01 (b : (⟨S3x3x128, .f32⟩ : BufTy).Contents (Elt F)) : (⟨S128, .f32⟩ : BufTy).Contents (Elt F) :=
  shapeCast S128 (extractStridedSlice S1x1x128 ![0, 1, 0] b slices_S3x3x128_S1x1x128_0_1_0) shapeCasts_S1x1x128_S128
def wAt02 (W : (⟨S3x3x128x128, .f32⟩ : BufTy).Contents (Elt F)) : (⟨S128x128, .f32⟩ : BufTy).Contents (Elt F) :=
  shapeCast S128x128 (extractStridedSlice S1x1x128x128 ![0, 2, 0, 0] W slices_S3x3x128x128_S1x1x128x128_0_2_0_0) shapeCasts_S1x1x128x128_S128x128
def bAt02 (b : (⟨S3x3x128, .f32⟩ : BufTy).Contents (Elt F)) : (⟨S128, .f32⟩ : BufTy).Contents (Elt F) :=
  shapeCast S128 (extractStridedSlice S1x1x128 ![0, 2, 0] b slices_S3x3x128_S1x1x128_0_2_0) shapeCasts_S1x1x128_S128
def wAt10 (W : (⟨S3x3x128x128, .f32⟩ : BufTy).Contents (Elt F)) : (⟨S128x128, .f32⟩ : BufTy).Contents (Elt F) :=
  shapeCast S128x128 (extractStridedSlice S1x1x128x128 ![1, 0, 0, 0] W slices_S3x3x128x128_S1x1x128x128_1_0_0_0) shapeCasts_S1x1x128x128_S128x128
def bAt10 (b : (⟨S3x3x128, .f32⟩ : BufTy).Contents (Elt F)) : (⟨S128, .f32⟩ : BufTy).Contents (Elt F) :=
  shapeCast S128 (extractStridedSlice S1x1x128 ![1, 0, 0] b slices_S3x3x128_S1x1x128_1_0_0) shapeCasts_S1x1x128_S128
def wAt11 (W : (⟨S3x3x128x128, .f32⟩ : BufTy).Contents (Elt F)) : (⟨S128x128, .f32⟩ : BufTy).Contents (Elt F) :=
  shapeCast S128x128 (extractStridedSlice S1x1x128x128 ![1, 1, 0, 0] W slices_S3x3x128x128_S1x1x128x128_1_1_0_0) shapeCasts_S1x1x128x128_S128x128
def bAt11 (b : (⟨S3x3x128, .f32⟩ : BufTy).Contents (Elt F)) : (⟨S128, .f32⟩ : BufTy).Contents (Elt F) :=
  shapeCast S128 (extractStridedSlice S1x1x128 ![1, 1, 0] b slices_S3x3x128_S1x1x128_1_1_0) shapeCasts_S1x1x128_S128
def wAt12 (W : (⟨S3x3x128x128, .f32⟩ : BufTy).Contents (Elt F)) : (⟨S128x128, .f32⟩ : BufTy).Contents (Elt F) :=
  shapeCast S128x128 (extractStridedSlice S1x1x128x128 ![1, 2, 0, 0] W slices_S3x3x128x128_S1x1x128x128_1_2_0_0) shapeCasts_S1x1x128x128_S128x128
def bAt12 (b : (⟨S3x3x128, .f32⟩ : BufTy).Contents (Elt F)) : (⟨S128, .f32⟩ : BufTy).Contents (Elt F) :=
  shapeCast S128 (extractStridedSlice S1x1x128 ![1, 2, 0] b slices_S3x3x128_S1x1x128_1_2_0) shapeCasts_S1x1x128_S128
def wAt20 (W : (⟨S3x3x128x128, .f32⟩ : BufTy).Contents (Elt F)) : (⟨S128x128, .f32⟩ : BufTy).Contents (Elt F) :=
  shapeCast S128x128 (extractStridedSlice S1x1x128x128 ![2, 0, 0, 0] W slices_S3x3x128x128_S1x1x128x128_2_0_0_0) shapeCasts_S1x1x128x128_S128x128
def bAt20 (b : (⟨S3x3x128, .f32⟩ : BufTy).Contents (Elt F)) : (⟨S128, .f32⟩ : BufTy).Contents (Elt F) :=
  shapeCast S128 (extractStridedSlice S1x1x128 ![2, 0, 0] b slices_S3x3x128_S1x1x128_2_0_0) shapeCasts_S1x1x128_S128
def wAt21 (W : (⟨S3x3x128x128, .f32⟩ : BufTy).Contents (Elt F)) : (⟨S128x128, .f32⟩ : BufTy).Contents (Elt F) :=
  shapeCast S128x128 (extractStridedSlice S1x1x128x128 ![2, 1, 0, 0] W slices_S3x3x128x128_S1x1x128x128_2_1_0_0) shapeCasts_S1x1x128x128_S128x128
def bAt21 (b : (⟨S3x3x128, .f32⟩ : BufTy).Contents (Elt F)) : (⟨S128, .f32⟩ : BufTy).Contents (Elt F) :=
  shapeCast S128 (extractStridedSlice S1x1x128 ![2, 1, 0] b slices_S3x3x128_S1x1x128_2_1_0) shapeCasts_S1x1x128_S128
def wAt22 (W : (⟨S3x3x128x128, .f32⟩ : BufTy).Contents (Elt F)) : (⟨S128x128, .f32⟩ : BufTy).Contents (Elt F) :=
  shapeCast S128x128 (extractStridedSlice S1x1x128x128 ![2, 2, 0, 0] W slices_S3x3x128x128_S1x1x128x128_2_2_0_0) shapeCasts_S1x1x128x128_S128x128
def bAt22 (b : (⟨S3x3x128, .f32⟩ : BufTy).Contents (Elt F)) : (⟨S128, .f32⟩ : BufTy).Contents (Elt F) :=
  shapeCast S128 (extractStridedSlice S1x1x128 ![2, 2, 0] b slices_S3x3x128_S1x1x128_2_2_0) shapeCasts_S1x1x128_S128

/-- The dense map with the bias already a `1 × 128` row: `h · w` plus the row repeated down the nodes. -/
def lin1 (h : (⟨S100000x128, .f32⟩ : BufTy).Contents (Elt F)) (w : (⟨S128x128, .f32⟩ : BufTy).Contents (Elt F)) (b1 : (⟨S1x128, .f32⟩ : BufTy).Contents (Elt F)) : (⟨S100000x128, .f32⟩ : BufTy).Contents (Elt F) :=
  addf (Host.dotGeneral dot_S100000x128_S128x128_S100000x128_1_0_0_1_n_n none h w)
    (broadcastInDim S100000x128 ![0, 1] bcast_S1x128_S100000x128_0_1 b1)

/-- The dense map `h · w + b`. -/
def lin (h : (⟨S100000x128, .f32⟩ : BufTy).Contents (Elt F)) (w : (⟨S128x128, .f32⟩ : BufTy).Contents (Elt F)) (b : (⟨S128, .f32⟩ : BufTy).Contents (Elt F)) : (⟨S100000x128, .f32⟩ : BufTy).Contents (Elt F) :=
  lin1 h w (broadcastInDim S1x128 ![1] bcast_S128_S1x128_1 b)

/-- Source indices as the gather takes them: a negative index counted from the end, then a column of indices. -/
def srcIdx (src : (⟨S640000, .i32⟩ : BufTy).Contents (Elt F)) : (⟨S640000x1, .i32⟩ : BufTy).Contents (Elt F) :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 100000#32))) src)

/-- The mean over incoming edges of the source rows of `wh`: rows gathered at the sources, summed into the targets,
    each target row divided by its number of incoming edges, or by one when it has none. -/
def segMean (wh : (⟨S100000x128, .f32⟩ : BufTy).Contents (Elt F)) (src dst : (⟨S640000, .i32⟩ : BufTy).Contents (Elt F)) : (⟨S100000x128, .f32⟩ : BufTy).Contents (Elt F) :=
  Host.divf
    (Host.scatterAdd scatter_S100000x128_S640000x1_S640000x128_1_0_0_1
      (broadcastInDim S100000x128 ![] bcast_S_S100000x128 (constant S_ .f32 0x00000000#32))
      (broadcastInDim S640000x1 ![0] bcast_S640000_S640000x1_0 dst)
      (Host.gather gather_S100000x128_S640000x1_S640000x128_1_0_n_n_0_1_1128 wh (srcIdx src)))
    (broadcastInDim S100000x128 ![0, 1] bcast_S100000x1_S100000x128_0_1
      (broadcastInDim S100000x1 ![0] bcast_S100000_S100000x1_0
        (maximumf
          (Host.scatterAdd scatter_S100000_S640000x1_S640000_n_0_0_1
            (broadcastInDim S100000 ![] bcast_S_S100000 (constant S_ .f32 0x00000000#32))
            (broadcastInDim S640000x1 ![0] bcast_S640000_S640000x1_0 dst)
            (broadcastInDim S640000 ![] bcast_S_S640000 (constant S_ .f32 0x3F800000#32)))
          (broadcastInDim S100000 ![] bcast_S_S100000 (constant S_ .f32 0x3F800000#32)))))

/-- The leaky rectifier, entry by entry: `x` where `x ≥ 0`, the shared slope literal times `x` elsewhere. -/
def leaky (x : (⟨S100000x128, .f32⟩ : BufTy).Contents (Elt F)) : (⟨S100000x128, .f32⟩ : BufTy).Contents (Elt F) :=
  select (cmpf .oge x (broadcastInDim S100000x128 ![] bcast_S_S100000x128 (constant S_ .f32 0x00000000#32))) x
    (mulf (broadcastInDim S100000x128 ![] bcast_S_S100000x128 (id (constant S_ .f32 0x3C23D70A#32))) x)

/-- One layer's new user table from the dense maps' three results. -/
def userOf (whF whB : (⟨S100000x128, .f32⟩ : BufTy).Contents (Elt F)) (fs fd bs bd : (⟨S640000, .i32⟩ : BufTy).Contents (Elt F)) : (⟨S100000x128, .f32⟩ : BufTy).Contents (Elt F) :=
  leaky (addf (segMean whF fs fd) (segMean whB bs bd))

/-- One layer's new item table. -/
def itemOf (whC : (⟨S100000x128, .f32⟩ : BufTy).Contents (Elt F)) (cs cd : (⟨S640000, .i32⟩ : BufTy).Contents (Elt F)) : (⟨S100000x128, .f32⟩ : BufTy).Contents (Elt F) :=
  leaky (segMean whC cs cd)

/-- The two tables stacked along a new leading axis. -/
def stack (hu hi : (⟨S100000x128, .f32⟩ : BufTy).Contents (Elt F)) : (⟨S2x100000x128, .f32⟩ : BufTy).Contents (Elt F) :=
  concatenate S2x100000x128 0
    [⟨S1x100000x128, broadcastInDim S1x100000x128 ![1, 2] bcast_S100000x128_S1x100000x128_1_2 hu⟩,
     ⟨S1x100000x128, broadcastInDim S1x100000x128 ![1, 2] bcast_S100000x128_S1x100000x128_1_2 hi⟩]
    concatenates_S1x100000x128_S1x100000x128_S2x100000x128_d0

section Layers
variable (hu hi : (⟨S100000x128, .f32⟩ : BufTy).Contents (Elt F)) (W : (⟨S3x3x128x128, .f32⟩ : BufTy).Contents (Elt F)) (b : (⟨S3x3x128, .f32⟩ : BufTy).Contents (Elt F)) (fs fd cs cd bs bd : (⟨S640000, .i32⟩ : BufTy).Contents (Elt F))

/-- The user and item tables after one, two and three layers. -/
def u1 : (⟨S100000x128, .f32⟩ : BufTy).Contents (Elt F) := userOf (lin hu (wAt00 W) (bAt00 b)) (lin hi (wAt02 W) (bAt02 b)) fs fd bs bd
def i1 : (⟨S100000x128, .f32⟩ : BufTy).Contents (Elt F) := itemOf (lin hu (wAt01 W) (bAt01 b)) cs cd
def u2 : (⟨S100000x128, .f32⟩ : BufTy).Contents (Elt F) := userOf (lin (u1 hu hi W b fs fd bs bd) (wAt10 W) (bAt10 b)) (lin (i1 hu W b cs cd) (wAt12 W) (bAt12 b)) fs fd bs bd
def i2 : (⟨S100000x128, .f32⟩ : BufTy).Contents (Elt F) := itemOf (lin (u1 hu hi W b fs fd bs bd) (wAt11 W) (bAt11 b)) cs cd
def u3 : (⟨S100000x128, .f32⟩ : BufTy).Contents (Elt F) := userOf (lin (u2 hu hi W b fs fd cs cd bs bd) (wAt20 W) (bAt20 b)) (lin (i2 hu hi W b fs fd cs cd bs bd) (wAt22 W) (bAt22 b)) fs fd bs bd
def i3 : (⟨S100000x128, .f32⟩ : BufTy).Contents (Elt F) := itemOf (lin (u2 hu hi W b fs fd cs cd bs bd) (wAt21 W) (bAt21 b)) cs cd

/-- The result: the third layer's tables, stacked. -/
def out : (⟨S2x100000x128, .f32⟩ : BufTy).Contents (Elt F) :=
  stack (u3 hu hi W b fs fd cs cd bs bd) (i3 hu hi W b fs fd cs cd bs bd)
end Layers

end Cert.ReferenceIdeal.RefSpec

end
-- ==== Proof.HostSmall.lean ====
/-
  The nine short host stretches before the dense regions: each slices one relation's weight matrix and bias row out
  of the stacked parameters and lays the bias out as a 1 × 128 row. What each leaves: the matrix `W[l, r]`, and the
  row `b[l, r]` cast to 1 × 128; every other buffer as it was.
-/
import proofs.«102427_j13013750907161_1_alg».proof.Proof.Gen.KernelIdeal.Launch
import proofs.«102427_j13013750907161_1_alg».proof.Proof.RefSpec
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-! ## Stretch 0: layer 0, relation 0 -/
/-- The buffers stretch 0's operations write. -/
abbrev wr0 : List (Ref sig .tc) := [main_v0, main_v1, main_v2, main_v3, main_v4]
theorem wr0_sub : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep0 (V : Valuation τ sig (Elt F)) (r : Ref sig .tc) (h : r ∉ wr0) :
    after hostOps0 V (Proc.devRef .tc r) = V (Proc.devRef .tc r) := after_of_writes_sub hostOps0 V wr0_sub h

theorem val0_w (V : Valuation τ sig (Elt F)) :
    after hostOps0 V (Proc.devRef .tc main_v1) = Cert.ReferenceIdeal.RefSpec.wAt00 (V (Proc.devRef .tc main_arg2)) := by
  after_results; rfl
theorem val0_b (V : Valuation τ sig (Elt F)) :
    after hostOps0 V (Proc.devRef .tc main_v4)
      = shapeCast S1x128 (Cert.ReferenceIdeal.RefSpec.bAt00 (V (Proc.devRef .tc main_arg3))) shapeCasts_S128_S1x128 := by
  after_results; rfl

/-! ## Stretch 1: layer 0, relation 1 -/
/-- The buffers stretch 1's operations write. -/
abbrev wr1 : List (Ref sig .tc) := [main_v6, main_v7, main_v8, main_v9, main_v10]
theorem wr1_sub : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep1 (V : Valuation τ sig (Elt F)) (r : Ref sig .tc) (h : r ∉ wr1) :
    after hostOps1 V (Proc.devRef .tc r) = V (Proc.devRef .tc r) := after_of_writes_sub hostOps1 V wr1_sub h

theorem val1_w (V : Valuation τ sig (Elt F)) :
    after hostOps1 V (Proc.devRef .tc main_v7) = Cert.ReferenceIdeal.RefSpec.wAt01 (V (Proc.devRef .tc main_arg2)) := by
  after_results; rfl
theorem val1_b (V : Valuation τ sig (Elt F)) :
    after hostOps1 V (Proc.devRef .tc main_v10)
      = shapeCast S1x128 (Cert.ReferenceIdeal.RefSpec.bAt01 (V (Proc.devRef .tc main_arg3))) shapeCasts_S128_S1x128 := by
  after_results; rfl

/-! ## Stretch 2: layer 0, relation 2 -/
/-- The buffers stretch 2's operations write. -/
abbrev wr2 : List (Ref sig .tc) := [main_v12, main_v13, main_v14, main_v15, main_v16]
theorem wr2_sub : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep2 (V : Valuation τ sig (Elt F)) (r : Ref sig .tc) (h : r ∉ wr2) :
    after hostOps2 V (Proc.devRef .tc r) = V (Proc.devRef .tc r) := after_of_writes_sub hostOps2 V wr2_sub h

theorem val2_w (V : Valuation τ sig (Elt F)) :
    after hostOps2 V (Proc.devRef .tc main_v13) = Cert.ReferenceIdeal.RefSpec.wAt02 (V (Proc.devRef .tc main_arg2)) := by
  after_results; rfl
theorem val2_b (V : Valuation τ sig (Elt F)) :
    after hostOps2 V (Proc.devRef .tc main_v16)
      = shapeCast S1x128 (Cert.ReferenceIdeal.RefSpec.bAt02 (V (Proc.devRef .tc main_arg3))) shapeCasts_S128_S1x128 := by
  after_results; rfl

/-! ## Stretch 5: layer 1, relation 0 -/
/-- The buffers stretch 5's operations write. -/
abbrev wr5 : List (Ref sig .tc) := [main_v77, main_v78, main_v79, main_v80, main_v81]
theorem wr5_sub : (hostOps5 : List (HloOp τ sig (Elt F))).Forall fun op => op.writes ⊆ (wr5.map (Proc.devRef (τ := τ) .tc)).toFinset := by
  simp only [hostOps5, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep5 (V : Valuation τ sig (Elt F)) (r : Ref sig .tc) (h : r ∉ wr5) :
    after hostOps5 V (Proc.devRef .tc r) = V (Proc.devRef .tc r) := after_of_writes_sub hostOps5 V wr5_sub h

theorem val5_w (V : Valuation τ sig (Elt F)) :
    after hostOps5 V (Proc.devRef .tc main_v78) = Cert.ReferenceIdeal.RefSpec.wAt10 (V (Proc.devRef .tc main_arg2)) := by
  after_results; rfl
theorem val5_b (V : Valuation τ sig (Elt F)) :
    after hostOps5 V (Proc.devRef .tc main_v81)
      = shapeCast S1x128 (Cert.ReferenceIdeal.RefSpec.bAt10 (V (Proc.devRef .tc main_arg3))) shapeCasts_S128_S1x128 := by
  after_results; rfl

/-! ## Stretch 6: layer 1, relation 1 -/
/-- The buffers stretch 6's operations write. -/
abbrev wr6 : List (Ref sig .tc) := [main_v83, main_v84, main_v85, main_v86, main_v87]
theorem wr6_sub : (hostOps6 : List (HloOp τ sig (Elt F))).Forall fun op => op.writes ⊆ (wr6.map (Proc.devRef (τ := τ) .tc)).toFinset := by
  simp only [hostOps6, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep6 (V : Valuation τ sig (Elt F)) (r : Ref sig .tc) (h : r ∉ wr6) :
    after hostOps6 V (Proc.devRef .tc r) = V (Proc.devRef .tc r) := after_of_writes_sub hostOps6 V wr6_sub h

theorem val6_w (V : Valuation τ sig (Elt F)) :
    after hostOps6 V (Proc.devRef .tc main_v84) = Cert.ReferenceIdeal.RefSpec.wAt11 (V (Proc.devRef .tc main_arg2)) := by
  after_results; rfl
theorem val6_b (V : Valuation τ sig (Elt F)) :
    after hostOps6 V (Proc.devRef .tc main_v87)
      = shapeCast S1x128 (Cert.ReferenceIdeal.RefSpec.bAt11 (V (Proc.devRef .tc main_arg3))) shapeCasts_S128_S1x128 := by
  after_results; rfl

/-! ## Stretch 7: layer 1, relation 2 -/
/-- The buffers stretch 7's operations write. -/
abbrev wr7 : List (Ref sig .tc) := [main_v89, main_v90, main_v91, main_v92, main_v93]
theorem wr7_sub : (hostOps7 : List (HloOp τ sig (Elt F))).Forall fun op => op.writes ⊆ (wr7.map (Proc.devRef (τ := τ) .tc)).toFinset := by
  simp only [hostOps7, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep7 (V : Valuation τ sig (Elt F)) (r : Ref sig .tc) (h : r ∉ wr7) :
    after hostOps7 V (Proc.devRef .tc r) = V (Proc.devRef .tc r) := after_of_writes_sub hostOps7 V wr7_sub h

theorem val7_w (V : Valuation τ sig (Elt F)) :
    after hostOps7 V (Proc.devRef .tc main_v90) = Cert.ReferenceIdeal.RefSpec.wAt12 (V (Proc.devRef .tc main_arg2)) := by
  after_results; rfl
theorem val7_b (V : Valuation τ sig (Elt F)) :
    after hostOps7 V (Proc.devRef .tc main_v93)
      = shapeCast S1x128 (Cert.ReferenceIdeal.RefSpec.bAt12 (V (Proc.devRef .tc main_arg3))) shapeCasts_S128_S1x128 := by
  after_results; rfl

/-! ## Stretch 10: layer 2, relation 0 -/
/-- The buffers stretch 10's operations write. -/
abbrev wr10 : List (Ref sig .tc) := [main_v154, main_v155, main_v156, main_v157, main_v158]
theorem wr10_sub : (hostOps10 : List (HloOp τ sig (Elt F))).Forall fun op => op.writes ⊆ (wr10.map (Proc.devRef (τ := τ) .tc)).toFinset := by
  simp only [hostOps10, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep10 (V : Valuation τ sig (Elt F)) (r : Ref sig .tc) (h : r ∉ wr10) :
    after hostOps10 V (Proc.devRef .tc r) = V (Proc.devRef .tc r) := after_of_writes_sub hostOps10 V wr10_sub h

theorem val10_w (V : Valuation τ sig (Elt F)) :
    after hostOps10 V (Proc.devRef .tc main_v155) = Cert.ReferenceIdeal.RefSpec.wAt20 (V (Proc.devRef .tc main_arg2)) := by
  after_results; rfl
theorem val10_b (V : Valuation τ sig (Elt F)) :
    after hostOps10 V (Proc.devRef .tc main_v158)
      = shapeCast S1x128 (Cert.ReferenceIdeal.RefSpec.bAt20 (V (Proc.devRef .tc main_arg3))) shapeCasts_S128_S1x128 := by
  after_results; rfl

/-! ## Stretch 11: layer 2, relation 1 -/
/-- The buffers stretch 11's operations write. -/
abbrev wr11 : List (Ref sig .tc) := [main_v160, main_v161, main_v162, main_v163, main_v164]
theorem wr11_sub : (hostOps11 : List (HloOp τ sig (Elt F))).Forall fun op => op.writes ⊆ (wr11.map (Proc.devRef (τ := τ) .tc)).toFinset := by
  simp only [hostOps11, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep11 (V : Valuation τ sig (Elt F)) (r : Ref sig .tc) (h : r ∉ wr11) :
    after hostOps11 V (Proc.devRef .tc r) = V (Proc.devRef .tc r) := after_of_writes_sub hostOps11 V wr11_sub h

theorem val11_w (V : Valuation τ sig (Elt F)) :
    after hostOps11 V (Proc.devRef .tc main_v161) = Cert.ReferenceIdeal.RefSpec.wAt21 (V (Proc.devRef .tc main_arg2)) := by
  after_results; rfl
theorem val11_b (V : Valuation τ sig (Elt F)) :
    after hostOps11 V (Proc.devRef .tc main_v164)
      = shapeCast S1x128 (Cert.ReferenceIdeal.RefSpec.bAt21 (V (Proc.devRef .tc main_arg3))) shapeCasts_S128_S1x128 := by
  after_results; rfl

/-! ## Stretch 12: layer 2, relation 2 -/
/-- The buffers stretch 12's operations write. -/
abbrev wr12 : List (Ref sig .tc) := [main_v166, main_v167, main_v168, main_v169, main_v170]
theorem wr12_sub : (hostOps12 : List (HloOp τ sig (Elt F))).Forall fun op => op.writes ⊆ (wr12.map (Proc.devRef (τ := τ) .tc)).toFinset := by
  simp only [hostOps12, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep12 (V : Valuation τ sig (Elt F)) (r : Ref sig .tc) (h : r ∉ wr12) :
    after hostOps12 V (Proc.devRef .tc r) = V (Proc.devRef .tc r) := after_of_writes_sub hostOps12 V wr12_sub h

theorem val12_w (V : Valuation τ sig (Elt F)) :
    after hostOps12 V (Proc.devRef .tc main_v167) = Cert.ReferenceIdeal.RefSpec.wAt22 (V (Proc.devRef .tc main_arg2)) := by
  after_results; rfl
theorem val12_b (V : Valuation τ sig (Elt F)) :
    after hostOps12 V (Proc.devRef .tc main_v170)
      = shapeCast S1x128 (Cert.ReferenceIdeal.RefSpec.bAt22 (V (Proc.devRef .tc main_arg3))) shapeCasts_S128_S1x128 := by
  after_results; rfl

/-! ## The last stretch: the two final tables stacked -/
/-- The buffers stretch 15's operations write. -/
abbrev wr15 : List (Ref sig .tc) := [main_v231, main_v232, main_v233]
theorem wr15_sub : (hostOps15 : List (HloOp τ sig (Elt F))).Forall fun op => op.writes ⊆ (wr15.map (Proc.devRef (τ := τ) .tc)).toFinset := by
  simp only [hostOps15, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep15 (V : Valuation τ sig (Elt F)) (r : Ref sig .tc) (h : r ∉ wr15) :
    after hostOps15 V (Proc.devRef .tc r) = V (Proc.devRef .tc r) := after_of_writes_sub hostOps15 V wr15_sub h

theorem val15 (V : Valuation τ sig (Elt F)) :
    after hostOps15 V (Proc.devRef .tc main_v233)
      = Cert.ReferenceIdeal.RefSpec.stack (V (Proc.devRef .tc main_v229)) (V (Proc.devRef .tc main_v230)) := by
  after_results; rfl

end Cert.KernelIdeal.KHost

end
-- ==== Proof.Host3.lean ====
/-
  The long host stretch 3 between a layer's dense regions and its activations: three relations' message passes,
  one after the other. Each gathers the rows of a dense map's result at the edges' sources, sums them into the edges'
  targets and divides each target row by its number of incoming edges (at least one). What the stretch leaves in the
  three buffers the activations read is the reference's mean-over-incoming-edges of each dense result; every buffer it
  does not write stays as it was.
-/
import proofs.«102427_j13013750907161_1_alg».proof.Proof.Gen.KernelIdeal.Launch
import proofs.«102427_j13013750907161_1_alg».proof.Proof.RefSpec
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]
/-- The buffers stretch 3's operations write. -/
abbrev wr3 : List (Ref sig .tc) := [main_c, main_v18, main_v19, main_c_0, main_v20, main_v21, main_v22, main_v23, main_v24, main_cst, main_v25, main_v26, main_v27, main_cst_1, main_v28, main_cst_2, main_v29, main_v30, main_v31, main_cst_3, main_v32, main_v33, main_v34, main_v35, main_v36, main_c_4, main_v37, main_v38, main_c_5, main_v39, main_v40, main_v41, main_v42, main_v43, main_cst_6, main_v44, main_v45, main_v46, main_cst_7, main_v47, main_cst_8, main_v48, main_v49, main_v50, main_cst_9, main_v51, main_v52, main_v53, main_v54, main_v55, main_c_10, main_v56, main_v57, main_c_11, main_v58, main_v59, main_v60, main_v61, main_v62, main_cst_12, main_v63, main_v64, main_v65, main_cst_13, main_v66, main_cst_14, main_v67, main_v68, main_v69, main_cst_15, main_v70, main_v71, main_v72, main_v73, main_v74]
set_option maxHeartbeats 4000000 in
theorem wr3_sub : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep3 (V : Valuation τ sig (Elt F)) (r : Ref sig .tc) (h : r ∉ wr3) :
    after hostOps3 V (Proc.devRef .tc r) = V (Proc.devRef .tc r) := after_of_writes_sub hostOps3 V wr3_sub h

set_option maxHeartbeats 4000000 in
theorem val3_0 (V : Valuation τ sig (Elt F)) :
    after hostOps3 V (Proc.devRef .tc main_v36)
      = Cert.ReferenceIdeal.RefSpec.segMean (V (Proc.devRef .tc main_v5)) (V (Proc.devRef .tc main_arg4)) (V (Proc.devRef .tc main_arg5)) := by
  after_results_simp
  rfl

set_option maxHeartbeats 4000000 in
theorem val3_1 (V : Valuation τ sig (Elt F)) :
    after hostOps3 V (Proc.devRef .tc main_v55)
      = Cert.ReferenceIdeal.RefSpec.segMean (V (Proc.devRef .tc main_v11)) (V (Proc.devRef .tc main_arg6)) (V (Proc.devRef .tc main_arg7)) := by
  after_results_simp
  rfl

set_option maxHeartbeats 4000000 in
theorem val3_2 (V : Valuation τ sig (Elt F)) :
    after hostOps3 V (Proc.devRef .tc main_v74)
      = Cert.ReferenceIdeal.RefSpec.segMean (V (Proc.devRef .tc main_v17)) (V (Proc.devRef .tc main_arg8)) (V (Proc.devRef .tc main_arg9)) := by
  after_results_simp
  rfl

end Cert.KernelIdeal.KHost

end
-- ==== Proof.Host8.lean ====
/-
  The long host stretch 8 between a layer's dense regions and its activations: three relations' message passes,
  one after the other. Each gathers the rows of a dense map's result at the edges' sources, sums them into the edges'
  targets and divides each target row by its number of incoming edges (at least one). What the stretch leaves in the
  three buffers the activations read is the reference's mean-over-incoming-edges of each dense result; every buffer it
  does not write stays as it was.
-/
import proofs.«102427_j13013750907161_1_alg».proof.Proof.Gen.KernelIdeal.Launch
import proofs.«102427_j13013750907161_1_alg».proof.Proof.RefSpec
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]
/-- The buffers stretch 8's operations write. -/
abbrev wr8 : List (Ref sig .tc) := [main_c_16, main_v95, main_v96, main_c_17, main_v97, main_v98, main_v99, main_v100, main_v101, main_cst_18, main_v102, main_v103, main_v104, main_cst_19, main_v105, main_cst_20, main_v106, main_v107, main_v108, main_cst_21, main_v109, main_v110, main_v111, main_v112, main_v113, main_c_22, main_v114, main_v115, main_c_23, main_v116, main_v117, main_v118, main_v119, main_v120, main_cst_24, main_v121, main_v122, main_v123, main_cst_25, main_v124, main_cst_26, main_v125, main_v126, main_v127, main_cst_27, main_v128, main_v129, main_v130, main_v131, main_v132, main_c_28, main_v133, main_v134, main_c_29, main_v135, main_v136, main_v137, main_v138, main_v139, main_cst_30, main_v140, main_v141, main_v142, main_cst_31, main_v143, main_cst_32, main_v144, main_v145, main_v146, main_cst_33, main_v147, main_v148, main_v149, main_v150, main_v151]
set_option maxHeartbeats 4000000 in
theorem wr8_sub : (hostOps8 : List (HloOp τ sig (Elt F))).Forall fun op => op.writes ⊆ (wr8.map (Proc.devRef (τ := τ) .tc)).toFinset := by
  simp only [hostOps8, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep8 (V : Valuation τ sig (Elt F)) (r : Ref sig .tc) (h : r ∉ wr8) :
    after hostOps8 V (Proc.devRef .tc r) = V (Proc.devRef .tc r) := after_of_writes_sub hostOps8 V wr8_sub h

set_option maxHeartbeats 4000000 in
theorem val8_0 (V : Valuation τ sig (Elt F)) :
    after hostOps8 V (Proc.devRef .tc main_v113)
      = Cert.ReferenceIdeal.RefSpec.segMean (V (Proc.devRef .tc main_v82)) (V (Proc.devRef .tc main_arg4)) (V (Proc.devRef .tc main_arg5)) := by
  after_results_simp
  rfl

set_option maxHeartbeats 4000000 in
theorem val8_1 (V : Valuation τ sig (Elt F)) :
    after hostOps8 V (Proc.devRef .tc main_v132)
      = Cert.ReferenceIdeal.RefSpec.segMean (V (Proc.devRef .tc main_v88)) (V (Proc.devRef .tc main_arg6)) (V (Proc.devRef .tc main_arg7)) := by
  after_results_simp
  rfl

set_option maxHeartbeats 4000000 in
theorem val8_2 (V : Valuation τ sig (Elt F)) :
    after hostOps8 V (Proc.devRef .tc main_v151)
      = Cert.ReferenceIdeal.RefSpec.segMean (V (Proc.devRef .tc main_v94)) (V (Proc.devRef .tc main_arg8)) (V (Proc.devRef .tc main_arg9)) := by
  after_results_simp
  rfl

end Cert.KernelIdeal.KHost

end
-- ==== Proof.Host13.lean ====
/-
  The long host stretch 13 between a layer's dense regions and its activations: three relations' message passes,
  one after the other. Each gathers the rows of a dense map's result at the edges' sources, sums them into the edges'
  targets and divides each target row by its number of incoming edges (at least one). What the stretch leaves in the
  three buffers the activations read is the reference's mean-over-incoming-edges of each dense result; every buffer it
  does not write stays as it was.
-/
import proofs.«102427_j13013750907161_1_alg».proof.Proof.Gen.KernelIdeal.Launch
import proofs.«102427_j13013750907161_1_alg».proof.Proof.RefSpec
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]
/-- The buffers stretch 13's operations write. -/
abbrev wr13 : List (Ref sig .tc) := [main_c_34, main_v172, main_v173, main_c_35, main_v174, main_v175, main_v176, main_v177, main_v178, main_cst_36, main_v179, main_v180, main_v181, main_cst_37, main_v182, main_cst_38, main_v183, main_v184, main_v185, main_cst_39, main_v186, main_v187, main_v188, main_v189, main_v190, main_c_40, main_v191, main_v192, main_c_41, main_v193, main_v194, main_v195, main_v196, main_v197, main_cst_42, main_v198, main_v199, main_v200, main_cst_43, main_v201, main_cst_44, main_v202, main_v203, main_v204, main_cst_45, main_v205, main_v206, main_v207, main_v208, main_v209, main_c_46, main_v210, main_v211, main_c_47, main_v212, main_v213, main_v214, main_v215, main_v216, main_cst_48, main_v217, main_v218, main_v219, main_cst_49, main_v220, main_cst_50, main_v221, main_v222, main_v223, main_cst_51, main_v224, main_v225, main_v226, main_v227, main_v228]
set_option maxHeartbeats 4000000 in
theorem wr13_sub : (hostOps13 : List (HloOp τ sig (Elt F))).Forall fun op => op.writes ⊆ (wr13.map (Proc.devRef (τ := τ) .tc)).toFinset := by
  simp only [hostOps13, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep13 (V : Valuation τ sig (Elt F)) (r : Ref sig .tc) (h : r ∉ wr13) :
    after hostOps13 V (Proc.devRef .tc r) = V (Proc.devRef .tc r) := after_of_writes_sub hostOps13 V wr13_sub h

set_option maxHeartbeats 4000000 in
theorem val13_0 (V : Valuation τ sig (Elt F)) :
    after hostOps13 V (Proc.devRef .tc main_v190)
      = Cert.ReferenceIdeal.RefSpec.segMean (V (Proc.devRef .tc main_v159)) (V (Proc.devRef .tc main_arg4)) (V (Proc.devRef .tc main_arg5)) := by
  after_results_simp
  rfl

set_option maxHeartbeats 4000000 in
theorem val13_1 (V : Valuation τ sig (Elt F)) :
    after hostOps13 V (Proc.devRef .tc main_v209)
      = Cert.ReferenceIdeal.RefSpec.segMean (V (Proc.devRef .tc main_v165)) (V (Proc.devRef .tc main_arg6)) (V (Proc.devRef .tc main_arg7)) := by
  after_results_simp
  rfl

set_option maxHeartbeats 4000000 in
theorem val13_2 (V : Valuation τ sig (Elt F)) :
    after hostOps13 V (Proc.devRef .tc main_v228)
      = Cert.ReferenceIdeal.RefSpec.segMean (V (Proc.devRef .tc main_v171)) (V (Proc.devRef .tc main_arg8)) (V (Proc.devRef .tc main_arg9)) := by
  after_results_simp
  rfl

end Cert.KernelIdeal.KHost

end
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LinPay.lean ====
/-
  The dense kernel body's stored value read at an entry. The body loads a block of 5000 rows of the node table, the
  whole 128 × 128 weight matrix and the 1 × 128 bias row, multiplies (a change of float format is the identity at the
  exact values; the accumulator starts at zero) and adds the bias row to every row: at entry `(p, q)` of the block it
  is `∑ i, x (p, i) · w (i, q) + b (0, q)`. The nine dense bodies are one text, but that the later layers' first cast
  the loaded block to its own shape.
-/
import proofs.«102427_j13013750907161_1_alg».proof.Proof.Gen.KernelIdeal.Skeleton
import proofs.«102427_j13013750907161_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Cert.KernelIdeal Cert.KernelIdeal.Gen Idealize.ShloMosaic Idealize.ShloMosaic.ValueIdx

/-- The first layer's dense body at entry `(p, q)` of its block. -/
theorem pay0_lin_apply (x0 : FVec Ideal S5000x128 .f32) (x1 : FVec Ideal S128x128 .f32) (x2 : FVec Ideal S1x128 .f32)
    (p : Fin 5000) (q : Fin 128) :
    k0_pay1 (F := Ideal) x0 x1 x2 (ix2 p q) = (∑ i : Fin 128, x0 (ix2 p i) * x1 (ix2 i q)) + x2 (ix2 (0 : Fin 1) q) := by
  unfold k0_pay1
  refine (addf_apply _ _ _).trans ?_
  refine congrArg₂ (· + ·) ?_ ?_
  · refine (Ideal.matmul_constant_zero_apply dot_S5000x128_S128x128_S5000x128_1_0_0_1_n_n none _ _ (ix2 p q)).trans ?_
    rw [shapeCast_self]
    exact Cert.LibDot.plain_sum 5000 128 128 x0 x1 p q
  · refine (broadcastTo_1b_ab_apply _ _ p q).trans ?_
    rw [shapeCast_self]

theorem pay1_lin_apply (x0 : FVec Ideal S5000x128 .f32) (x1 : FVec Ideal S128x128 .f32) (x2 : FVec Ideal S1x128 .f32)
    (p : Fin 5000) (q : Fin 128) :
    k1_pay1 (F := Ideal) x0 x1 x2 (ix2 p q) = (∑ i : Fin 128, x0 (ix2 p i) * x1 (ix2 i q)) + x2 (ix2 (0 : Fin 1) q) := pay0_lin_apply x0 x1 x2 p q
theorem pay2_lin_apply (x0 : FVec Ideal S5000x128 .f32) (x1 : FVec Ideal S128x128 .f32) (x2 : FVec Ideal S1x128 .f32)
    (p : Fin 5000) (q : Fin 128) :
    k2_pay1 (F := Ideal) x0 x1 x2 (ix2 p q) = (∑ i : Fin 128, x0 (ix2 p i) * x1 (ix2 i q)) + x2 (ix2 (0 : Fin 1) q) := pay0_lin_apply x0 x1 x2 p q

/-- A later layer's dense body is the first layer's: the cast of a block to its own shape is the block. -/
theorem k5_pay (x0 : FVec Ideal S5000x128 .f32) (x1 : FVec Ideal S128x128 .f32) (x2 : FVec Ideal S1x128 .f32) :
    k5_pay1 (F := Ideal) x0 x1 x2 = k0_pay1 (F := Ideal) x0 x1 x2 := by
  unfold k5_pay1 k0_pay1
  simp only [shapeCast_self]

theorem pay5_lin_apply (x0 : FVec Ideal S5000x128 .f32) (x1 : FVec Ideal S128x128 .f32) (x2 : FVec Ideal S1x128 .f32)
    (p : Fin 5000) (q : Fin 128) :
    k5_pay1 (F := Ideal) x0 x1 x2 (ix2 p q) = (∑ i : Fin 128, x0 (ix2 p i) * x1 (ix2 i q)) + x2 (ix2 (0 : Fin 1) q) := (congrFun (k5_pay x0 x1 x2) _).trans (pay0_lin_apply x0 x1 x2 p q)
theorem pay6_lin_apply (x0 : FVec Ideal S5000x128 .f32) (x1 : FVec Ideal S128x128 .f32) (x2 : FVec Ideal S1x128 .f32)
    (p : Fin 5000) (q : Fin 128) :
    k6_pay1 (F := Ideal) x0 x1 x2 (ix2 p q) = (∑ i : Fin 128, x0 (ix2 p i) * x1 (ix2 i q)) + x2 (ix2 (0 : Fin 1) q) := pay5_lin_apply x0 x1 x2 p q
theorem pay7_lin_apply (x0 : FVec Ideal S5000x128 .f32) (x1 : FVec Ideal S128x128 .f32) (x2 : FVec Ideal S1x128 .f32)
    (p : Fin 5000) (q : Fin 128) :
    k7_pay1 (F := Ideal) x0 x1 x2 (ix2 p q) = (∑ i : Fin 128, x0 (ix2 p i) * x1 (ix2 i q)) + x2 (ix2 (0 : Fin 1) q) := pay5_lin_apply x0 x1 x2 p q
theorem pay10_lin_apply (x0 : FVec Ideal S5000x128 .f32) (x1 : FVec Ideal S128x128 .f32) (x2 : FVec Ideal S1x128 .f32)
    (p : Fin 5000) (q : Fin 128) :
    k10_pay1 (F := Ideal) x0 x1 x2 (ix2 p q) = (∑ i : Fin 128, x0 (ix2 p i) * x1 (ix2 i q)) + x2 (ix2 (0 : Fin 1) q) := pay5_lin_apply x0 x1 x2 p q
theorem pay11_lin_apply (x0 : FVec Ideal S5000x128 .f32) (x1 : FVec Ideal S128x128 .f32) (x2 : FVec Ideal S1x128 .f32)
    (p : Fin 5000) (q : Fin 128) :
    k11_pay1 (F := Ideal) x0 x1 x2 (ix2 p q) = (∑ i : Fin 128, x0 (ix2 p i) * x1 (ix2 i q)) + x2 (ix2 (0 : Fin 1) q) := pay5_lin_apply x0 x1 x2 p q
theorem pay12_lin_apply (x0 : FVec Ideal S5000x128 .f32) (x1 : FVec Ideal S128x128 .f32) (x2 : FVec Ideal S1x128 .f32)
    (p : Fin 5000) (q : Fin 128) :
    k12_pay1 (F := Ideal) x0 x1 x2 (ix2 p q) = (∑ i : Fin 128, x0 (ix2 p i) * x1 (ix2 i q)) + x2 (ix2 (0 : Fin 1) q) := pay5_lin_apply x0 x1 x2 p q

end Cert.KernelIdeal.KVal

end
-- ==== Proof.RefIdx.lean ====
/-
  The reference's dense map read at an entry: `(h · w + b)(r, q) = ∑ i, h (r, i) · w (i, q) + b (0, q)` at the exact
  values — the host product is the textbook sum and the bias row is repeated down the rows.
-/
import proofs.«102427_j13013750907161_1_alg».proof.Proof.RefSpec
import proofs.«102427_j13013750907161_1_alg».proof.Proof.LibDot
import Idealize.ShloMosaic.Lib.Pipeline.Value
import Idealize.ShloMosaic.Lib.ValueIdx
import Idealize.ShloMosaic.PureOps.Ideal.Laws

noncomputable section

namespace Cert.ReferenceIdeal.RefIdx

open Cert.ReferenceIdeal Cert.ReferenceIdeal.Gen Idealize.ShloMosaic Idealize.ShloMosaic.ValueIdx

/-- The dense map at entry `(r, q)`. -/
theorem lin1_apply (h : FVec Ideal S100000x128 .f32) (w : FVec Ideal S128x128 .f32) (b1 : FVec Ideal S1x128 .f32)
    (r : Fin 100000) (q : Fin 128) :
    RefSpec.lin1 (F := Ideal) h w b1 (ix2 r q) = (∑ i : Fin 128, h (ix2 r i) * w (ix2 i q)) + b1 (ix2 (0 : Fin 1) q) := by
  unfold RefSpec.lin1
  refine (addf_apply _ _ _).trans ?_
  refine congrArg₂ (· + ·) ?_ ?_
  · refine (Ideal.dotGeneral_apply dot_S100000x128_S128x128_S100000x128_1_0_0_1_n_n none _ h w (ix2 r q)).trans ?_
    exact Cert.LibDot.plain_sum 100000 128 128 h w r q
  · refine broadcastInDim_apply _ _ b1 (ix2 r q) (ix2 (0 : Fin 1) q) fun a => ?_
    match a with
    | ⟨0, _⟩ => rfl
    | ⟨1, _⟩ => rfl

end Cert.ReferenceIdeal.RefIdx

end
-- ==== Proof.Reg0.lean ====
/-
  Region 0 (a dense map): what its output array holds when the region ends. Grid point `t` loads rows
  `5000 t … 5000 t + 4999` of the source table, the whole weight matrix and the whole bias row, and writes the same
  rows of the output; the twenty blocks tile the 100000 rows. So the array ends at the dense map of the arrays the
  region found: entry `(r, q)` is `∑ i, h (r, i) · w (i, q) + b (0, q)`.
-/
import proofs.«102427_j13013750907161_1_alg».proof.Proof.Gen.KernelIdeal.Frame
import proofs.«102427_j13013750907161_1_alg».proof.Proof.LinPay
import proofs.«102427_j13013750907161_1_alg».proof.Proof.RefIdx

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The index maps over the grid: the row windows move with the point, the weight and bias windows stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A row of point `t`'s block is row `5000 t + p` of the table. -/
theorem row0_lt (t : Fin cfg0.N) (p : Fin 5000) : t.val * 5000 + p.val < 100000 := by
  have e : cfg0.N = 20 := N_0
  have h1 := t.isLt
  have h2 := p.isLt
  omega
def row0 (t : Fin cfg0.N) (p : Fin 5000) : Fin 100000 := ⟨t.val * 5000 + p.val, row0_lt t p⟩

/-- The source block at point `t`, entry `(p, i)`, is the table at `(5000 t + p, i)`. -/
theorem blk0_0 (c : Dev nD) (t : Fin cfg0.N) (p : Fin 5000) (i : Fin 128) :
    iblk0 V c 0 t (ix2 p i) = V c main_arg0 (ix2 (row0 t p) i) := by
  show V c main_arg0 (((cfg0.win 0).blk t).view.emb (ix2 p i)) = V c main_arg0 (ix2 (row0 t p) i)
  refine congrArg (V c main_arg0) (funext fun a => Fin.ext ?_)
  obtain ⟨e0, e1, -⟩ := idx0 t
  match a with
  | ⟨0, _⟩ => show win0_0.index t (0 : Fin 2) * 5000 + 1 * p.val = t.val * 5000 + p.val; omega
  | ⟨1, _⟩ => show win0_0.index t (1 : Fin 2) * 128 + 1 * i.val = i.val; omega

/-- The weight block at any point is the whole matrix. -/
theorem blk0_1 (c : Dev nD) (t : Fin cfg0.N) (i : Fin 128) (q : Fin 128) :
    iblk0 V c 1 t (ix2 i q) = V c main_v1 (ix2 i q) := by
  show V c main_v1 (((cfg0.win 1).blk t).view.emb (ix2 i q)) = V c main_v1 (ix2 i q)
  refine congrArg (V c main_v1) (funext fun a => Fin.ext ?_)
  obtain ⟨-, -, e0, e1, -⟩ := idx0 t
  match a with
  | ⟨0, _⟩ => show win0_1.index t (0 : Fin 2) * 128 + 1 * i.val = i.val; omega
  | ⟨1, _⟩ => show win0_1.index t (1 : Fin 2) * 128 + 1 * q.val = q.val; omega

/-- The bias block at any point is the whole row. -/
theorem blk0_2 (c : Dev nD) (t : Fin cfg0.N) (q : Fin 128) :
    iblk0 V c 2 t (ix2 (0 : Fin 1) q) = V c main_v4 (ix2 (0 : Fin 1) q) := by
  show V c main_v4 (((cfg0.win 2).blk t).view.emb (ix2 (0 : Fin 1) q)) = V c main_v4 (ix2 (0 : Fin 1) q)
  refine congrArg (V c main_v4) (funext fun a => Fin.ext ?_)
  obtain ⟨-, -, -, -, e0, e1, -⟩ := idx0 t
  match a with
  | ⟨0, _⟩ => show win0_2.index t (0 : Fin 2) * 1 + 1 * 0 = 0; omega
  | ⟨1, _⟩ => show win0_2.index t (1 : Fin 2) * 128 + 1 * q.val = q.val; omega

/-- An entry of point `t`'s output block sits at `(5000 t + p, q)` of the output array. -/
theorem emb0_3 (t : Fin cfg0.N) (p : Fin 5000) (q : Fin 128) :
    ((cfg0.win 3).blk t).view.emb (ix2 p q) = ix2 (row0 t p) q := by
  refine funext fun a => Fin.ext ?_
  obtain ⟨-, -, -, -, -, -, e0, e1⟩ := idx0 t
  match a with
  | ⟨0, _⟩ => show win0_3.index t (0 : Fin 2) * 5000 + 1 * p.val = t.val * 5000 + p.val; omega
  | ⟨1, _⟩ => show win0_3.index t (1 : Fin 2) * 128 + 1 * q.val = q.val; omega

/-- What point `t` writes back is block `t` of the dense map of the arrays the region found. -/
theorem flushed0 (c : Dev nD) (t : Fin cfg0.N) :
    (dat0 V c).flushed 3 t
      = ((cfg0.win 3).blk t).view.read (Elt Ideal) (Cert.ReferenceIdeal.RefSpec.lin1 (F := Ideal) (V c main_arg0) (V c main_v1) (V c main_v4)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S1x128) hz0]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = Cert.ReferenceIdeal.RefSpec.lin1 (F := Ideal) (V c main_arg0) (V c main_v1) (V c main_v4) (((cfg0.win 3).blk t).view.emb (ix2 p q))
  rw [emb0_3 t p q]
  refine (pay0_lin_apply (iblk0 V c 0 t) (iblk0 V c 1 t) (iblk0 V c 2 t) p q).trans ?_
  refine Eq.trans ?_ (Cert.ReferenceIdeal.RefIdx.lin1_apply (V c main_arg0) (V c main_v1) (V c main_v4) (row0 t p) q).symm
  refine congrArg₂ (· + ·) (Finset.sum_congr rfl fun i _ => ?_) (blk0_2 V c t q)
  exact congrArg₂ (· * ·) (blk0_0 V c t p i) (blk0_1 V c t i q)

/-- An index is in point `t`'s output block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v5).slice (win0_3.rect t)).set ↔ _
  rw [View.set_slice_whole, Rect.mem_set_unit]
  exact Iff.rfl

/-- Every entry of the output array is in the block of the point that holds its row: point `r / 5000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk0]
  obtain ⟨-, -, -, -, -, -, e0, e1⟩ := idx0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e1]; omega

/-- The output array when the region ends: the dense map of the arrays the region found. -/
theorem final0 (c : Dev nD) :
    (dat0 V c).arrAt 3 cfg0.N = Cert.ReferenceIdeal.RefSpec.lin1 (F := Ideal) (V c main_arg0) (V c main_v1) (V c main_v4) :=
  (dat0 V c).arrAt_eq_of_cover 3 _ (fun t _ => flushed0 V c t) cover0

end Cert.KernelIdeal.KVal

end
-- ==== Proof.Reg1.lean ====
/-
  Region 1 (a dense map): what its output array holds when the region ends. Grid point `t` loads rows
  `5000 t … 5000 t + 4999` of the source table, the whole weight matrix and the whole bias row, and writes the same
  rows of the output; the twenty blocks tile the 100000 rows. So the array ends at the dense map of the arrays the
  region found: entry `(r, q)` is `∑ i, h (r, i) · w (i, q) + b (0, q)`.
-/
import proofs.«102427_j13013750907161_1_alg».proof.Proof.Gen.KernelIdeal.Frame
import proofs.«102427_j13013750907161_1_alg».proof.Proof.LinPay
import proofs.«102427_j13013750907161_1_alg».proof.Proof.RefIdx

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The index maps over the grid: the row windows move with the point, the weight and bias windows stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A row of point `t`'s block is row `5000 t + p` of the table. -/
theorem row1_lt (t : Fin cfg1.N) (p : Fin 5000) : t.val * 5000 + p.val < 100000 := by
  have e : cfg1.N = 20 := N_1
  have h1 := t.isLt
  have h2 := p.isLt
  omega
def row1 (t : Fin cfg1.N) (p : Fin 5000) : Fin 100000 := ⟨t.val * 5000 + p.val, row1_lt t p⟩

/-- The source block at point `t`, entry `(p, i)`, is the table at `(5000 t + p, i)`. -/
theorem blk1_0 (c : Dev nD) (t : Fin cfg1.N) (p : Fin 5000) (i : Fin 128) :
    iblk1 V c 0 t (ix2 p i) = V c main_arg0 (ix2 (row1 t p) i) := by
  show V c main_arg0 (((cfg1.win 0).blk t).view.emb (ix2 p i)) = V c main_arg0 (ix2 (row1 t p) i)
  refine congrArg (V c main_arg0) (funext fun a => Fin.ext ?_)
  obtain ⟨e0, e1, -⟩ := idx1 t
  match a with
  | ⟨0, _⟩ => show win1_0.index t (0 : Fin 2) * 5000 + 1 * p.val = t.val * 5000 + p.val; omega
  | ⟨1, _⟩ => show win1_0.index t (1 : Fin 2) * 128 + 1 * i.val = i.val; omega

/-- The weight block at any point is the whole matrix. -/
theorem blk1_1 (c : Dev nD) (t : Fin cfg1.N) (i : Fin 128) (q : Fin 128) :
    iblk1 V c 1 t (ix2 i q) = V c main_v7 (ix2 i q) := by
  show V c main_v7 (((cfg1.win 1).blk t).view.emb (ix2 i q)) = V c main_v7 (ix2 i q)
  refine congrArg (V c main_v7) (funext fun a => Fin.ext ?_)
  obtain ⟨-, -, e0, e1, -⟩ := idx1 t
  match a with
  | ⟨0, _⟩ => show win1_1.index t (0 : Fin 2) * 128 + 1 * i.val = i.val; omega
  | ⟨1, _⟩ => show win1_1.index t (1 : Fin 2) * 128 + 1 * q.val = q.val; omega

/-- The bias block at any point is the whole row. -/
theorem blk1_2 (c : Dev nD) (t : Fin cfg1.N) (q : Fin 128) :
    iblk1 V c 2 t (ix2 (0 : Fin 1) q) = V c main_v10 (ix2 (0 : Fin 1) q) := by
  show V c main_v10 (((cfg1.win 2).blk t).view.emb (ix2 (0 : Fin 1) q)) = V c main_v10 (ix2 (0 : Fin 1) q)
  refine congrArg (V c main_v10) (funext fun a => Fin.ext ?_)
  obtain ⟨-, -, -, -, e0, e1, -⟩ := idx1 t
  match a with
  | ⟨0, _⟩ => show win1_2.index t (0 : Fin 2) * 1 + 1 * 0 = 0; omega
  | ⟨1, _⟩ => show win1_2.index t (1 : Fin 2) * 128 + 1 * q.val = q.val; omega

/-- An entry of point `t`'s output block sits at `(5000 t + p, q)` of the output array. -/
theorem emb1_3 (t : Fin cfg1.N) (p : Fin 5000) (q : Fin 128) :
    ((cfg1.win 3).blk t).view.emb (ix2 p q) = ix2 (row1 t p) q := by
  refine funext fun a => Fin.ext ?_
  obtain ⟨-, -, -, -, -, -, e0, e1⟩ := idx1 t
  match a with
  | ⟨0, _⟩ => show win1_3.index t (0 : Fin 2) * 5000 + 1 * p.val = t.val * 5000 + p.val; omega
  | ⟨1, _⟩ => show win1_3.index t (1 : Fin 2) * 128 + 1 * q.val = q.val; omega

/-- What point `t` writes back is block `t` of the dense map of the arrays the region found. -/
theorem flushed1 (c : Dev nD) (t : Fin cfg1.N) :
    (dat1 V c).flushed 3 t
      = ((cfg1.win 3).blk t).view.read (Elt Ideal) (Cert.ReferenceIdeal.RefSpec.lin1 (F := Ideal) (V c main_arg0) (V c main_v7) (V c main_v10)) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S128x128) hz1, View.ld_unit_zero (S := S1x128) hz1]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = Cert.ReferenceIdeal.RefSpec.lin1 (F := Ideal) (V c main_arg0) (V c main_v7) (V c main_v10) (((cfg1.win 3).blk t).view.emb (ix2 p q))
  rw [emb1_3 t p q]
  refine (pay1_lin_apply (iblk1 V c 0 t) (iblk1 V c 1 t) (iblk1 V c 2 t) p q).trans ?_
  refine Eq.trans ?_ (Cert.ReferenceIdeal.RefIdx.lin1_apply (V c main_arg0) (V c main_v7) (V c main_v10) (row1 t p) q).symm
  refine congrArg₂ (· + ·) (Finset.sum_congr rfl fun i _ => ?_) (blk1_2 V c t q)
  exact congrArg₂ (· * ·) (blk1_0 V c t p i) (blk1_1 V c t i q)

/-- An index is in point `t`'s output block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v11).slice (win1_3.rect t)).set ↔ _
  rw [View.set_slice_whole, Rect.mem_set_unit]
  exact Iff.rfl

/-- Every entry of the output array is in the block of the point that holds its row: point `r / 5000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  rw [mem_blk1]
  obtain ⟨-, -, -, -, -, -, e0, e1⟩ := idx1 ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e0]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e1]; omega

/-- The output array when the region ends: the dense map of the arrays the region found. -/
theorem final1 (c : Dev nD) :
    (dat1 V c).arrAt 3 cfg1.N = Cert.ReferenceIdeal.RefSpec.lin1 (F := Ideal) (V c main_arg0) (V c main_v7) (V c main_v10) :=
  (dat1 V c).arrAt_eq_of_cover 3 _ (fun t _ => flushed1 V c t) cover1

end Cert.KernelIdeal.KVal

end
-- ==== Proof.Reg2.lean ====
/-
  Region 2 (a dense map): what its output array holds when the region ends. Grid point `t` loads rows
  `5000 t … 5000 t + 4999` of the source table, the whole weight matrix and the whole bias row, and writes the same
  rows of the output; the twenty blocks tile the 100000 rows. So the array ends at the dense map of the arrays the
  region found: entry `(r, q)` is `∑ i, h (r, i) · w (i, q) + b (0, q)`.
-/
import proofs.«102427_j13013750907161_1_alg».proof.Proof.Gen.KernelIdeal.Frame
import proofs.«102427_j13013750907161_1_alg».proof.Proof.LinPay
import proofs.«102427_j13013750907161_1_alg».proof.Proof.RefIdx

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the row windows move with the point, the weight and bias windows stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A row of point `t`'s block is row `5000 t + p` of the table. -/
theorem row2_lt (t : Fin cfg2.N) (p : Fin 5000) : t.val * 5000 + p.val < 100000 := by
  have e : cfg2.N = 20 := N_2
  have h1 := t.isLt
  have h2 := p.isLt
  omega
def row2 (t : Fin cfg2.N) (p : Fin 5000) : Fin 100000 := ⟨t.val * 5000 + p.val, row2_lt t p⟩

/-- The source block at point `t`, entry `(p, i)`, is the table at `(5000 t + p, i)`. -/
theorem blk2_0 (c : Dev nD) (t : Fin cfg2.N) (p : Fin 5000) (i : Fin 128) :
    iblk2 V c 0 t (ix2 p i) = V c main_arg1 (ix2 (row2 t p) i) := by
  show V c main_arg1 (((cfg2.win 0).blk t).view.emb (ix2 p i)) = V c main_arg1 (ix2 (row2 t p) i)
  refine congrArg (V c main_arg1) (funext fun a => Fin.ext ?_)
  obtain ⟨e0, e1, -⟩ := idx2 t
  match a with
  | ⟨0, _⟩ => show win2_0.index t (0 : Fin 2) * 5000 + 1 * p.val = t.val * 5000 + p.val; omega
  | ⟨1, _⟩ => show win2_0.index t (1 : Fin 2) * 128 + 1 * i.val = i.val; omega

/-- The weight block at any point is the whole matrix. -/
theorem blk2_1 (c : Dev nD) (t : Fin cfg2.N) (i : Fin 128) (q : Fin 128) :
    iblk2 V c 1 t (ix2 i q) = V c main_v13 (ix2 i q) := by
  show V c main_v13 (((cfg2.win 1).blk t).view.emb (ix2 i q)) = V c main_v13 (ix2 i q)
  refine congrArg (V c main_v13) (funext fun a => Fin.ext ?_)
  obtain ⟨-, -, e0, e1, -⟩ := idx2 t
  match a with
  | ⟨0, _⟩ => show win2_1.index t (0 : Fin 2) * 128 + 1 * i.val = i.val; omega
  | ⟨1, _⟩ => show win2_1.index t (1 : Fin 2) * 128 + 1 * q.val = q.val; omega

/-- The bias block at any point is the whole row. -/
theorem blk2_2 (c : Dev nD) (t : Fin cfg2.N) (q : Fin 128) :
    iblk2 V c 2 t (ix2 (0 : Fin 1) q) = V c main_v16 (ix2 (0 : Fin 1) q) := by
  show V c main_v16 (((cfg2.win 2).blk t).view.emb (ix2 (0 : Fin 1) q)) = V c main_v16 (ix2 (0 : Fin 1) q)
  refine congrArg (V c main_v16) (funext fun a => Fin.ext ?_)
  obtain ⟨-, -, -, -, e0, e1, -⟩ := idx2 t
  match a with
  | ⟨0, _⟩ => show win2_2.index t (0 : Fin 2) * 1 + 1 * 0 = 0; omega
  | ⟨1, _⟩ => show win2_2.index t (1 : Fin 2) * 128 + 1 * q.val = q.val; omega

/-- An entry of point `t`'s output block sits at `(5000 t + p, q)` of the output array. -/
theorem emb2_3 (t : Fin cfg2.N) (p : Fin 5000) (q : Fin 128) :
    ((cfg2.win 3).blk t).view.emb (ix2 p q) = ix2 (row2 t p) q := by
  refine funext fun a => Fin.ext ?_
  obtain ⟨-, -, -, -, -, -, e0, e1⟩ := idx2 t
  match a with
  | ⟨0, _⟩ => show win2_3.index t (0 : Fin 2) * 5000 + 1 * p.val = t.val * 5000 + p.val; omega
  | ⟨1, _⟩ => show win2_3.index t (1 : Fin 2) * 128 + 1 * q.val = q.val; omega

/-- What point `t` writes back is block `t` of the dense map of the arrays the region found. -/
theorem flushed2 (c : Dev nD) (t : Fin cfg2.N) :
    (dat2 V c).flushed 3 t
      = ((cfg2.win 3).blk t).view.read (Elt Ideal) (Cert.ReferenceIdeal.RefSpec.lin1 (F := Ideal) (V c main_arg1) (V c main_v13) (V c main_v16)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128x128) hz2, View.ld_unit_zero (S := S1x128) hz2]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = Cert.ReferenceIdeal.RefSpec.lin1 (F := Ideal) (V c main_arg1) (V c main_v13) (V c main_v16) (((cfg2.win 3).blk t).view.emb (ix2 p q))
  rw [emb2_3 t p q]
  refine (pay2_lin_apply (iblk2 V c 0 t) (iblk2 V c 1 t) (iblk2 V c 2 t) p q).trans ?_
  refine Eq.trans ?_ (Cert.ReferenceIdeal.RefIdx.lin1_apply (V c main_arg1) (V c main_v13) (V c main_v16) (row2 t p) q).symm
  refine congrArg₂ (· + ·) (Finset.sum_congr rfl fun i _ => ?_) (blk2_2 V c t q)
  exact congrArg₂ (· * ·) (blk2_0 V c t p i) (blk2_1 V c t i q)

/-- An index is in point `t`'s output block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v17).slice (win2_3.rect t)).set ↔ _
  rw [View.set_slice_whole, Rect.mem_set_unit]
  exact Iff.rfl

/-- Every entry of the output array is in the block of the point that holds its row: point `r / 5000`. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_3 _, ?_⟩
  rw [mem_blk2]
  obtain ⟨-, -, -, -, -, -, e0, e1⟩ := idx2 ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e0]; show (i 0).val / 5000 * 5000 ≤ (i 0).val ∧ (i 0).val < (i 0).val / 5000 * 5000 + 5000; omega
  | ⟨1, _⟩ =>
    show win2_3.index _ (1 : Fin 2) * 128 ≤ (i 1).val ∧ (i 1).val < win2_3.index _ (1 : Fin 2) * 128 + 128
    rw [e1]; omega

/-- The output array when the region ends: the dense map of the arrays the region found. -/
theorem final2 (c : Dev nD) :
    (dat2 V c).arrAt 3 cfg2.N = Cert.ReferenceIdeal.RefSpec.lin1 (F := Ideal) (V c main_arg1) (V c main_v13) (V c main_v16) :=
  (dat2 V c).arrAt_eq_of_cover 3 _ (fun t _ => flushed2 V c t) cover2

end Cert.KernelIdeal.KVal

end
-- ==== Proof.PwPay.lean ====
/-
  The two activation bodies' stored values read at an entry. Both are the leaky rectifier entry by entry — of the
  loaded block, or of the sum of the two loaded blocks — spelt with vector operations where the reference spells it
  with host operations: a splat of a scalar where the reference broadcasts a scalar constant. At any entry the two
  spellings are the same scalar expression, so the stored value at an entry is the reference's rectifier at any
  entry where the inputs agree. The three bodies of each kind are one text.
-/
import proofs.«102427_j13013750907161_1_alg».proof.Proof.Gen.KernelIdeal.Skeleton
import proofs.«102427_j13013750907161_1_alg».proof.Proof.RefSpec
import Idealize.ShloMosaic.Lib.Pipeline.Value
import Idealize.ShloMosaic.Lib.ValueIdx

noncomputable section

namespace Cert.KernelIdeal.KVal

open Cert.KernelIdeal Cert.KernelIdeal.Gen Idealize.ShloMosaic Idealize.ShloMosaic.ValueIdx

variable {F : FTy → Type} [FloatOps F]

/-- The one-input activation body at entry `j` is the rectifier of the table at an entry `i` holding the same value. -/
theorem pay4_leaky_apply (x0 : FVec F S5000x128 .f32) (X : FVec F Cert.ReferenceIdeal.S100000x128 .f32)
    (j : S5000x128.Idx) (i : Cert.ReferenceIdeal.S100000x128.Idx) (h : x0 j = X i) :
    k4_pay1 x0 j = Cert.ReferenceIdeal.RefSpec.leaky X i := by
  unfold k4_pay1 Cert.ReferenceIdeal.RefSpec.leaky
  simp only [shapeCast_self]
  show Scalar.select (FloatOps.cmpf .oge (x0 j) _) (x0 j) (FloatOps.mulf _ (x0 j)) = Scalar.select (FloatOps.cmpf .oge (X i) _) (X i) (FloatOps.mulf _ (X i))
  rw [h]
  rfl
theorem pay9_leaky_apply (x0 : FVec F S5000x128 .f32) (X : FVec F Cert.ReferenceIdeal.S100000x128 .f32)
    (j : S5000x128.Idx) (i : Cert.ReferenceIdeal.S100000x128.Idx) (h : x0 j = X i) :
    k9_pay1 x0 j = Cert.ReferenceIdeal.RefSpec.leaky X i := pay4_leaky_apply x0 X j i h
theorem pay14_leaky_apply (x0 : FVec F S5000x128 .f32) (X : FVec F Cert.ReferenceIdeal.S100000x128 .f32)
    (j : S5000x128.Idx) (i : Cert.ReferenceIdeal.S100000x128.Idx) (h : x0 j = X i) :
    k14_pay1 x0 j = Cert.ReferenceIdeal.RefSpec.leaky X i := pay4_leaky_apply x0 X j i h

/-- The two-input activation body at entry `j` is the rectifier of the sum of two tables at an entry `i` where
    each holds the same value as its block. -/
theorem pay3_addleaky_apply (x0 x1 : FVec F S5000x128 .f32) (A B : FVec F Cert.ReferenceIdeal.S100000x128 .f32)
    (j : S5000x128.Idx) (i : Cert.ReferenceIdeal.S100000x128.Idx) (h0 : x0 j = A i) (h1 : x1 j = B i) :
    k3_pay1 x0 x1 j = Cert.ReferenceIdeal.RefSpec.leaky (addf A B) i := by
  unfold k3_pay1 Cert.ReferenceIdeal.RefSpec.leaky
  simp only [shapeCast_self]
  show Scalar.select (FloatOps.cmpf .oge (FloatOps.addf (x0 j) (x1 j)) _) (FloatOps.addf (x0 j) (x1 j)) (FloatOps.mulf _ (FloatOps.addf (x0 j) (x1 j)))
    = Scalar.select (FloatOps.cmpf .oge (FloatOps.addf (A i) (B i)) _) (FloatOps.addf (A i) (B i)) (FloatOps.mulf _ (FloatOps.addf (A i) (B i)))
  rw [h0, h1]
  rfl
theorem pay8_addleaky_apply (x0 x1 : FVec F S5000x128 .f32) (A B : FVec F Cert.ReferenceIdeal.S100000x128 .f32)
    (j : S5000x128.Idx) (i : Cert.ReferenceIdeal.S100000x128.Idx) (h0 : x0 j = A i) (h1 : x1 j = B i) :
    k8_pay1 x0 x1 j = Cert.ReferenceIdeal.RefSpec.leaky (addf A B) i := pay3_addleaky_apply x0 x1 A B j i h0 h1
theorem pay13_addleaky_apply (x0 x1 : FVec F S5000x128 .f32) (A B : FVec F Cert.ReferenceIdeal.S100000x128 .f32)
    (j : S5000x128.Idx) (i : Cert.ReferenceIdeal.S100000x128.Idx) (h0 : x0 j = A i) (h1 : x1 j = B i) :
    k13_pay1 x0 x1 j = Cert.ReferenceIdeal.RefSpec.leaky (addf A B) i := pay3_addleaky_apply x0 x1 A B j i h0 h1

end Cert.KernelIdeal.KVal

end
-- ==== Proof.Reg3.lean ====
/-
  Region 3 (an activation): what its output array holds when the region ends. Grid point `t` loads rows
  `5000 t … 5000 t + 4999` of its two input tables and writes the same rows of the output: the leaky rectifier,
  entry by entry, of their sum; the twenty blocks tile the 100000 rows. So the array ends at the rectifier of
  the sum of the two arrays the region found.
-/
import proofs.«102427_j13013750907161_1_alg».proof.Proof.Gen.KernelIdeal.Frame
import proofs.«102427_j13013750907161_1_alg».proof.Proof.PwPay

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The index maps over the grid: every window moves with the point along the rows. -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0 :=
  (by decide +kernel : ∀ t : Fin grid3.N, _)

/-- A row of point `t`'s block is row `5000 t + p` of the table. -/
theorem row3_lt (t : Fin cfg3.N) (p : Fin 5000) : t.val * 5000 + p.val < 100000 := by
  have e : cfg3.N = 20 := N_3
  have h1 := t.isLt
  have h2 := p.isLt
  omega
def row3 (t : Fin cfg3.N) (p : Fin 5000) : Fin 100000 := ⟨t.val * 5000 + p.val, row3_lt t p⟩

/-- Input block 0 at point `t`, entry `(p, q)`, is its table at `(5000 t + p, q)`. -/
theorem blk3_0 (c : Dev nD) (t : Fin cfg3.N) (p : Fin 5000) (q : Fin 128) :
    iblk3 V c 0 t (ix2 p q) = V c main_v36 (ix2 (row3 t p) q) := by
  show V c main_v36 (((cfg3.win 0).blk t).view.emb (ix2 p q)) = V c main_v36 (ix2 (row3 t p) q)
  refine congrArg (V c main_v36) (funext fun a => Fin.ext ?_)
  obtain ⟨e0, e1, -⟩ := idx3 t
  match a with
  | ⟨0, _⟩ => show win3_0.index t (0 : Fin 2) * 5000 + 1 * p.val = t.val * 5000 + p.val; omega
  | ⟨1, _⟩ => show win3_0.index t (1 : Fin 2) * 128 + 1 * q.val = q.val; omega

/-- Input block 1 at point `t`, entry `(p, q)`, is its table at `(5000 t + p, q)`. -/
theorem blk3_1 (c : Dev nD) (t : Fin cfg3.N) (p : Fin 5000) (q : Fin 128) :
    iblk3 V c 1 t (ix2 p q) = V c main_v74 (ix2 (row3 t p) q) := by
  show V c main_v74 (((cfg3.win 1).blk t).view.emb (ix2 p q)) = V c main_v74 (ix2 (row3 t p) q)
  refine congrArg (V c main_v74) (funext fun a => Fin.ext ?_)
  obtain ⟨-, -, e0, e1, -⟩ := idx3 t
  match a with
  | ⟨0, _⟩ => show win3_1.index t (0 : Fin 2) * 5000 + 1 * p.val = t.val * 5000 + p.val; omega
  | ⟨1, _⟩ => show win3_1.index t (1 : Fin 2) * 128 + 1 * q.val = q.val; omega

/-- An entry of point `t`'s output block sits at `(5000 t + p, q)` of the output array. -/
theorem emb3_o (t : Fin cfg3.N) (p : Fin 5000) (q : Fin 128) :
    ((cfg3.win 2).blk t).view.emb (ix2 p q) = ix2 (row3 t p) q := by
  refine funext fun a => Fin.ext ?_
  obtain ⟨-, -, -, -, e0, e1⟩ := idx3 t
  match a with
  | ⟨0, _⟩ => show win3_2.index t (0 : Fin 2) * 5000 + 1 * p.val = t.val * 5000 + p.val; omega
  | ⟨1, _⟩ => show win3_2.index t (1 : Fin 2) * 128 + 1 * q.val = q.val; omega

/-- What point `t` writes back is block `t` of the rectifier of the arrays the region found. -/
theorem flushed3 (c : Dev nD) (t : Fin cfg3.N) :
    (dat3 V c).flushed 2 t = ((cfg3.win 2).blk t).view.read (Elt Ideal) (Cert.ReferenceIdeal.RefSpec.leaky (F := Ideal) (addf (V c main_v36) (V c main_v74) : FVec Ideal Cert.ReferenceIdeal.S100000x128 .f32)) := by
  show (cfg3.win 2).cut (grid3.coords t) ((dat3 V c).after 2 t) = _
  rw [after3_2]
  unfold out3_2
  rw [View.canon_unit_zero hz3]
  simp only [View.ld_unit_zero (S := S5000x128) hz3]
  funext j
  obtain ⟨p, q, rfl⟩ : ∃ (p : Fin 5000) (q : Fin 128), j = ix2 p q := ⟨j 0, j 1, eq_ix2 j⟩
  show k3_pay1 (iblk3 V c 0 t) (iblk3 V c 1 t) (ix2 p q) = (Cert.ReferenceIdeal.RefSpec.leaky (F := Ideal) (addf (V c main_v36) (V c main_v74) : FVec Ideal Cert.ReferenceIdeal.S100000x128 .f32)) (((cfg3.win 2).blk t).view.emb (ix2 p q))
  rw [emb3_o t p q]
  exact pay3_addleaky_apply (F := Ideal) (iblk3 V c 0 t) (iblk3 V c 1 t) (V c main_v36) (V c main_v74) (ix2 p q) (ix2 (row3 t p) q) (blk3_0 V c t p q) (blk3_1 V c t p q)

/-- An index is in point `t`'s output block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v75).slice (win3_2.rect t)).set ↔ _
  rw [View.set_slice_whole, Rect.mem_set_unit]
  exact Iff.rfl

/-- Every entry of the output array is in the block of the point that holds its row: point `r / 5000`. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_2 _, ?_⟩
  rw [mem_blk3]
  obtain ⟨-, -, -, -, e0, e1⟩ := idx3 ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e0]; show (i 0).val / 5000 * 5000 ≤ (i 0).val ∧ (i 0).val < (i 0).val / 5000 * 5000 + 5000; omega
  | ⟨1, _⟩ =>
    show win3_2.index _ (1 : Fin 2) * 128 ≤ (i 1).val ∧ (i 1).val < win3_2.index _ (1 : Fin 2) * 128 + 128
    rw [e1]; omega

/-- The output array when the region ends: the rectifier of the arrays the region found. -/
theorem final3 (c : Dev nD) : (dat3 V c).arrAt 2 cfg3.N = Cert.ReferenceIdeal.RefSpec.leaky (F := Ideal) (addf (V c main_v36) (V c main_v74) : FVec Ideal Cert.ReferenceIdeal.S100000x128 .f32) :=
  (dat3 V c).arrAt_eq_of_cover 2 _ (fun t _ => flushed3 V c t) cover3

end Cert.KernelIdeal.KVal

end
-- ==== Proof.Reg4.lean ====
/-
  Region 4 (an activation): what its output array holds when the region ends. Grid point `t` loads rows
  `5000 t … 5000 t + 4999` of its input table and writes the same rows of the output: the leaky rectifier,
  entry by entry, of the table; the twenty blocks tile the 100000 rows. So the array ends at the rectifier of
  the array the region found.
-/
import proofs.«102427_j13013750907161_1_alg».proof.Proof.Gen.KernelIdeal.Frame
import proofs.«102427_j13013750907161_1_alg».proof.Proof.PwPay

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The index maps over the grid: every window moves with the point along the rows. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0 :=
  (by decide +kernel : ∀ t : Fin grid4.N, _)

/-- A row of point `t`'s block is row `5000 t + p` of the table. -/
theorem row4_lt (t : Fin cfg4.N) (p : Fin 5000) : t.val * 5000 + p.val < 100000 := by
  have e : cfg4.N = 20 := N_4
  have h1 := t.isLt
  have h2 := p.isLt
  omega
def row4 (t : Fin cfg4.N) (p : Fin 5000) : Fin 100000 := ⟨t.val * 5000 + p.val, row4_lt t p⟩

/-- Input block 0 at point `t`, entry `(p, q)`, is its table at `(5000 t + p, q)`. -/
theorem blk4_0 (c : Dev nD) (t : Fin cfg4.N) (p : Fin 5000) (q : Fin 128) :
    iblk4 V c 0 t (ix2 p q) = V c main_v55 (ix2 (row4 t p) q) := by
  show V c main_v55 (((cfg4.win 0).blk t).view.emb (ix2 p q)) = V c main_v55 (ix2 (row4 t p) q)
  refine congrArg (V c main_v55) (funext fun a => Fin.ext ?_)
  obtain ⟨e0, e1, -⟩ := idx4 t
  match a with
  | ⟨0, _⟩ => show win4_0.index t (0 : Fin 2) * 5000 + 1 * p.val = t.val * 5000 + p.val; omega
  | ⟨1, _⟩ => show win4_0.index t (1 : Fin 2) * 128 + 1 * q.val = q.val; omega

/-- An entry of point `t`'s output block sits at `(5000 t + p, q)` of the output array. -/
theorem emb4_o (t : Fin cfg4.N) (p : Fin 5000) (q : Fin 128) :
    ((cfg4.win 1).blk t).view.emb (ix2 p q) = ix2 (row4 t p) q := by
  refine funext fun a => Fin.ext ?_
  obtain ⟨-, -, e0, e1⟩ := idx4 t
  match a with
  | ⟨0, _⟩ => show win4_1.index t (0 : Fin 2) * 5000 + 1 * p.val = t.val * 5000 + p.val; omega
  | ⟨1, _⟩ => show win4_1.index t (1 : Fin 2) * 128 + 1 * q.val = q.val; omega

/-- What point `t` writes back is block `t` of the rectifier of the arrays the region found. -/
theorem flushed4 (c : Dev nD) (t : Fin cfg4.N) :
    (dat4 V c).flushed 1 t = ((cfg4.win 1).blk t).view.read (Elt Ideal) (Cert.ReferenceIdeal.RefSpec.leaky (F := Ideal) (V c main_v55)) := by
  show (cfg4.win 1).cut (grid4.coords t) ((dat4 V c).after 1 t) = _
  rw [after4_1]
  unfold out4_1
  rw [View.canon_unit_zero hz4]
  simp only [View.ld_unit_zero (S := S5000x128) hz4]
  funext j
  obtain ⟨p, q, rfl⟩ : ∃ (p : Fin 5000) (q : Fin 128), j = ix2 p q := ⟨j 0, j 1, eq_ix2 j⟩
  show k4_pay1 (iblk4 V c 0 t) (ix2 p q) = (Cert.ReferenceIdeal.RefSpec.leaky (F := Ideal) (V c main_v55)) (((cfg4.win 1).blk t).view.emb (ix2 p q))
  rw [emb4_o t p q]
  exact pay4_leaky_apply (F := Ideal) (iblk4 V c 0 t) (V c main_v55) (ix2 p q) (ix2 (row4 t p) q) (blk4_0 V c t p q)

/-- An index is in point `t`'s output block iff each coordinate is in the block's range on its axis. -/
theorem mem_blk4 (t : Fin cfg4.N) (i : S100000x128.Idx) :
    i ∈ ((cfg4.win 1).blk t).view.set ↔ ∀ a : Fin 2, win4_1.index t a * S5000x128.size a ≤ (i a).val
      ∧ (i a).val < win4_1.index t a * S5000x128.size a + S5000x128.size a := by
  show i ∈ ((View.whole main_v76).slice (win4_1.rect t)).set ↔ _
  rw [View.set_slice_whole, Rect.mem_set_unit]
  exact Iff.rfl

/-- Every entry of the output array is in the block of the point that holds its row: point `r / 5000`. -/
theorem cover4 (i : S100000x128.Idx) :
    ∃ t : Fin cfg4.N, (cfg4.win 1).flush t = true ∧ i ∈ ((cfg4.win 1).blk t).view.set := by
  have hi0 : (i 0).val < 100000 := (i 0).isLt
  have hi1 : (i 1).val < 128 := (i 1).isLt
  have hN : cfg4.N = 20 := N_4
  refine ⟨⟨(i 0).val / 5000, by rw [hN]; omega⟩, flush4_1 _, ?_⟩
  rw [mem_blk4]
  obtain ⟨-, -, e0, e1⟩ := idx4 ⟨(i 0).val / 5000, by rw [hN]; omega⟩
  intro a
  match a with
  | ⟨0, _⟩ =>
    show win4_1.index _ (0 : Fin 2) * 5000 ≤ (i 0).val ∧ (i 0).val < win4_1.index _ (0 : Fin 2) * 5000 + 5000
    rw [e0]; show (i 0).val / 5000 * 5000 ≤ (i 0).val ∧ (i 0).val < (i 0).val / 5000 * 5000 + 5000; omega
  | ⟨1, _⟩ =>
    show win4_1.index _ (1 : Fin 2) * 128 ≤ (i 1).val ∧ (i 1).val < win4_1.index _ (1 : Fin 2) * 128 + 128
    rw [e1]; omega

/-- The output array when the region ends: the rectifier of the arrays the region found. -/
theorem final4 (c : Dev nD) : (dat4 V c).arrAt 1 cfg4.N = Cert.ReferenceIdeal.RefSpec.leaky (F := Ideal) (V c main_v55) :=
  (dat4 V c).arrAt_eq_of_cover 1 _ (fun t _ => flushed4 V c t) cover4

end Cert.KernelIdeal.KVal

end
-- ==== Proof.Reg5.lean ====
/-
  Region 5 (a dense map): what its output array holds when the region ends. Grid point `t` loads rows
  `5000 t … 5000 t + 4999` of the source table, the whole weight matrix and the whole bias row, and writes the same
  rows of the output; the twenty blocks tile the 100000 rows. So the array ends at the dense map of the arrays the
  region found: entry `(r, q)` is `∑ i, h (r, i) · w (i, q) + b (0, q)`.
-/
import proofs.«102427_j13013750907161_1_alg».proof.Proof.Gen.KernelIdeal.Frame
import proofs.«102427_j13013750907161_1_alg».proof.Proof.LinPay
import proofs.«102427_j13013750907161_1_alg».proof.Proof.RefIdx

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- The index maps over the grid: the row windows move with the point, the weight and bias windows stay. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- A row of point `t`'s block is row `5000 t + p` of the table. -/
theorem row5_lt (t : Fin cfg5.N) (p : Fin 5000) : t.val * 5000 + p.val < 100000 := by
  have e : cfg5.N = 20 := N_5
  have h1 := t.isLt
  have h2 := p.isLt
  omega
def row5 (t : Fin cfg5.N) (p : Fin 5000) : Fin 100000 := ⟨t.val * 5000 + p.val, row5_lt t p⟩

/-- The source block at point `t`, entry `(p, i)`, is the table at `(5000 t + p, i)`. -/
theorem blk5_0 (c : Dev nD) (t : Fin cfg5.N) (p : Fin 5000) (i : Fin 128) :
    iblk5 V c 0 t (ix2 p i) = V c main_v75 (ix2 (row5 t p) i) := by
  show V c main_v75 (((cfg5.win 0).blk t).view.emb (ix2 p i)) = V c main_v75 (ix2 (row5 t p) i)
  refine congrArg (V c main_v75) (funext fun a => Fin.ext ?_)
  obtain ⟨e0, e1, -⟩ := idx5 t
  match a with
  | ⟨0, _⟩ => show win5_0.index t (0 : Fin 2) * 5000 + 1 * p.val = t.val * 5000 + p.val; omega
  | ⟨1, _⟩ => show win5_0.index t (1 : Fin 2) * 128 + 1 * i.val = i.val; omega

/-- The weight block at any point is the whole matrix. -/
theorem blk5_1 (c : Dev nD) (t : Fin cfg5.N) (i : Fin 128) (q : Fin 128) :
    iblk5 V c 1 t (ix2 i q) = V c main_v78 (ix2 i q) := by
  show V c main_v78 (((cfg5.win 1).blk t).view.emb (ix2 i q)) = V c main_v78 (ix2 i q)
  refine congrArg (V c main_v78) (funext fun a => Fin.ext ?_)
  obtain ⟨-, -, e0, e1, -⟩ := idx5 t
  match a with
  | ⟨0, _⟩ => show win5_1.index t (0 : Fin 2) * 128 + 1 * i.val = i.val; omega
  | ⟨1, _⟩ => show win5_1.index t (1 : Fin 2) * 128 + 1 * q.val = q.val; omega

/-- The bias block at any point is the whole row. -/
theorem blk5_2 (c : Dev nD) (t : Fin cfg5.N) (q : Fin 128) :
    iblk5 V c 2 t (ix2 (0 : Fin 1) q) = V c main_v81 (ix2 (0 : Fin 1) q) := by
  show V c main_v81 (((cfg5.win 2).blk t).view.emb (ix2 (0 : Fin 1) q)) = V c main_v81 (ix2 (0 : Fin 1) q)
  refine congrArg (V c main_v81) (funext fun a => Fin.ext ?_)
  obtain ⟨-, -, -, -, e0, e1, -⟩ := idx5 t
  match a with
  | ⟨0, _⟩ => show win5_2.index t (0 : Fin 2) * 1 + 1 * 0 = 0; omega
  | ⟨1, _⟩ => show win5_2.index t (1 : Fin 2) * 128 + 1 * q.val = q.val; omega

/-- An entry of point `t`'s output block sits at `(5000 t + p, q)` of the output array. -/
theorem emb5_3 (t : Fin cfg5.N) (p : Fin 5000) (q : Fin 128) :
    ((cfg5.win 3).blk t).view.emb (ix2 p q) = ix2 (row5 t p) q := by
  refine funext fun a => Fin.ext ?_
  obtain ⟨-, -, -, -, -, -, e0, e1⟩ := idx5 t
  match a with
  | ⟨0, _⟩ => show win5_3.index t (0 : Fin 2) * 5000 + 1 * p.val = t.val * 5000 + p.val; omega
  | ⟨1, _⟩ => show win5_3.index t (1 : Fin 2) * 128 + 1 * q.val = q.val; omega

/-- What point `t` writes back is block `t` of the dense map of the arrays the region found. -/
theorem flushed5 (c : Dev nD) (t : Fin cfg5.N) :
    (dat5 V c).flushed 3 t
      = ((cfg5.win 3).blk t).view.read (Elt Ideal) (Cert.ReferenceIdeal.RefSpec.lin1 (F := Ideal) (V c main_v75) (V c main_v78) (V c main_v81)) := by
  show (cfg5.win 3).cut (grid5.coords t) ((dat5 V c).after 3 t) = _
  rw [after5_3]
  unfold out5_3
  rw [View.canon_unit_zero hz5]
  simp only [View.ld_unit_zero (S := S5000x128) hz5, View.ld_unit_zero (S := S128x128) hz5, View.ld_unit_zero (S := S1x128) hz5]
  funext j
  obtain ⟨p, q, rfl⟩ : ∃ (p : Fin 5000) (q : Fin 128), j = ix2 p q := ⟨j 0, j 1, eq_ix2 j⟩
  show k5_pay1 (iblk5 V c 0 t) (iblk5 V c 1 t) (iblk5 V c 2 t) (ix2 p q)
    = Cert.ReferenceIdeal.RefSpec.lin1 (F := Ideal) (V c main_v75) (V c main_v78) (V c main_v81) (((cfg5.win 3).blk t).view.emb (ix2 p q))
  rw [emb5_3 t p q]
  refine (pay5_lin_apply (iblk5 V c 0 t) (iblk5 V c 1 t) (iblk5 V c 2 t) p q).trans ?_
  refine Eq.trans ?_ (Cert.ReferenceIdeal.RefIdx.lin1_apply (V c main_v75) (V c main_v78) (V c main_v81) (row5 t p) q).symm
  refine congrArg₂ (· + ·) (Finset.sum_congr rfl fun i _ => ?_) (blk5_2 V c t q)
  exact congrArg₂ (· * ·) (blk5_0 V c t p i) (blk5_1 V c t i q)

/-- An index is in point `t`'s output block iff each coordinate is in the block's range on its axis. -/
theorem mem_blk5 (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v82).slice (win5_3.rect t)).set ↔ _
  rw [View.set_slice_whole, Rect.mem_set_unit]
  exact Iff.rfl

/-- Every entry of the output array is in the block of the point that holds its row: point `r / 5000`. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 20 := N_5
  refine ⟨⟨(i 0).val / 5000, by rw [hN]; omega⟩, flush5_3 _, ?_⟩
  rw [mem_blk5]
  obtain ⟨-, -, -, -, -, -, e0, e1⟩ := idx5 ⟨(i 0).val / 5000, by rw [hN]; omega⟩
  intro a
  match a with
  | ⟨0, _⟩ =>
    show win5_3.index _ (0 : Fin 2) * 5000 ≤ (i 0).val ∧ (i 0).val < win5_3.index _ (0 : Fin 2) * 5000 + 5000
    rw [e0]; show (i 0).val / 5000 * 5000 ≤ (i 0).val ∧ (i 0).val < (i 0).val / 5000 * 5000 + 5000; omega
  | ⟨1, _⟩ =>
    show win5_3.index _ (1 : Fin 2) * 128 ≤ (i 1).val ∧ (i 1).val < win5_3.index _ (1 : Fin 2) * 128 + 128
    rw [e1]; omega

/-- The output array when the region ends: the dense map of the arrays the region found. -/
theorem final5 (c : Dev nD) :
    (dat5 V c).arrAt 3 cfg5.N = Cert.ReferenceIdeal.RefSpec.lin1 (F := Ideal) (V c main_v75) (V c main_v78) (V c main_v81) :=
  (dat5 V c).arrAt_eq_of_cover 3 _ (fun t _ => flushed5 V c t) cover5

end Cert.KernelIdeal.KVal

end
-- ==== Proof.Reg6.lean ====
/-
  Region 6 (a dense map): what its output array holds when the region ends. Grid point `t` loads rows
  `5000 t … 5000 t + 4999` of the source table, the whole weight matrix and the whole bias row, and writes the same
  rows of the output; the twenty blocks tile the 100000 rows. So the array ends at the dense map of the arrays the
  region found: entry `(r, q)` is `∑ i, h (r, i) · w (i, q) + b (0, q)`.
-/
import proofs.«102427_j13013750907161_1_alg».proof.Proof.Gen.KernelIdeal.Frame
import proofs.«102427_j13013750907161_1_alg».proof.Proof.LinPay
import proofs.«102427_j13013750907161_1_alg».proof.Proof.RefIdx

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz6 : (![0, 0] : Fin 2 → Nat) = fun _ => 0 := funext fun a => by fin_cases a <;> rfl

/-- The index maps over the grid: the row windows move with the point, the weight and bias windows stay. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- A row of point `t`'s block is row `5000 t + p` of the table. -/
theorem row6_lt (t : Fin cfg6.N) (p : Fin 5000) : t.val * 5000 + p.val < 100000 := by
  have e : cfg6.N = 20 := N_6
  have h1 := t.isLt
  have h2 := p.isLt
  omega
def row6 (t : Fin cfg6.N) (p : Fin 5000) : Fin 100000 := ⟨t.val * 5000 + p.val, row6_lt t p⟩

/-- The source block at point `t`, entry `(p, i)`, is the table at `(5000 t + p, i)`. -/
theorem blk6_0 (c : Dev nD) (t : Fin cfg6.N) (p : Fin 5000) (i : Fin 128) :
    iblk6 V c 0 t (ix2 p i) = V c main_v75 (ix2 (row6 t p) i) := by
  show V c main_v75 (((cfg6.win 0).blk t).view.emb (ix2 p i)) = V c main_v75 (ix2 (row6 t p) i)
  refine congrArg (V c main_v75) (funext fun a => Fin.ext ?_)
  obtain ⟨e0, e1, -⟩ := idx6 t
  match a with
  | ⟨0, _⟩ => show win6_0.index t (0 : Fin 2) * 5000 + 1 * p.val = t.val * 5000 + p.val; omega
  | ⟨1, _⟩ => show win6_0.index t (1 : Fin 2) * 128 + 1 * i.val = i.val; omega

/-- The weight block at any point is the whole matrix. -/
theorem blk6_1 (c : Dev nD) (t : Fin cfg6.N) (i : Fin 128) (q : Fin 128) :
    iblk6 V c 1 t (ix2 i q) = V c main_v84 (ix2 i q) := by
  show V c main_v84 (((cfg6.win 1).blk t).view.emb (ix2 i q)) = V c main_v84 (ix2 i q)
  refine congrArg (V c main_v84) (funext fun a => Fin.ext ?_)
  obtain ⟨-, -, e0, e1, -⟩ := idx6 t
  match a with
  | ⟨0, _⟩ => show win6_1.index t (0 : Fin 2) * 128 + 1 * i.val = i.val; omega
  | ⟨1, _⟩ => show win6_1.index t (1 : Fin 2) * 128 + 1 * q.val = q.val; omega

/-- The bias block at any point is the whole row. -/
theorem blk6_2 (c : Dev nD) (t : Fin cfg6.N) (q : Fin 128) :
    iblk6 V c 2 t (ix2 (0 : Fin 1) q) = V c main_v87 (ix2 (0 : Fin 1) q) := by
  show V c main_v87 (((cfg6.win 2).blk t).view.emb (ix2 (0 : Fin 1) q)) = V c main_v87 (ix2 (0 : Fin 1) q)
  refine congrArg (V c main_v87) (funext fun a => Fin.ext ?_)
  obtain ⟨-, -, -, -, e0, e1, -⟩ := idx6 t
  match a with
  | ⟨0, _⟩ => show win6_2.index t (0 : Fin 2) * 1 + 1 * 0 = 0; omega
  | ⟨1, _⟩ => show win6_2.index t (1 : Fin 2) * 128 + 1 * q.val = q.val; omega

/-- An entry of point `t`'s output block sits at `(5000 t + p, q)` of the output array. -/
theorem emb6_3 (t : Fin cfg6.N) (p : Fin 5000) (q : Fin 128) :
    ((cfg6.win 3).blk t).view.emb (ix2 p q) = ix2 (row6 t p) q := by
  refine funext fun a => Fin.ext ?_
  obtain ⟨-, -, -, -, -, -, e0, e1⟩ := idx6 t
  match a with
  | ⟨0, _⟩ => show win6_3.index t (0 : Fin 2) * 5000 + 1 * p.val = t.val * 5000 + p.val; omega
  | ⟨1, _⟩ => show win6_3.index t (1 : Fin 2) * 128 + 1 * q.val = q.val; omega

/-- What point `t` writes back is block `t` of the dense map of the arrays the region found. -/
theorem flushed6 (c : Dev nD) (t : Fin cfg6.N) :
    (dat6 V c).flushed 3 t
      = ((cfg6.win 3).blk t).view.read (Elt Ideal) (Cert.ReferenceIdeal.RefSpec.lin1 (F := Ideal) (V c main_v75) (V c main_v84) (V c main_v87)) := by
  show (cfg6.win 3).cut (grid6.coords t) ((dat6 V c).after 3 t) = _
  rw [after6_3]
  unfold out6_3
  rw [View.canon_unit_zero hz6]
  simp only [View.ld_unit_zero (S := S5000x128) hz6, View.ld_unit_zero (S := S128x128) hz6, View.ld_unit_zero (S := S1x128) hz6]
  funext j
  obtain ⟨p, q, rfl⟩ : ∃ (p : Fin 5000) (q : Fin 128), j = ix2 p q := ⟨j 0, j 1, eq_ix2 j⟩
  show k6_pay1 (iblk6 V c 0 t) (iblk6 V c 1 t) (iblk6 V c 2 t) (ix2 p q)
    = Cert.ReferenceIdeal.RefSpec.lin1 (F := Ideal) (V c main_v75) (V c main_v84) (V c main_v87) (((cfg6.win 3).blk t).view.emb (ix2 p q))
  rw [emb6_3 t p q]
  refine (pay6_lin_apply (iblk6 V c 0 t) (iblk6 V c 1 t) (iblk6 V c 2 t) p q).trans ?_
  refine Eq.trans ?_ (Cert.ReferenceIdeal.RefIdx.lin1_apply (V c main_v75) (V c main_v84) (V c main_v87) (row6 t p) q).symm
  refine congrArg₂ (· + ·) (Finset.sum_congr rfl fun i _ => ?_) (blk6_2 V c t q)
  exact congrArg₂ (· * ·) (blk6_0 V c t p i) (blk6_1 V c t i q)

/-- An index is in point `t`'s output block iff each coordinate is in the block's range on its axis. -/
theorem mem_blk6 (t : Fin cfg6.N) (i : S100000x128.Idx) :
    i ∈ ((cfg6.win 3).blk t).view.set ↔ ∀ a : Fin 2, win6_3.index t a * S5000x128.size a ≤ (i a).val
      ∧ (i a).val < win6_3.index t a * S5000x128.size a + S5000x128.size a := by
  show i ∈ ((View.whole main_v88).slice (win6_3.rect t)).set ↔ _
  rw [View.set_slice_whole, Rect.mem_set_unit]
  exact Iff.rfl

/-- Every entry of the output array is in the block of the point that holds its row: point `r / 5000`. -/
theorem cover6 (i : S100000x128.Idx) :
    ∃ t : Fin cfg6.N, (cfg6.win 3).flush t = true ∧ i ∈ ((cfg6.win 3).blk t).view.set := by
  have hi0 : (i 0).val < 100000 := (i 0).isLt
  have hi1 : (i 1).val < 128 := (i 1).isLt
  have hN : cfg6.N = 20 := N_6
  refine ⟨⟨(i 0).val / 5000, by rw [hN]; omega⟩, flush6_3 _, ?_⟩
  rw [mem_blk6]
  obtain ⟨-, -, -, -, -, -, e0, e1⟩ := idx6 ⟨(i 0).val / 5000, by rw [hN]; omega⟩
  intro a
  match a with
  | ⟨0, _⟩ =>
    show win6_3.index _ (0 : Fin 2) * 5000 ≤ (i 0).val ∧ (i 0).val < win6_3.index _ (0 : Fin 2) * 5000 + 5000
    rw [e0]; show (i 0).val / 5000 * 5000 ≤ (i 0).val ∧ (i 0).val < (i 0).val / 5000 * 5000 + 5000; omega
  | ⟨1, _⟩ =>
    show win6_3.index _ (1 : Fin 2) * 128 ≤ (i 1).val ∧ (i 1).val < win6_3.index _ (1 : Fin 2) * 128 + 128
    rw [e1]; omega

/-- The output array when the region ends: the dense map of the arrays the region found. -/
theorem final6 (c : Dev nD) :
    (dat6 V c).arrAt 3 cfg6.N = Cert.ReferenceIdeal.RefSpec.lin1 (F := Ideal) (V c main_v75) (V c main_v84) (V c main_v87) :=
  (dat6 V c).arrAt_eq_of_cover 3 _ (fun t _ => flushed6 V c t) cover6

end Cert.KernelIdeal.KVal

end
-- ==== Proof.Reg7.lean ====
/-
  Region 7 (a dense map): what its output array holds when the region ends. Grid point `t` loads rows
  `5000 t … 5000 t + 4999` of the source table, the whole weight matrix and the whole bias row, and writes the same
  rows of the output; the twenty blocks tile the 100000 rows. So the array ends at the dense map of the arrays the
  region found: entry `(r, q)` is `∑ i, h (r, i) · w (i, q) + b (0, q)`.
-/
import proofs.«102427_j13013750907161_1_alg».proof.Proof.Gen.KernelIdeal.Frame
import proofs.«102427_j13013750907161_1_alg».proof.Proof.LinPay
import proofs.«102427_j13013750907161_1_alg».proof.Proof.RefIdx

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz7 : (![0, 0] : Fin 2 → Nat) = fun _ => 0 := funext fun a => by fin_cases a <;> rfl

/-- The index maps over the grid: the row windows move with the point, the weight and bias windows stay. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- A row of point `t`'s block is row `5000 t + p` of the table. -/
theorem row7_lt (t : Fin cfg7.N) (p : Fin 5000) : t.val * 5000 + p.val < 100000 := by
  have e : cfg7.N = 20 := N_7
  have h1 := t.isLt
  have h2 := p.isLt
  omega
def row7 (t : Fin cfg7.N) (p : Fin 5000) : Fin 100000 := ⟨t.val * 5000 + p.val, row7_lt t p⟩

/-- The source block at point `t`, entry `(p, i)`, is the table at `(5000 t + p, i)`. -/
theorem blk7_0 (c : Dev nD) (t : Fin cfg7.N) (p : Fin 5000) (i : Fin 128) :
    iblk7 V c 0 t (ix2 p i) = V c main_v76 (ix2 (row7 t p) i) := by
  show V c main_v76 (((cfg7.win 0).blk t).view.emb (ix2 p i)) = V c main_v76 (ix2 (row7 t p) i)
  refine congrArg (V c main_v76) (funext fun a => Fin.ext ?_)
  obtain ⟨e0, e1, -⟩ := idx7 t
  match a with
  | ⟨0, _⟩ => show win7_0.index t (0 : Fin 2) * 5000 + 1 * p.val = t.val * 5000 + p.val; omega
  | ⟨1, _⟩ => show win7_0.index t (1 : Fin 2) * 128 + 1 * i.val = i.val; omega

/-- The weight block at any point is the whole matrix. -/
theorem blk7_1 (c : Dev nD) (t : Fin cfg7.N) (i : Fin 128) (q : Fin 128) :
    iblk7 V c 1 t (ix2 i q) = V c main_v90 (ix2 i q) := by
  show V c main_v90 (((cfg7.win 1).blk t).view.emb (ix2 i q)) = V c main_v90 (ix2 i q)
  refine congrArg (V c main_v90) (funext fun a => Fin.ext ?_)
  obtain ⟨-, -, e0, e1, -⟩ := idx7 t
  match a with
  | ⟨0, _⟩ => show win7_1.index t (0 : Fin 2) * 128 + 1 * i.val = i.val; omega
  | ⟨1, _⟩ => show win7_1.index t (1 : Fin 2) * 128 + 1 * q.val = q.val; omega

/-- The bias block at any point is the whole row. -/
theorem blk7_2 (c : Dev nD) (t : Fin cfg7.N) (q : Fin 128) :
    iblk7 V c 2 t (ix2 (0 : Fin 1) q) = V c main_v93 (ix2 (0 : Fin 1) q) := by
  show V c main_v93 (((cfg7.win 2).blk t).view.emb (ix2 (0 : Fin 1) q)) = V c main_v93 (ix2 (0 : Fin 1) q)
  refine congrArg (V c main_v93) (funext fun a => Fin.ext ?_)
  obtain ⟨-, -, -, -, e0, e1, -⟩ := idx7 t
  match a with
  | ⟨0, _⟩ => show win7_2.index t (0 : Fin 2) * 1 + 1 * 0 = 0; omega
  | ⟨1, _⟩ => show win7_2.index t (1 : Fin 2) * 128 + 1 * q.val = q.val; omega

/-- An entry of point `t`'s output block sits at `(5000 t + p, q)` of the output array. -/
theorem emb7_3 (t : Fin cfg7.N) (p : Fin 5000) (q : Fin 128) :
    ((cfg7.win 3).blk t).view.emb (ix2 p q) = ix2 (row7 t p) q := by
  refine funext fun a => Fin.ext ?_
  obtain ⟨-, -, -, -, -, -, e0, e1⟩ := idx7 t
  match a with
  | ⟨0, _⟩ => show win7_3.index t (0 : Fin 2) * 5000 + 1 * p.val = t.val * 5000 + p.val; omega
  | ⟨1, _⟩ => show win7_3.index t (1 : Fin 2) * 128 + 1 * q.val = q.val; omega

/-- What point `t` writes back is block `t` of the dense map of the arrays the region found. -/
theorem flushed7 (c : Dev nD) (t : Fin cfg7.N) :
    (dat7 V c).flushed 3 t
      = ((cfg7.win 3).blk t).view.read (Elt Ideal) (Cert.ReferenceIdeal.RefSpec.lin1 (F := Ideal) (V c main_v76) (V c main_v90) (V c main_v93)) := by
  show (cfg7.win 3).cut (grid7.coords t) ((dat7 V c).after 3 t) = _
  rw [after7_3]
  unfold out7_3
  rw [View.canon_unit_zero hz7]
  simp only [View.ld_unit_zero (S := S5000x128) hz7, View.ld_unit_zero (S := S128x128) hz7, View.ld_unit_zero (S := S1x128) hz7]
  funext j
  obtain ⟨p, q, rfl⟩ : ∃ (p : Fin 5000) (q : Fin 128), j = ix2 p q := ⟨j 0, j 1, eq_ix2 j⟩
  show k7_pay1 (iblk7 V c 0 t) (iblk7 V c 1 t) (iblk7 V c 2 t) (ix2 p q)
    = Cert.ReferenceIdeal.RefSpec.lin1 (F := Ideal) (V c main_v76) (V c main_v90) (V c main_v93) (((cfg7.win 3).blk t).view.emb (ix2 p q))
  rw [emb7_3 t p q]
  refine (pay7_lin_apply (iblk7 V c 0 t) (iblk7 V c 1 t) (iblk7 V c 2 t) p q).trans ?_
  refine Eq.trans ?_ (Cert.ReferenceIdeal.RefIdx.lin1_apply (V c main_v76) (V c main_v90) (V c main_v93) (row7 t p) q).symm
  refine congrArg₂ (· + ·) (Finset.sum_congr rfl fun i _ => ?_) (blk7_2 V c t q)
  exact congrArg₂ (· * ·) (blk7_0 V c t p i) (blk7_1 V c t i q)

/-- An index is in point `t`'s output block iff each coordinate is in the block's range on its axis. -/
theorem mem_blk7 (t : Fin cfg7.N) (i : S100000x128.Idx) :
    i ∈ ((cfg7.win 3).blk t).view.set ↔ ∀ a : Fin 2, win7_3.index t a * S5000x128.size a ≤ (i a).val
      ∧ (i a).val < win7_3.index t a * S5000x128.size a + S5000x128.size a := by
  show i ∈ ((View.whole main_v94).slice (win7_3.rect t)).set ↔ _
  rw [View.set_slice_whole, Rect.mem_set_unit]
  exact Iff.rfl

/-- Every entry of the output array is in the block of the point that holds its row: point `r / 5000`. -/
theorem cover7 (i : S100000x128.Idx) :
    ∃ t : Fin cfg7.N, (cfg7.win 3).flush t = true ∧ i ∈ ((cfg7.win 3).blk t).view.set := by
  have hi0 : (i 0).val < 100000 := (i 0).isLt
  have hi1 : (i 1).val < 128 := (i 1).isLt
  have hN : cfg7.N = 20 := N_7
  refine ⟨⟨(i 0).val / 5000, by rw [hN]; omega⟩, flush7_3 _, ?_⟩
  rw [mem_blk7]
  obtain ⟨-, -, -, -, -, -, e0, e1⟩ := idx7 ⟨(i 0).val / 5000, by rw [hN]; omega⟩
  intro a
  match a with
  | ⟨0, _⟩ =>
    show win7_3.index _ (0 : Fin 2) * 5000 ≤ (i 0).val ∧ (i 0).val < win7_3.index _ (0 : Fin 2) * 5000 + 5000
    rw [e0]; show (i 0).val / 5000 * 5000 ≤ (i 0).val ∧ (i 0).val < (i 0).val / 5000 * 5000 + 5000; omega
  | ⟨1, _⟩ =>
    show win7_3.index _ (1 : Fin 2) * 128 ≤ (i 1).val ∧ (i 1).val < win7_3.index _ (1 : Fin 2) * 128 + 128
    rw [e1]; omega

/-- The output array when the region ends: the dense map of the arrays the region found. -/
theorem final7 (c : Dev nD) :
    (dat7 V c).arrAt 3 cfg7.N = Cert.ReferenceIdeal.RefSpec.lin1 (F := Ideal) (V c main_v76) (V c main_v90) (V c main_v93) :=
  (dat7 V c).arrAt_eq_of_cover 3 _ (fun t _ => flushed7 V c t) cover7

end Cert.KernelIdeal.KVal

end
-- ==== Proof.Reg8.lean ====
/-
  Region 8 (an activation): what its output array holds when the region ends. Grid point `t` loads rows
  `5000 t … 5000 t + 4999` of its two input tables and writes the same rows of the output: the leaky rectifier,
  entry by entry, of their sum; the twenty blocks tile the 100000 rows. So the array ends at the rectifier of
  the sum of the two arrays the region found.
-/
import proofs.«102427_j13013750907161_1_alg».proof.Proof.Gen.KernelIdeal.Frame
import proofs.«102427_j13013750907161_1_alg».proof.Proof.PwPay

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz8 : (![0, 0] : Fin 2 → Nat) = fun _ => 0 := funext fun a => by fin_cases a <;> rfl

/-- The index maps over the grid: every window moves with the point along the rows. -/
theorem idx8 : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = t.val
    ∧ win8_2.index t (1 : Fin 2) = 0 :=
  (by decide +kernel : ∀ t : Fin grid8.N, _)

/-- A row of point `t`'s block is row `5000 t + p` of the table. -/
theorem row8_lt (t : Fin cfg8.N) (p : Fin 5000) : t.val * 5000 + p.val < 100000 := by
  have e : cfg8.N = 20 := N_8
  have h1 := t.isLt
  have h2 := p.isLt
  omega
def row8 (t : Fin cfg8.N) (p : Fin 5000) : Fin 100000 := ⟨t.val * 5000 + p.val, row8_lt t p⟩

/-- Input block 0 at point `t`, entry `(p, q)`, is its table at `(5000 t + p, q)`. -/
theorem blk8_0 (c : Dev nD) (t : Fin cfg8.N) (p : Fin 5000) (q : Fin 128) :
    iblk8 V c 0 t (ix2 p q) = V c main_v113 (ix2 (row8 t p) q) := by
  show V c main_v113 (((cfg8.win 0).blk t).view.emb (ix2 p q)) = V c main_v113 (ix2 (row8 t p) q)
  refine congrArg (V c main_v113) (funext fun a => Fin.ext ?_)
  obtain ⟨e0, e1, -⟩ := idx8 t
  match a with
  | ⟨0, _⟩ => show win8_0.index t (0 : Fin 2) * 5000 + 1 * p.val = t.val * 5000 + p.val; omega
  | ⟨1, _⟩ => show win8_0.index t (1 : Fin 2) * 128 + 1 * q.val = q.val; omega

/-- Input block 1 at point `t`, entry `(p, q)`, is its table at `(5000 t + p, q)`. -/
theorem blk8_1 (c : Dev nD) (t : Fin cfg8.N) (p : Fin 5000) (q : Fin 128) :
    iblk8 V c 1 t (ix2 p q) = V c main_v151 (ix2 (row8 t p) q) := by
  show V c main_v151 (((cfg8.win 1).blk t).view.emb (ix2 p q)) = V c main_v151 (ix2 (row8 t p) q)
  refine congrArg (V c main_v151) (funext fun a => Fin.ext ?_)
  obtain ⟨-, -, e0, e1, -⟩ := idx8 t
  match a with
  | ⟨0, _⟩ => show win8_1.index t (0 : Fin 2) * 5000 + 1 * p.val = t.val * 5000 + p.val; omega
  | ⟨1, _⟩ => show win8_1.index t (1 : Fin 2) * 128 + 1 * q.val = q.val; omega

/-- An entry of point `t`'s output block sits at `(5000 t + p, q)` of the output array. -/
theorem emb8_o (t : Fin cfg8.N) (p : Fin 5000) (q : Fin 128) :
    ((cfg8.win 2).blk t).view.emb (ix2 p q) = ix2 (row8 t p) q := by
  refine funext fun a => Fin.ext ?_
  obtain ⟨-, -, -, -, e0, e1⟩ := idx8 t
  match a with
  | ⟨0, _⟩ => show win8_2.index t (0 : Fin 2) * 5000 + 1 * p.val = t.val * 5000 + p.val; omega
  | ⟨1, _⟩ => show win8_2.index t (1 : Fin 2) * 128 + 1 * q.val = q.val; omega

/-- What point `t` writes back is block `t` of the rectifier of the arrays the region found. -/
theorem flushed8 (c : Dev nD) (t : Fin cfg8.N) :
    (dat8 V c).flushed 2 t = ((cfg8.win 2).blk t).view.read (Elt Ideal) (Cert.ReferenceIdeal.RefSpec.leaky (F := Ideal) (addf (V c main_v113) (V c main_v151) : FVec Ideal Cert.ReferenceIdeal.S100000x128 .f32)) := by
  show (cfg8.win 2).cut (grid8.coords t) ((dat8 V c).after 2 t) = _
  rw [after8_2]
  unfold out8_2
  rw [View.canon_unit_zero hz8]
  simp only [View.ld_unit_zero (S := S5000x128) hz8]
  funext j
  obtain ⟨p, q, rfl⟩ : ∃ (p : Fin 5000) (q : Fin 128), j = ix2 p q := ⟨j 0, j 1, eq_ix2 j⟩
  show k8_pay1 (iblk8 V c 0 t) (iblk8 V c 1 t) (ix2 p q) = (Cert.ReferenceIdeal.RefSpec.leaky (F := Ideal) (addf (V c main_v113) (V c main_v151) : FVec Ideal Cert.ReferenceIdeal.S100000x128 .f32)) (((cfg8.win 2).blk t).view.emb (ix2 p q))
  rw [emb8_o t p q]
  exact pay8_addleaky_apply (F := Ideal) (iblk8 V c 0 t) (iblk8 V c 1 t) (V c main_v113) (V c main_v151) (ix2 p q) (ix2 (row8 t p) q) (blk8_0 V c t p q) (blk8_1 V c t p q)

/-- An index is in point `t`'s output block iff each coordinate is in the block's range on its axis. -/
theorem mem_blk8 (t : Fin cfg8.N) (i : S100000x128.Idx) :
    i ∈ ((cfg8.win 2).blk t).view.set ↔ ∀ a : Fin 2, win8_2.index t a * S5000x128.size a ≤ (i a).val
      ∧ (i a).val < win8_2.index t a * S5000x128.size a + S5000x128.size a := by
  show i ∈ ((View.whole main_v152).slice (win8_2.rect t)).set ↔ _
  rw [View.set_slice_whole, Rect.mem_set_unit]
  exact Iff.rfl

/-- Every entry of the output array is in the block of the point that holds its row: point `r / 5000`. -/
theorem cover8 (i : S100000x128.Idx) :
    ∃ t : Fin cfg8.N, (cfg8.win 2).flush t = true ∧ i ∈ ((cfg8.win 2).blk t).view.set := by
  have hi0 : (i 0).val < 100000 := (i 0).isLt
  have hi1 : (i 1).val < 128 := (i 1).isLt
  have hN : cfg8.N = 20 := N_8
  refine ⟨⟨(i 0).val / 5000, by rw [hN]; omega⟩, flush8_2 _, ?_⟩
  rw [mem_blk8]
  obtain ⟨-, -, -, -, e0, e1⟩ := idx8 ⟨(i 0).val / 5000, by rw [hN]; omega⟩
  intro a
  match a with
  | ⟨0, _⟩ =>
    show win8_2.index _ (0 : Fin 2) * 5000 ≤ (i 0).val ∧ (i 0).val < win8_2.index _ (0 : Fin 2) * 5000 + 5000
    rw [e0]; show (i 0).val / 5000 * 5000 ≤ (i 0).val ∧ (i 0).val < (i 0).val / 5000 * 5000 + 5000; omega
  | ⟨1, _⟩ =>
    show win8_2.index _ (1 : Fin 2) * 128 ≤ (i 1).val ∧ (i 1).val < win8_2.index _ (1 : Fin 2) * 128 + 128
    rw [e1]; omega

/-- The output array when the region ends: the rectifier of the arrays the region found. -/
theorem final8 (c : Dev nD) : (dat8 V c).arrAt 2 cfg8.N = Cert.ReferenceIdeal.RefSpec.leaky (F := Ideal) (addf (V c main_v113) (V c main_v151) : FVec Ideal Cert.ReferenceIdeal.S100000x128 .f32) :=
  (dat8 V c).arrAt_eq_of_cover 2 _ (fun t _ => flushed8 V c t) cover8

end Cert.KernelIdeal.KVal

end
-- ==== Proof.Reg9.lean ====
/-
  Region 9 (an activation): what its output array holds when the region ends. Grid point `t` loads rows
  `5000 t … 5000 t + 4999` of its input table and writes the same rows of the output: the leaky rectifier,
  entry by entry, of the table; the twenty blocks tile the 100000 rows. So the array ends at the rectifier of
  the array the region found.
-/
import proofs.«102427_j13013750907161_1_alg».proof.Proof.Gen.KernelIdeal.Frame
import proofs.«102427_j13013750907161_1_alg».proof.Proof.PwPay

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz9 : (![0, 0] : Fin 2 → Nat) = fun _ => 0 := funext fun a => by fin_cases a <;> rfl

/-- The index maps over the grid: every window moves with the point along the rows. -/
theorem idx9 : ∀ t : Fin cfg9.N, win9_0.index t (0 : Fin 2) = t.val
    ∧ win9_0.index t (1 : Fin 2) = 0
    ∧ win9_1.index t (0 : Fin 2) = t.val
    ∧ win9_1.index t (1 : Fin 2) = 0 :=
  (by decide +kernel : ∀ t : Fin grid9.N, _)

/-- A row of point `t`'s block is row `5000 t + p` of the table. -/
theorem row9_lt (t : Fin cfg9.N) (p : Fin 5000) : t.val * 5000 + p.val < 100000 := by
  have e : cfg9.N = 20 := N_9
  have h1 := t.isLt
  have h2 := p.isLt
  omega
def row9 (t : Fin cfg9.N) (p : Fin 5000) : Fin 100000 := ⟨t.val * 5000 + p.val, row9_lt t p⟩

/-- Input block 0 at point `t`, entry `(p, q)`, is its table at `(5000 t + p, q)`. -/
theorem blk9_0 (c : Dev nD) (t : Fin cfg9.N) (p : Fin 5000) (q : Fin 128) :
    iblk9 V c 0 t (ix2 p q) = V c main_v132 (ix2 (row9 t p) q) := by
  show V c main_v132 (((cfg9.win 0).blk t).view.emb (ix2 p q)) = V c main_v132 (ix2 (row9 t p) q)
  refine congrArg (V c main_v132) (funext fun a => Fin.ext ?_)
  obtain ⟨e0, e1, -⟩ := idx9 t
  match a with
  | ⟨0, _⟩ => show win9_0.index t (0 : Fin 2) * 5000 + 1 * p.val = t.val * 5000 + p.val; omega
  | ⟨1, _⟩ => show win9_0.index t (1 : Fin 2) * 128 + 1 * q.val = q.val; omega

/-- An entry of point `t`'s output block sits at `(5000 t + p, q)` of the output array. -/
theorem emb9_o (t : Fin cfg9.N) (p : Fin 5000) (q : Fin 128) :
    ((cfg9.win 1).blk t).view.emb (ix2 p q) = ix2 (row9 t p) q := by
  refine funext fun a => Fin.ext ?_
  obtain ⟨-, -, e0, e1⟩ := idx9 t
  match a with
  | ⟨0, _⟩ => show win9_1.index t (0 : Fin 2) * 5000 + 1 * p.val = t.val * 5000 + p.val; omega
  | ⟨1, _⟩ => show win9_1.index t (1 : Fin 2) * 128 + 1 * q.val = q.val; omega

/-- What point `t` writes back is block `t` of the rectifier of the arrays the region found. -/
theorem flushed9 (c : Dev nD) (t : Fin cfg9.N) :
    (dat9 V c).flushed 1 t = ((cfg9.win 1).blk t).view.read (Elt Ideal) (Cert.ReferenceIdeal.RefSpec.leaky (F := Ideal) (V c main_v132)) := by
  show (cfg9.win 1).cut (grid9.coords t) ((dat9 V c).after 1 t) = _
  rw [after9_1]
  unfold out9_1
  rw [View.canon_unit_zero hz9]
  simp only [View.ld_unit_zero (S := S5000x128) hz9]
  funext j
  obtain ⟨p, q, rfl⟩ : ∃ (p : Fin 5000) (q : Fin 128), j = ix2 p q := ⟨j 0, j 1, eq_ix2 j⟩
  show k9_pay1 (iblk9 V c 0 t) (ix2 p q) = (Cert.ReferenceIdeal.RefSpec.leaky (F := Ideal) (V c main_v132)) (((cfg9.win 1).blk t).view.emb (ix2 p q))
  rw [emb9_o t p q]
  exact pay9_leaky_apply (F := Ideal) (iblk9 V c 0 t) (V c main_v132) (ix2 p q) (ix2 (row9 t p) q) (blk9_0 V c t p q)

/-- An index is in point `t`'s output block iff each coordinate is in the block's range on its axis. -/
theorem mem_blk9 (t : Fin cfg9.N) (i : S100000x128.Idx) :
    i ∈ ((cfg9.win 1).blk t).view.set ↔ ∀ a : Fin 2, win9_1.index t a * S5000x128.size a ≤ (i a).val
      ∧ (i a).val < win9_1.index t a * S5000x128.size a + S5000x128.size a := by
  show i ∈ ((View.whole main_v153).slice (win9_1.rect t)).set ↔ _
  rw [View.set_slice_whole, Rect.mem_set_unit]
  exact Iff.rfl

/-- Every entry of the output array is in the block of the point that holds its row: point `r / 5000`. -/
theorem cover9 (i : S100000x128.Idx) :
    ∃ t : Fin cfg9.N, (cfg9.win 1).flush t = true ∧ i ∈ ((cfg9.win 1).blk t).view.set := by
  have hi0 : (i 0).val < 100000 := (i 0).isLt
  have hi1 : (i 1).val < 128 := (i 1).isLt
  have hN : cfg9.N = 20 := N_9
  refine ⟨⟨(i 0).val / 5000, by rw [hN]; omega⟩, flush9_1 _, ?_⟩
  rw [mem_blk9]
  obtain ⟨-, -, e0, e1⟩ := idx9 ⟨(i 0).val / 5000, by rw [hN]; omega⟩
  intro a
  match a with
  | ⟨0, _⟩ =>
    show win9_1.index _ (0 : Fin 2) * 5000 ≤ (i 0).val ∧ (i 0).val < win9_1.index _ (0 : Fin 2) * 5000 + 5000
    rw [e0]; show (i 0).val / 5000 * 5000 ≤ (i 0).val ∧ (i 0).val < (i 0).val / 5000 * 5000 + 5000; omega
  | ⟨1, _⟩ =>
    show win9_1.index _ (1 : Fin 2) * 128 ≤ (i 1).val ∧ (i 1).val < win9_1.index _ (1 : Fin 2) * 128 + 128
    rw [e1]; omega

/-- The output array when the region ends: the rectifier of the arrays the region found. -/
theorem final9 (c : Dev nD) : (dat9 V c).arrAt 1 cfg9.N = Cert.ReferenceIdeal.RefSpec.leaky (F := Ideal) (V c main_v132) :=
  (dat9 V c).arrAt_eq_of_cover 1 _ (fun t _ => flushed9 V c t) cover9

end Cert.KernelIdeal.KVal

end
-- ==== Proof.Reg10.lean ====
/-
  Region 10 (a dense map): what its output array holds when the region ends. Grid point `t` loads rows
  `5000 t … 5000 t + 4999` of the source table, the whole weight matrix and the whole bias row, and writes the same
  rows of the output; the twenty blocks tile the 100000 rows. So the array ends at the dense map of the arrays the
  region found: entry `(r, q)` is `∑ i, h (r, i) · w (i, q) + b (0, q)`.
-/
import proofs.«102427_j13013750907161_1_alg».proof.Proof.Gen.KernelIdeal.Frame
import proofs.«102427_j13013750907161_1_alg».proof.Proof.LinPay
import proofs.«102427_j13013750907161_1_alg».proof.Proof.RefIdx

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz10 : (![0, 0] : Fin 2 → Nat) = fun _ => 0 := funext fun a => by fin_cases a <;> rfl

/-- The index maps over the grid: the row windows move with the point, the weight and bias windows stay. -/
theorem idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- A row of point `t`'s block is row `5000 t + p` of the table. -/
theorem row10_lt (t : Fin cfg10.N) (p : Fin 5000) : t.val * 5000 + p.val < 100000 := by
  have e : cfg10.N = 20 := N_10
  have h1 := t.isLt
  have h2 := p.isLt
  omega
def row10 (t : Fin cfg10.N) (p : Fin 5000) : Fin 100000 := ⟨t.val * 5000 + p.val, row10_lt t p⟩

/-- The source block at point `t`, entry `(p, i)`, is the table at `(5000 t + p, i)`. -/
theorem blk10_0 (c : Dev nD) (t : Fin cfg10.N) (p : Fin 5000) (i : Fin 128) :
    iblk10 V c 0 t (ix2 p i) = V c main_v152 (ix2 (row10 t p) i) := by
  show V c main_v152 (((cfg10.win 0).blk t).view.emb (ix2 p i)) = V c main_v152 (ix2 (row10 t p) i)
  refine congrArg (V c main_v152) (funext fun a => Fin.ext ?_)
  obtain ⟨e0, e1, -⟩ := idx10 t
  match a with
  | ⟨0, _⟩ => show win10_0.index t (0 : Fin 2) * 5000 + 1 * p.val = t.val * 5000 + p.val; omega
  | ⟨1, _⟩ => show win10_0.index t (1 : Fin 2) * 128 + 1 * i.val = i.val; omega

/-- The weight block at any point is the whole matrix. -/
theorem blk10_1 (c : Dev nD) (t : Fin cfg10.N) (i : Fin 128) (q : Fin 128) :
    iblk10 V c 1 t (ix2 i q) = V c main_v155 (ix2 i q) := by
  show V c main_v155 (((cfg10.win 1).blk t).view.emb (ix2 i q)) = V c main_v155 (ix2 i q)
  refine congrArg (V c main_v155) (funext fun a => Fin.ext ?_)
  obtain ⟨-, -, e0, e1, -⟩ := idx10 t
  match a with
  | ⟨0, _⟩ => show win10_1.index t (0 : Fin 2) * 128 + 1 * i.val = i.val; omega
  | ⟨1, _⟩ => show win10_1.index t (1 : Fin 2) * 128 + 1 * q.val = q.val; omega

/-- The bias block at any point is the whole row. -/
theorem blk10_2 (c : Dev nD) (t : Fin cfg10.N) (q : Fin 128) :
    iblk10 V c 2 t (ix2 (0 : Fin 1) q) = V c main_v158 (ix2 (0 : Fin 1) q) := by
  show V c main_v158 (((cfg10.win 2).blk t).view.emb (ix2 (0 : Fin 1) q)) = V c main_v158 (ix2 (0 : Fin 1) q)
  refine congrArg (V c main_v158) (funext fun a => Fin.ext ?_)
  obtain ⟨-, -, -, -, e0, e1, -⟩ := idx10 t
  match a with
  | ⟨0, _⟩ => show win10_2.index t (0 : Fin 2) * 1 + 1 * 0 = 0; omega
  | ⟨1, _⟩ => show win10_2.index t (1 : Fin 2) * 128 + 1 * q.val = q.val; omega

/-- An entry of point `t`'s output block sits at `(5000 t + p, q)` of the output array. -/
theorem emb10_3 (t : Fin cfg10.N) (p : Fin 5000) (q : Fin 128) :
    ((cfg10.win 3).blk t).view.emb (ix2 p q) = ix2 (row10 t p) q := by
  refine funext fun a => Fin.ext ?_
  obtain ⟨-, -, -, -, -, -, e0, e1⟩ := idx10 t
  match a with
  | ⟨0, _⟩ => show win10_3.index t (0 : Fin 2) * 5000 + 1 * p.val = t.val * 5000 + p.val; omega
  | ⟨1, _⟩ => show win10_3.index t (1 : Fin 2) * 128 + 1 * q.val = q.val; omega

/-- What point `t` writes back is block `t` of the dense map of the arrays the region found. -/
theorem flushed10 (c : Dev nD) (t : Fin cfg10.N) :
    (dat10 V c).flushed 3 t
      = ((cfg10.win 3).blk t).view.read (Elt Ideal) (Cert.ReferenceIdeal.RefSpec.lin1 (F := Ideal) (V c main_v152) (V c main_v155) (V c main_v158)) := by
  show (cfg10.win 3).cut (grid10.coords t) ((dat10 V c).after 3 t) = _
  rw [after10_3]
  unfold out10_3
  rw [View.canon_unit_zero hz10]
  simp only [View.ld_unit_zero (S := S5000x128) hz10, View.ld_unit_zero (S := S128x128) hz10, View.ld_unit_zero (S := S1x128) hz10]
  funext j
  obtain ⟨p, q, rfl⟩ : ∃ (p : Fin 5000) (q : Fin 128), j = ix2 p q := ⟨j 0, j 1, eq_ix2 j⟩
  show k10_pay1 (iblk10 V c 0 t) (iblk10 V c 1 t) (iblk10 V c 2 t) (ix2 p q)
    = Cert.ReferenceIdeal.RefSpec.lin1 (F := Ideal) (V c main_v152) (V c main_v155) (V c main_v158) (((cfg10.win 3).blk t).view.emb (ix2 p q))
  rw [emb10_3 t p q]
  refine (pay10_lin_apply (iblk10 V c 0 t) (iblk10 V c 1 t) (iblk10 V c 2 t) p q).trans ?_
  refine Eq.trans ?_ (Cert.ReferenceIdeal.RefIdx.lin1_apply (V c main_v152) (V c main_v155) (V c main_v158) (row10 t p) q).symm
  refine congrArg₂ (· + ·) (Finset.sum_congr rfl fun i _ => ?_) (blk10_2 V c t q)
  exact congrArg₂ (· * ·) (blk10_0 V c t p i) (blk10_1 V c t i q)

/-- An index is in point `t`'s output block iff each coordinate is in the block's range on its axis. -/
theorem mem_blk10 (t : Fin cfg10.N) (i : S100000x128.Idx) :
    i ∈ ((cfg10.win 3).blk t).view.set ↔ ∀ a : Fin 2, win10_3.index t a * S5000x128.size a ≤ (i a).val
      ∧ (i a).val < win10_3.index t a * S5000x128.size a + S5000x128.size a := by
  show i ∈ ((View.whole main_v159).slice (win10_3.rect t)).set ↔ _
  rw [View.set_slice_whole, Rect.mem_set_unit]
  exact Iff.rfl

/-- Every entry of the output array is in the block of the point that holds its row: point `r / 5000`. -/
theorem cover10 (i : S100000x128.Idx) :
    ∃ t : Fin cfg10.N, (cfg10.win 3).flush t = true ∧ i ∈ ((cfg10.win 3).blk t).view.set := by
  have hi0 : (i 0).val < 100000 := (i 0).isLt
  have hi1 : (i 1).val < 128 := (i 1).isLt
  have hN : cfg10.N = 20 := N_10
  refine ⟨⟨(i 0).val / 5000, by rw [hN]; omega⟩, flush10_3 _, ?_⟩
  rw [mem_blk10]
  obtain ⟨-, -, -, -, -, -, e0, e1⟩ := idx10 ⟨(i 0).val / 5000, by rw [hN]; omega⟩
  intro a
  match a with
  | ⟨0, _⟩ =>
    show win10_3.index _ (0 : Fin 2) * 5000 ≤ (i 0).val ∧ (i 0).val < win10_3.index _ (0 : Fin 2) * 5000 + 5000
    rw [e0]; show (i 0).val / 5000 * 5000 ≤ (i 0).val ∧ (i 0).val < (i 0).val / 5000 * 5000 + 5000; omega
  | ⟨1, _⟩ =>
    show win10_3.index _ (1 : Fin 2) * 128 ≤ (i 1).val ∧ (i 1).val < win10_3.index _ (1 : Fin 2) * 128 + 128
    rw [e1]; omega

/-- The output array when the region ends: the dense map of the arrays the region found. -/
theorem final10 (c : Dev nD) :
    (dat10 V c).arrAt 3 cfg10.N = Cert.ReferenceIdeal.RefSpec.lin1 (F := Ideal) (V c main_v152) (V c main_v155) (V c main_v158) :=
  (dat10 V c).arrAt_eq_of_cover 3 _ (fun t _ => flushed10 V c t) cover10

end Cert.KernelIdeal.KVal

end
-- ==== Proof.Reg11.lean ====
/-
  Region 11 (a dense map): what its output array holds when the region ends. Grid point `t` loads rows
  `5000 t … 5000 t + 4999` of the source table, the whole weight matrix and the whole bias row, and writes the same
  rows of the output; the twenty blocks tile the 100000 rows. So the array ends at the dense map of the arrays the
  region found: entry `(r, q)` is `∑ i, h (r, i) · w (i, q) + b (0, q)`.
-/
import proofs.«102427_j13013750907161_1_alg».proof.Proof.Gen.KernelIdeal.Frame
import proofs.«102427_j13013750907161_1_alg».proof.Proof.LinPay
import proofs.«102427_j13013750907161_1_alg».proof.Proof.RefIdx

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz11 : (![0, 0] : Fin 2 → Nat) = fun _ => 0 := funext fun a => by fin_cases a <;> rfl

/-- The index maps over the grid: the row windows move with the point, the weight and bias windows stay. -/
theorem idx11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- A row of point `t`'s block is row `5000 t + p` of the table. -/
theorem row11_lt (t : Fin cfg11.N) (p : Fin 5000) : t.val * 5000 + p.val < 100000 := by
  have e : cfg11.N = 20 := N_11
  have h1 := t.isLt
  have h2 := p.isLt
  omega
def row11 (t : Fin cfg11.N) (p : Fin 5000) : Fin 100000 := ⟨t.val * 5000 + p.val, row11_lt t p⟩

/-- The source block at point `t`, entry `(p, i)`, is the table at `(5000 t + p, i)`. -/
theorem blk11_0 (c : Dev nD) (t : Fin cfg11.N) (p : Fin 5000) (i : Fin 128) :
    iblk11 V c 0 t (ix2 p i) = V c main_v152 (ix2 (row11 t p) i) := by
  show V c main_v152 (((cfg11.win 0).blk t).view.emb (ix2 p i)) = V c main_v152 (ix2 (row11 t p) i)
  refine congrArg (V c main_v152) (funext fun a => Fin.ext ?_)
  obtain ⟨e0, e1, -⟩ := idx11 t
  match a with
  | ⟨0, _⟩ => show win11_0.index t (0 : Fin 2) * 5000 + 1 * p.val = t.val * 5000 + p.val; omega
  | ⟨1, _⟩ => show win11_0.index t (1 : Fin 2) * 128 + 1 * i.val = i.val; omega

/-- The weight block at any point is the whole matrix. -/
theorem blk11_1 (c : Dev nD) (t : Fin cfg11.N) (i : Fin 128) (q : Fin 128) :
    iblk11 V c 1 t (ix2 i q) = V c main_v161 (ix2 i q) := by
  show V c main_v161 (((cfg11.win 1).blk t).view.emb (ix2 i q)) = V c main_v161 (ix2 i q)
  refine congrArg (V c main_v161) (funext fun a => Fin.ext ?_)
  obtain ⟨-, -, e0, e1, -⟩ := idx11 t
  match a with
  | ⟨0, _⟩ => show win11_1.index t (0 : Fin 2) * 128 + 1 * i.val = i.val; omega
  | ⟨1, _⟩ => show win11_1.index t (1 : Fin 2) * 128 + 1 * q.val = q.val; omega

/-- The bias block at any point is the whole row. -/
theorem blk11_2 (c : Dev nD) (t : Fin cfg11.N) (q : Fin 128) :
    iblk11 V c 2 t (ix2 (0 : Fin 1) q) = V c main_v164 (ix2 (0 : Fin 1) q) := by
  show V c main_v164 (((cfg11.win 2).blk t).view.emb (ix2 (0 : Fin 1) q)) = V c main_v164 (ix2 (0 : Fin 1) q)
  refine congrArg (V c main_v164) (funext fun a => Fin.ext ?_)
  obtain ⟨-, -, -, -, e0, e1, -⟩ := idx11 t
  match a with
  | ⟨0, _⟩ => show win11_2.index t (0 : Fin 2) * 1 + 1 * 0 = 0; omega
  | ⟨1, _⟩ => show win11_2.index t (1 : Fin 2) * 128 + 1 * q.val = q.val; omega

/-- An entry of point `t`'s output block sits at `(5000 t + p, q)` of the output array. -/
theorem emb11_3 (t : Fin cfg11.N) (p : Fin 5000) (q : Fin 128) :
    ((cfg11.win 3).blk t).view.emb (ix2 p q) = ix2 (row11 t p) q := by
  refine funext fun a => Fin.ext ?_
  obtain ⟨-, -, -, -, -, -, e0, e1⟩ := idx11 t
  match a with
  | ⟨0, _⟩ => show win11_3.index t (0 : Fin 2) * 5000 + 1 * p.val = t.val * 5000 + p.val; omega
  | ⟨1, _⟩ => show win11_3.index t (1 : Fin 2) * 128 + 1 * q.val = q.val; omega

/-- What point `t` writes back is block `t` of the dense map of the arrays the region found. -/
theorem flushed11 (c : Dev nD) (t : Fin cfg11.N) :
    (dat11 V c).flushed 3 t
      = ((cfg11.win 3).blk t).view.read (Elt Ideal) (Cert.ReferenceIdeal.RefSpec.lin1 (F := Ideal) (V c main_v152) (V c main_v161) (V c main_v164)) := by
  show (cfg11.win 3).cut (grid11.coords t) ((dat11 V c).after 3 t) = _
  rw [after11_3]
  unfold out11_3
  rw [View.canon_unit_zero hz11]
  simp only [View.ld_unit_zero (S := S5000x128) hz11, View.ld_unit_zero (S := S128x128) hz11, View.ld_unit_zero (S := S1x128) hz11]
  funext j
  obtain ⟨p, q, rfl⟩ : ∃ (p : Fin 5000) (q : Fin 128), j = ix2 p q := ⟨j 0, j 1, eq_ix2 j⟩
  show k11_pay1 (iblk11 V c 0 t) (iblk11 V c 1 t) (iblk11 V c 2 t) (ix2 p q)
    = Cert.ReferenceIdeal.RefSpec.lin1 (F := Ideal) (V c main_v152) (V c main_v161) (V c main_v164) (((cfg11.win 3).blk t).view.emb (ix2 p q))
  rw [emb11_3 t p q]
  refine (pay11_lin_apply (iblk11 V c 0 t) (iblk11 V c 1 t) (iblk11 V c 2 t) p q).trans ?_
  refine Eq.trans ?_ (Cert.ReferenceIdeal.RefIdx.lin1_apply (V c main_v152) (V c main_v161) (V c main_v164) (row11 t p) q).symm
  refine congrArg₂ (· + ·) (Finset.sum_congr rfl fun i _ => ?_) (blk11_2 V c t q)
  exact congrArg₂ (· * ·) (blk11_0 V c t p i) (blk11_1 V c t i q)

/-- An index is in point `t`'s output block iff each coordinate is in the block's range on its axis. -/
theorem mem_blk11 (t : Fin cfg11.N) (i : S100000x128.Idx) :
    i ∈ ((cfg11.win 3).blk t).view.set ↔ ∀ a : Fin 2, win11_3.index t a * S5000x128.size a ≤ (i a).val
      ∧ (i a).val < win11_3.index t a * S5000x128.size a + S5000x128.size a := by
  show i ∈ ((View.whole main_v165).slice (win11_3.rect t)).set ↔ _
  rw [View.set_slice_whole, Rect.mem_set_unit]
  exact Iff.rfl

/-- Every entry of the output array is in the block of the point that holds its row: point `r / 5000`. -/
theorem cover11 (i : S100000x128.Idx) :
    ∃ t : Fin cfg11.N, (cfg11.win 3).flush t = true ∧ i ∈ ((cfg11.win 3).blk t).view.set := by
  have hi0 : (i 0).val < 100000 := (i 0).isLt
  have hi1 : (i 1).val < 128 := (i 1).isLt
  have hN : cfg11.N = 20 := N_11
  refine ⟨⟨(i 0).val / 5000, by rw [hN]; omega⟩, flush11_3 _, ?_⟩
  rw [mem_blk11]
  obtain ⟨-, -, -, -, -, -, e0, e1⟩ := idx11 ⟨(i 0).val / 5000, by rw [hN]; omega⟩
  intro a
  match a with
  | ⟨0, _⟩ =>
    show win11_3.index _ (0 : Fin 2) * 5000 ≤ (i 0).val ∧ (i 0).val < win11_3.index _ (0 : Fin 2) * 5000 + 5000
    rw [e0]; show (i 0).val / 5000 * 5000 ≤ (i 0).val ∧ (i 0).val < (i 0).val / 5000 * 5000 + 5000; omega
  | ⟨1, _⟩ =>
    show win11_3.index _ (1 : Fin 2) * 128 ≤ (i 1).val ∧ (i 1).val < win11_3.index _ (1 : Fin 2) * 128 + 128
    rw [e1]; omega

/-- The output array when the region ends: the dense map of the arrays the region found. -/
theorem final11 (c : Dev nD) :
    (dat11 V c).arrAt 3 cfg11.N = Cert.ReferenceIdeal.RefSpec.lin1 (F := Ideal) (V c main_v152) (V c main_v161) (V c main_v164) :=
  (dat11 V c).arrAt_eq_of_cover 3 _ (fun t _ => flushed11 V c t) cover11

end Cert.KernelIdeal.KVal

end
-- ==== Proof.Reg12.lean ====
/-
  Region 12 (a dense map): what its output array holds when the region ends. Grid point `t` loads rows
  `5000 t … 5000 t + 4999` of the source table, the whole weight matrix and the whole bias row, and writes the same
  rows of the output; the twenty blocks tile the 100000 rows. So the array ends at the dense map of the arrays the
  region found: entry `(r, q)` is `∑ i, h (r, i) · w (i, q) + b (0, q)`.
-/
import proofs.«102427_j13013750907161_1_alg».proof.Proof.Gen.KernelIdeal.Frame
import proofs.«102427_j13013750907161_1_alg».proof.Proof.LinPay
import proofs.«102427_j13013750907161_1_alg».proof.Proof.RefIdx

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz12 : (![0, 0] : Fin 2 → Nat) = fun _ => 0 := funext fun a => by fin_cases a <;> rfl

/-- The index maps over the grid: the row windows move with the point, the weight and bias windows stay. -/
theorem idx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- A row of point `t`'s block is row `5000 t + p` of the table. -/
theorem row12_lt (t : Fin cfg12.N) (p : Fin 5000) : t.val * 5000 + p.val < 100000 := by
  have e : cfg12.N = 20 := N_12
  have h1 := t.isLt
  have h2 := p.isLt
  omega
def row12 (t : Fin cfg12.N) (p : Fin 5000) : Fin 100000 := ⟨t.val * 5000 + p.val, row12_lt t p⟩

/-- The source block at point `t`, entry `(p, i)`, is the table at `(5000 t + p, i)`. -/
theorem blk12_0 (c : Dev nD) (t : Fin cfg12.N) (p : Fin 5000) (i : Fin 128) :
    iblk12 V c 0 t (ix2 p i) = V c main_v153 (ix2 (row12 t p) i) := by
  show V c main_v153 (((cfg12.win 0).blk t).view.emb (ix2 p i)) = V c main_v153 (ix2 (row12 t p) i)
  refine congrArg (V c main_v153) (funext fun a => Fin.ext ?_)
  obtain ⟨e0, e1, -⟩ := idx12 t
  match a with
  | ⟨0, _⟩ => show win12_0.index t (0 : Fin 2) * 5000 + 1 * p.val = t.val * 5000 + p.val; omega
  | ⟨1, _⟩ => show win12_0.index t (1 : Fin 2) * 128 + 1 * i.val = i.val; omega

/-- The weight block at any point is the whole matrix. -/
theorem blk12_1 (c : Dev nD) (t : Fin cfg12.N) (i : Fin 128) (q : Fin 128) :
    iblk12 V c 1 t (ix2 i q) = V c main_v167 (ix2 i q) := by
  show V c main_v167 (((cfg12.win 1).blk t).view.emb (ix2 i q)) = V c main_v167 (ix2 i q)
  refine congrArg (V c main_v167) (funext fun a => Fin.ext ?_)
  obtain ⟨-, -, e0, e1, -⟩ := idx12 t
  match a with
  | ⟨0, _⟩ => show win12_1.index t (0 : Fin 2) * 128 + 1 * i.val = i.val; omega
  | ⟨1, _⟩ => show win12_1.index t (1 : Fin 2) * 128 + 1 * q.val = q.val; omega

/-- The bias block at any point is the whole row. -/
theorem blk12_2 (c : Dev nD) (t : Fin cfg12.N) (q : Fin 128) :
    iblk12 V c 2 t (ix2 (0 : Fin 1) q) = V c main_v170 (ix2 (0 : Fin 1) q) := by
  show V c main_v170 (((cfg12.win 2).blk t).view.emb (ix2 (0 : Fin 1) q)) = V c main_v170 (ix2 (0 : Fin 1) q)
  refine congrArg (V c main_v170) (funext fun a => Fin.ext ?_)
  obtain ⟨-, -, -, -, e0, e1, -⟩ := idx12 t
  match a with
  | ⟨0, _⟩ => show win12_2.index t (0 : Fin 2) * 1 + 1 * 0 = 0; omega
  | ⟨1, _⟩ => show win12_2.index t (1 : Fin 2) * 128 + 1 * q.val = q.val; omega

/-- An entry of point `t`'s output block sits at `(5000 t + p, q)` of the output array. -/
theorem emb12_3 (t : Fin cfg12.N) (p : Fin 5000) (q : Fin 128) :
    ((cfg12.win 3).blk t).view.emb (ix2 p q) = ix2 (row12 t p) q := by
  refine funext fun a => Fin.ext ?_
  obtain ⟨-, -, -, -, -, -, e0, e1⟩ := idx12 t
  match a with
  | ⟨0, _⟩ => show win12_3.index t (0 : Fin 2) * 5000 + 1 * p.val = t.val * 5000 + p.val; omega
  | ⟨1, _⟩ => show win12_3.index t (1 : Fin 2) * 128 + 1 * q.val = q.val; omega

/-- What point `t` writes back is block `t` of the dense map of the arrays the region found. -/
theorem flushed12 (c : Dev nD) (t : Fin cfg12.N) :
    (dat12 V c).flushed 3 t
      = ((cfg12.win 3).blk t).view.read (Elt Ideal) (Cert.ReferenceIdeal.RefSpec.lin1 (F := Ideal) (V c main_v153) (V c main_v167) (V c main_v170)) := by
  show (cfg12.win 3).cut (grid12.coords t) ((dat12 V c).after 3 t) = _
  rw [after12_3]
  unfold out12_3
  rw [View.canon_unit_zero hz12]
  simp only [View.ld_unit_zero (S := S5000x128) hz12, View.ld_unit_zero (S := S128x128) hz12, View.ld_unit_zero (S := S1x128) hz12]
  funext j
  obtain ⟨p, q, rfl⟩ : ∃ (p : Fin 5000) (q : Fin 128), j = ix2 p q := ⟨j 0, j 1, eq_ix2 j⟩
  show k12_pay1 (iblk12 V c 0 t) (iblk12 V c 1 t) (iblk12 V c 2 t) (ix2 p q)
    = Cert.ReferenceIdeal.RefSpec.lin1 (F := Ideal) (V c main_v153) (V c main_v167) (V c main_v170) (((cfg12.win 3).blk t).view.emb (ix2 p q))
  rw [emb12_3 t p q]
  refine (pay12_lin_apply (iblk12 V c 0 t) (iblk12 V c 1 t) (iblk12 V c 2 t) p q).trans ?_
  refine Eq.trans ?_ (Cert.ReferenceIdeal.RefIdx.lin1_apply (V c main_v153) (V c main_v167) (V c main_v170) (row12 t p) q).symm
  refine congrArg₂ (· + ·) (Finset.sum_congr rfl fun i _ => ?_) (blk12_2 V c t q)
  exact congrArg₂ (· * ·) (blk12_0 V c t p i) (blk12_1 V c t i q)

/-- An index is in point `t`'s output block iff each coordinate is in the block's range on its axis. -/
theorem mem_blk12 (t : Fin cfg12.N) (i : S100000x128.Idx) :
    i ∈ ((cfg12.win 3).blk t).view.set ↔ ∀ a : Fin 2, win12_3.index t a * S5000x128.size a ≤ (i a).val
      ∧ (i a).val < win12_3.index t a * S5000x128.size a + S5000x128.size a := by
  show i ∈ ((View.whole main_v171).slice (win12_3.rect t)).set ↔ _
  rw [View.set_slice_whole, Rect.mem_set_unit]
  exact Iff.rfl

/-- Every entry of the output array is in the block of the point that holds its row: point `r / 5000`. -/
theorem cover12 (i : S100000x128.Idx) :
    ∃ t : Fin cfg12.N, (cfg12.win 3).flush t = true ∧ i ∈ ((cfg12.win 3).blk t).view.set := by
  have hi0 : (i 0).val < 100000 := (i 0).isLt
  have hi1 : (i 1).val < 128 := (i 1).isLt
  have hN : cfg12.N = 20 := N_12
  refine ⟨⟨(i 0).val / 5000, by rw [hN]; omega⟩, flush12_3 _, ?_⟩
  rw [mem_blk12]
  obtain ⟨-, -, -, -, -, -, e0, e1⟩ := idx12 ⟨(i 0).val / 5000, by rw [hN]; omega⟩
  intro a
  match a with
  | ⟨0, _⟩ =>
    show win12_3.index _ (0 : Fin 2) * 5000 ≤ (i 0).val ∧ (i 0).val < win12_3.index _ (0 : Fin 2) * 5000 + 5000
    rw [e0]; show (i 0).val / 5000 * 5000 ≤ (i 0).val ∧ (i 0).val < (i 0).val / 5000 * 5000 + 5000; omega
  | ⟨1, _⟩ =>
    show win12_3.index _ (1 : Fin 2) * 128 ≤ (i 1).val ∧ (i 1).val < win12_3.index _ (1 : Fin 2) * 128 + 128
    rw [e1]; omega

/-- The output array when the region ends: the dense map of the arrays the region found. -/
theorem final12 (c : Dev nD) :
    (dat12 V c).arrAt 3 cfg12.N = Cert.ReferenceIdeal.RefSpec.lin1 (F := Ideal) (V c main_v153) (V c main_v167) (V c main_v170) :=
  (dat12 V c).arrAt_eq_of_cover 3 _ (fun t _ => flushed12 V c t) cover12

end Cert.KernelIdeal.KVal

end
-- ==== Proof.Reg13.lean ====
/-
  Region 13 (an activation): what its output array holds when the region ends. Grid point `t` loads rows
  `5000 t … 5000 t + 4999` of its two input tables and writes the same rows of the output: the leaky rectifier,
  entry by entry, of their sum; the twenty blocks tile the 100000 rows. So the array ends at the rectifier of
  the sum of the two arrays the region found.
-/
import proofs.«102427_j13013750907161_1_alg».proof.Proof.Gen.KernelIdeal.Frame
import proofs.«102427_j13013750907161_1_alg».proof.Proof.PwPay

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz13 : (![0, 0] : Fin 2 → Nat) = fun _ => 0 := funext fun a => by fin_cases a <;> rfl

/-- The index maps over the grid: every window moves with the point along the rows. -/
theorem idx13 : ∀ t : Fin cfg13.N, win13_0.index t (0 : Fin 2) = t.val
    ∧ win13_0.index t (1 : Fin 2) = 0
    ∧ win13_1.index t (0 : Fin 2) = t.val
    ∧ win13_1.index t (1 : Fin 2) = 0
    ∧ win13_2.index t (0 : Fin 2) = t.val
    ∧ win13_2.index t (1 : Fin 2) = 0 :=
  (by decide +kernel : ∀ t : Fin grid13.N, _)

/-- A row of point `t`'s block is row `5000 t + p` of the table. -/
theorem row13_lt (t : Fin cfg13.N) (p : Fin 5000) : t.val * 5000 + p.val < 100000 := by
  have e : cfg13.N = 20 := N_13
  have h1 := t.isLt
  have h2 := p.isLt
  omega
def row13 (t : Fin cfg13.N) (p : Fin 5000) : Fin 100000 := ⟨t.val * 5000 + p.val, row13_lt t p⟩

/-- Input block 0 at point `t`, entry `(p, q)`, is its table at `(5000 t + p, q)`. -/
theorem blk13_0 (c : Dev nD) (t : Fin cfg13.N) (p : Fin 5000) (q : Fin 128) :
    iblk13 V c 0 t (ix2 p q) = V c main_v190 (ix2 (row13 t p) q) := by
  show V c main_v190 (((cfg13.win 0).blk t).view.emb (ix2 p q)) = V c main_v190 (ix2 (row13 t p) q)
  refine congrArg (V c main_v190) (funext fun a => Fin.ext ?_)
  obtain ⟨e0, e1, -⟩ := idx13 t
  match a with
  | ⟨0, _⟩ => show win13_0.index t (0 : Fin 2) * 5000 + 1 * p.val = t.val * 5000 + p.val; omega
  | ⟨1, _⟩ => show win13_0.index t (1 : Fin 2) * 128 + 1 * q.val = q.val; omega

/-- Input block 1 at point `t`, entry `(p, q)`, is its table at `(5000 t + p, q)`. -/
theorem blk13_1 (c : Dev nD) (t : Fin cfg13.N) (p : Fin 5000) (q : Fin 128) :
    iblk13 V c 1 t (ix2 p q) = V c main_v228 (ix2 (row13 t p) q) := by
  show V c main_v228 (((cfg13.win 1).blk t).view.emb (ix2 p q)) = V c main_v228 (ix2 (row13 t p) q)
  refine congrArg (V c main_v228) (funext fun a => Fin.ext ?_)
  obtain ⟨-, -, e0, e1, -⟩ := idx13 t
  match a with
  | ⟨0, _⟩ => show win13_1.index t (0 : Fin 2) * 5000 + 1 * p.val = t.val * 5000 + p.val; omega
  | ⟨1, _⟩ => show win13_1.index t (1 : Fin 2) * 128 + 1 * q.val = q.val; omega

/-- An entry of point `t`'s output block sits at `(5000 t + p, q)` of the output array. -/
theorem emb13_o (t : Fin cfg13.N) (p : Fin 5000) (q : Fin 128) :
    ((cfg13.win 2).blk t).view.emb (ix2 p q) = ix2 (row13 t p) q := by
  refine funext fun a => Fin.ext ?_
  obtain ⟨-, -, -, -, e0, e1⟩ := idx13 t
  match a with
  | ⟨0, _⟩ => show win13_2.index t (0 : Fin 2) * 5000 + 1 * p.val = t.val * 5000 + p.val; omega
  | ⟨1, _⟩ => show win13_2.index t (1 : Fin 2) * 128 + 1 * q.val = q.val; omega

/-- What point `t` writes back is block `t` of the rectifier of the arrays the region found. -/
theorem flushed13 (c : Dev nD) (t : Fin cfg13.N) :
    (dat13 V c).flushed 2 t = ((cfg13.win 2).blk t).view.read (Elt Ideal) (Cert.ReferenceIdeal.RefSpec.leaky (F := Ideal) (addf (V c main_v190) (V c main_v228) : FVec Ideal Cert.ReferenceIdeal.S100000x128 .f32)) := by
  show (cfg13.win 2).cut (grid13.coords t) ((dat13 V c).after 2 t) = _
  rw [after13_2]
  unfold out13_2
  rw [View.canon_unit_zero hz13]
  simp only [View.ld_unit_zero (S := S5000x128) hz13]
  funext j
  obtain ⟨p, q, rfl⟩ : ∃ (p : Fin 5000) (q : Fin 128), j = ix2 p q := ⟨j 0, j 1, eq_ix2 j⟩
  show k13_pay1 (iblk13 V c 0 t) (iblk13 V c 1 t) (ix2 p q) = (Cert.ReferenceIdeal.RefSpec.leaky (F := Ideal) (addf (V c main_v190) (V c main_v228) : FVec Ideal Cert.ReferenceIdeal.S100000x128 .f32)) (((cfg13.win 2).blk t).view.emb (ix2 p q))
  rw [emb13_o t p q]
  exact pay13_addleaky_apply (F := Ideal) (iblk13 V c 0 t) (iblk13 V c 1 t) (V c main_v190) (V c main_v228) (ix2 p q) (ix2 (row13 t p) q) (blk13_0 V c t p q) (blk13_1 V c t p q)

/-- An index is in point `t`'s output block iff each coordinate is in the block's range on its axis. -/
theorem mem_blk13 (t : Fin cfg13.N) (i : S100000x128.Idx) :
    i ∈ ((cfg13.win 2).blk t).view.set ↔ ∀ a : Fin 2, win13_2.index t a * S5000x128.size a ≤ (i a).val
      ∧ (i a).val < win13_2.index t a * S5000x128.size a + S5000x128.size a := by
  show i ∈ ((View.whole main_v229).slice (win13_2.rect t)).set ↔ _
  rw [View.set_slice_whole, Rect.mem_set_unit]
  exact Iff.rfl

/-- Every entry of the output array is in the block of the point that holds its row: point `r / 5000`. -/
theorem cover13 (i : S100000x128.Idx) :
    ∃ t : Fin cfg13.N, (cfg13.win 2).flush t = true ∧ i ∈ ((cfg13.win 2).blk t).view.set := by
  have hi0 : (i 0).val < 100000 := (i 0).isLt
  have hi1 : (i 1).val < 128 := (i 1).isLt
  have hN : cfg13.N = 20 := N_13
  refine ⟨⟨(i 0).val / 5000, by rw [hN]; omega⟩, flush13_2 _, ?_⟩
  rw [mem_blk13]
  obtain ⟨-, -, -, -, e0, e1⟩ := idx13 ⟨(i 0).val / 5000, by rw [hN]; omega⟩
  intro a
  match a with
  | ⟨0, _⟩ =>
    show win13_2.index _ (0 : Fin 2) * 5000 ≤ (i 0).val ∧ (i 0).val < win13_2.index _ (0 : Fin 2) * 5000 + 5000
    rw [e0]; show (i 0).val / 5000 * 5000 ≤ (i 0).val ∧ (i 0).val < (i 0).val / 5000 * 5000 + 5000; omega
  | ⟨1, _⟩ =>
    show win13_2.index _ (1 : Fin 2) * 128 ≤ (i 1).val ∧ (i 1).val < win13_2.index _ (1 : Fin 2) * 128 + 128
    rw [e1]; omega

/-- The output array when the region ends: the rectifier of the arrays the region found. -/
theorem final13 (c : Dev nD) : (dat13 V c).arrAt 2 cfg13.N = Cert.ReferenceIdeal.RefSpec.leaky (F := Ideal) (addf (V c main_v190) (V c main_v228) : FVec Ideal Cert.ReferenceIdeal.S100000x128 .f32) :=
  (dat13 V c).arrAt_eq_of_cover 2 _ (fun t _ => flushed13 V c t) cover13

end Cert.KernelIdeal.KVal

end
-- ==== Proof.Reg14.lean ====
/-
  Region 14 (an activation): what its output array holds when the region ends. Grid point `t` loads rows
  `5000 t … 5000 t + 4999` of its input table and writes the same rows of the output: the leaky rectifier,
  entry by entry, of the table; the twenty blocks tile the 100000 rows. So the array ends at the rectifier of
  the array the region found.
-/
import proofs.«102427_j13013750907161_1_alg».proof.Proof.Gen.KernelIdeal.Frame
import proofs.«102427_j13013750907161_1_alg».proof.Proof.PwPay

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz14 : (![0, 0] : Fin 2 → Nat) = fun _ => 0 := funext fun a => by fin_cases a <;> rfl

/-- The index maps over the grid: every window moves with the point along the rows. -/
theorem idx14 : ∀ t : Fin cfg14.N, win14_0.index t (0 : Fin 2) = t.val
    ∧ win14_0.index t (1 : Fin 2) = 0
    ∧ win14_1.index t (0 : Fin 2) = t.val
    ∧ win14_1.index t (1 : Fin 2) = 0 :=
  (by decide +kernel : ∀ t : Fin grid14.N, _)

/-- A row of point `t`'s block is row `5000 t + p` of the table. -/
theorem row14_lt (t : Fin cfg14.N) (p : Fin 5000) : t.val * 5000 + p.val < 100000 := by
  have e : cfg14.N = 20 := N_14
  have h1 := t.isLt
  have h2 := p.isLt
  omega
def row14 (t : Fin cfg14.N) (p : Fin 5000) : Fin 100000 := ⟨t.val * 5000 + p.val, row14_lt t p⟩

/-- Input block 0 at point `t`, entry `(p, q)`, is its table at `(5000 t + p, q)`. -/
theorem blk14_0 (c : Dev nD) (t : Fin cfg14.N) (p : Fin 5000) (q : Fin 128) :
    iblk14 V c 0 t (ix2 p q) = V c main_v209 (ix2 (row14 t p) q) := by
  show V c main_v209 (((cfg14.win 0).blk t).view.emb (ix2 p q)) = V c main_v209 (ix2 (row14 t p) q)
  refine congrArg (V c main_v209) (funext fun a => Fin.ext ?_)
  obtain ⟨e0, e1, -⟩ := idx14 t
  match a with
  | ⟨0, _⟩ => show win14_0.index t (0 : Fin 2) * 5000 + 1 * p.val = t.val * 5000 + p.val; omega
  | ⟨1, _⟩ => show win14_0.index t (1 : Fin 2) * 128 + 1 * q.val = q.val; omega

/-- An entry of point `t`'s output block sits at `(5000 t + p, q)` of the output array. -/
theorem emb14_o (t : Fin cfg14.N) (p : Fin 5000) (q : Fin 128) :
    ((cfg14.win 1).blk t).view.emb (ix2 p q) = ix2 (row14 t p) q := by
  refine funext fun a => Fin.ext ?_
  obtain ⟨-, -, e0, e1⟩ := idx14 t
  match a with
  | ⟨0, _⟩ => show win14_1.index t (0 : Fin 2) * 5000 + 1 * p.val = t.val * 5000 + p.val; omega
  | ⟨1, _⟩ => show win14_1.index t (1 : Fin 2) * 128 + 1 * q.val = q.val; omega

/-- What point `t` writes back is block `t` of the rectifier of the arrays the region found. -/
theorem flushed14 (c : Dev nD) (t : Fin cfg14.N) :
    (dat14 V c).flushed 1 t = ((cfg14.win 1).blk t).view.read (Elt Ideal) (Cert.ReferenceIdeal.RefSpec.leaky (F := Ideal) (V c main_v209)) := by
  show (cfg14.win 1).cut (grid14.coords t) ((dat14 V c).after 1 t) = _
  rw [after14_1]
  unfold out14_1
  rw [View.canon_unit_zero hz14]
  simp only [View.ld_unit_zero (S := S5000x128) hz14]
  funext j
  obtain ⟨p, q, rfl⟩ : ∃ (p : Fin 5000) (q : Fin 128), j = ix2 p q := ⟨j 0, j 1, eq_ix2 j⟩
  show k14_pay1 (iblk14 V c 0 t) (ix2 p q) = (Cert.ReferenceIdeal.RefSpec.leaky (F := Ideal) (V c main_v209)) (((cfg14.win 1).blk t).view.emb (ix2 p q))
  rw [emb14_o t p q]
  exact pay14_leaky_apply (F := Ideal) (iblk14 V c 0 t) (V c main_v209) (ix2 p q) (ix2 (row14 t p) q) (blk14_0 V c t p q)

/-- An index is in point `t`'s output block iff each coordinate is in the block's range on its axis. -/
theorem mem_blk14 (t : Fin cfg14.N) (i : S100000x128.Idx) :
    i ∈ ((cfg14.win 1).blk t).view.set ↔ ∀ a : Fin 2, win14_1.index t a * S5000x128.size a ≤ (i a).val
      ∧ (i a).val < win14_1.index t a * S5000x128.size a + S5000x128.size a := by
  show i ∈ ((View.whole main_v230).slice (win14_1.rect t)).set ↔ _
  rw [View.set_slice_whole, Rect.mem_set_unit]
  exact Iff.rfl

/-- Every entry of the output array is in the block of the point that holds its row: point `r / 5000`. -/
theorem cover14 (i : S100000x128.Idx) :
    ∃ t : Fin cfg14.N, (cfg14.win 1).flush t = true ∧ i ∈ ((cfg14.win 1).blk t).view.set := by
  have hi0 : (i 0).val < 100000 := (i 0).isLt
  have hi1 : (i 1).val < 128 := (i 1).isLt
  have hN : cfg14.N = 20 := N_14
  refine ⟨⟨(i 0).val / 5000, by rw [hN]; omega⟩, flush14_1 _, ?_⟩
  rw [mem_blk14]
  obtain ⟨-, -, e0, e1⟩ := idx14 ⟨(i 0).val / 5000, by rw [hN]; omega⟩
  intro a
  match a with
  | ⟨0, _⟩ =>
    show win14_1.index _ (0 : Fin 2) * 5000 ≤ (i 0).val ∧ (i 0).val < win14_1.index _ (0 : Fin 2) * 5000 + 5000
    rw [e0]; show (i 0).val / 5000 * 5000 ≤ (i 0).val ∧ (i 0).val < (i 0).val / 5000 * 5000 + 5000; omega
  | ⟨1, _⟩ =>
    show win14_1.index _ (1 : Fin 2) * 128 ≤ (i 1).val ∧ (i 1).val < win14_1.index _ (1 : Fin 2) * 128 + 128
    rw [e1]; omega

/-- The output array when the region ends: the rectifier of the arrays the region found. -/
theorem final14 (c : Dev nD) : (dat14 V c).arrAt 1 cfg14.N = Cert.ReferenceIdeal.RefSpec.leaky (F := Ideal) (V c main_v209) :=
  (dat14 V c).arrAt_eq_of_cover 1 _ (fun t _ => flushed14 V c t) cover14

end Cert.KernelIdeal.KVal

end
-- ==== Proof.ChainLemmas.lean ====
/-
  What each segment of the idealized kernel program's run keeps and writes, boundary by boundary: a stretch of host
  operations keeps every buffer it does not write; a region keeps every buffer that is not one of its arrays, leaves
  its input arrays in place, and ends with its output array at its dense map or rectifier of the arrays it found.
  And the bias row: a cast of 128 entries to 1 × 128 is their broadcast along a new leading axis.
-/
import proofs.«102427_j13013750907161_1_alg».proof.Proof.KRun
import proofs.«102427_j13013750907161_1_alg».proof.Proof.HostSmall
import proofs.«102427_j13013750907161_1_alg».proof.Proof.Host3
import proofs.«102427_j13013750907161_1_alg».proof.Proof.Host8
import proofs.«102427_j13013750907161_1_alg».proof.Proof.Host13
import proofs.«102427_j13013750907161_1_alg».proof.Proof.Reg0
import proofs.«102427_j13013750907161_1_alg».proof.Proof.Reg1
import proofs.«102427_j13013750907161_1_alg».proof.Proof.Reg2
import proofs.«102427_j13013750907161_1_alg».proof.Proof.Reg3
import proofs.«102427_j13013750907161_1_alg».proof.Proof.Reg4
import proofs.«102427_j13013750907161_1_alg».proof.Proof.Reg5
import proofs.«102427_j13013750907161_1_alg».proof.Proof.Reg6
import proofs.«102427_j13013750907161_1_alg».proof.Proof.Reg7
import proofs.«102427_j13013750907161_1_alg».proof.Proof.Reg8
import proofs.«102427_j13013750907161_1_alg».proof.Proof.Reg9
import proofs.«102427_j13013750907161_1_alg».proof.Proof.Reg10
import proofs.«102427_j13013750907161_1_alg».proof.Proof.Reg11
import proofs.«102427_j13013750907161_1_alg».proof.Proof.Reg12
import proofs.«102427_j13013750907161_1_alg».proof.Proof.Reg13
import proofs.«102427_j13013750907161_1_alg».proof.Proof.Reg14
import Idealize.ShloMosaic.Lib.ValueLayout

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo
open Idealize.ShloMosaic.ValueIdx

/-! ## The bias row: a cast of 128 entries to 1 × 128 is their broadcast along a new leading axis -/

theorem biasRow {F : FTy → Type} [FloatOps F] (b : FVec F Cert.ReferenceIdeal.S128 .f32) :
    shapeCast S1x128 b shapeCasts_S128_S1x128
      = broadcastInDim Cert.ReferenceIdeal.S1x128 ![1] Cert.ReferenceIdeal.Gen.bcast_S128_S1x128_1 b := by
  funext j
  obtain ⟨u, q, rfl⟩ : ∃ (u : Fin 1) (q : Fin 128), j = ix2 u q := ⟨j 0, j 1, eq_ix2 j⟩
  refine (shapeCast_a_1a_apply b _ u q).trans ?_
  refine (broadcastInDim_apply _ _ b (ix2 u q) (ix1 q) fun a => ?_).symm
  match a with
  | ⟨0, _⟩ => rfl

/-- The dense map over a cast bias row is the reference's dense map. -/
theorem lin1_cast {F : FTy → Type} [FloatOps F] (h : FVec F Cert.ReferenceIdeal.S100000x128 .f32)
    (w : FVec F Cert.ReferenceIdeal.S128x128 .f32) (b : FVec F Cert.ReferenceIdeal.S128 .f32) :
    Cert.ReferenceIdeal.RefSpec.lin1 h w (shapeCast S1x128 b shapeCasts_S128_S1x128) = Cert.ReferenceIdeal.RefSpec.lin h w b := by
  unfold Cert.ReferenceIdeal.RefSpec.lin
  rw [biasRow]

variable (m : (ℓ : Loc nD τ sig) → Buf (Elt Ideal) ℓ) (ρ : Dev nD → PrngReg)

/-! ## What each segment keeps -/
theorem kp0 (V : Valuation τ sig (Elt Ideal)) (r : Ref sig .tc) (h : r ∉ KHost.wr0) :
    after hostOps0 V (no_index (Proc.devRef .tc r)) = V (Proc.devRef .tc r) := KHost.keep0 V r h
theorem kp1 (V : Valuation τ sig (Elt Ideal)) (r : Ref sig .tc) (h : r ∉ KHost.wr1) :
    after hostOps1 V (no_index (Proc.devRef .tc r)) = V (Proc.devRef .tc r) := KHost.keep1 V r h
theorem kp2 (V : Valuation τ sig (Elt Ideal)) (r : Ref sig .tc) (h : r ∉ KHost.wr2) :
    after hostOps2 V (no_index (Proc.devRef .tc r)) = V (Proc.devRef .tc r) := KHost.keep2 V r h
theorem kp3 (V : Valuation τ sig (Elt Ideal)) (r : Ref sig .tc) (h : r ∉ KHost.wr3) :
    after hostOps3 V (no_index (Proc.devRef .tc r)) = V (Proc.devRef .tc r) := KHost.keep3 V r h
theorem kp5 (V : Valuation τ sig (Elt Ideal)) (r : Ref sig .tc) (h : r ∉ KHost.wr5) :
    after hostOps5 V (no_index (Proc.devRef .tc r)) = V (Proc.devRef .tc r) := KHost.keep5 V r h
theorem kp6 (V : Valuation τ sig (Elt Ideal)) (r : Ref sig .tc) (h : r ∉ KHost.wr6) :
    after hostOps6 V (no_index (Proc.devRef .tc r)) = V (Proc.devRef .tc r) := KHost.keep6 V r h
theorem kp7 (V : Valuation τ sig (Elt Ideal)) (r : Ref sig .tc) (h : r ∉ KHost.wr7) :
    after hostOps7 V (no_index (Proc.devRef .tc r)) = V (Proc.devRef .tc r) := KHost.keep7 V r h
theorem kp8 (V : Valuation τ sig (Elt Ideal)) (r : Ref sig .tc) (h : r ∉ KHost.wr8) :
    after hostOps8 V (no_index (Proc.devRef .tc r)) = V (Proc.devRef .tc r) := KHost.keep8 V r h
theorem kp10 (V : Valuation τ sig (Elt Ideal)) (r : Ref sig .tc) (h : r ∉ KHost.wr10) :
    after hostOps10 V (no_index (Proc.devRef .tc r)) = V (Proc.devRef .tc r) := KHost.keep10 V r h
theorem kp11 (V : Valuation τ sig (Elt Ideal)) (r : Ref sig .tc) (h : r ∉ KHost.wr11) :
    after hostOps11 V (no_index (Proc.devRef .tc r)) = V (Proc.devRef .tc r) := KHost.keep11 V r h
theorem kp12 (V : Valuation τ sig (Elt Ideal)) (r : Ref sig .tc) (h : r ∉ KHost.wr12) :
    after hostOps12 V (no_index (Proc.devRef .tc r)) = V (Proc.devRef .tc r) := KHost.keep12 V r h
theorem kp13 (V : Valuation τ sig (Elt Ideal)) (r : Ref sig .tc) (h : r ∉ KHost.wr13) :
    after hostOps13 V (no_index (Proc.devRef .tc r)) = V (Proc.devRef .tc r) := KHost.keep13 V r h
theorem kp15 (V : Valuation τ sig (Elt Ideal)) (r : Ref sig .tc) (h : r ∉ KHost.wr15) :
    after hostOps15 V (no_index (Proc.devRef .tc r)) = V (Proc.devRef .tc r) := KHost.keep15 V r h
theorem ne2 (c : Dev nD) (r : Ref sig .tc) (hr : ∀ w, Pipeline.arrRef spec0 w ≠ r) :
    W2 m ρ c (no_index (Proc.devRef .tc r)) = W1 m ρ c (Proc.devRef .tc r) := W2_of_ne m ρ c r hr
theorem ne4 (c : Dev nD) (r : Ref sig .tc) (hr : ∀ w, Pipeline.arrRef spec1 w ≠ r) :
    W4 m ρ c (no_index (Proc.devRef .tc r)) = W3 m ρ c (Proc.devRef .tc r) := W4_of_ne m ρ c r hr
theorem ne6 (c : Dev nD) (r : Ref sig .tc) (hr : ∀ w, Pipeline.arrRef spec2 w ≠ r) :
    W6 m ρ c (no_index (Proc.devRef .tc r)) = W5 m ρ c (Proc.devRef .tc r) := W6_of_ne m ρ c r hr
theorem ne8 (c : Dev nD) (r : Ref sig .tc) (hr : ∀ w, Pipeline.arrRef spec3 w ≠ r) :
    W8 m ρ c (no_index (Proc.devRef .tc r)) = W7 m ρ c (Proc.devRef .tc r) := W8_of_ne m ρ c r hr
theorem ne9 (c : Dev nD) (r : Ref sig .tc) (hr : ∀ w, Pipeline.arrRef spec4 w ≠ r) :
    W9 m ρ c (no_index (Proc.devRef .tc r)) = W8 m ρ c (Proc.devRef .tc r) := W9_of_ne m ρ c r hr
theorem ne11 (c : Dev nD) (r : Ref sig .tc) (hr : ∀ w, Pipeline.arrRef spec5 w ≠ r) :
    W11 m ρ c (no_index (Proc.devRef .tc r)) = W10 m ρ c (Proc.devRef .tc r) := W11_of_ne m ρ c r hr
theorem ne13 (c : Dev nD) (r : Ref sig .tc) (hr : ∀ w, Pipeline.arrRef spec6 w ≠ r) :
    W13 m ρ c (no_index (Proc.devRef .tc r)) = W12 m ρ c (Proc.devRef .tc r) := W13_of_ne m ρ c r hr
theorem ne15 (c : Dev nD) (r : Ref sig .tc) (hr : ∀ w, Pipeline.arrRef spec7 w ≠ r) :
    W15 m ρ c (no_index (Proc.devRef .tc r)) = W14 m ρ c (Proc.devRef .tc r) := W15_of_ne m ρ c r hr
theorem ne17 (c : Dev nD) (r : Ref sig .tc) (hr : ∀ w, Pipeline.arrRef spec8 w ≠ r) :
    W17 m ρ c (no_index (Proc.devRef .tc r)) = W16 m ρ c (Proc.devRef .tc r) := W17_of_ne m ρ c r hr
theorem ne18 (c : Dev nD) (r : Ref sig .tc) (hr : ∀ w, Pipeline.arrRef spec9 w ≠ r) :
    W18 m ρ c (no_index (Proc.devRef .tc r)) = W17 m ρ c (Proc.devRef .tc r) := W18_of_ne m ρ c r hr
theorem ne20 (c : Dev nD) (r : Ref sig .tc) (hr : ∀ w, Pipeline.arrRef spec10 w ≠ r) :
    W20 m ρ c (no_index (Proc.devRef .tc r)) = W19 m ρ c (Proc.devRef .tc r) := W20_of_ne m ρ c r hr
theorem ne22 (c : Dev nD) (r : Ref sig .tc) (hr : ∀ w, Pipeline.arrRef spec11 w ≠ r) :
    W22 m ρ c (no_index (Proc.devRef .tc r)) = W21 m ρ c (Proc.devRef .tc r) := W22_of_ne m ρ c r hr
theorem ne24 (c : Dev nD) (r : Ref sig .tc) (hr : ∀ w, Pipeline.arrRef spec12 w ≠ r) :
    W24 m ρ c (no_index (Proc.devRef .tc r)) = W23 m ρ c (Proc.devRef .tc r) := W24_of_ne m ρ c r hr
theorem ne26 (c : Dev nD) (r : Ref sig .tc) (hr : ∀ w, Pipeline.arrRef spec13 w ≠ r) :
    W26 m ρ c (no_index (Proc.devRef .tc r)) = W25 m ρ c (Proc.devRef .tc r) := W26_of_ne m ρ c r hr
theorem ne27 (c : Dev nD) (r : Ref sig .tc) (hr : ∀ w, Pipeline.arrRef spec14 w ≠ r) :
    W27 m ρ c (no_index (Proc.devRef .tc r)) = W26 m ρ c (Proc.devRef .tc r) := W27_of_ne m ρ c r hr

/-! ## What each region reads is left in place, and what it writes -/
theorem in0_0 (c : Dev nD) : W2 m ρ c (no_index (Proc.devRef .tc main_arg0)) = W1 m ρ c (Proc.devRef .tc main_arg0) :=
  (W2_arr m ρ c 0).trans (((dat0 (V1 m ρ) c).arrAt_in 0 rfl _).trans (A_eq0 (V1 m ρ) c 0))
theorem in0_1 (c : Dev nD) : W2 m ρ c (no_index (Proc.devRef .tc main_v1)) = W1 m ρ c (Proc.devRef .tc main_v1) :=
  (W2_arr m ρ c 1).trans (((dat0 (V1 m ρ) c).arrAt_in 1 rfl _).trans (A_eq0 (V1 m ρ) c 1))
theorem in0_2 (c : Dev nD) : W2 m ρ c (no_index (Proc.devRef .tc main_v4)) = W1 m ρ c (Proc.devRef .tc main_v4) :=
  (W2_arr m ρ c 2).trans (((dat0 (V1 m ρ) c).arrAt_in 2 rfl _).trans (A_eq0 (V1 m ρ) c 2))
theorem out0 (c : Dev nD) : W2 m ρ c (no_index (Proc.devRef .tc main_v5)) = Cert.ReferenceIdeal.RefSpec.lin1 (W1 m ρ c (Proc.devRef .tc main_arg0)) (W1 m ρ c (Proc.devRef .tc main_v1)) (W1 m ρ c (Proc.devRef .tc main_v4)) :=
  (W2_arr m ρ c 3).trans (KVal.final0 (V1 m ρ) c)
theorem in1_0 (c : Dev nD) : W4 m ρ c (no_index (Proc.devRef .tc main_arg0)) = W3 m ρ c (Proc.devRef .tc main_arg0) :=
  (W4_arr m ρ c 0).trans (((dat1 (V3 m ρ) c).arrAt_in 0 rfl _).trans (A_eq1 (V3 m ρ) c 0))
theorem in1_1 (c : Dev nD) : W4 m ρ c (no_index (Proc.devRef .tc main_v7)) = W3 m ρ c (Proc.devRef .tc main_v7) :=
  (W4_arr m ρ c 1).trans (((dat1 (V3 m ρ) c).arrAt_in 1 rfl _).trans (A_eq1 (V3 m ρ) c 1))
theorem in1_2 (c : Dev nD) : W4 m ρ c (no_index (Proc.devRef .tc main_v10)) = W3 m ρ c (Proc.devRef .tc main_v10) :=
  (W4_arr m ρ c 2).trans (((dat1 (V3 m ρ) c).arrAt_in 2 rfl _).trans (A_eq1 (V3 m ρ) c 2))
theorem out1 (c : Dev nD) : W4 m ρ c (no_index (Proc.devRef .tc main_v11)) = Cert.ReferenceIdeal.RefSpec.lin1 (W3 m ρ c (Proc.devRef .tc main_arg0)) (W3 m ρ c (Proc.devRef .tc main_v7)) (W3 m ρ c (Proc.devRef .tc main_v10)) :=
  (W4_arr m ρ c 3).trans (KVal.final1 (V3 m ρ) c)
theorem in2_0 (c : Dev nD) : W6 m ρ c (no_index (Proc.devRef .tc main_arg1)) = W5 m ρ c (Proc.devRef .tc main_arg1) :=
  (W6_arr m ρ c 0).trans (((dat2 (V5 m ρ) c).arrAt_in 0 rfl _).trans (A_eq2 (V5 m ρ) c 0))
theorem in2_1 (c : Dev nD) : W6 m ρ c (no_index (Proc.devRef .tc main_v13)) = W5 m ρ c (Proc.devRef .tc main_v13) :=
  (W6_arr m ρ c 1).trans (((dat2 (V5 m ρ) c).arrAt_in 1 rfl _).trans (A_eq2 (V5 m ρ) c 1))
theorem in2_2 (c : Dev nD) : W6 m ρ c (no_index (Proc.devRef .tc main_v16)) = W5 m ρ c (Proc.devRef .tc main_v16) :=
  (W6_arr m ρ c 2).trans (((dat2 (V5 m ρ) c).arrAt_in 2 rfl _).trans (A_eq2 (V5 m ρ) c 2))
theorem out2 (c : Dev nD) : W6 m ρ c (no_index (Proc.devRef .tc main_v17)) = Cert.ReferenceIdeal.RefSpec.lin1 (W5 m ρ c (Proc.devRef .tc main_arg1)) (W5 m ρ c (Proc.devRef .tc main_v13)) (W5 m ρ c (Proc.devRef .tc main_v16)) :=
  (W6_arr m ρ c 3).trans (KVal.final2 (V5 m ρ) c)
theorem in3_0 (c : Dev nD) : W8 m ρ c (no_index (Proc.devRef .tc main_v36)) = W7 m ρ c (Proc.devRef .tc main_v36) :=
  (W8_arr m ρ c 0).trans (((dat3 (V7 m ρ) c).arrAt_in 0 rfl _).trans (A_eq3 (V7 m ρ) c 0))
theorem in3_1 (c : Dev nD) : W8 m ρ c (no_index (Proc.devRef .tc main_v74)) = W7 m ρ c (Proc.devRef .tc main_v74) :=
  (W8_arr m ρ c 1).trans (((dat3 (V7 m ρ) c).arrAt_in 1 rfl _).trans (A_eq3 (V7 m ρ) c 1))
theorem out3 (c : Dev nD) : W8 m ρ c (no_index (Proc.devRef .tc main_v75)) = Cert.ReferenceIdeal.RefSpec.leaky (addf (W7 m ρ c (Proc.devRef .tc main_v36)) (W7 m ρ c (Proc.devRef .tc main_v74)) : FVec Ideal Cert.ReferenceIdeal.S100000x128 .f32) :=
  (W8_arr m ρ c 2).trans (KVal.final3 (V7 m ρ) c)
theorem in4_0 (c : Dev nD) : W9 m ρ c (no_index (Proc.devRef .tc main_v55)) = W8 m ρ c (Proc.devRef .tc main_v55) :=
  (W9_arr m ρ c 0).trans (((dat4 (V8 m ρ) c).arrAt_in 0 rfl _).trans (A_eq4 (V8 m ρ) c 0))
theorem out4 (c : Dev nD) : W9 m ρ c (no_index (Proc.devRef .tc main_v76)) = Cert.ReferenceIdeal.RefSpec.leaky (W8 m ρ c (Proc.devRef .tc main_v55)) :=
  (W9_arr m ρ c 1).trans (KVal.final4 (V8 m ρ) c)
theorem in5_0 (c : Dev nD) : W11 m ρ c (no_index (Proc.devRef .tc main_v75)) = W10 m ρ c (Proc.devRef .tc main_v75) :=
  (W11_arr m ρ c 0).trans (((dat5 (V10 m ρ) c).arrAt_in 0 rfl _).trans (A_eq5 (V10 m ρ) c 0))
theorem in5_1 (c : Dev nD) : W11 m ρ c (no_index (Proc.devRef .tc main_v78)) = W10 m ρ c (Proc.devRef .tc main_v78) :=
  (W11_arr m ρ c 1).trans (((dat5 (V10 m ρ) c).arrAt_in 1 rfl _).trans (A_eq5 (V10 m ρ) c 1))
theorem in5_2 (c : Dev nD) : W11 m ρ c (no_index (Proc.devRef .tc main_v81)) = W10 m ρ c (Proc.devRef .tc main_v81) :=
  (W11_arr m ρ c 2).trans (((dat5 (V10 m ρ) c).arrAt_in 2 rfl _).trans (A_eq5 (V10 m ρ) c 2))
theorem out5 (c : Dev nD) : W11 m ρ c (no_index (Proc.devRef .tc main_v82)) = Cert.ReferenceIdeal.RefSpec.lin1 (W10 m ρ c (Proc.devRef .tc main_v75)) (W10 m ρ c (Proc.devRef .tc main_v78)) (W10 m ρ c (Proc.devRef .tc main_v81)) :=
  (W11_arr m ρ c 3).trans (KVal.final5 (V10 m ρ) c)
theorem in6_0 (c : Dev nD) : W13 m ρ c (no_index (Proc.devRef .tc main_v75)) = W12 m ρ c (Proc.devRef .tc main_v75) :=
  (W13_arr m ρ c 0).trans (((dat6 (V12 m ρ) c).arrAt_in 0 rfl _).trans (A_eq6 (V12 m ρ) c 0))
theorem in6_1 (c : Dev nD) : W13 m ρ c (no_index (Proc.devRef .tc main_v84)) = W12 m ρ c (Proc.devRef .tc main_v84) :=
  (W13_arr m ρ c 1).trans (((dat6 (V12 m ρ) c).arrAt_in 1 rfl _).trans (A_eq6 (V12 m ρ) c 1))
theorem in6_2 (c : Dev nD) : W13 m ρ c (no_index (Proc.devRef .tc main_v87)) = W12 m ρ c (Proc.devRef .tc main_v87) :=
  (W13_arr m ρ c 2).trans (((dat6 (V12 m ρ) c).arrAt_in 2 rfl _).trans (A_eq6 (V12 m ρ) c 2))
theorem out6 (c : Dev nD) : W13 m ρ c (no_index (Proc.devRef .tc main_v88)) = Cert.ReferenceIdeal.RefSpec.lin1 (W12 m ρ c (Proc.devRef .tc main_v75)) (W12 m ρ c (Proc.devRef .tc main_v84)) (W12 m ρ c (Proc.devRef .tc main_v87)) :=
  (W13_arr m ρ c 3).trans (KVal.final6 (V12 m ρ) c)
theorem in7_0 (c : Dev nD) : W15 m ρ c (no_index (Proc.devRef .tc main_v76)) = W14 m ρ c (Proc.devRef .tc main_v76) :=
  (W15_arr m ρ c 0).trans (((dat7 (V14 m ρ) c).arrAt_in 0 rfl _).trans (A_eq7 (V14 m ρ) c 0))
theorem in7_1 (c : Dev nD) : W15 m ρ c (no_index (Proc.devRef .tc main_v90)) = W14 m ρ c (Proc.devRef .tc main_v90) :=
  (W15_arr m ρ c 1).trans (((dat7 (V14 m ρ) c).arrAt_in 1 rfl _).trans (A_eq7 (V14 m ρ) c 1))
theorem in7_2 (c : Dev nD) : W15 m ρ c (no_index (Proc.devRef .tc main_v93)) = W14 m ρ c (Proc.devRef .tc main_v93) :=
  (W15_arr m ρ c 2).trans (((dat7 (V14 m ρ) c).arrAt_in 2 rfl _).trans (A_eq7 (V14 m ρ) c 2))
theorem out7 (c : Dev nD) : W15 m ρ c (no_index (Proc.devRef .tc main_v94)) = Cert.ReferenceIdeal.RefSpec.lin1 (W14 m ρ c (Proc.devRef .tc main_v76)) (W14 m ρ c (Proc.devRef .tc main_v90)) (W14 m ρ c (Proc.devRef .tc main_v93)) :=
  (W15_arr m ρ c 3).trans (KVal.final7 (V14 m ρ) c)
theorem in8_0 (c : Dev nD) : W17 m ρ c (no_index (Proc.devRef .tc main_v113)) = W16 m ρ c (Proc.devRef .tc main_v113) :=
  (W17_arr m ρ c 0).trans (((dat8 (V16 m ρ) c).arrAt_in 0 rfl _).trans (A_eq8 (V16 m ρ) c 0))
theorem in8_1 (c : Dev nD) : W17 m ρ c (no_index (Proc.devRef .tc main_v151)) = W16 m ρ c (Proc.devRef .tc main_v151) :=
  (W17_arr m ρ c 1).trans (((dat8 (V16 m ρ) c).arrAt_in 1 rfl _).trans (A_eq8 (V16 m ρ) c 1))
theorem out8 (c : Dev nD) : W17 m ρ c (no_index (Proc.devRef .tc main_v152)) = Cert.ReferenceIdeal.RefSpec.leaky (addf (W16 m ρ c (Proc.devRef .tc main_v113)) (W16 m ρ c (Proc.devRef .tc main_v151)) : FVec Ideal Cert.ReferenceIdeal.S100000x128 .f32) :=
  (W17_arr m ρ c 2).trans (KVal.final8 (V16 m ρ) c)
theorem in9_0 (c : Dev nD) : W18 m ρ c (no_index (Proc.devRef .tc main_v132)) = W17 m ρ c (Proc.devRef .tc main_v132) :=
  (W18_arr m ρ c 0).trans (((dat9 (V17 m ρ) c).arrAt_in 0 rfl _).trans (A_eq9 (V17 m ρ) c 0))
theorem out9 (c : Dev nD) : W18 m ρ c (no_index (Proc.devRef .tc main_v153)) = Cert.ReferenceIdeal.RefSpec.leaky (W17 m ρ c (Proc.devRef .tc main_v132)) :=
  (W18_arr m ρ c 1).trans (KVal.final9 (V17 m ρ) c)
theorem in10_0 (c : Dev nD) : W20 m ρ c (no_index (Proc.devRef .tc main_v152)) = W19 m ρ c (Proc.devRef .tc main_v152) :=
  (W20_arr m ρ c 0).trans (((dat10 (V19 m ρ) c).arrAt_in 0 rfl _).trans (A_eq10 (V19 m ρ) c 0))
theorem in10_1 (c : Dev nD) : W20 m ρ c (no_index (Proc.devRef .tc main_v155)) = W19 m ρ c (Proc.devRef .tc main_v155) :=
  (W20_arr m ρ c 1).trans (((dat10 (V19 m ρ) c).arrAt_in 1 rfl _).trans (A_eq10 (V19 m ρ) c 1))
theorem in10_2 (c : Dev nD) : W20 m ρ c (no_index (Proc.devRef .tc main_v158)) = W19 m ρ c (Proc.devRef .tc main_v158) :=
  (W20_arr m ρ c 2).trans (((dat10 (V19 m ρ) c).arrAt_in 2 rfl _).trans (A_eq10 (V19 m ρ) c 2))
theorem out10 (c : Dev nD) : W20 m ρ c (no_index (Proc.devRef .tc main_v159)) = Cert.ReferenceIdeal.RefSpec.lin1 (W19 m ρ c (Proc.devRef .tc main_v152)) (W19 m ρ c (Proc.devRef .tc main_v155)) (W19 m ρ c (Proc.devRef .tc main_v158)) :=
  (W20_arr m ρ c 3).trans (KVal.final10 (V19 m ρ) c)
theorem in11_0 (c : Dev nD) : W22 m ρ c (no_index (Proc.devRef .tc main_v152)) = W21 m ρ c (Proc.devRef .tc main_v152) :=
  (W22_arr m ρ c 0).trans (((dat11 (V21 m ρ) c).arrAt_in 0 rfl _).trans (A_eq11 (V21 m ρ) c 0))
theorem in11_1 (c : Dev nD) : W22 m ρ c (no_index (Proc.devRef .tc main_v161)) = W21 m ρ c (Proc.devRef .tc main_v161) :=
  (W22_arr m ρ c 1).trans (((dat11 (V21 m ρ) c).arrAt_in 1 rfl _).trans (A_eq11 (V21 m ρ) c 1))
theorem in11_2 (c : Dev nD) : W22 m ρ c (no_index (Proc.devRef .tc main_v164)) = W21 m ρ c (Proc.devRef .tc main_v164) :=
  (W22_arr m ρ c 2).trans (((dat11 (V21 m ρ) c).arrAt_in 2 rfl _).trans (A_eq11 (V21 m ρ) c 2))
theorem out11 (c : Dev nD) : W22 m ρ c (no_index (Proc.devRef .tc main_v165)) = Cert.ReferenceIdeal.RefSpec.lin1 (W21 m ρ c (Proc.devRef .tc main_v152)) (W21 m ρ c (Proc.devRef .tc main_v161)) (W21 m ρ c (Proc.devRef .tc main_v164)) :=
  (W22_arr m ρ c 3).trans (KVal.final11 (V21 m ρ) c)
theorem in12_0 (c : Dev nD) : W24 m ρ c (no_index (Proc.devRef .tc main_v153)) = W23 m ρ c (Proc.devRef .tc main_v153) :=
  (W24_arr m ρ c 0).trans (((dat12 (V23 m ρ) c).arrAt_in 0 rfl _).trans (A_eq12 (V23 m ρ) c 0))
theorem in12_1 (c : Dev nD) : W24 m ρ c (no_index (Proc.devRef .tc main_v167)) = W23 m ρ c (Proc.devRef .tc main_v167) :=
  (W24_arr m ρ c 1).trans (((dat12 (V23 m ρ) c).arrAt_in 1 rfl _).trans (A_eq12 (V23 m ρ) c 1))
theorem in12_2 (c : Dev nD) : W24 m ρ c (no_index (Proc.devRef .tc main_v170)) = W23 m ρ c (Proc.devRef .tc main_v170) :=
  (W24_arr m ρ c 2).trans (((dat12 (V23 m ρ) c).arrAt_in 2 rfl _).trans (A_eq12 (V23 m ρ) c 2))
theorem out12 (c : Dev nD) : W24 m ρ c (no_index (Proc.devRef .tc main_v171)) = Cert.ReferenceIdeal.RefSpec.lin1 (W23 m ρ c (Proc.devRef .tc main_v153)) (W23 m ρ c (Proc.devRef .tc main_v167)) (W23 m ρ c (Proc.devRef .tc main_v170)) :=
  (W24_arr m ρ c 3).trans (KVal.final12 (V23 m ρ) c)
theorem in13_0 (c : Dev nD) : W26 m ρ c (no_index (Proc.devRef .tc main_v190)) = W25 m ρ c (Proc.devRef .tc main_v190) :=
  (W26_arr m ρ c 0).trans (((dat13 (V25 m ρ) c).arrAt_in 0 rfl _).trans (A_eq13 (V25 m ρ) c 0))
theorem in13_1 (c : Dev nD) : W26 m ρ c (no_index (Proc.devRef .tc main_v228)) = W25 m ρ c (Proc.devRef .tc main_v228) :=
  (W26_arr m ρ c 1).trans (((dat13 (V25 m ρ) c).arrAt_in 1 rfl _).trans (A_eq13 (V25 m ρ) c 1))
theorem out13 (c : Dev nD) : W26 m ρ c (no_index (Proc.devRef .tc main_v229)) = Cert.ReferenceIdeal.RefSpec.leaky (addf (W25 m ρ c (Proc.devRef .tc main_v190)) (W25 m ρ c (Proc.devRef .tc main_v228)) : FVec Ideal Cert.ReferenceIdeal.S100000x128 .f32) :=
  (W26_arr m ρ c 2).trans (KVal.final13 (V25 m ρ) c)
theorem in14_0 (c : Dev nD) : W27 m ρ c (no_index (Proc.devRef .tc main_v209)) = W26 m ρ c (Proc.devRef .tc main_v209) :=
  (W27_arr m ρ c 0).trans (((dat14 (V26 m ρ) c).arrAt_in 0 rfl _).trans (A_eq14 (V26 m ρ) c 0))
theorem out14 (c : Dev nD) : W27 m ρ c (no_index (Proc.devRef .tc main_v230)) = Cert.ReferenceIdeal.RefSpec.leaky (W26 m ρ c (Proc.devRef .tc main_v209)) :=
  (W27_arr m ρ c 1).trans (KVal.final14 (V26 m ρ) c)

/-! ## What each stretch of host operations leaves in the buffers later segments read -/
theorem vw0 (V : Valuation τ sig (Elt Ideal)) :
    after hostOps0 V (no_index (Proc.devRef .tc main_v1)) = Cert.ReferenceIdeal.RefSpec.wAt00 (V (Proc.devRef .tc main_arg2)) := KHost.val0_w V
theorem vb0 (V : Valuation τ sig (Elt Ideal)) :
    after hostOps0 V (no_index (Proc.devRef .tc main_v4))
      = broadcastInDim Cert.ReferenceIdeal.S1x128 ![1] Cert.ReferenceIdeal.Gen.bcast_S128_S1x128_1
          (Cert.ReferenceIdeal.RefSpec.bAt00 (V (Proc.devRef .tc main_arg3))) := (KHost.val0_b V).trans (biasRow (F := Ideal) _)
theorem vw1 (V : Valuation τ sig (Elt Ideal)) :
    after hostOps1 V (no_index (Proc.devRef .tc main_v7)) = Cert.ReferenceIdeal.RefSpec.wAt01 (V (Proc.devRef .tc main_arg2)) := KHost.val1_w V
theorem vb1 (V : Valuation τ sig (Elt Ideal)) :
    after hostOps1 V (no_index (Proc.devRef .tc main_v10))
      = broadcastInDim Cert.ReferenceIdeal.S1x128 ![1] Cert.ReferenceIdeal.Gen.bcast_S128_S1x128_1
          (Cert.ReferenceIdeal.RefSpec.bAt01 (V (Proc.devRef .tc main_arg3))) := (KHost.val1_b V).trans (biasRow (F := Ideal) _)
theorem vw2 (V : Valuation τ sig (Elt Ideal)) :
    after hostOps2 V (no_index (Proc.devRef .tc main_v13)) = Cert.ReferenceIdeal.RefSpec.wAt02 (V (Proc.devRef .tc main_arg2)) := KHost.val2_w V
theorem vb2 (V : Valuation τ sig (Elt Ideal)) :
    after hostOps2 V (no_index (Proc.devRef .tc main_v16))
      = broadcastInDim Cert.ReferenceIdeal.S1x128 ![1] Cert.ReferenceIdeal.Gen.bcast_S128_S1x128_1
          (Cert.ReferenceIdeal.RefSpec.bAt02 (V (Proc.devRef .tc main_arg3))) := (KHost.val2_b V).trans (biasRow (F := Ideal) _)
theorem vw5 (V : Valuation τ sig (Elt Ideal)) :
    after hostOps5 V (no_index (Proc.devRef .tc main_v78)) = Cert.ReferenceIdeal.RefSpec.wAt10 (V (Proc.devRef .tc main_arg2)) := KHost.val5_w V
theorem vb5 (V : Valuation τ sig (Elt Ideal)) :
    after hostOps5 V (no_index (Proc.devRef .tc main_v81))
      = broadcastInDim Cert.ReferenceIdeal.S1x128 ![1] Cert.ReferenceIdeal.Gen.bcast_S128_S1x128_1
          (Cert.ReferenceIdeal.RefSpec.bAt10 (V (Proc.devRef .tc main_arg3))) := (KHost.val5_b V).trans (biasRow (F := Ideal) _)
theorem vw6 (V : Valuation τ sig (Elt Ideal)) :
    after hostOps6 V (no_index (Proc.devRef .tc main_v84)) = Cert.ReferenceIdeal.RefSpec.wAt11 (V (Proc.devRef .tc main_arg2)) := KHost.val6_w V
theorem vb6 (V : Valuation τ sig (Elt Ideal)) :
    after hostOps6 V (no_index (Proc.devRef .tc main_v87))
      = broadcastInDim Cert.ReferenceIdeal.S1x128 ![1] Cert.ReferenceIdeal.Gen.bcast_S128_S1x128_1
          (Cert.ReferenceIdeal.RefSpec.bAt11 (V (Proc.devRef .tc main_arg3))) := (KHost.val6_b V).trans (biasRow (F := Ideal) _)
theorem vw7 (V : Valuation τ sig (Elt Ideal)) :
    after hostOps7 V (no_index (Proc.devRef .tc main_v90)) = Cert.ReferenceIdeal.RefSpec.wAt12 (V (Proc.devRef .tc main_arg2)) := KHost.val7_w V
theorem vb7 (V : Valuation τ sig (Elt Ideal)) :
    after hostOps7 V (no_index (Proc.devRef .tc main_v93))
      = broadcastInDim Cert.ReferenceIdeal.S1x128 ![1] Cert.ReferenceIdeal.Gen.bcast_S128_S1x128_1
          (Cert.ReferenceIdeal.RefSpec.bAt12 (V (Proc.devRef .tc main_arg3))) := (KHost.val7_b V).trans (biasRow (F := Ideal) _)
theorem vw10 (V : Valuation τ sig (Elt Ideal)) :
    after hostOps10 V (no_index (Proc.devRef .tc main_v155)) = Cert.ReferenceIdeal.RefSpec.wAt20 (V (Proc.devRef .tc main_arg2)) := KHost.val10_w V
theorem vb10 (V : Valuation τ sig (Elt Ideal)) :
    after hostOps10 V (no_index (Proc.devRef .tc main_v158))
      = broadcastInDim Cert.ReferenceIdeal.S1x128 ![1] Cert.ReferenceIdeal.Gen.bcast_S128_S1x128_1
          (Cert.ReferenceIdeal.RefSpec.bAt20 (V (Proc.devRef .tc main_arg3))) := (KHost.val10_b V).trans (biasRow (F := Ideal) _)
theorem vw11 (V : Valuation τ sig (Elt Ideal)) :
    after hostOps11 V (no_index (Proc.devRef .tc main_v161)) = Cert.ReferenceIdeal.RefSpec.wAt21 (V (Proc.devRef .tc main_arg2)) := KHost.val11_w V
theorem vb11 (V : Valuation τ sig (Elt Ideal)) :
    after hostOps11 V (no_index (Proc.devRef .tc main_v164))
      = broadcastInDim Cert.ReferenceIdeal.S1x128 ![1] Cert.ReferenceIdeal.Gen.bcast_S128_S1x128_1
          (Cert.ReferenceIdeal.RefSpec.bAt21 (V (Proc.devRef .tc main_arg3))) := (KHost.val11_b V).trans (biasRow (F := Ideal) _)
theorem vw12 (V : Valuation τ sig (Elt Ideal)) :
    after hostOps12 V (no_index (Proc.devRef .tc main_v167)) = Cert.ReferenceIdeal.RefSpec.wAt22 (V (Proc.devRef .tc main_arg2)) := KHost.val12_w V
theorem vb12 (V : Valuation τ sig (Elt Ideal)) :
    after hostOps12 V (no_index (Proc.devRef .tc main_v170))
      = broadcastInDim Cert.ReferenceIdeal.S1x128 ![1] Cert.ReferenceIdeal.Gen.bcast_S128_S1x128_1
          (Cert.ReferenceIdeal.RefSpec.bAt22 (V (Proc.devRef .tc main_arg3))) := (KHost.val12_b V).trans (biasRow (F := Ideal) _)
theorem vs3_0 (V : Valuation τ sig (Elt Ideal)) :
    after hostOps3 V (no_index (Proc.devRef .tc main_v36))
      = Cert.ReferenceIdeal.RefSpec.segMean (V (Proc.devRef .tc main_v5)) (V (Proc.devRef .tc main_arg4)) (V (Proc.devRef .tc main_arg5)) := KHost.val3_0 V
theorem vs3_1 (V : Valuation τ sig (Elt Ideal)) :
    after hostOps3 V (no_index (Proc.devRef .tc main_v55))
      = Cert.ReferenceIdeal.RefSpec.segMean (V (Proc.devRef .tc main_v11)) (V (Proc.devRef .tc main_arg6)) (V (Proc.devRef .tc main_arg7)) := KHost.val3_1 V
theorem vs3_2 (V : Valuation τ sig (Elt Ideal)) :
    after hostOps3 V (no_index (Proc.devRef .tc main_v74))
      = Cert.ReferenceIdeal.RefSpec.segMean (V (Proc.devRef .tc main_v17)) (V (Proc.devRef .tc main_arg8)) (V (Proc.devRef .tc main_arg9)) := KHost.val3_2 V
theorem vs8_0 (V : Valuation τ sig (Elt Ideal)) :
    after hostOps8 V (no_index (Proc.devRef .tc main_v113))
      = Cert.ReferenceIdeal.RefSpec.segMean (V (Proc.devRef .tc main_v82)) (V (Proc.devRef .tc main_arg4)) (V (Proc.devRef .tc main_arg5)) := KHost.val8_0 V
theorem vs8_1 (V : Valuation τ sig (Elt Ideal)) :
    after hostOps8 V (no_index (Proc.devRef .tc main_v132))
      = Cert.ReferenceIdeal.RefSpec.segMean (V (Proc.devRef .tc main_v88)) (V (Proc.devRef .tc main_arg6)) (V (Proc.devRef .tc main_arg7)) := KHost.val8_1 V
theorem vs8_2 (V : Valuation τ sig (Elt Ideal)) :
    after hostOps8 V (no_index (Proc.devRef .tc main_v151))
      = Cert.ReferenceIdeal.RefSpec.segMean (V (Proc.devRef .tc main_v94)) (V (Proc.devRef .tc main_arg8)) (V (Proc.devRef .tc main_arg9)) := KHost.val8_2 V
theorem vs13_0 (V : Valuation τ sig (Elt Ideal)) :
    after hostOps13 V (no_index (Proc.devRef .tc main_v190))
      = Cert.ReferenceIdeal.RefSpec.segMean (V (Proc.devRef .tc main_v159)) (V (Proc.devRef .tc main_arg4)) (V (Proc.devRef .tc main_arg5)) := KHost.val13_0 V
theorem vs13_1 (V : Valuation τ sig (Elt Ideal)) :
    after hostOps13 V (no_index (Proc.devRef .tc main_v209))
      = Cert.ReferenceIdeal.RefSpec.segMean (V (Proc.devRef .tc main_v165)) (V (Proc.devRef .tc main_arg6)) (V (Proc.devRef .tc main_arg7)) := KHost.val13_1 V
theorem vs13_2 (V : Valuation τ sig (Elt Ideal)) :
    after hostOps13 V (no_index (Proc.devRef .tc main_v228))
      = Cert.ReferenceIdeal.RefSpec.segMean (V (Proc.devRef .tc main_v171)) (V (Proc.devRef .tc main_arg8)) (V (Proc.devRef .tc main_arg9)) := KHost.val13_2 V
theorem vstack (V : Valuation τ sig (Elt Ideal)) :
    after hostOps15 V (no_index (Proc.devRef .tc main_v233))
      = Cert.ReferenceIdeal.RefSpec.stack (V (Proc.devRef .tc main_v229)) (V (Proc.devRef .tc main_v230)) := KHost.val15 V

end Cert.KernelIdeal.KChain

end
-- ==== Proof.Chain.lean ====
/-
  The idealized kernel program's result as one function of its arguments. The run ends with the result buffer at a
  fold: thirteen stretches of host operations and fifteen kernel regions, each rewriting the buffers it writes and
  leaving the rest. Read backwards from the result, every buffer is followed to the segment that last wrote it — a
  region's output array ends at its dense map or rectifier of the arrays the region found; a stretch's live-out
  buffers at the reference's own functions of what the stretch read; everything else is kept — until only the launch
  contents of the ten arguments remain. What is left is the reference's three-layer formula, but that each bias row is
  laid out by a cast where the reference broadcasts it: the same 1 × 128 row.
-/
import proofs.«102427_j13013750907161_1_alg».proof.Proof.ChainLemmas

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## The result -/

set_option maxHeartbeats 4000000 in
/-- The result buffer's final contents are the reference's formula of the ten arguments' launch contents. -/
theorem result (c : Dev nD) :
    W28 m ρ c (Proc.devRef .tc main_v233) = Cert.ReferenceIdeal.RefSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  simp (disch := decide) only [W1, W3, W5, W7, W10, W12, W14, W16, W19, W21, W23, W25, W28, kp0, kp1, kp2, kp3, kp5, kp6, kp7, kp8, kp10, kp11, kp12, kp13, kp15, ne2, ne4, ne6, ne8, ne9, ne11, ne13, ne15, ne17, ne18, ne20, ne22, ne24, ne26, ne27, in0_0, in0_1, in0_2, in1_0, in1_1, in1_2, in2_0, in2_1, in2_2, in3_0, in3_1, in4_0, in5_0, in5_1, in5_2, in6_0, in6_1, in6_2, in7_0, in7_1, in7_2, in8_0, in8_1, in9_0, in10_0, in10_1, in10_2, in11_0, in11_1, in11_2, in12_0, in12_1, in12_2, in13_0, in13_1, in14_0, out0, out1, out2, out3, out4, out5, out6, out7, out8, out9, out10, out11, out12, out13, out14, vw0, vb0, vw1, vb1, vw2, vb2, vw5, vb5, vw6, vb6, vw7, vb7, vw10, vb10, vw11, vb11, vw12, vb12, vs3_0, vs3_1, vs3_2, vs8_0, vs8_1, vs8_2, vs13_0, vs13_1, vs13_2, vstack]
  rfl

/-- Every weakly fair execution of the idealized kernel program terminates, nothing faulting, with the result at the
    reference's formula of the arguments and the arguments unchanged. -/
theorem run : θ_run (defs (F := Ideal)) (onTc (τ := τ) (main (F := Ideal))) ⟨m, fun _ => 0, ρ⟩ fun r => ∀ c : Dev nD,
      r.2.mem ((c.tc : Thread nD τ).loc main_v233) = Cert.ReferenceIdeal.RefSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (result m ρ c), (h c).2⟩) (KRun.run_full m ρ)

end Cert.KernelIdeal.KChain

end
-- ==== Proof.RefRun.Basic.lean ====
/-
  Three facts about a straight line of host operations, used to cut the reference's run into pieces: the contents
  after two lines run one after the other are the second line's after the first's; a property of every operation
  of two lines holds of their concatenation; and an operation that writes one buffer writes inside any list of
  references that holds that buffer.
-/
import Idealize.ShloMosaic.Lib.StableHlo.Run

noncomputable section

namespace Cert.ReferenceIdeal.RefRun

open Idealize.ShloMosaic Idealize.ShloMosaic.StableHlo

variable {τ : Topo} {sig : RefSig} {Val : EltTy → Type}

/-- The contents after `l₁ ++ l₂` from `V` are the contents after `l₂` from the contents after `l₁` from `V`. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- The same, stated over membership. -/
theorem mem_append_of {α : Type} {p : α → Prop} {l₁ l₂ : List α} (h₁ : ∀ x ∈ l₁, p x) (h₂ : ∀ x ∈ l₂, p x) :
    ∀ x ∈ l₁ ++ l₂, p x :=
  fun x hx => (List.mem_append.mp hx).elim (h₁ x) (h₂ x)

/-- The one buffer `y` lies in the set of buffers of any list of references that holds `y`. -/
theorem writes_single {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

end Cert.ReferenceIdeal.RefRun

end
-- ==== Proof.RefRun.Ops1.lean ====
/-
  The reference's host operations of layer 1, in program order, as literal lists cut where a message pass, the
  rectifier, or one of the program's printed windows ends; with each list the references its operations write,
  that each operation writes inside that list, that each touches TensorCore references only, and that none leaves
  a buffer undetermined. A call of the rectifier is its callee's six operations over the call's own buffers followed
  by the one selection of the function it calls.
-/
import proofs.«102427_j13013750907161_1_alg».proof.Proof.Gen.ReferenceIdeal
import proofs.«102427_j13013750907161_1_alg».proof.Proof.RefRun.Basic

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1, the pass along the first relation into the users: the dense map of the user table, its rows gathered at the edges' sources, summed into the edges' targets and divided by the targets' edge counts (operations 1 to 33 of 351). -/
abbrev opsA1 : List (HloOp τ sig (Elt F)) :=
  [ StableHlo.unary main_arg2 main_v0 ((extractStridedSlice S1x1x128x128 ![0, 0, 0, 0] · slices_S3x3x128x128_S1x1x128x128_0_0_0_0) : (⟨S3x3x128x128, .f32⟩ : BufTy).Contents (Elt F) → (⟨S1x1x128x128, .f32⟩ : BufTy).Contents (Elt F)),
    StableHlo.reshape main_v0 main_v1 rfl shapeCasts_S1x1x128x128_S128x128,
    StableHlo.unary main_arg3 main_v2 ((extractStridedSlice S1x1x128 ![0, 0, 0] · slices_S3x3x128_S1x1x128_0_0_0) : (⟨S3x3x128, .f32⟩ : BufTy).Contents (Elt F) → (⟨S1x1x128, .f32⟩ : BufTy).Contents (Elt F)),
    StableHlo.reshape main_v2 main_v3 rfl shapeCasts_S1x1x128_S128,
    StableHlo.binary main_arg0 main_v1 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v3 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S100000x128 ![0, 1] bcast_S1x128_S100000x128_0_1 : (⟨S1x128, .f32⟩ : BufTy).Contents (Elt F) → (⟨S100000x128, .f32⟩ : BufTy).Contents (Elt F)),
    StableHlo.binary main_v4 main_v6 main_v7 (addf : (⟨S100000x128, .f32⟩ : BufTy).Contents (Elt F) → (⟨S100000x128, .f32⟩ : BufTy).Contents (Elt F) → (⟨S100000x128, .f32⟩ : BufTy).Contents (Elt F)),
    StableHlo.nullary main_c (constantI S_ 32 0#32),
    StableHlo.unary main_c main_v8 (broadcastInDim S640000 ![] bcast_S_S640000 : (⟨S_, .i32⟩ : BufTy).Contents (Elt F) → (⟨S640000, .i32⟩ : BufTy).Contents (Elt F)),
    StableHlo.binary main_arg4 main_v8 main_v9 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 100000#32),
    StableHlo.unary main_c_0 main_v10 (broadcastInDim S640000 ![] bcast_S_S640000 : (⟨S_, .i32⟩ : BufTy).Contents (Elt F) → (⟨S640000, .i32⟩ : BufTy).Contents (Elt F)),
    StableHlo.binary main_arg4 main_v10 main_v11 (addi : (⟨S640000, .i32⟩ : BufTy).Contents (Elt F) → (⟨S640000, .i32⟩ : BufTy).Contents (Elt F) → (⟨S640000, .i32⟩ : BufTy).Contents (Elt F)),
    StableHlo.ternary main_v9 main_v11 main_arg4 main_v12 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v12 main_v13 (broadcastInDim S640000x1 ![0] bcast_S640000_S640000x1_0 : (⟨S640000, .i32⟩ : BufTy).Contents (Elt F) → (⟨S640000x1, .i32⟩ : BufTy).Contents (Elt F)),
    StableHlo.binary main_v7 main_v13 main_v14 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.nullary main_cst (constant S_ .f32 0x00000000#32),
    StableHlo.unary main_cst main_v15 (broadcastInDim S100000x128 ![] bcast_S_S100000x128 : (⟨S_, .f32⟩ : BufTy).Contents (Elt F) → (⟨S100000x128, .f32⟩ : BufTy).Contents (Elt F)),
    StableHlo.unary main_arg5 main_v16 (broadcastInDim S640000x1 ![0] bcast_S640000_S640000x1_0 : (⟨S640000, .i32⟩ : BufTy).Contents (Elt F) → (⟨S640000x1, .i32⟩ : BufTy).Contents (Elt F)),
    StableHlo.ternary main_v15 main_v16 main_v14 main_v17 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_1 (constant S_ .f32 0x3F800000#32),
    StableHlo.unary main_cst_1 main_v18 (broadcastInDim S640000 ![] bcast_S_S640000 : (⟨S_, .f32⟩ : BufTy).Contents (Elt F) → (⟨S640000, .f32⟩ : BufTy).Contents (Elt F)),
    StableHlo.nullary main_cst_2 (constant S_ .f32 0x00000000#32),
    StableHlo.unary main_cst_2 main_v19 (broadcastInDim S100000 ![] bcast_S_S100000 : (⟨S_, .f32⟩ : BufTy).Contents (Elt F) → (⟨S100000, .f32⟩ : BufTy).Contents (Elt F)),
    StableHlo.unary main_arg5 main_v20 (broadcastInDim S640000x1 ![0] bcast_S640000_S640000x1_0 : (⟨S640000, .i32⟩ : BufTy).Contents (Elt F) → (⟨S640000x1, .i32⟩ : BufTy).Contents (Elt F)),
    StableHlo.ternary main_v19 main_v20 main_v18 main_v21 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_3 (constant S_ .f32 0x3F800000#32),
    StableHlo.unary main_cst_3 main_v22 (broadcastInDim S100000 ![] bcast_S_S100000 : (⟨S_, .f32⟩ : BufTy).Contents (Elt F) → (⟨S100000, .f32⟩ : BufTy).Contents (Elt F)),
    StableHlo.binary main_v21 main_v22 main_v23 (maximumf : (⟨S100000, .f32⟩ : BufTy).Contents (Elt F) → (⟨S100000, .f32⟩ : BufTy).Contents (Elt F) → (⟨S100000, .f32⟩ : BufTy).Contents (Elt F)),
    StableHlo.unary main_v23 main_v24 (broadcastInDim S100000x1 ![0] bcast_S100000_S100000x1_0 : (⟨S100000, .f32⟩ : BufTy).Contents (Elt F) → (⟨S100000x1, .f32⟩ : BufTy).Contents (Elt F)),
    StableHlo.unary main_v24 main_v25 (broadcastInDim S100000x128 ![0, 1] bcast_S100000x1_S100000x128_0_1 : (⟨S100000x1, .f32⟩ : BufTy).Contents (Elt F) → (⟨S100000x128, .f32⟩ : BufTy).Contents (Elt F)),
    StableHlo.binary main_v17 main_v25 main_v26 (Host.divf : (⟨S100000x128, .f32⟩ : BufTy).Contents (Elt F) → (⟨S100000x128, .f32⟩ : BufTy).Contents (Elt F) → (⟨S100000x128, .f32⟩ : BufTy).Contents (Elt F)) ]

/-- The references those operations write, in order. -/
abbrev wrA1 : List (Ref sig .tc) :=
  [main_v0, main_v1, main_v2, main_v3, main_v4, main_v5, main_v6, main_v7, main_c, main_v8, main_v9, main_c_0, main_v10, main_v11, main_v12, main_v13, main_v14, main_cst, main_v15, main_v16, main_v17, main_cst_1, main_v18, main_cst_2, main_v19, main_v20, main_v21, main_cst_3, main_v22, main_v23, main_v24, main_v25, main_v26]

theorem opsA1_writes : (opsA1 (F := F)).Forall fun op => op.writes ⊆ (wrA1.map (Proc.devRef (τ := τ) .tc)).toFinset :=
  ⟨writes_single main_v0 (by decide), writes_single main_v1 (by decide), writes_single main_v2 (by decide), writes_single main_v3 (by decide), writes_single main_v4 (by decide), writes_single main_v5 (by decide), writes_single main_v6 (by decide), writes_single main_v7 (by decide), writes_single main_c (by decide), writes_single main_v8 (by decide), writes_single main_v9 (by decide), writes_single main_c_0 (by decide), writes_single main_v10 (by decide), writes_single main_v11 (by decide), writes_single main_v12 (by decide), writes_single main_v13 (by decide), writes_single main_v14 (by decide), writes_single main_cst (by decide), writes_single main_v15 (by decide), writes_single main_v16 (by decide), writes_single main_v17 (by decide), writes_single main_cst_1 (by decide), writes_single main_v18 (by decide), writes_single main_cst_2 (by decide), writes_single main_v19 (by decide), writes_single main_v20 (by decide), writes_single main_v21 (by decide), writes_single main_cst_3 (by decide), writes_single main_v22 (by decide), writes_single main_v23 (by decide), writes_single main_v24 (by decide), writes_single main_v25 (by decide), writes_single main_v26 (by decide)⟩

theorem opsA1_sub : (opsA1 (F := F)).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem opsA1_fresh : ∀ op ∈ (opsA1 (F := F)), op.fresh = ∅ := by
  intro _ h; (repeat (cases h with | head => rfl | tail _ h => ?_)); exact nomatch h

/-- Layer 1, the pass along the third relation into the users (the same four steps on the item table), then the sum of the two passes that reach the users (operations 34 to 60 of 351). -/
abbrev opsB1a : List (HloOp τ sig (Elt F)) :=
  [ StableHlo.unary main_arg2 main_v27 ((extractStridedSlice S1x1x128x128 ![0, 2, 0, 0] · slices_S3x3x128x128_S1x1x128x128_0_2_0_0) : (⟨S3x3x128x128, .f32⟩ : BufTy).Contents (Elt F) → (⟨S1x1x128x128, .f32⟩ : BufTy).Contents (Elt F)),
    StableHlo.reshape main_v27 main_v28 rfl shapeCasts_S1x1x128x128_S128x128,
    StableHlo.unary main_arg3 main_v29 ((extractStridedSlice S1x1x128 ![0, 2, 0] · slices_S3x3x128_S1x1x128_0_2_0) : (⟨S3x3x128, .f32⟩ : BufTy).Contents (Elt F) → (⟨S1x1x128, .f32⟩ : BufTy).Contents (Elt F)),
    StableHlo.reshape main_v29 main_v30 rfl shapeCasts_S1x1x128_S128,
    StableHlo.binary main_arg1 main_v28 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v30 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (addf : (⟨S100000x128, .f32⟩ : BufTy).Contents (Elt F) → (⟨S100000x128, .f32⟩ : BufTy).Contents (Elt F) → (⟨S100000x128, .f32⟩ : BufTy).Contents (Elt F)),
    StableHlo.nullary main_c_4 (constantI S_ 32 0#32),
    StableHlo.unary main_c_4 main_v35 (broadcastInDim S640000 ![] bcast_S_S640000 : (⟨S_, .i32⟩ : BufTy).Contents (Elt F) → (⟨S640000, .i32⟩ : BufTy).Contents (Elt F)),
    StableHlo.binary main_arg8 main_v35 main_v36 (cmpi .slt : (⟨S640000, .i32⟩ : BufTy).Contents (Elt F) → (⟨S640000, .i32⟩ : BufTy).Contents (Elt F) → (⟨S640000, .i1⟩ : BufTy).Contents (Elt F)),
    StableHlo.nullary main_c_5 (constantI S_ 32 100000#32),
    StableHlo.unary main_c_5 main_v37 (broadcastInDim S640000 ![] bcast_S_S640000 : (⟨S_, .i32⟩ : BufTy).Contents (Elt F) → (⟨S640000, .i32⟩ : BufTy).Contents (Elt F)),
    StableHlo.binary main_arg8 main_v37 main_v38 (addi : (⟨S640000, .i32⟩ : BufTy).Contents (Elt F) → (⟨S640000, .i32⟩ : BufTy).Contents (Elt F) → (⟨S640000, .i32⟩ : BufTy).Contents (Elt F)),
    StableHlo.ternary main_v36 main_v38 main_arg8 main_v39 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v39 main_v40 (broadcastInDim S640000x1 ![0] bcast_S640000_S640000x1_0 : (⟨S640000, .i32⟩ : BufTy).Contents (Elt F) → (⟨S640000x1, .i32⟩ : BufTy).Contents (Elt F)),
    StableHlo.binary main_v34 main_v40 main_v41 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.nullary main_cst_6 (constant S_ .f32 0x00000000#32),
    StableHlo.unary main_cst_6 main_v42 (broadcastInDim S100000x128 ![] bcast_S_S100000x128 : (⟨S_, .f32⟩ : BufTy).Contents (Elt F) → (⟨S100000x128, .f32⟩ : BufTy).Contents (Elt F)),
    StableHlo.unary main_arg9 main_v43 (broadcastInDim S640000x1 ![0] bcast_S640000_S640000x1_0 : (⟨S640000, .i32⟩ : BufTy).Contents (Elt F) → (⟨S640000x1, .i32⟩ : BufTy).Contents (Elt F)),
    StableHlo.ternary main_v42 main_v43 main_v41 main_v44 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_7 (constant S_ .f32 0x3F800000#32),
    StableHlo.unary main_cst_7 main_v45 (broadcastInDim S640000 ![] bcast_S_S640000 : (⟨S_, .f32⟩ : BufTy).Contents (Elt F) → (⟨S640000, .f32⟩ : BufTy).Contents (Elt F)),
    StableHlo.nullary main_cst_8 (constant S_ .f32 0x00000000#32),
    StableHlo.unary main_cst_8 main_v46 (broadcastInDim S100000 ![] bcast_S_S100000 : (⟨S_, .f32⟩ : BufTy).Contents (Elt F) → (⟨S100000, .f32⟩ : BufTy).Contents (Elt F)),
    StableHlo.unary main_arg9 main_v47 (broadcastInDim S640000x1 ![0] bcast_S640000_S640000x1_0 : (⟨S640000, .i32⟩ : BufTy).Contents (Elt F) → (⟨S640000x1, .i32⟩ : BufTy).Contents (Elt F)),
    StableHlo.ternary main_v46 main_v47 main_v45 main_v48 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)) ]

/-- The references those operations write, in order. -/
abbrev wrB1a : List (Ref sig .tc) :=
  [main_v27, main_v28, main_v29, main_v30, main_v31, main_v32, main_v33, main_v34, main_c_4, main_v35, main_v36, main_c_5, main_v37, main_v38, main_v39, main_v40, main_v41, main_cst_6, main_v42, main_v43, main_v44, main_cst_7, main_v45, main_cst_8, main_v46, main_v47, main_v48]

theorem opsB1a_writes : (opsB1a (F := F)).Forall fun op => op.writes ⊆ (wrB1a.map (Proc.devRef (τ := τ) .tc)).toFinset :=
  ⟨writes_single main_v27 (by decide), writes_single main_v28 (by decide), writes_single main_v29 (by decide), writes_single main_v30 (by decide), writes_single main_v31 (by decide), writes_single main_v32 (by decide), writes_single main_v33 (by decide), writes_single main_v34 (by decide), writes_single main_c_4 (by decide), writes_single main_v35 (by decide), writes_single main_v36 (by decide), writes_single main_c_5 (by decide), writes_single main_v37 (by decide), writes_single main_v38 (by decide), writes_single main_v39 (by decide), writes_single main_v40 (by decide), writes_single main_v41 (by decide), writes_single main_cst_6 (by decide), writes_single main_v42 (by decide), writes_single main_v43 (by decide), writes_single main_v44 (by decide), writes_single main_cst_7 (by decide), writes_single main_v45 (by decide), writes_single main_cst_8 (by decide), writes_single main_v46 (by decide), writes_single main_v47 (by decide), writes_single main_v48 (by decide)⟩

theorem opsB1a_sub : (opsB1a (F := F)).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub ..⟩

theorem opsB1a_fresh : ∀ op ∈ (opsB1a (F := F)), op.fresh = ∅ := by
  intro _ h; (repeat (cases h with | head => rfl | tail _ h => ?_)); exact nomatch h

/-- Layer 1, the pass along the third relation into the users (the same four steps on the item table), then the sum of the two passes that reach the users (operations 61 to 67 of 351). -/
abbrev opsB1b : List (HloOp τ sig (Elt F)) :=
  [ StableHlo.nullary main_cst_9 (constant S_ .f32 0x3F800000#32),
    StableHlo.unary main_cst_9 main_v49 (broadcastInDim S100000 ![] bcast_S_S100000 : (⟨S_, .f32⟩ : BufTy).Contents (Elt F) → (⟨S100000, .f32⟩ : BufTy).Contents (Elt F)),
    StableHlo.binary main_v48 main_v49 main_v50 (maximumf : (⟨S100000, .f32⟩ : BufTy).Contents (Elt F) → (⟨S100000, .f32⟩ : BufTy).Contents (Elt F) → (⟨S100000, .f32⟩ : BufTy).Contents (Elt F)),
    StableHlo.unary main_v50 main_v51 (broadcastInDim S100000x1 ![0] bcast_S100000_S100000x1_0 : (⟨S100000, .f32⟩ : BufTy).Contents (Elt F) → (⟨S100000x1, .f32⟩ : BufTy).Contents (Elt F)),
    StableHlo.unary main_v51 main_v52 (broadcastInDim S100000x128 ![0, 1] bcast_S100000x1_S100000x128_0_1 : (⟨S100000x1, .f32⟩ : BufTy).Contents (Elt F) → (⟨S100000x128, .f32⟩ : BufTy).Contents (Elt F)),
    StableHlo.binary main_v44 main_v52 main_v53 (Host.divf : (⟨S100000x128, .f32⟩ : BufTy).Contents (Elt F) → (⟨S100000x128, .f32⟩ : BufTy).Contents (Elt F) → (⟨S100000x128, .f32⟩ : BufTy).Contents (Elt F)),
    StableHlo.binary main_v26 main_v53 main_v54 (addf : (⟨S100000x128, .f32⟩ : BufTy).Contents (Elt F) → (⟨S100000x128, .f32⟩ : BufTy).Contents (Elt F) → (⟨S100000x128, .f32⟩ : BufTy).Contents (Elt F)) ]

/-- The references those operations write, in order. -/
abbrev wrB1b : List (Ref sig .tc) :=
  [main_cst_9, main_v49, main_v50, main_v51, main_v52, main_v53, main_v54]

theorem opsB1b_writes : (opsB1b (F := F)).Forall fun op => op.writes ⊆ (wrB1b.map (Proc.devRef (τ := τ) .tc)).toFinset :=
  ⟨writes_single main_cst_9 (by decide), writes_single main_v49 (by decide), writes_single main_v50 (by decide), writes_single main_v51 (by decide), writes_single main_v52 (by decide), writes_single main_v53 (by decide), writes_single main_v54 (by decide)⟩

theorem opsB1b_sub : (opsB1b (F := F)).Forall fun op => op.bufs ⊆ tcRefs τ sig :=
  ⟨nullary_bufs_sub .., unary_bufs_sub .., binary_bufs_sub .., unary_bufs_sub .., unary_bufs_sub .., binary_bufs_sub .., binary_bufs_sub ..⟩

theorem opsB1b_fresh : ∀ op ∈ (opsB1b (F := F)), op.fresh = ∅ := by
  intro _ h; (repeat (cases h with | head => rfl | tail _ h => ?_)); exact nomatch h

/-- Layer 1, the pass along the second relation into the items (operations 68 to 100 of 351). -/
abbrev opsC1 : List (HloOp τ sig (Elt F)) :=
  [ StableHlo.unary main_arg2 main_v55 ((extractStridedSlice S1x1x128x128 ![0, 1, 0, 0] · slices_S3x3x128x128_S1x1x128x128_0_1_0_0) : (⟨S3x3x128x128, .f32⟩ : BufTy).Contents (Elt F) → (⟨S1x1x128x128, .f32⟩ : BufTy).Contents (Elt F)),
    StableHlo.reshape main_v55 main_v56 rfl shapeCasts_S1x1x128x128_S128x128,
    StableHlo.unary main_arg3 main_v57 ((extractStridedSlice S1x1x128 ![0, 1, 0] · slices_S3x3x128_S1x1x128_0_1_0) : (⟨S3x3x128, .f32⟩ : BufTy).Contents (Elt F) → (⟨S1x1x128, .f32⟩ : BufTy).Contents (Elt F)),
    StableHlo.reshape main_v57 main_v58 rfl shapeCasts_S1x1x128_S128,
    StableHlo.binary main_arg0 main_v56 main_v59 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v58 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v61 main_v62 (addf : (⟨S100000x128, .f32⟩ : BufTy).Contents (Elt F) → (⟨S100000x128, .f32⟩ : BufTy).Contents (Elt F) → (⟨S100000x128, .f32⟩ : BufTy).Contents (Elt F)),
    StableHlo.nullary main_c_10 (constantI S_ 32 0#32),
    StableHlo.unary main_c_10 main_v63 (broadcastInDim S640000 ![] bcast_S_S640000 : (⟨S_, .i32⟩ : BufTy).Contents (Elt F) → (⟨S640000, .i32⟩ : BufTy).Contents (Elt F)),
    StableHlo.binary main_arg6 main_v63 main_v64 (cmpi .slt : (⟨S640000, .i32⟩ : BufTy).Contents (Elt F) → (⟨S640000, .i32⟩ : BufTy).Contents (Elt F) → (⟨S640000, .i1⟩ : BufTy).Contents (Elt F)),
    StableHlo.nullary main_c_11 (constantI S_ 32 100000#32),
    StableHlo.unary main_c_11 main_v65 (broadcastInDim S640000 ![] bcast_S_S640000 : (⟨S_, .i32⟩ : BufTy).Contents (Elt F) → (⟨S640000, .i32⟩ : BufTy).Contents (Elt F)),
    StableHlo.binary main_arg6 main_v65 main_v66 (addi : (⟨S640000, .i32⟩ : BufTy).Contents (Elt F) → (⟨S640000, .i32⟩ : BufTy).Contents (Elt F) → (⟨S640000, .i32⟩ : BufTy).Contents (Elt F)),
    StableHlo.ternary main_v64 main_v66 main_arg6 main_v67 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v67 main_v68 (broadcastInDim S640000x1 ![0] bcast_S640000_S640000x1_0 : (⟨S640000, .i32⟩ : BufTy).Contents (Elt F) → (⟨S640000x1, .i32⟩ : BufTy).Contents (Elt F)),
    StableHlo.binary main_v62 main_v68 main_v69 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.nullary main_cst_12 (constant S_ .f32 0x00000000#32),
    StableHlo.unary main_cst_12 main_v70 (broadcastInDim S100000x128 ![] bcast_S_S100000x128 : (⟨S_, .f32⟩ : BufTy).Contents (Elt F) → (⟨S100000x128, .f32⟩ : BufTy).Contents (Elt F)),
    StableHlo.unary main_arg7 main_v71 (broadcastInDim S640000x1 ![0] bcast_S640000_S640000x1_0 : (⟨S640000, .i32⟩ : BufTy).Contents (Elt F) → (⟨S640000x1, .i32⟩ : BufTy).Contents (Elt F)),
    StableHlo.ternary main_v70 main_v71 main_v69 main_v72 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_13 (constant S_ .f32 0x3F800000#32),
    StableHlo.unary main_cst_13 main_v73 (broadcastInDim S640000 ![] bcast_S_S640000 : (⟨S_, .f32⟩ : BufTy).Contents (Elt F) → (⟨S640000, .f32⟩ : BufTy).Contents (Elt F)),
    StableHlo.nullary main_cst_14 (constant S_ .f32 0x00000000#32),
    StableHlo.unary main_cst_14 main_v74 (broadcastInDim S100000 ![] bcast_S_S100000 : (⟨S_, .f32⟩ : BufTy).Contents (Elt F) → (⟨S100000, .f32⟩ : BufTy).Contents (Elt F)),
    StableHlo.unary main_arg7 main_v75 (broadcastInDim S640000x1 ![0] bcast_S640000_S640000x1_0 : (⟨S640000, .i32⟩ : BufTy).Contents (Elt F) → (⟨S640000x1, .i32⟩ : BufTy).Contents (Elt F)),
    StableHlo.ternary main_v74 main_v75 main_v73 main_v76 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_15 (constant S_ .f32 0x3F800000#32),
    StableHlo.unary main_cst_15 main_v77 (broadcastInDim S100000 ![] bcast_S_S100000 : (⟨S_, .f32⟩ : BufTy).Contents (Elt F) → (⟨S100000, .f32⟩ : BufTy).Contents (Elt F)),
    StableHlo.binary main_v76 main_v77 main_v78 (maximumf : (⟨S100000, .f32⟩ : BufTy).Contents (Elt F) → (⟨S100000, .f32⟩ : BufTy).Contents (Elt F) → (⟨S100000, .f32⟩ : BufTy).Contents (Elt F)),
    StableHlo.unary main_v78 main_v79 (broadcastInDim S100000x1 ![0] bcast_S100000_S100000x1_0 : (⟨S100000, .f32⟩ : BufTy).Contents (Elt F) → (⟨S100000x1, .f32⟩ : BufTy).Contents (Elt F)),
    StableHlo.unary main_v79 main_v80 (broadcastInDim S100000x128 ![0, 1] bcast_S100000x1_S100000x128_0_1 : (⟨S100000x1, .f32⟩ : BufTy).Contents (Elt F) → (⟨S100000x128, .f32⟩ : BufTy).Contents (Elt F)),
    StableHlo.binary main_v72 main_v80 main_v81 (Host.divf : (⟨S100000x128, .f32⟩ : BufTy).Contents (Elt F) → (⟨S100000x128, .f32⟩ : BufTy).Contents (Elt F) → (⟨S100000x128, .f32⟩ : BufTy).Contents (Elt F)) ]

/-- The references those operations write, in order. -/
abbrev wrC1 : List (Ref sig .tc) :=
  [main_v55, main_v56, main_v57, main_v58, main_v59, main_v60, main_v61, main_v62, main_c_10, main_v63, main_v64, main_c_11, main_v65, main_v66, main_v67, main_v68, main_v69, main_cst_12, main_v70, main_v71, main_v72, main_cst_13, main_v73, main_cst_14, main_v74, main_v75, main_v76, main_cst_15, main_v77, main_v78, main_v79, main_v80, main_v81]

theorem opsC1_writes : (opsC1 (F := F)).Forall fun op => op.writes ⊆ (wrC1.map (Proc.devRef (τ := τ) .tc)).toFinset :=
  ⟨writes_single main_v55 (by decide), writes_single main_v56 (by decide), writes_single main_v57 (by decide), writes_single main_v58 (by decide), writes_single main_v59 (by decide), writes_single main_v60 (by decide), writes_single main_v61 (by decide), writes_single main_v62 (by decide), writes_single main_c_10 (by decide), writes_single main_v63 (by decide), writes_single main_v64 (by decide), writes_single main_c_11 (by decide), writes_single main_v65 (by decide), writes_single main_v66 (by decide), writes_single main_v67 (by decide), writes_single main_v68 (by decide), writes_single main_v69 (by decide), writes_single main_cst_12 (by decide), writes_single main_v70 (by decide), writes_single main_v71 (by decide), writes_single main_v72 (by decide), writes_single main_cst_13 (by decide), writes_single main_v73 (by decide), writes_single main_cst_14 (by decide), writes_single main_v74 (by decide), writes_single main_v75 (by decide), writes_single main_v76 (by decide), writes_single main_cst_15 (by decide), writes_single main_v77 (by decide), writes_single main_v78 (by decide), writes_single main_v79 (by decide), writes_single main_v80 (by decide), writes_single main_v81 (by decide)⟩

theorem opsC1_sub : (opsC1 (F := F)).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem opsC1_fresh : ∀ op ∈ (opsC1 (F := F)), op.fresh = ∅ := by
  intro _ h; (repeat (cases h with | head => rfl | tail _ h => ?_)); exact nomatch h

/-- Layer 1, the leaky rectifier on the users' sum and on the items' pass (operations 101 to 116 of 351). -/
abbrev opsT1 : List (HloOp τ sig (Elt F)) :=
  [ StableHlo.nullary main_cst_16 (constant S_ .f32 0x3C23D70A#32),
    StableHlo.TRef.nullary main_call0.cst (constant S_ .f32 0x00000000#32),
    StableHlo.TRef.unary main_call0.cst main_call0.v0 (broadcastInDim S100000x128 ![] bcast_S_S100000x128),
    StableHlo.TRef.binary (.of main_v54 : StableHlo.TRef sig ⟨S100000x128, .f32⟩) main_call0.v0 main_call0.v1 (cmpf .oge),
    StableHlo.TRef.unary (.of main_cst_16 : StableHlo.TRef sig ⟨S_, .f32⟩) main_call0.v2 id,
    StableHlo.TRef.unary main_call0.v2 main_call0.v3 (broadcastInDim S100000x128 ![] bcast_S_S100000x128),
    StableHlo.TRef.binary main_call0.v3 (.of main_v54 : StableHlo.TRef sig ⟨S100000x128, .f32⟩) main_call0.v4 mulf,
    StableHlo.TRef.ternary main_call0.v1 (.of main_v54 : StableHlo.TRef sig ⟨S100000x128, .f32⟩) main_call0.v4 main_call0.call0.v0 select,
    StableHlo.nullary main_cst_17 (constant S_ .f32 0x3C23D70A#32),
    StableHlo.TRef.nullary main_call1.cst (constant S_ .f32 0x00000000#32),
    StableHlo.TRef.unary main_call1.cst main_call1.v0 (broadcastInDim S100000x128 ![] bcast_S_S100000x128),
    StableHlo.TRef.binary (.of main_v81 : StableHlo.TRef sig ⟨S100000x128, .f32⟩) main_call1.v0 main_call1.v1 (cmpf .oge),
    StableHlo.TRef.unary (.of main_cst_17 : StableHlo.TRef sig ⟨S_, .f32⟩) main_call1.v2 id,
    StableHlo.TRef.unary main_call1.v2 main_call1.v3 (broadcastInDim S100000x128 ![] bcast_S_S100000x128),
    StableHlo.TRef.binary main_call1.v3 (.of main_v81 : StableHlo.TRef sig ⟨S100000x128, .f32⟩) main_call1.v4 mulf,
    StableHlo.TRef.ternary main_call1.v1 (.of main_v81 : StableHlo.TRef sig ⟨S100000x128, .f32⟩) main_call1.v4 main_call1.call0.v0 select ]

/-- The references those operations write, in order. -/
abbrev wrT1 : List (Ref sig .tc) :=
  [main_cst_16, main_call0_cst, main_call0_v0, main_call0_v1, main_call0_v2, main_call0_v3, main_call0_v4, main_v82, main_cst_17, main_call1_cst, main_call1_v0, main_call1_v1, main_call1_v2, main_call1_v3, main_call1_v4, main_v83]

theorem opsT1_writes : (opsT1 (F := F)).Forall fun op => op.writes ⊆ (wrT1.map (Proc.devRef (τ := τ) .tc)).toFinset :=
  ⟨writes_single main_cst_16 (by decide), writes_single main_call0_cst (by decide), writes_single main_call0_v0 (by decide), writes_single main_call0_v1 (by decide), writes_single main_call0_v2 (by decide), writes_single main_call0_v3 (by decide), writes_single main_call0_v4 (by decide), writes_single main_v82 (by decide), writes_single main_cst_17 (by decide), writes_single main_call1_cst (by decide), writes_single main_call1_v0 (by decide), writes_single main_call1_v1 (by decide), writes_single main_call1_v2 (by decide), writes_single main_call1_v3 (by decide), writes_single main_call1_v4 (by decide), writes_single main_v83 (by decide)⟩

theorem opsT1_sub : (opsT1 (F := F)).Forall fun op => op.bufs ⊆ tcRefs τ sig :=
  ⟨nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub ..⟩

theorem opsT1_fresh : ∀ op ∈ (opsT1 (F := F)), op.fresh = ∅ := by
  intro _ h; (repeat (cases h with | head => rfl | tail _ h => ?_)); exact nomatch h

end Cert.ReferenceIdeal.RefRun

end
-- ==== Proof.RefRun.Ops2.lean ====
/-
  The reference's host operations of layer 2, in program order, as literal lists cut where a message pass, the
  rectifier, or one of the program's printed windows ends; with each list the references its operations write,
  that each operation writes inside that list, that each touches TensorCore references only, and that none leaves
  a buffer undetermined. A call of the rectifier is its callee's six operations over the call's own buffers followed
  by the one selection of the function it calls.
-/
import proofs.«102427_j13013750907161_1_alg».proof.Proof.Gen.ReferenceIdeal
import proofs.«102427_j13013750907161_1_alg».proof.Proof.RefRun.Basic

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 2, the pass along the first relation into the users: the dense map of the user table, its rows gathered at the edges' sources, summed into the edges' targets and divided by the targets' edge counts (operations 117 to 132 of 351). -/
abbrev opsA2a : List (HloOp τ sig (Elt F)) :=
  [ StableHlo.unary main_arg2 main_v84 ((extractStridedSlice S1x1x128x128 ![1, 0, 0, 0] · slices_S3x3x128x128_S1x1x128x128_1_0_0_0) : (⟨S3x3x128x128, .f32⟩ : BufTy).Contents (Elt F) → (⟨S1x1x128x128, .f32⟩ : BufTy).Contents (Elt F)),
    StableHlo.reshape main_v84 main_v85 rfl shapeCasts_S1x1x128x128_S128x128,
    StableHlo.unary main_arg3 main_v86 ((extractStridedSlice S1x1x128 ![1, 0, 0] · slices_S3x3x128_S1x1x128_1_0_0) : (⟨S3x3x128, .f32⟩ : BufTy).Contents (Elt F) → (⟨S1x1x128, .f32⟩ : BufTy).Contents (Elt F)),
    StableHlo.reshape main_v86 main_v87 rfl shapeCasts_S1x1x128_S128,
    StableHlo.binary main_v82 main_v85 main_v88 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v87 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v90 main_v91 (addf : (⟨S100000x128, .f32⟩ : BufTy).Contents (Elt F) → (⟨S100000x128, .f32⟩ : BufTy).Contents (Elt F) → (⟨S100000x128, .f32⟩ : BufTy).Contents (Elt F)),
    StableHlo.nullary main_c_18 (constantI S_ 32 0#32),
    StableHlo.unary main_c_18 main_v92 (broadcastInDim S640000 ![] bcast_S_S640000 : (⟨S_, .i32⟩ : BufTy).Contents (Elt F) → (⟨S640000, .i32⟩ : BufTy).Contents (Elt F)),
    StableHlo.binary main_arg4 main_v92 main_v93 (cmpi .slt : (⟨S640000, .i32⟩ : BufTy).Contents (Elt F) → (⟨S640000, .i32⟩ : BufTy).Contents (Elt F) → (⟨S640000, .i1⟩ : BufTy).Contents (Elt F)),
    StableHlo.nullary main_c_19 (constantI S_ 32 100000#32),
    StableHlo.unary main_c_19 main_v94 (broadcastInDim S640000 ![] bcast_S_S640000 : (⟨S_, .i32⟩ : BufTy).Contents (Elt F) → (⟨S640000, .i32⟩ : BufTy).Contents (Elt F)),
    StableHlo.binary main_arg4 main_v94 main_v95 (addi : (⟨S640000, .i32⟩ : BufTy).Contents (Elt F) → (⟨S640000, .i32⟩ : BufTy).Contents (Elt F) → (⟨S640000, .i32⟩ : BufTy).Contents (Elt F)),
    StableHlo.ternary main_v93 main_v95 main_arg4 main_v96 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v96 main_v97 (broadcastInDim S640000x1 ![0] bcast_S640000_S640000x1_0 : (⟨S640000, .i32⟩ : BufTy).Contents (Elt F) → (⟨S640000x1, .i32⟩ : BufTy).Contents (Elt F)) ]

/-- The references those operations write, in order. -/
abbrev wrA2a : List (Ref sig .tc) :=
  [main_v84, main_v85, main_v86, main_v87, main_v88, main_v89, main_v90, main_v91, main_c_18, main_v92, main_v93, main_c_19, main_v94, main_v95, main_v96, main_v97]

theorem opsA2a_writes : (opsA2a (F := F)).Forall fun op => op.writes ⊆ (wrA2a.map (Proc.devRef (τ := τ) .tc)).toFinset :=
  ⟨writes_single main_v84 (by decide), writes_single main_v85 (by decide), writes_single main_v86 (by decide), writes_single main_v87 (by decide), writes_single main_v88 (by decide), writes_single main_v89 (by decide), writes_single main_v90 (by decide), writes_single main_v91 (by decide), writes_single main_c_18 (by decide), writes_single main_v92 (by decide), writes_single main_v93 (by decide), writes_single main_c_19 (by decide), writes_single main_v94 (by decide), writes_single main_v95 (by decide), writes_single main_v96 (by decide), writes_single main_v97 (by decide)⟩

theorem opsA2a_sub : (opsA2a (F := F)).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

theorem opsA2a_fresh : ∀ op ∈ (opsA2a (F := F)), op.fresh = ∅ := by
  intro _ h; (repeat (cases h with | head => rfl | tail _ h => ?_)); exact nomatch h

/-- Layer 2, the pass along the first relation into the users: the dense map of the user table, its rows gathered at the edges' sources, summed into the edges' targets and divided by the targets' edge counts (operations 133 to 149 of 351). -/
abbrev opsA2b : List (HloOp τ sig (Elt F)) :=
  [ StableHlo.binary main_v91 main_v97 main_v98 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.nullary main_cst_20 (constant S_ .f32 0x00000000#32),
    StableHlo.unary main_cst_20 main_v99 (broadcastInDim S100000x128 ![] bcast_S_S100000x128 : (⟨S_, .f32⟩ : BufTy).Contents (Elt F) → (⟨S100000x128, .f32⟩ : BufTy).Contents (Elt F)),
    StableHlo.unary main_arg5 main_v100 (broadcastInDim S640000x1 ![0] bcast_S640000_S640000x1_0 : (⟨S640000, .i32⟩ : BufTy).Contents (Elt F) → (⟨S640000x1, .i32⟩ : BufTy).Contents (Elt F)),
    StableHlo.ternary main_v99 main_v100 main_v98 main_v101 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_21 (constant S_ .f32 0x3F800000#32),
    StableHlo.unary main_cst_21 main_v102 (broadcastInDim S640000 ![] bcast_S_S640000 : (⟨S_, .f32⟩ : BufTy).Contents (Elt F) → (⟨S640000, .f32⟩ : BufTy).Contents (Elt F)),
    StableHlo.nullary main_cst_22 (constant S_ .f32 0x00000000#32),
    StableHlo.unary main_cst_22 main_v103 (broadcastInDim S100000 ![] bcast_S_S100000 : (⟨S_, .f32⟩ : BufTy).Contents (Elt F) → (⟨S100000, .f32⟩ : BufTy).Contents (Elt F)),
    StableHlo.unary main_arg5 main_v104 (broadcastInDim S640000x1 ![0] bcast_S640000_S640000x1_0 : (⟨S640000, .i32⟩ : BufTy).Contents (Elt F) → (⟨S640000x1, .i32⟩ : BufTy).Contents (Elt F)),
    StableHlo.ternary main_v103 main_v104 main_v102 main_v105 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_23 (constant S_ .f32 0x3F800000#32),
    StableHlo.unary main_cst_23 main_v106 (broadcastInDim S100000 ![] bcast_S_S100000 : (⟨S_, .f32⟩ : BufTy).Contents (Elt F) → (⟨S100000, .f32⟩ : BufTy).Contents (Elt F)),
    StableHlo.binary main_v105 main_v106 main_v107 (maximumf : (⟨S100000, .f32⟩ : BufTy).Contents (Elt F) → (⟨S100000, .f32⟩ : BufTy).Contents (Elt F) → (⟨S100000, .f32⟩ : BufTy).Contents (Elt F)),
    StableHlo.unary main_v107 main_v108 (broadcastInDim S100000x1 ![0] bcast_S100000_S100000x1_0 : (⟨S100000, .f32⟩ : BufTy).Contents (Elt F) → (⟨S100000x1, .f32⟩ : BufTy).Contents (Elt F)),
    StableHlo.unary main_v108 main_v109 (broadcastInDim S100000x128 ![0, 1] bcast_S100000x1_S100000x128_0_1 : (⟨S100000x1, .f32⟩ : BufTy).Contents (Elt F) → (⟨S100000x128, .f32⟩ : BufTy).Contents (Elt F)),
    StableHlo.binary main_v101 main_v109 main_v110 (Host.divf : (⟨S100000x128, .f32⟩ : BufTy).Contents (Elt F) → (⟨S100000x128, .f32⟩ : BufTy).Contents (Elt F) → (⟨S100000x128, .f32⟩ : BufTy).Contents (Elt F)) ]

/-- The references those operations write, in order. -/
abbrev wrA2b : List (Ref sig .tc) :=
  [main_v98, main_cst_20, main_v99, main_v100, main_v101, main_cst_21, main_v102, main_cst_22, main_v103, main_v104, main_v105, main_cst_23, main_v106, main_v107, main_v108, main_v109, main_v110]

theorem opsA2b_writes : (opsA2b (F := F)).Forall fun op => op.writes ⊆ (wrA2b.map (Proc.devRef (τ := τ) .tc)).toFinset :=
  ⟨writes_single main_v98 (by decide), writes_single main_cst_20 (by decide), writes_single main_v99 (by decide), writes_single main_v100 (by decide), writes_single main_v101 (by decide), writes_single main_cst_21 (by decide), writes_single main_v102 (by decide), writes_single main_cst_22 (by decide), writes_single main_v103 (by decide), writes_single main_v104 (by decide), writes_single main_v105 (by decide), writes_single main_cst_23 (by decide), writes_single main_v106 (by decide), writes_single main_v107 (by decide), writes_single main_v108 (by decide), writes_single main_v109 (by decide), writes_single main_v110 (by decide)⟩

theorem opsA2b_sub : (opsA2b (F := F)).Forall fun op => op.bufs ⊆ tcRefs τ sig :=
  ⟨binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem opsA2b_fresh : ∀ op ∈ (opsA2b (F := F)), op.fresh = ∅ := by
  intro _ h; (repeat (cases h with | head => rfl | tail _ h => ?_)); exact nomatch h

/-- Layer 2, the pass along the third relation into the users (the same four steps on the item table), then the sum of the two passes that reach the users (operations 150 to 183 of 351). -/
abbrev opsB2 : List (HloOp τ sig (Elt F)) :=
  [ StableHlo.unary main_arg2 main_v111 ((extractStridedSlice S1x1x128x128 ![1, 2, 0, 0] · slices_S3x3x128x128_S1x1x128x128_1_2_0_0) : (⟨S3x3x128x128, .f32⟩ : BufTy).Contents (Elt F) → (⟨S1x1x128x128, .f32⟩ : BufTy).Contents (Elt F)),
    StableHlo.reshape main_v111 main_v112 rfl shapeCasts_S1x1x128x128_S128x128,
    StableHlo.unary main_arg3 main_v113 ((extractStridedSlice S1x1x128 ![1, 2, 0] · slices_S3x3x128_S1x1x128_1_2_0) : (⟨S3x3x128, .f32⟩ : BufTy).Contents (Elt F) → (⟨S1x1x128, .f32⟩ : BufTy).Contents (Elt F)),
    StableHlo.reshape main_v113 main_v114 rfl shapeCasts_S1x1x128_S128,
    StableHlo.binary main_v83 main_v112 main_v115 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v114 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v115 main_v117 main_v118 (addf : (⟨S100000x128, .f32⟩ : BufTy).Contents (Elt F) → (⟨S100000x128, .f32⟩ : BufTy).Contents (Elt F) → (⟨S100000x128, .f32⟩ : BufTy).Contents (Elt F)),
    StableHlo.nullary main_c_24 (constantI S_ 32 0#32),
    StableHlo.unary main_c_24 main_v119 (broadcastInDim S640000 ![] bcast_S_S640000 : (⟨S_, .i32⟩ : BufTy).Contents (Elt F) → (⟨S640000, .i32⟩ : BufTy).Contents (Elt F)),
    StableHlo.binary main_arg8 main_v119 main_v120 (cmpi .slt : (⟨S640000, .i32⟩ : BufTy).Contents (Elt F) → (⟨S640000, .i32⟩ : BufTy).Contents (Elt F) → (⟨S640000, .i1⟩ : BufTy).Contents (Elt F)),
    StableHlo.nullary main_c_25 (constantI S_ 32 100000#32),
    StableHlo.unary main_c_25 main_v121 (broadcastInDim S640000 ![] bcast_S_S640000 : (⟨S_, .i32⟩ : BufTy).Contents (Elt F) → (⟨S640000, .i32⟩ : BufTy).Contents (Elt F)),
    StableHlo.binary main_arg8 main_v121 main_v122 (addi : (⟨S640000, .i32⟩ : BufTy).Contents (Elt F) → (⟨S640000, .i32⟩ : BufTy).Contents (Elt F) → (⟨S640000, .i32⟩ : BufTy).Contents (Elt F)),
    StableHlo.ternary main_v120 main_v122 main_arg8 main_v123 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v123 main_v124 (broadcastInDim S640000x1 ![0] bcast_S640000_S640000x1_0 : (⟨S640000, .i32⟩ : BufTy).Contents (Elt F) → (⟨S640000x1, .i32⟩ : BufTy).Contents (Elt F)),
    StableHlo.binary main_v118 main_v124 main_v125 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.nullary main_cst_26 (constant S_ .f32 0x00000000#32),
    StableHlo.unary main_cst_26 main_v126 (broadcastInDim S100000x128 ![] bcast_S_S100000x128 : (⟨S_, .f32⟩ : BufTy).Contents (Elt F) → (⟨S100000x128, .f32⟩ : BufTy).Contents (Elt F)),
    StableHlo.unary main_arg9 main_v127 (broadcastInDim S640000x1 ![0] bcast_S640000_S640000x1_0 : (⟨S640000, .i32⟩ : BufTy).Contents (Elt F) → (⟨S640000x1, .i32⟩ : BufTy).Contents (Elt F)),
    StableHlo.ternary main_v126 main_v127 main_v125 main_v128 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_27 (constant S_ .f32 0x3F800000#32),
    StableHlo.unary main_cst_27 main_v129 (broadcastInDim S640000 ![] bcast_S_S640000 : (⟨S_, .f32⟩ : BufTy).Contents (Elt F) → (⟨S640000, .f32⟩ : BufTy).Contents (Elt F)),
    StableHlo.nullary main_cst_28 (constant S_ .f32 0x00000000#32),
    StableHlo.unary main_cst_28 main_v130 (broadcastInDim S100000 ![] bcast_S_S100000 : (⟨S_, .f32⟩ : BufTy).Contents (Elt F) → (⟨S100000, .f32⟩ : BufTy).Contents (Elt F)),
    StableHlo.unary main_arg9 main_v131 (broadcastInDim S640000x1 ![0] bcast_S640000_S640000x1_0 : (⟨S640000, .i32⟩ : BufTy).Contents (Elt F) → (⟨S640000x1, .i32⟩ : BufTy).Contents (Elt F)),
    StableHlo.ternary main_v130 main_v131 main_v129 main_v132 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_29 (constant S_ .f32 0x3F800000#32),
    StableHlo.unary main_cst_29 main_v133 (broadcastInDim S100000 ![] bcast_S_S100000 : (⟨S_, .f32⟩ : BufTy).Contents (Elt F) → (⟨S100000, .f32⟩ : BufTy).Contents (Elt F)),
    StableHlo.binary main_v132 main_v133 main_v134 (maximumf : (⟨S100000, .f32⟩ : BufTy).Contents (Elt F) → (⟨S100000, .f32⟩ : BufTy).Contents (Elt F) → (⟨S100000, .f32⟩ : BufTy).Contents (Elt F)),
    StableHlo.unary main_v134 main_v135 (broadcastInDim S100000x1 ![0] bcast_S100000_S100000x1_0 : (⟨S100000, .f32⟩ : BufTy).Contents (Elt F) → (⟨S100000x1, .f32⟩ : BufTy).Contents (Elt F)),
    StableHlo.unary main_v135 main_v136 (broadcastInDim S100000x128 ![0, 1] bcast_S100000x1_S100000x128_0_1 : (⟨S100000x1, .f32⟩ : BufTy).Contents (Elt F) → (⟨S100000x128, .f32⟩ : BufTy).Contents (Elt F)),
    StableHlo.binary main_v128 main_v136 main_v137 (Host.divf : (⟨S100000x128, .f32⟩ : BufTy).Contents (Elt F) → (⟨S100000x128, .f32⟩ : BufTy).Contents (Elt F) → (⟨S100000x128, .f32⟩ : BufTy).Contents (Elt F)),
    StableHlo.binary main_v110 main_v137 main_v138 (addf : (⟨S100000x128, .f32⟩ : BufTy).Contents (Elt F) → (⟨S100000x128, .f32⟩ : BufTy).Contents (Elt F) → (⟨S100000x128, .f32⟩ : BufTy).Contents (Elt F)) ]

/-- The references those operations write, in order. -/
abbrev wrB2 : List (Ref sig .tc) :=
  [main_v111, main_v112, main_v113, main_v114, main_v115, main_v116, main_v117, main_v118, main_c_24, main_v119, main_v120, main_c_25, main_v121, main_v122, main_v123, main_v124, main_v125, main_cst_26, main_v126, main_v127, main_v128, main_cst_27, main_v129, main_cst_28, main_v130, main_v131, main_v132, main_cst_29, main_v133, main_v134, main_v135, main_v136, main_v137, main_v138]

theorem opsB2_writes : (opsB2 (F := F)).Forall fun op => op.writes ⊆ (wrB2.map (Proc.devRef (τ := τ) .tc)).toFinset :=
  ⟨writes_single main_v111 (by decide), writes_single main_v112 (by decide), writes_single main_v113 (by decide), writes_single main_v114 (by decide), writes_single main_v115 (by decide), writes_single main_v116 (by decide), writes_single main_v117 (by decide), writes_single main_v118 (by decide), writes_single main_c_24 (by decide), writes_single main_v119 (by decide), writes_single main_v120 (by decide), writes_single main_c_25 (by decide), writes_single main_v121 (by decide), writes_single main_v122 (by decide), writes_single main_v123 (by decide), writes_single main_v124 (by decide), writes_single main_v125 (by decide), writes_single main_cst_26 (by decide), writes_single main_v126 (by decide), writes_single main_v127 (by decide), writes_single main_v128 (by decide), writes_single main_cst_27 (by decide), writes_single main_v129 (by decide), writes_single main_cst_28 (by decide), writes_single main_v130 (by decide), writes_single main_v131 (by decide), writes_single main_v132 (by decide), writes_single main_cst_29 (by decide), writes_single main_v133 (by decide), writes_single main_v134 (by decide), writes_single main_v135 (by decide), writes_single main_v136 (by decide), writes_single main_v137 (by decide), writes_single main_v138 (by decide)⟩

theorem opsB2_sub : (opsB2 (F := F)).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub ..⟩

theorem opsB2_fresh : ∀ op ∈ (opsB2 (F := F)), op.fresh = ∅ := by
  intro _ h; (repeat (cases h with | head => rfl | tail _ h => ?_)); exact nomatch h

/-- Layer 2, the pass along the second relation into the items (operations 184 to 192 of 351). -/
abbrev opsC2a : List (HloOp τ sig (Elt F)) :=
  [ StableHlo.unary main_arg2 main_v139 ((extractStridedSlice S1x1x128x128 ![1, 1, 0, 0] · slices_S3x3x128x128_S1x1x128x128_1_1_0_0) : (⟨S3x3x128x128, .f32⟩ : BufTy).Contents (Elt F) → (⟨S1x1x128x128, .f32⟩ : BufTy).Contents (Elt F)),
    StableHlo.reshape main_v139 main_v140 rfl shapeCasts_S1x1x128x128_S128x128,
    StableHlo.unary main_arg3 main_v141 ((extractStridedSlice S1x1x128 ![1, 1, 0] · slices_S3x3x128_S1x1x128_1_1_0) : (⟨S3x3x128, .f32⟩ : BufTy).Contents (Elt F) → (⟨S1x1x128, .f32⟩ : BufTy).Contents (Elt F)),
    StableHlo.reshape main_v141 main_v142 rfl shapeCasts_S1x1x128_S128,
    StableHlo.binary main_v82 main_v140 main_v143 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v142 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S100000x128 ![0, 1] bcast_S1x128_S100000x128_0_1 : (⟨S1x128, .f32⟩ : BufTy).Contents (Elt F) → (⟨S100000x128, .f32⟩ : BufTy).Contents (Elt F)),
    StableHlo.binary main_v143 main_v145 main_v146 (addf : (⟨S100000x128, .f32⟩ : BufTy).Contents (Elt F) → (⟨S100000x128, .f32⟩ : BufTy).Contents (Elt F) → (⟨S100000x128, .f32⟩ : BufTy).Contents (Elt F)),
    StableHlo.nullary main_c_30 (constantI S_ 32 0#32) ]

/-- The references those operations write, in order. -/
abbrev wrC2a : List (Ref sig .tc) :=
  [main_v139, main_v140, main_v141, main_v142, main_v143, main_v144, main_v145, main_v146, main_c_30]

theorem opsC2a_writes : (opsC2a (F := F)).Forall fun op => op.writes ⊆ (wrC2a.map (Proc.devRef (τ := τ) .tc)).toFinset :=
  ⟨writes_single main_v139 (by decide), writes_single main_v140 (by decide), writes_single main_v141 (by decide), writes_single main_v142 (by decide), writes_single main_v143 (by decide), writes_single main_v144 (by decide), writes_single main_v145 (by decide), writes_single main_v146 (by decide), writes_single main_c_30 (by decide)⟩

theorem opsC2a_sub : (opsC2a (F := F)).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub ..⟩

theorem opsC2a_fresh : ∀ op ∈ (opsC2a (F := F)), op.fresh = ∅ := by
  intro _ h; (repeat (cases h with | head => rfl | tail _ h => ?_)); exact nomatch h

/-- Layer 2, the pass along the second relation into the items (operations 193 to 216 of 351). -/
abbrev opsC2b : List (HloOp τ sig (Elt F)) :=
  [ StableHlo.unary main_c_30 main_v147 (broadcastInDim S640000 ![] bcast_S_S640000 : (⟨S_, .i32⟩ : BufTy).Contents (Elt F) → (⟨S640000, .i32⟩ : BufTy).Contents (Elt F)),
    StableHlo.binary main_arg6 main_v147 main_v148 (cmpi .slt : (⟨S640000, .i32⟩ : BufTy).Contents (Elt F) → (⟨S640000, .i32⟩ : BufTy).Contents (Elt F) → (⟨S640000, .i1⟩ : BufTy).Contents (Elt F)),
    StableHlo.nullary main_c_31 (constantI S_ 32 100000#32),
    StableHlo.unary main_c_31 main_v149 (broadcastInDim S640000 ![] bcast_S_S640000 : (⟨S_, .i32⟩ : BufTy).Contents (Elt F) → (⟨S640000, .i32⟩ : BufTy).Contents (Elt F)),
    StableHlo.binary main_arg6 main_v149 main_v150 (addi : (⟨S640000, .i32⟩ : BufTy).Contents (Elt F) → (⟨S640000, .i32⟩ : BufTy).Contents (Elt F) → (⟨S640000, .i32⟩ : BufTy).Contents (Elt F)),
    StableHlo.ternary main_v148 main_v150 main_arg6 main_v151 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v151 main_v152 (broadcastInDim S640000x1 ![0] bcast_S640000_S640000x1_0 : (⟨S640000, .i32⟩ : BufTy).Contents (Elt F) → (⟨S640000x1, .i32⟩ : BufTy).Contents (Elt F)),
    StableHlo.binary main_v146 main_v152 main_v153 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.nullary main_cst_32 (constant S_ .f32 0x00000000#32),
    StableHlo.unary main_cst_32 main_v154 (broadcastInDim S100000x128 ![] bcast_S_S100000x128 : (⟨S_, .f32⟩ : BufTy).Contents (Elt F) → (⟨S100000x128, .f32⟩ : BufTy).Contents (Elt F)),
    StableHlo.unary main_arg7 main_v155 (broadcastInDim S640000x1 ![0] bcast_S640000_S640000x1_0 : (⟨S640000, .i32⟩ : BufTy).Contents (Elt F) → (⟨S640000x1, .i32⟩ : BufTy).Contents (Elt F)),
    StableHlo.ternary main_v154 main_v155 main_v153 main_v156 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_33 (constant S_ .f32 0x3F800000#32),
    StableHlo.unary main_cst_33 main_v157 (broadcastInDim S640000 ![] bcast_S_S640000 : (⟨S_, .f32⟩ : BufTy).Contents (Elt F) → (⟨S640000, .f32⟩ : BufTy).Contents (Elt F)),
    StableHlo.nullary main_cst_34 (constant S_ .f32 0x00000000#32),
    StableHlo.unary main_cst_34 main_v158 (broadcastInDim S100000 ![] bcast_S_S100000 : (⟨S_, .f32⟩ : BufTy).Contents (Elt F) → (⟨S100000, .f32⟩ : BufTy).Contents (Elt F)),
    StableHlo.unary main_arg7 main_v159 (broadcastInDim S640000x1 ![0] bcast_S640000_S640000x1_0 : (⟨S640000, .i32⟩ : BufTy).Contents (Elt F) → (⟨S640000x1, .i32⟩ : BufTy).Contents (Elt F)),
    StableHlo.ternary main_v158 main_v159 main_v157 main_v160 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_35 (constant S_ .f32 0x3F800000#32),
    StableHlo.unary main_cst_35 main_v161 (broadcastInDim S100000 ![] bcast_S_S100000 : (⟨S_, .f32⟩ : BufTy).Contents (Elt F) → (⟨S100000, .f32⟩ : BufTy).Contents (Elt F)),
    StableHlo.binary main_v160 main_v161 main_v162 (maximumf : (⟨S100000, .f32⟩ : BufTy).Contents (Elt F) → (⟨S100000, .f32⟩ : BufTy).Contents (Elt F) → (⟨S100000, .f32⟩ : BufTy).Contents (Elt F)),
    StableHlo.unary main_v162 main_v163 (broadcastInDim S100000x1 ![0] bcast_S100000_S100000x1_0 : (⟨S100000, .f32⟩ : BufTy).Contents (Elt F) → (⟨S100000x1, .f32⟩ : BufTy).Contents (Elt F)),
    StableHlo.unary main_v163 main_v164 (broadcastInDim S100000x128 ![0, 1] bcast_S100000x1_S100000x128_0_1 : (⟨S100000x1, .f32⟩ : BufTy).Contents (Elt F) → (⟨S100000x128, .f32⟩ : BufTy).Contents (Elt F)),
    StableHlo.binary main_v156 main_v164 main_v165 (Host.divf : (⟨S100000x128, .f32⟩ : BufTy).Contents (Elt F) → (⟨S100000x128, .f32⟩ : BufTy).Contents (Elt F) → (⟨S100000x128, .f32⟩ : BufTy).Contents (Elt F)) ]

/-- The references those operations write, in order. -/
abbrev wrC2b : List (Ref sig .tc) :=
  [main_v147, main_v148, main_c_31, main_v149, main_v150, main_v151, main_v152, main_v153, main_cst_32, main_v154, main_v155, main_v156, main_cst_33, main_v157, main_cst_34, main_v158, main_v159, main_v160, main_cst_35, main_v161, main_v162, main_v163, main_v164, main_v165]

theorem opsC2b_writes : (opsC2b (F := F)).Forall fun op => op.writes ⊆ (wrC2b.map (Proc.devRef (τ := τ) .tc)).toFinset :=
  ⟨writes_single main_v147 (by decide), writes_single main_v148 (by decide), writes_single main_c_31 (by decide), writes_single main_v149 (by decide), writes_single main_v150 (by decide), writes_single main_v151 (by decide), writes_single main_v152 (by decide), writes_single main_v153 (by decide), writes_single main_cst_32 (by decide), writes_single main_v154 (by decide), writes_single main_v155 (by decide), writes_single main_v156 (by decide), writes_single main_cst_33 (by decide), writes_single main_v157 (by decide), writes_single main_cst_34 (by decide), writes_single main_v158 (by decide), writes_single main_v159 (by decide), writes_single main_v160 (by decide), writes_single main_cst_35 (by decide), writes_single main_v161 (by decide), writes_single main_v162 (by decide), writes_single main_v163 (by decide), writes_single main_v164 (by decide), writes_single main_v165 (by decide)⟩

theorem opsC2b_sub : (opsC2b (F := F)).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem opsC2b_fresh : ∀ op ∈ (opsC2b (F := F)), op.fresh = ∅ := by
  intro _ h; (repeat (cases h with | head => rfl | tail _ h => ?_)); exact nomatch h

/-- Layer 2, the leaky rectifier on the users' sum and on the items' pass (operations 217 to 232 of 351). -/
abbrev opsT2 : List (HloOp τ sig (Elt F)) :=
  [ StableHlo.nullary main_cst_36 (constant S_ .f32 0x3C23D70A#32),
    StableHlo.TRef.nullary main_call2.cst (constant S_ .f32 0x00000000#32),
    StableHlo.TRef.unary main_call2.cst main_call2.v0 (broadcastInDim S100000x128 ![] bcast_S_S100000x128),
    StableHlo.TRef.binary (.of main_v138 : StableHlo.TRef sig ⟨S100000x128, .f32⟩) main_call2.v0 main_call2.v1 (cmpf .oge),
    StableHlo.TRef.unary (.of main_cst_36 : StableHlo.TRef sig ⟨S_, .f32⟩) main_call2.v2 id,
    StableHlo.TRef.unary main_call2.v2 main_call2.v3 (broadcastInDim S100000x128 ![] bcast_S_S100000x128),
    StableHlo.TRef.binary main_call2.v3 (.of main_v138 : StableHlo.TRef sig ⟨S100000x128, .f32⟩) main_call2.v4 mulf,
    StableHlo.TRef.ternary main_call2.v1 (.of main_v138 : StableHlo.TRef sig ⟨S100000x128, .f32⟩) main_call2.v4 main_call2.call0.v0 select,
    StableHlo.nullary main_cst_37 (constant S_ .f32 0x3C23D70A#32),
    StableHlo.TRef.nullary main_call3.cst (constant S_ .f32 0x00000000#32),
    StableHlo.TRef.unary main_call3.cst main_call3.v0 (broadcastInDim S100000x128 ![] bcast_S_S100000x128),
    StableHlo.TRef.binary (.of main_v165 : StableHlo.TRef sig ⟨S100000x128, .f32⟩) main_call3.v0 main_call3.v1 (cmpf .oge),
    StableHlo.TRef.unary (.of main_cst_37 : StableHlo.TRef sig ⟨S_, .f32⟩) main_call3.v2 id,
    StableHlo.TRef.unary main_call3.v2 main_call3.v3 (broadcastInDim S100000x128 ![] bcast_S_S100000x128),
    StableHlo.TRef.binary main_call3.v3 (.of main_v165 : StableHlo.TRef sig ⟨S100000x128, .f32⟩) main_call3.v4 mulf,
    StableHlo.TRef.ternary main_call3.v1 (.of main_v165 : StableHlo.TRef sig ⟨S100000x128, .f32⟩) main_call3.v4 main_call3.call0.v0 select ]

/-- The references those operations write, in order. -/
abbrev wrT2 : List (Ref sig .tc) :=
  [main_cst_36, main_call2_cst, main_call2_v0, main_call2_v1, main_call2_v2, main_call2_v3, main_call2_v4, main_v166, main_cst_37, main_call3_cst, main_call3_v0, main_call3_v1, main_call3_v2, main_call3_v3, main_call3_v4, main_v167]

theorem opsT2_writes : (opsT2 (F := F)).Forall fun op => op.writes ⊆ (wrT2.map (Proc.devRef (τ := τ) .tc)).toFinset :=
  ⟨writes_single main_cst_36 (by decide), writes_single main_call2_cst (by decide), writes_single main_call2_v0 (by decide), writes_single main_call2_v1 (by decide), writes_single main_call2_v2 (by decide), writes_single main_call2_v3 (by decide), writes_single main_call2_v4 (by decide), writes_single main_v166 (by decide), writes_single main_cst_37 (by decide), writes_single main_call3_cst (by decide), writes_single main_call3_v0 (by decide), writes_single main_call3_v1 (by decide), writes_single main_call3_v2 (by decide), writes_single main_call3_v3 (by decide), writes_single main_call3_v4 (by decide), writes_single main_v167 (by decide)⟩

theorem opsT2_sub : (opsT2 (F := F)).Forall fun op => op.bufs ⊆ tcRefs τ sig :=
  ⟨nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub ..⟩

theorem opsT2_fresh : ∀ op ∈ (opsT2 (F := F)), op.fresh = ∅ := by
  intro _ h; (repeat (cases h with | head => rfl | tail _ h => ?_)); exact nomatch h

end Cert.ReferenceIdeal.RefRun

end
-- ==== Proof.RefRun.Ops3.lean ====
/-
  The reference's host operations of layer 3 and of the final stacking, in program order, as literal lists cut where a message pass, the
  rectifier, or one of the program's printed windows ends; with each list the references its operations write,
  that each operation writes inside that list, that each touches TensorCore references only, and that none leaves
  a buffer undetermined. A call of the rectifier is its callee's six operations over the call's own buffers followed
  by the one selection of the function it calls.
-/
import proofs.«102427_j13013750907161_1_alg».proof.Proof.Gen.ReferenceIdeal
import proofs.«102427_j13013750907161_1_alg».proof.Proof.RefRun.Basic

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 3, the pass along the first relation into the users: the dense map of the user table, its rows gathered at the edges' sources, summed into the edges' targets and divided by the targets' edge counts (operations 233 to 264 of 351). -/
abbrev opsA3a : List (HloOp τ sig (Elt F)) :=
  [ StableHlo.unary main_arg2 main_v168 ((extractStridedSlice S1x1x128x128 ![2, 0, 0, 0] · slices_S3x3x128x128_S1x1x128x128_2_0_0_0) : (⟨S3x3x128x128, .f32⟩ : BufTy).Contents (Elt F) → (⟨S1x1x128x128, .f32⟩ : BufTy).Contents (Elt F)),
    StableHlo.reshape main_v168 main_v169 rfl shapeCasts_S1x1x128x128_S128x128,
    StableHlo.unary main_arg3 main_v170 ((extractStridedSlice S1x1x128 ![2, 0, 0] · slices_S3x3x128_S1x1x128_2_0_0) : (⟨S3x3x128, .f32⟩ : BufTy).Contents (Elt F) → (⟨S1x1x128, .f32⟩ : BufTy).Contents (Elt F)),
    StableHlo.reshape main_v170 main_v171 rfl shapeCasts_S1x1x128_S128,
    StableHlo.binary main_v166 main_v169 main_v172 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v171 main_v173 (broadcastInDim S1x128 ![1] bcast_S128_S1x128_1 : (⟨S128, .f32⟩ : BufTy).Contents (Elt F) → (⟨S1x128, .f32⟩ : BufTy).Contents (Elt F)),
    StableHlo.unary main_v173 main_v174 (broadcastInDim S100000x128 ![0, 1] bcast_S1x128_S100000x128_0_1 : (⟨S1x128, .f32⟩ : BufTy).Contents (Elt F) → (⟨S100000x128, .f32⟩ : BufTy).Contents (Elt F)),
    StableHlo.binary main_v172 main_v174 main_v175 (addf : (⟨S100000x128, .f32⟩ : BufTy).Contents (Elt F) → (⟨S100000x128, .f32⟩ : BufTy).Contents (Elt F) → (⟨S100000x128, .f32⟩ : BufTy).Contents (Elt F)),
    StableHlo.nullary main_c_38 (constantI S_ 32 0#32),
    StableHlo.unary main_c_38 main_v176 (broadcastInDim S640000 ![] bcast_S_S640000 : (⟨S_, .i32⟩ : BufTy).Contents (Elt F) → (⟨S640000, .i32⟩ : BufTy).Contents (Elt F)),
    StableHlo.binary main_arg4 main_v176 main_v177 (cmpi .slt : (⟨S640000, .i32⟩ : BufTy).Contents (Elt F) → (⟨S640000, .i32⟩ : BufTy).Contents (Elt F) → (⟨S640000, .i1⟩ : BufTy).Contents (Elt F)),
    StableHlo.nullary main_c_39 (constantI S_ 32 100000#32),
    StableHlo.unary main_c_39 main_v178 (broadcastInDim S640000 ![] bcast_S_S640000 : (⟨S_, .i32⟩ : BufTy).Contents (Elt F) → (⟨S640000, .i32⟩ : BufTy).Contents (Elt F)),
    StableHlo.binary main_arg4 main_v178 main_v179 (addi : (⟨S640000, .i32⟩ : BufTy).Contents (Elt F) → (⟨S640000, .i32⟩ : BufTy).Contents (Elt F) → (⟨S640000, .i32⟩ : BufTy).Contents (Elt F)),
    StableHlo.ternary main_v177 main_v179 main_arg4 main_v180 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v180 main_v181 (broadcastInDim S640000x1 ![0] bcast_S640000_S640000x1_0 : (⟨S640000, .i32⟩ : BufTy).Contents (Elt F) → (⟨S640000x1, .i32⟩ : BufTy).Contents (Elt F)),
    StableHlo.binary main_v175 main_v181 main_v182 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.nullary main_cst_40 (constant S_ .f32 0x00000000#32),
    StableHlo.unary main_cst_40 main_v183 (broadcastInDim S100000x128 ![] bcast_S_S100000x128 : (⟨S_, .f32⟩ : BufTy).Contents (Elt F) → (⟨S100000x128, .f32⟩ : BufTy).Contents (Elt F)),
    StableHlo.unary main_arg5 main_v184 (broadcastInDim S640000x1 ![0] bcast_S640000_S640000x1_0 : (⟨S640000, .i32⟩ : BufTy).Contents (Elt F) → (⟨S640000x1, .i32⟩ : BufTy).Contents (Elt F)),
    StableHlo.ternary main_v183 main_v184 main_v182 main_v185 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_41 (constant S_ .f32 0x3F800000#32),
    StableHlo.unary main_cst_41 main_v186 (broadcastInDim S640000 ![] bcast_S_S640000 : (⟨S_, .f32⟩ : BufTy).Contents (Elt F) → (⟨S640000, .f32⟩ : BufTy).Contents (Elt F)),
    StableHlo.nullary main_cst_42 (constant S_ .f32 0x00000000#32),
    StableHlo.unary main_cst_42 main_v187 (broadcastInDim S100000 ![] bcast_S_S100000 : (⟨S_, .f32⟩ : BufTy).Contents (Elt F) → (⟨S100000, .f32⟩ : BufTy).Contents (Elt F)),
    StableHlo.unary main_arg5 main_v188 (broadcastInDim S640000x1 ![0] bcast_S640000_S640000x1_0 : (⟨S640000, .i32⟩ : BufTy).Contents (Elt F) → (⟨S640000x1, .i32⟩ : BufTy).Contents (Elt F)),
    StableHlo.ternary main_v187 main_v188 main_v186 main_v189 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_43 (constant S_ .f32 0x3F800000#32),
    StableHlo.unary main_cst_43 main_v190 (broadcastInDim S100000 ![] bcast_S_S100000 : (⟨S_, .f32⟩ : BufTy).Contents (Elt F) → (⟨S100000, .f32⟩ : BufTy).Contents (Elt F)),
    StableHlo.binary main_v189 main_v190 main_v191 (maximumf : (⟨S100000, .f32⟩ : BufTy).Contents (Elt F) → (⟨S100000, .f32⟩ : BufTy).Contents (Elt F) → (⟨S100000, .f32⟩ : BufTy).Contents (Elt F)),
    StableHlo.unary main_v191 main_v192 (broadcastInDim S100000x1 ![0] bcast_S100000_S100000x1_0 : (⟨S100000, .f32⟩ : BufTy).Contents (Elt F) → (⟨S100000x1, .f32⟩ : BufTy).Contents (Elt F)),
    StableHlo.unary main_v192 main_v193 (broadcastInDim S100000x128 ![0, 1] bcast_S100000x1_S100000x128_0_1 : (⟨S100000x1, .f32⟩ : BufTy).Contents (Elt F) → (⟨S100000x128, .f32⟩ : BufTy).Contents (Elt F)) ]

/-- The references those operations write, in order. -/
abbrev wrA3a : List (Ref sig .tc) :=
  [main_v168, main_v169, main_v170, main_v171, main_v172, main_v173, main_v174, main_v175, main_c_38, main_v176, main_v177, main_c_39, main_v178, main_v179, main_v180, main_v181, main_v182, main_cst_40, main_v183, main_v184, main_v185, main_cst_41, main_v186, main_cst_42, main_v187, main_v188, main_v189, main_cst_43, main_v190, main_v191, main_v192, main_v193]

theorem opsA3a_writes : (opsA3a (F := F)).Forall fun op => op.writes ⊆ (wrA3a.map (Proc.devRef (τ := τ) .tc)).toFinset :=
  ⟨writes_single main_v168 (by decide), writes_single main_v169 (by decide), writes_single main_v170 (by decide), writes_single main_v171 (by decide), writes_single main_v172 (by decide), writes_single main_v173 (by decide), writes_single main_v174 (by decide), writes_single main_v175 (by decide), writes_single main_c_38 (by decide), writes_single main_v176 (by decide), writes_single main_v177 (by decide), writes_single main_c_39 (by decide), writes_single main_v178 (by decide), writes_single main_v179 (by decide), writes_single main_v180 (by decide), writes_single main_v181 (by decide), writes_single main_v182 (by decide), writes_single main_cst_40 (by decide), writes_single main_v183 (by decide), writes_single main_v184 (by decide), writes_single main_v185 (by decide), writes_single main_cst_41 (by decide), writes_single main_v186 (by decide), writes_single main_cst_42 (by decide), writes_single main_v187 (by decide), writes_single main_v188 (by decide), writes_single main_v189 (by decide), writes_single main_cst_43 (by decide), writes_single main_v190 (by decide), writes_single main_v191 (by decide), writes_single main_v192 (by decide), writes_single main_v193 (by decide)⟩

theorem opsA3a_sub : (opsA3a (F := F)).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub ..⟩

theorem opsA3a_fresh : ∀ op ∈ (opsA3a (F := F)), op.fresh = ∅ := by
  intro _ h; (repeat (cases h with | head => rfl | tail _ h => ?_)); exact nomatch h

/-- Layer 3, the pass along the first relation into the users: the dense map of the user table, its rows gathered at the edges' sources, summed into the edges' targets and divided by the targets' edge counts (operations 265 to 265 of 351). -/
abbrev opsA3b : List (HloOp τ sig (Elt F)) :=
  [ StableHlo.binary main_v185 main_v193 main_v194 (Host.divf : (⟨S100000x128, .f32⟩ : BufTy).Contents (Elt F) → (⟨S100000x128, .f32⟩ : BufTy).Contents (Elt F) → (⟨S100000x128, .f32⟩ : BufTy).Contents (Elt F)) ]

/-- The references those operations write, in order. -/
abbrev wrA3b : List (Ref sig .tc) :=
  [main_v194]

theorem opsA3b_writes : (opsA3b (F := F)).Forall fun op => op.writes ⊆ (wrA3b.map (Proc.devRef (τ := τ) .tc)).toFinset :=
  writes_single main_v194 (by decide)

theorem opsA3b_sub : (opsA3b (F := F)).Forall fun op => op.bufs ⊆ tcRefs τ sig :=
  binary_bufs_sub ..

theorem opsA3b_fresh : ∀ op ∈ (opsA3b (F := F)), op.fresh = ∅ := by
  intro _ h; (repeat (cases h with | head => rfl | tail _ h => ?_)); exact nomatch h

/-- Layer 3, the pass along the third relation into the users (the same four steps on the item table), then the sum of the two passes that reach the users (operations 266 to 299 of 351). -/
abbrev opsB3 : List (HloOp τ sig (Elt F)) :=
  [ StableHlo.unary main_arg2 main_v195 ((extractStridedSlice S1x1x128x128 ![2, 2, 0, 0] · slices_S3x3x128x128_S1x1x128x128_2_2_0_0) : (⟨S3x3x128x128, .f32⟩ : BufTy).Contents (Elt F) → (⟨S1x1x128x128, .f32⟩ : BufTy).Contents (Elt F)),
    StableHlo.reshape main_v195 main_v196 rfl shapeCasts_S1x1x128x128_S128x128,
    StableHlo.unary main_arg3 main_v197 ((extractStridedSlice S1x1x128 ![2, 2, 0] · slices_S3x3x128_S1x1x128_2_2_0) : (⟨S3x3x128, .f32⟩ : BufTy).Contents (Elt F) → (⟨S1x1x128, .f32⟩ : BufTy).Contents (Elt F)),
    StableHlo.reshape main_v197 main_v198 rfl shapeCasts_S1x1x128_S128,
    StableHlo.binary main_v167 main_v196 main_v199 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v198 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S100000x128 ![0, 1] bcast_S1x128_S100000x128_0_1 : (⟨S1x128, .f32⟩ : BufTy).Contents (Elt F) → (⟨S100000x128, .f32⟩ : BufTy).Contents (Elt F)),
    StableHlo.binary main_v199 main_v201 main_v202 (addf : (⟨S100000x128, .f32⟩ : BufTy).Contents (Elt F) → (⟨S100000x128, .f32⟩ : BufTy).Contents (Elt F) → (⟨S100000x128, .f32⟩ : BufTy).Contents (Elt F)),
    StableHlo.nullary main_c_44 (constantI S_ 32 0#32),
    StableHlo.unary main_c_44 main_v203 (broadcastInDim S640000 ![] bcast_S_S640000 : (⟨S_, .i32⟩ : BufTy).Contents (Elt F) → (⟨S640000, .i32⟩ : BufTy).Contents (Elt F)),
    StableHlo.binary main_arg8 main_v203 main_v204 (cmpi .slt : (⟨S640000, .i32⟩ : BufTy).Contents (Elt F) → (⟨S640000, .i32⟩ : BufTy).Contents (Elt F) → (⟨S640000, .i1⟩ : BufTy).Contents (Elt F)),
    StableHlo.nullary main_c_45 (constantI S_ 32 100000#32),
    StableHlo.unary main_c_45 main_v205 (broadcastInDim S640000 ![] bcast_S_S640000 : (⟨S_, .i32⟩ : BufTy).Contents (Elt F) → (⟨S640000, .i32⟩ : BufTy).Contents (Elt F)),
    StableHlo.binary main_arg8 main_v205 main_v206 (addi : (⟨S640000, .i32⟩ : BufTy).Contents (Elt F) → (⟨S640000, .i32⟩ : BufTy).Contents (Elt F) → (⟨S640000, .i32⟩ : BufTy).Contents (Elt F)),
    StableHlo.ternary main_v204 main_v206 main_arg8 main_v207 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v207 main_v208 (broadcastInDim S640000x1 ![0] bcast_S640000_S640000x1_0 : (⟨S640000, .i32⟩ : BufTy).Contents (Elt F) → (⟨S640000x1, .i32⟩ : BufTy).Contents (Elt F)),
    StableHlo.binary main_v202 main_v208 main_v209 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.nullary main_cst_46 (constant S_ .f32 0x00000000#32),
    StableHlo.unary main_cst_46 main_v210 (broadcastInDim S100000x128 ![] bcast_S_S100000x128 : (⟨S_, .f32⟩ : BufTy).Contents (Elt F) → (⟨S100000x128, .f32⟩ : BufTy).Contents (Elt F)),
    StableHlo.unary main_arg9 main_v211 (broadcastInDim S640000x1 ![0] bcast_S640000_S640000x1_0 : (⟨S640000, .i32⟩ : BufTy).Contents (Elt F) → (⟨S640000x1, .i32⟩ : BufTy).Contents (Elt F)),
    StableHlo.ternary main_v210 main_v211 main_v209 main_v212 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_47 (constant S_ .f32 0x3F800000#32),
    StableHlo.unary main_cst_47 main_v213 (broadcastInDim S640000 ![] bcast_S_S640000 : (⟨S_, .f32⟩ : BufTy).Contents (Elt F) → (⟨S640000, .f32⟩ : BufTy).Contents (Elt F)),
    StableHlo.nullary main_cst_48 (constant S_ .f32 0x00000000#32),
    StableHlo.unary main_cst_48 main_v214 (broadcastInDim S100000 ![] bcast_S_S100000 : (⟨S_, .f32⟩ : BufTy).Contents (Elt F) → (⟨S100000, .f32⟩ : BufTy).Contents (Elt F)),
    StableHlo.unary main_arg9 main_v215 (broadcastInDim S640000x1 ![0] bcast_S640000_S640000x1_0 : (⟨S640000, .i32⟩ : BufTy).Contents (Elt F) → (⟨S640000x1, .i32⟩ : BufTy).Contents (Elt F)),
    StableHlo.ternary main_v214 main_v215 main_v213 main_v216 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_49 (constant S_ .f32 0x3F800000#32),
    StableHlo.unary main_cst_49 main_v217 (broadcastInDim S100000 ![] bcast_S_S100000 : (⟨S_, .f32⟩ : BufTy).Contents (Elt F) → (⟨S100000, .f32⟩ : BufTy).Contents (Elt F)),
    StableHlo.binary main_v216 main_v217 main_v218 (maximumf : (⟨S100000, .f32⟩ : BufTy).Contents (Elt F) → (⟨S100000, .f32⟩ : BufTy).Contents (Elt F) → (⟨S100000, .f32⟩ : BufTy).Contents (Elt F)),
    StableHlo.unary main_v218 main_v219 (broadcastInDim S100000x1 ![0] bcast_S100000_S100000x1_0 : (⟨S100000, .f32⟩ : BufTy).Contents (Elt F) → (⟨S100000x1, .f32⟩ : BufTy).Contents (Elt F)),
    StableHlo.unary main_v219 main_v220 (broadcastInDim S100000x128 ![0, 1] bcast_S100000x1_S100000x128_0_1 : (⟨S100000x1, .f32⟩ : BufTy).Contents (Elt F) → (⟨S100000x128, .f32⟩ : BufTy).Contents (Elt F)),
    StableHlo.binary main_v212 main_v220 main_v221 (Host.divf : (⟨S100000x128, .f32⟩ : BufTy).Contents (Elt F) → (⟨S100000x128, .f32⟩ : BufTy).Contents (Elt F) → (⟨S100000x128, .f32⟩ : BufTy).Contents (Elt F)),
    StableHlo.binary main_v194 main_v221 main_v222 (addf : (⟨S100000x128, .f32⟩ : BufTy).Contents (Elt F) → (⟨S100000x128, .f32⟩ : BufTy).Contents (Elt F) → (⟨S100000x128, .f32⟩ : BufTy).Contents (Elt F)) ]

/-- The references those operations write, in order. -/
abbrev wrB3 : List (Ref sig .tc) :=
  [main_v195, main_v196, main_v197, main_v198, main_v199, main_v200, main_v201, main_v202, main_c_44, main_v203, main_v204, main_c_45, main_v205, main_v206, main_v207, main_v208, main_v209, main_cst_46, main_v210, main_v211, main_v212, main_cst_47, main_v213, main_cst_48, main_v214, main_v215, main_v216, main_cst_49, main_v217, main_v218, main_v219, main_v220, main_v221, main_v222]

theorem opsB3_writes : (opsB3 (F := F)).Forall fun op => op.writes ⊆ (wrB3.map (Proc.devRef (τ := τ) .tc)).toFinset :=
  ⟨writes_single main_v195 (by decide), writes_single main_v196 (by decide), writes_single main_v197 (by decide), writes_single main_v198 (by decide), writes_single main_v199 (by decide), writes_single main_v200 (by decide), writes_single main_v201 (by decide), writes_single main_v202 (by decide), writes_single main_c_44 (by decide), writes_single main_v203 (by decide), writes_single main_v204 (by decide), writes_single main_c_45 (by decide), writes_single main_v205 (by decide), writes_single main_v206 (by decide), writes_single main_v207 (by decide), writes_single main_v208 (by decide), writes_single main_v209 (by decide), writes_single main_cst_46 (by decide), writes_single main_v210 (by decide), writes_single main_v211 (by decide), writes_single main_v212 (by decide), writes_single main_cst_47 (by decide), writes_single main_v213 (by decide), writes_single main_cst_48 (by decide), writes_single main_v214 (by decide), writes_single main_v215 (by decide), writes_single main_v216 (by decide), writes_single main_cst_49 (by decide), writes_single main_v217 (by decide), writes_single main_v218 (by decide), writes_single main_v219 (by decide), writes_single main_v220 (by decide), writes_single main_v221 (by decide), writes_single main_v222 (by decide)⟩

theorem opsB3_sub : (opsB3 (F := F)).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub ..⟩

theorem opsB3_fresh : ∀ op ∈ (opsB3 (F := F)), op.fresh = ∅ := by
  intro _ h; (repeat (cases h with | head => rfl | tail _ h => ?_)); exact nomatch h

/-- Layer 3, the pass along the second relation into the items (operations 300 to 324 of 351). -/
abbrev opsC3a : List (HloOp τ sig (Elt F)) :=
  [ StableHlo.unary main_arg2 main_v223 ((extractStridedSlice S1x1x128x128 ![2, 1, 0, 0] · slices_S3x3x128x128_S1x1x128x128_2_1_0_0) : (⟨S3x3x128x128, .f32⟩ : BufTy).Contents (Elt F) → (⟨S1x1x128x128, .f32⟩ : BufTy).Contents (Elt F)),
    StableHlo.reshape main_v223 main_v224 rfl shapeCasts_S1x1x128x128_S128x128,
    StableHlo.unary main_arg3 main_v225 ((extractStridedSlice S1x1x128 ![2, 1, 0] · slices_S3x3x128_S1x1x128_2_1_0) : (⟨S3x3x128, .f32⟩ : BufTy).Contents (Elt F) → (⟨S1x1x128, .f32⟩ : BufTy).Contents (Elt F)),
    StableHlo.reshape main_v225 main_v226 rfl shapeCasts_S1x1x128_S128,
    StableHlo.binary main_v166 main_v224 main_v227 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v226 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S100000x128 ![0, 1] bcast_S1x128_S100000x128_0_1 : (⟨S1x128, .f32⟩ : BufTy).Contents (Elt F) → (⟨S100000x128, .f32⟩ : BufTy).Contents (Elt F)),
    StableHlo.binary main_v227 main_v229 main_v230 (addf : (⟨S100000x128, .f32⟩ : BufTy).Contents (Elt F) → (⟨S100000x128, .f32⟩ : BufTy).Contents (Elt F) → (⟨S100000x128, .f32⟩ : BufTy).Contents (Elt F)),
    StableHlo.nullary main_c_50 (constantI S_ 32 0#32),
    StableHlo.unary main_c_50 main_v231 (broadcastInDim S640000 ![] bcast_S_S640000 : (⟨S_, .i32⟩ : BufTy).Contents (Elt F) → (⟨S640000, .i32⟩ : BufTy).Contents (Elt F)),
    StableHlo.binary main_arg6 main_v231 main_v232 (cmpi .slt : (⟨S640000, .i32⟩ : BufTy).Contents (Elt F) → (⟨S640000, .i32⟩ : BufTy).Contents (Elt F) → (⟨S640000, .i1⟩ : BufTy).Contents (Elt F)),
    StableHlo.nullary main_c_51 (constantI S_ 32 100000#32),
    StableHlo.unary main_c_51 main_v233 (broadcastInDim S640000 ![] bcast_S_S640000 : (⟨S_, .i32⟩ : BufTy).Contents (Elt F) → (⟨S640000, .i32⟩ : BufTy).Contents (Elt F)),
    StableHlo.binary main_arg6 main_v233 main_v234 (addi : (⟨S640000, .i32⟩ : BufTy).Contents (Elt F) → (⟨S640000, .i32⟩ : BufTy).Contents (Elt F) → (⟨S640000, .i32⟩ : BufTy).Contents (Elt F)),
    StableHlo.ternary main_v232 main_v234 main_arg6 main_v235 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v235 main_v236 (broadcastInDim S640000x1 ![0] bcast_S640000_S640000x1_0 : (⟨S640000, .i32⟩ : BufTy).Contents (Elt F) → (⟨S640000x1, .i32⟩ : BufTy).Contents (Elt F)),
    StableHlo.binary main_v230 main_v236 main_v237 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.nullary main_cst_52 (constant S_ .f32 0x00000000#32),
    StableHlo.unary main_cst_52 main_v238 (broadcastInDim S100000x128 ![] bcast_S_S100000x128 : (⟨S_, .f32⟩ : BufTy).Contents (Elt F) → (⟨S100000x128, .f32⟩ : BufTy).Contents (Elt F)),
    StableHlo.unary main_arg7 main_v239 (broadcastInDim S640000x1 ![0] bcast_S640000_S640000x1_0 : (⟨S640000, .i32⟩ : BufTy).Contents (Elt F) → (⟨S640000x1, .i32⟩ : BufTy).Contents (Elt F)),
    StableHlo.ternary main_v238 main_v239 main_v237 main_v240 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_53 (constant S_ .f32 0x3F800000#32),
    StableHlo.unary main_cst_53 main_v241 (broadcastInDim S640000 ![] bcast_S_S640000 : (⟨S_, .f32⟩ : BufTy).Contents (Elt F) → (⟨S640000, .f32⟩ : BufTy).Contents (Elt F)),
    StableHlo.nullary main_cst_54 (constant S_ .f32 0x00000000#32),
    StableHlo.unary main_cst_54 main_v242 (broadcastInDim S100000 ![] bcast_S_S100000 : (⟨S_, .f32⟩ : BufTy).Contents (Elt F) → (⟨S100000, .f32⟩ : BufTy).Contents (Elt F)) ]

/-- The references those operations write, in order. -/
abbrev wrC3a : List (Ref sig .tc) :=
  [main_v223, main_v224, main_v225, main_v226, main_v227, main_v228, main_v229, main_v230, main_c_50, main_v231, main_v232, main_c_51, main_v233, main_v234, main_v235, main_v236, main_v237, main_cst_52, main_v238, main_v239, main_v240, main_cst_53, main_v241, main_cst_54, main_v242]

theorem opsC3a_writes : (opsC3a (F := F)).Forall fun op => op.writes ⊆ (wrC3a.map (Proc.devRef (τ := τ) .tc)).toFinset :=
  ⟨writes_single main_v223 (by decide), writes_single main_v224 (by decide), writes_single main_v225 (by decide), writes_single main_v226 (by decide), writes_single main_v227 (by decide), writes_single main_v228 (by decide), writes_single main_v229 (by decide), writes_single main_v230 (by decide), writes_single main_c_50 (by decide), writes_single main_v231 (by decide), writes_single main_v232 (by decide), writes_single main_c_51 (by decide), writes_single main_v233 (by decide), writes_single main_v234 (by decide), writes_single main_v235 (by decide), writes_single main_v236 (by decide), writes_single main_v237 (by decide), writes_single main_cst_52 (by decide), writes_single main_v238 (by decide), writes_single main_v239 (by decide), writes_single main_v240 (by decide), writes_single main_cst_53 (by decide), writes_single main_v241 (by decide), writes_single main_cst_54 (by decide), writes_single main_v242 (by decide)⟩

theorem opsC3a_sub : (opsC3a (F := F)).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub ..⟩

theorem opsC3a_fresh : ∀ op ∈ (opsC3a (F := F)), op.fresh = ∅ := by
  intro _ h; (repeat (cases h with | head => rfl | tail _ h => ?_)); exact nomatch h

/-- Layer 3, the pass along the second relation into the items (operations 325 to 332 of 351). -/
abbrev opsC3b : List (HloOp τ sig (Elt F)) :=
  [ StableHlo.unary main_arg7 main_v243 (broadcastInDim S640000x1 ![0] bcast_S640000_S640000x1_0 : (⟨S640000, .i32⟩ : BufTy).Contents (Elt F) → (⟨S640000x1, .i32⟩ : BufTy).Contents (Elt F)),
    StableHlo.ternary main_v242 main_v243 main_v241 main_v244 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_55 (constant S_ .f32 0x3F800000#32),
    StableHlo.unary main_cst_55 main_v245 (broadcastInDim S100000 ![] bcast_S_S100000 : (⟨S_, .f32⟩ : BufTy).Contents (Elt F) → (⟨S100000, .f32⟩ : BufTy).Contents (Elt F)),
    StableHlo.binary main_v244 main_v245 main_v246 (maximumf : (⟨S100000, .f32⟩ : BufTy).Contents (Elt F) → (⟨S100000, .f32⟩ : BufTy).Contents (Elt F) → (⟨S100000, .f32⟩ : BufTy).Contents (Elt F)),
    StableHlo.unary main_v246 main_v247 (broadcastInDim S100000x1 ![0] bcast_S100000_S100000x1_0 : (⟨S100000, .f32⟩ : BufTy).Contents (Elt F) → (⟨S100000x1, .f32⟩ : BufTy).Contents (Elt F)),
    StableHlo.unary main_v247 main_v248 (broadcastInDim S100000x128 ![0, 1] bcast_S100000x1_S100000x128_0_1 : (⟨S100000x1, .f32⟩ : BufTy).Contents (Elt F) → (⟨S100000x128, .f32⟩ : BufTy).Contents (Elt F)),
    StableHlo.binary main_v240 main_v248 main_v249 (Host.divf : (⟨S100000x128, .f32⟩ : BufTy).Contents (Elt F) → (⟨S100000x128, .f32⟩ : BufTy).Contents (Elt F) → (⟨S100000x128, .f32⟩ : BufTy).Contents (Elt F)) ]

/-- The references those operations write, in order. -/
abbrev wrC3b : List (Ref sig .tc) :=
  [main_v243, main_v244, main_cst_55, main_v245, main_v246, main_v247, main_v248, main_v249]

theorem opsC3b_writes : (opsC3b (F := F)).Forall fun op => op.writes ⊆ (wrC3b.map (Proc.devRef (τ := τ) .tc)).toFinset :=
  ⟨writes_single main_v243 (by decide), writes_single main_v244 (by decide), writes_single main_cst_55 (by decide), writes_single main_v245 (by decide), writes_single main_v246 (by decide), writes_single main_v247 (by decide), writes_single main_v248 (by decide), writes_single main_v249 (by decide)⟩

theorem opsC3b_sub : (opsC3b (F := F)).Forall fun op => op.bufs ⊆ tcRefs τ sig :=
  ⟨unary_bufs_sub .., ternary_bufs_sub .., nullary_bufs_sub .., unary_bufs_sub .., binary_bufs_sub .., unary_bufs_sub .., unary_bufs_sub .., binary_bufs_sub ..⟩

theorem opsC3b_fresh : ∀ op ∈ (opsC3b (F := F)), op.fresh = ∅ := by
  intro _ h; (repeat (cases h with | head => rfl | tail _ h => ?_)); exact nomatch h

/-- Layer 3, the leaky rectifier on the users' sum and on the items' pass (operations 333 to 348 of 351). -/
abbrev opsT3 : List (HloOp τ sig (Elt F)) :=
  [ StableHlo.nullary main_cst_56 (constant S_ .f32 0x3C23D70A#32),
    StableHlo.TRef.nullary main_call4.cst (constant S_ .f32 0x00000000#32),
    StableHlo.TRef.unary main_call4.cst main_call4.v0 (broadcastInDim S100000x128 ![] bcast_S_S100000x128),
    StableHlo.TRef.binary (.of main_v222 : StableHlo.TRef sig ⟨S100000x128, .f32⟩) main_call4.v0 main_call4.v1 (cmpf .oge),
    StableHlo.TRef.unary (.of main_cst_56 : StableHlo.TRef sig ⟨S_, .f32⟩) main_call4.v2 id,
    StableHlo.TRef.unary main_call4.v2 main_call4.v3 (broadcastInDim S100000x128 ![] bcast_S_S100000x128),
    StableHlo.TRef.binary main_call4.v3 (.of main_v222 : StableHlo.TRef sig ⟨S100000x128, .f32⟩) main_call4.v4 mulf,
    StableHlo.TRef.ternary main_call4.v1 (.of main_v222 : StableHlo.TRef sig ⟨S100000x128, .f32⟩) main_call4.v4 main_call4.call0.v0 select,
    StableHlo.nullary main_cst_57 (constant S_ .f32 0x3C23D70A#32),
    StableHlo.TRef.nullary main_call5.cst (constant S_ .f32 0x00000000#32),
    StableHlo.TRef.unary main_call5.cst main_call5.v0 (broadcastInDim S100000x128 ![] bcast_S_S100000x128),
    StableHlo.TRef.binary (.of main_v249 : StableHlo.TRef sig ⟨S100000x128, .f32⟩) main_call5.v0 main_call5.v1 (cmpf .oge),
    StableHlo.TRef.unary (.of main_cst_57 : StableHlo.TRef sig ⟨S_, .f32⟩) main_call5.v2 id,
    StableHlo.TRef.unary main_call5.v2 main_call5.v3 (broadcastInDim S100000x128 ![] bcast_S_S100000x128),
    StableHlo.TRef.binary main_call5.v3 (.of main_v249 : StableHlo.TRef sig ⟨S100000x128, .f32⟩) main_call5.v4 mulf,
    StableHlo.TRef.ternary main_call5.v1 (.of main_v249 : StableHlo.TRef sig ⟨S100000x128, .f32⟩) main_call5.v4 main_call5.call0.v0 select ]

/-- The references those operations write, in order. -/
abbrev wrT3 : List (Ref sig .tc) :=
  [main_cst_56, main_call4_cst, main_call4_v0, main_call4_v1, main_call4_v2, main_call4_v3, main_call4_v4, main_v250, main_cst_57, main_call5_cst, main_call5_v0, main_call5_v1, main_call5_v2, main_call5_v3, main_call5_v4, main_v251]

theorem opsT3_writes : (opsT3 (F := F)).Forall fun op => op.writes ⊆ (wrT3.map (Proc.devRef (τ := τ) .tc)).toFinset :=
  ⟨writes_single main_cst_56 (by decide), writes_single main_call4_cst (by decide), writes_single main_call4_v0 (by decide), writes_single main_call4_v1 (by decide), writes_single main_call4_v2 (by decide), writes_single main_call4_v3 (by decide), writes_single main_call4_v4 (by decide), writes_single main_v250 (by decide), writes_single main_cst_57 (by decide), writes_single main_call5_cst (by decide), writes_single main_call5_v0 (by decide), writes_single main_call5_v1 (by decide), writes_single main_call5_v2 (by decide), writes_single main_call5_v3 (by decide), writes_single main_call5_v4 (by decide), writes_single main_v251 (by decide)⟩

theorem opsT3_sub : (opsT3 (F := F)).Forall fun op => op.bufs ⊆ tcRefs τ sig :=
  ⟨nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub ..⟩

theorem opsT3_fresh : ∀ op ∈ (opsT3 (F := F)), op.fresh = ∅ := by
  intro _ h; (repeat (cases h with | head => rfl | tail _ h => ?_)); exact nomatch h

/-- The two final tables, each given a leading axis of length one, and their concatenation along it (operations 349 to 351 of 351). -/
abbrev opsEnd : List (HloOp τ sig (Elt F)) :=
  [ StableHlo.unary main_v250 main_v252 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v251 main_v253 (broadcastInDim S1x100000x128 ![1, 2] bcast_S100000x128_S1x100000x128_1_2 : (⟨S100000x128, .f32⟩ : BufTy).Contents (Elt F) → (⟨S1x100000x128, .f32⟩ : BufTy).Contents (Elt F)),
    StableHlo.binary main_v252 main_v253 main_v254 ((fun a b => concatenate S2x100000x128 0 [⟨S1x100000x128, a⟩, ⟨S1x100000x128, b⟩] concatenates_S1x100000x128_S1x100000x128_S2x100000x128_d0) : (⟨S1x100000x128, .f32⟩ : BufTy).Contents (Elt F) → (⟨S1x100000x128, .f32⟩ : BufTy).Contents (Elt F) → (⟨S2x100000x128, .f32⟩ : BufTy).Contents (Elt F)) ]

/-- The references those operations write, in order. -/
abbrev wrEnd : List (Ref sig .tc) :=
  [main_v252, main_v253, main_v254]

theorem opsEnd_writes : (opsEnd (F := F)).Forall fun op => op.writes ⊆ (wrEnd.map (Proc.devRef (τ := τ) .tc)).toFinset :=
  ⟨writes_single main_v252 (by decide), writes_single main_v253 (by decide), writes_single main_v254 (by decide)⟩

theorem opsEnd_sub : (opsEnd (F := F)).Forall fun op => op.bufs ⊆ tcRefs τ sig :=
  ⟨unary_bufs_sub .., unary_bufs_sub .., binary_bufs_sub ..⟩

theorem opsEnd_fresh : ∀ op ∈ (opsEnd (F := F)), op.fresh = ∅ := by
  intro _ h; (repeat (cases h with | head => rfl | tail _ h => ?_)); exact nomatch h

end Cert.ReferenceIdeal.RefRun

end
-- ==== Proof.RefRun.Main.lean ====
/-
  The reference program as one straight line: each printed window of @main is the line of its operations (a call of
  the rectifier unfolded to its callee's operations at the call), so @main is the line of the six windows'
  operations in order; every operation touches TensorCore references only and determines what it writes; and the
  signature scopes no TensorCore buffer and no semaphore.
-/
import proofs.«102427_j13013750907161_1_alg».proof.Proof.RefRun.Ops1
import proofs.«102427_j13013750907161_1_alg».proof.Proof.RefRun.Ops2
import proofs.«102427_j13013750907161_1_alg».proof.Proof.RefRun.Ops3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0. -/
abbrev win0 : List (HloOp τ sig (Elt F)) := opsA1 ++ (opsB1a)

/-- The operations of @main's window 1. -/
abbrev win1 : List (HloOp τ sig (Elt F)) := opsB1b ++ (opsC1 ++ (opsT1 ++ (opsA2a)))

/-- The operations of @main's window 2. -/
abbrev win2 : List (HloOp τ sig (Elt F)) := opsA2b ++ (opsB2 ++ (opsC2a))

/-- The operations of @main's window 3. -/
abbrev win3 : List (HloOp τ sig (Elt F)) := opsC2b ++ (opsT2 ++ (opsA3a))

/-- The operations of @main's window 4. -/
abbrev win4 : List (HloOp τ sig (Elt F)) := opsA3b ++ (opsB3 ++ (opsC3a))

/-- The operations of @main's window 5. -/
abbrev win5 : List (HloOp τ sig (Elt F)) := opsC3b ++ (opsT3 ++ (opsEnd))

/-- The operations of @main, in order. -/
abbrev ops : List (HloOp τ sig (Elt F)) := win0 ++ (win1 ++ (win2 ++ (win3 ++ (win4 ++ (win5)))))

theorem main_part0_eq (c : Dev nD) : main_part0 (F := F) c = seq win0 := rfl

theorem main_part2_eq (c : Dev nD) : main_part2 (F := F) c = seq win2 := rfl

theorem main_part4_eq (c : Dev nD) : main_part4 (F := F) c = seq win4 := rfl

set_option maxRecDepth 8192 in
/-- The window with the rectifier's two calls: the callee's definitions unfolded at the calls, both sides are one chain of steps once sequencing is reassociated. -/
theorem main_part1_eq (c : Dev nD) : main_part1 (F := F) c = seq win1 := by
  simp only [main_part1, fn_leaky_relu.body, fn_where.body, bind_assoc, pure_bind]
  rfl

set_option maxRecDepth 8192 in
/-- The window with the rectifier's two calls: the callee's definitions unfolded at the calls, both sides are one chain of steps once sequencing is reassociated. -/
theorem main_part3_eq (c : Dev nD) : main_part3 (F := F) c = seq win3 := by
  simp only [main_part3, fn_leaky_relu.body, fn_where.body, bind_assoc, pure_bind]
  rfl

set_option maxRecDepth 8192 in
/-- The window with the rectifier's two calls: the callee's definitions unfolded at the calls, both sides are one chain of steps once sequencing is reassociated. -/
theorem main_part5_eq (c : Dev nD) : main_part5 (F := F) c = seq win5 := by
  simp only [main_part5, fn_leaky_relu.body, fn_where.body, bind_assoc, pure_bind]
  rfl

/-- @main is the line of all its operations: the windows run in order are their concatenation run as one. -/
theorem main_eq (c : Dev nD) : main (F := F) c = seq ops := by
  show (main_part0 c >>= fun _ => main_part1 c >>= fun _ => main_part2 c >>= fun _ => main_part3 c >>= fun _ =>
      main_part4 c >>= fun _ => main_part5 c) = seq (win0 ++ (win1 ++ (win2 ++ (win3 ++ (win4 ++ win5)))))
  rw [seq_append win0, seq_append win1, seq_append win2, seq_append win3, seq_append win4, main_part0_eq c, main_part1_eq c,
    main_part2_eq c, main_part3_eq c, main_part4_eq c, main_part5_eq c]

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig :=
  forall_append (forall_append opsA1_sub (opsB1a_sub)) (forall_append (forall_append opsB1b_sub (forall_append opsC1_sub (forall_append opsT1_sub (opsA2a_sub)))) (forall_append (forall_append opsA2b_sub (forall_append opsB2_sub (opsC2a_sub))) (forall_append (forall_append opsC2b_sub (forall_append opsT2_sub (opsA3a_sub))) (forall_append (forall_append opsA3b_sub (forall_append opsB3_sub (opsC3a_sub))) (forall_append opsC3b_sub (forall_append opsT3_sub (opsEnd_sub)))))))

theorem ops_fresh : ∀ op ∈ (ops (F := F)), op.fresh = ∅ :=
  mem_append_of (mem_append_of opsA1_fresh (opsB1a_fresh)) (mem_append_of (mem_append_of opsB1b_fresh (mem_append_of opsC1_fresh (mem_append_of opsT1_fresh (opsA2a_fresh)))) (mem_append_of (mem_append_of opsA2b_fresh (mem_append_of opsB2_fresh (opsC2a_fresh))) (mem_append_of (mem_append_of opsC2b_fresh (mem_append_of opsT2_fresh (opsA3a_fresh))) (mem_append_of (mem_append_of opsA3b_fresh (mem_append_of opsB3_fresh (opsC3a_fresh))) (mem_append_of opsC3b_fresh (mem_append_of opsT3_fresh (opsEnd_fresh)))))))

/-- The contents after @main's operations, piece by piece. -/
theorem after_ops (V : Valuation τ sig (Elt F)) :
    after ops V = after opsEnd (after opsT3 (after opsC3b (after opsC3a (after opsB3 (after opsA3b (after opsA3a (after opsT2 (after opsC2b (after opsC2a (after opsB2 (after opsA2b (after opsA2a (after opsT1 (after opsC1 (after opsB1b (after opsB1a (after opsA1 (V)))))))))))))))))) := by
  simp only [ops, win0, win1, win2, win3, win4, win5, after_append]

end Cert.ReferenceIdeal.RefRun

end
-- ==== Proof.RefRun.Val1.lean ====
/-
  What layer 1 of the reference leaves behind, as the value's own functions of the contents at the layer's entry:
  each message pass leaves the mean over incoming edges of the dense map's rows, the second pass then the sum of the
  two that reach the users, and the rectifier's two calls the new user and item tables; every buffer a piece does not
  write keeps its contents. No step looks inside a gather, a scatter or a division.
-/
import proofs.«102427_j13013750907161_1_alg».proof.Proof.RefRun.Ops1
import proofs.«102427_j13013750907161_1_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd Host.divf

/-- A buffer no operation of this piece writes keeps its contents. -/
theorem opsA1_keep (V : Valuation τ sig (Elt F)) (r : Ref sig .tc) (hr : r ∉ wrA1) :
    after opsA1 V (Proc.devRef .tc r) = V (Proc.devRef .tc r) :=
  after_of_writes_sub opsA1 V opsA1_writes hr

/-- A buffer no operation of this piece writes keeps its contents. -/
theorem opsB1a_keep (V : Valuation τ sig (Elt F)) (r : Ref sig .tc) (hr : r ∉ wrB1a) :
    after opsB1a V (Proc.devRef .tc r) = V (Proc.devRef .tc r) :=
  after_of_writes_sub opsB1a V opsB1a_writes hr

/-- A buffer no operation of this piece writes keeps its contents. -/
theorem opsB1b_keep (V : Valuation τ sig (Elt F)) (r : Ref sig .tc) (hr : r ∉ wrB1b) :
    after opsB1b V (Proc.devRef .tc r) = V (Proc.devRef .tc r) :=
  after_of_writes_sub opsB1b V opsB1b_writes hr

/-- A buffer no operation of this piece writes keeps its contents. -/
theorem opsC1_keep (V : Valuation τ sig (Elt F)) (r : Ref sig .tc) (hr : r ∉ wrC1) :
    after opsC1 V (Proc.devRef .tc r) = V (Proc.devRef .tc r) :=
  after_of_writes_sub opsC1 V opsC1_writes hr

/-- A buffer no operation of this piece writes keeps its contents. -/
theorem opsT1_keep (V : Valuation τ sig (Elt F)) (r : Ref sig .tc) (hr : r ∉ wrT1) :
    after opsT1 V (Proc.devRef .tc r) = V (Proc.devRef .tc r) :=
  after_of_writes_sub opsT1 V opsT1_writes hr

/-- The first pass: the mean over incoming edges of the rows of the dense map of the user table. -/
theorem passA1_val (V : Valuation τ sig (Elt F)) :
    after opsA1 (V) (Proc.devRef .tc main_v26)
      = RefSpec.segMean (RefSpec.lin (V (Proc.devRef .tc main_arg0)) (RefSpec.wAt00 (V (Proc.devRef .tc main_arg2))) (RefSpec.bAt00 (V (Proc.devRef .tc main_arg3)))) (V (Proc.devRef .tc main_arg4)) (V (Proc.devRef .tc main_arg5)) := by
  unfold RefSpec.segMean RefSpec.lin RefSpec.lin1 RefSpec.srcIdx RefSpec.wAt00 RefSpec.bAt00
  after_results_simp
  try rfl

/-- The second pass and the sum: the first pass's result plus the mean over incoming edges of the rows of the dense map of the item table. -/
theorem passB1_val (V : Valuation τ sig (Elt F)) :
    after opsB1b (after opsB1a (V)) (Proc.devRef .tc main_v54)
      = addf (V (Proc.devRef .tc main_v26)) (RefSpec.segMean (RefSpec.lin (V (Proc.devRef .tc main_arg1)) (RefSpec.wAt02 (V (Proc.devRef .tc main_arg2))) (RefSpec.bAt02 (V (Proc.devRef .tc main_arg3)))) (V (Proc.devRef .tc main_arg8)) (V (Proc.devRef .tc main_arg9))) := by
  unfold RefSpec.segMean RefSpec.lin RefSpec.lin1 RefSpec.srcIdx RefSpec.wAt02 RefSpec.bAt02
  after_results_simp
  try rfl

/-- The third pass, into the items. -/
theorem passC1_val (V : Valuation τ sig (Elt F)) :
    after opsC1 (V) (Proc.devRef .tc main_v81)
      = RefSpec.segMean (RefSpec.lin (V (Proc.devRef .tc main_arg0)) (RefSpec.wAt01 (V (Proc.devRef .tc main_arg2))) (RefSpec.bAt01 (V (Proc.devRef .tc main_arg3)))) (V (Proc.devRef .tc main_arg6)) (V (Proc.devRef .tc main_arg7)) := by
  unfold RefSpec.segMean RefSpec.lin RefSpec.lin1 RefSpec.srcIdx RefSpec.wAt01 RefSpec.bAt01
  after_results_simp
  try rfl

/-- The rectifier on the users' sum. -/
theorem tail1_u (V : Valuation τ sig (Elt F)) :
    after opsT1 (V) (Proc.devRef .tc main_v82)
      = RefSpec.leaky (V (Proc.devRef .tc main_v54)) := by
  unfold RefSpec.leaky
  after_results_simp
  try rfl

/-- The rectifier on the items' pass. -/
theorem tail1_i (V : Valuation τ sig (Elt F)) :
    after opsT1 (V) (Proc.devRef .tc main_v83)
      = RefSpec.leaky (V (Proc.devRef .tc main_v81)) := by
  unfold RefSpec.leaky
  after_results_simp
  try rfl

/-- The layer's new user table: the rectifier of the sum of the two passes that reach the users. -/
theorem layer1_u (V : Valuation τ sig (Elt F)) :
    after opsT1 (after opsC1 (after opsB1b (after opsB1a (after opsA1 (V))))) (Proc.devRef .tc main_v82)
      = RefSpec.userOf (RefSpec.lin (V (Proc.devRef .tc main_arg0)) (RefSpec.wAt00 (V (Proc.devRef .tc main_arg2))) (RefSpec.bAt00 (V (Proc.devRef .tc main_arg3)))) (RefSpec.lin (V (Proc.devRef .tc main_arg1)) (RefSpec.wAt02 (V (Proc.devRef .tc main_arg2))) (RefSpec.bAt02 (V (Proc.devRef .tc main_arg3)))) (V (Proc.devRef .tc main_arg4)) (V (Proc.devRef .tc main_arg5)) (V (Proc.devRef .tc main_arg8)) (V (Proc.devRef .tc main_arg9)) := by
  unfold RefSpec.userOf
  rw [tail1_u, opsC1_keep _ main_v54 (by decide), passB1_val, passA1_val,
    opsA1_keep _ main_arg1 (by decide),
    opsA1_keep _ main_arg2 (by decide),
    opsA1_keep _ main_arg3 (by decide),
    opsA1_keep _ main_arg8 (by decide),
    opsA1_keep _ main_arg9 (by decide)]

/-- The layer's new item table: the rectifier of the pass that reaches the items. -/
theorem layer1_i (V : Valuation τ sig (Elt F)) :
    after opsT1 (after opsC1 (after opsB1b (after opsB1a (after opsA1 (V))))) (Proc.devRef .tc main_v83)
      = RefSpec.itemOf (RefSpec.lin (V (Proc.devRef .tc main_arg0)) (RefSpec.wAt01 (V (Proc.devRef .tc main_arg2))) (RefSpec.bAt01 (V (Proc.devRef .tc main_arg3)))) (V (Proc.devRef .tc main_arg6)) (V (Proc.devRef .tc main_arg7)) := by
  unfold RefSpec.itemOf
  rw [tail1_i, passC1_val,
    opsB1b_keep _ main_arg0 (by decide), opsB1a_keep _ main_arg0 (by decide), opsA1_keep _ main_arg0 (by decide),
    opsB1b_keep _ main_arg2 (by decide), opsB1a_keep _ main_arg2 (by decide), opsA1_keep _ main_arg2 (by decide),
    opsB1b_keep _ main_arg3 (by decide), opsB1a_keep _ main_arg3 (by decide), opsA1_keep _ main_arg3 (by decide),
    opsB1b_keep _ main_arg6 (by decide), opsB1a_keep _ main_arg6 (by decide), opsA1_keep _ main_arg6 (by decide),
    opsB1b_keep _ main_arg7 (by decide), opsB1a_keep _ main_arg7 (by decide), opsA1_keep _ main_arg7 (by decide)]

/-- A buffer no operation of the layer writes keeps its contents. -/
theorem layer1_keep (V : Valuation τ sig (Elt F)) (r : Ref sig .tc) (h0 : r ∉ wrA1) (h1 : r ∉ wrB1a) (h2 : r ∉ wrB1b) (h3 : r ∉ wrC1) (h4 : r ∉ wrT1) :
    after opsT1 (after opsC1 (after opsB1b (after opsB1a (after opsA1 (V))))) (Proc.devRef .tc r) = V (Proc.devRef .tc r) := by
  rw [opsT1_keep _ r h4, opsC1_keep _ r h3, opsB1b_keep _ r h2, opsB1a_keep _ r h1, opsA1_keep _ r h0]

end Cert.ReferenceIdeal.RefRun

end
-- ==== Proof.RefRun.Val2.lean ====
/-
  What layer 2 of the reference leaves behind, as the value's own functions of the contents at the layer's entry:
  each message pass leaves the mean over incoming edges of the dense map's rows, the second pass then the sum of the
  two that reach the users, and the rectifier's two calls the new user and item tables; every buffer a piece does not
  write keeps its contents. No step looks inside a gather, a scatter or a division.
-/
import proofs.«102427_j13013750907161_1_alg».proof.Proof.RefRun.Ops2
import proofs.«102427_j13013750907161_1_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd Host.divf

/-- A buffer no operation of this piece writes keeps its contents. -/
theorem opsA2a_keep (V : Valuation τ sig (Elt F)) (r : Ref sig .tc) (hr : r ∉ wrA2a) :
    after opsA2a V (Proc.devRef .tc r) = V (Proc.devRef .tc r) :=
  after_of_writes_sub opsA2a V opsA2a_writes hr

/-- A buffer no operation of this piece writes keeps its contents. -/
theorem opsA2b_keep (V : Valuation τ sig (Elt F)) (r : Ref sig .tc) (hr : r ∉ wrA2b) :
    after opsA2b V (Proc.devRef .tc r) = V (Proc.devRef .tc r) :=
  after_of_writes_sub opsA2b V opsA2b_writes hr

/-- A buffer no operation of this piece writes keeps its contents. -/
theorem opsB2_keep (V : Valuation τ sig (Elt F)) (r : Ref sig .tc) (hr : r ∉ wrB2) :
    after opsB2 V (Proc.devRef .tc r) = V (Proc.devRef .tc r) :=
  after_of_writes_sub opsB2 V opsB2_writes hr

/-- A buffer no operation of this piece writes keeps its contents. -/
theorem opsC2a_keep (V : Valuation τ sig (Elt F)) (r : Ref sig .tc) (hr : r ∉ wrC2a) :
    after opsC2a V (Proc.devRef .tc r) = V (Proc.devRef .tc r) :=
  after_of_writes_sub opsC2a V opsC2a_writes hr

/-- A buffer no operation of this piece writes keeps its contents. -/
theorem opsC2b_keep (V : Valuation τ sig (Elt F)) (r : Ref sig .tc) (hr : r ∉ wrC2b) :
    after opsC2b V (Proc.devRef .tc r) = V (Proc.devRef .tc r) :=
  after_of_writes_sub opsC2b V opsC2b_writes hr

/-- A buffer no operation of this piece writes keeps its contents. -/
theorem opsT2_keep (V : Valuation τ sig (Elt F)) (r : Ref sig .tc) (hr : r ∉ wrT2) :
    after opsT2 V (Proc.devRef .tc r) = V (Proc.devRef .tc r) :=
  after_of_writes_sub opsT2 V opsT2_writes hr

/-- The first pass: the mean over incoming edges of the rows of the dense map of the user table. -/
theorem passA2_val (V : Valuation τ sig (Elt F)) :
    after opsA2b (after opsA2a (V)) (Proc.devRef .tc main_v110)
      = RefSpec.segMean (RefSpec.lin (V (Proc.devRef .tc main_v82)) (RefSpec.wAt10 (V (Proc.devRef .tc main_arg2))) (RefSpec.bAt10 (V (Proc.devRef .tc main_arg3)))) (V (Proc.devRef .tc main_arg4)) (V (Proc.devRef .tc main_arg5)) := by
  unfold RefSpec.segMean RefSpec.lin RefSpec.lin1 RefSpec.srcIdx RefSpec.wAt10 RefSpec.bAt10
  after_results_simp
  try rfl

/-- The second pass and the sum: the first pass's result plus the mean over incoming edges of the rows of the dense map of the item table. -/
theorem passB2_val (V : Valuation τ sig (Elt F)) :
    after opsB2 (V) (Proc.devRef .tc main_v138)
      = addf (V (Proc.devRef .tc main_v110)) (RefSpec.segMean (RefSpec.lin (V (Proc.devRef .tc main_v83)) (RefSpec.wAt12 (V (Proc.devRef .tc main_arg2))) (RefSpec.bAt12 (V (Proc.devRef .tc main_arg3)))) (V (Proc.devRef .tc main_arg8)) (V (Proc.devRef .tc main_arg9))) := by
  unfold RefSpec.segMean RefSpec.lin RefSpec.lin1 RefSpec.srcIdx RefSpec.wAt12 RefSpec.bAt12
  after_results_simp
  try rfl

/-- The third pass, into the items. -/
theorem passC2_val (V : Valuation τ sig (Elt F)) :
    after opsC2b (after opsC2a (V)) (Proc.devRef .tc main_v165)
      = RefSpec.segMean (RefSpec.lin (V (Proc.devRef .tc main_v82)) (RefSpec.wAt11 (V (Proc.devRef .tc main_arg2))) (RefSpec.bAt11 (V (Proc.devRef .tc main_arg3)))) (V (Proc.devRef .tc main_arg6)) (V (Proc.devRef .tc main_arg7)) := by
  unfold RefSpec.segMean RefSpec.lin RefSpec.lin1 RefSpec.srcIdx RefSpec.wAt11 RefSpec.bAt11
  after_results_simp
  try rfl

/-- The rectifier on the users' sum. -/
theorem tail2_u (V : Valuation τ sig (Elt F)) :
    after opsT2 (V) (Proc.devRef .tc main_v166)
      = RefSpec.leaky (V (Proc.devRef .tc main_v138)) := by
  unfold RefSpec.leaky
  after_results_simp
  try rfl

/-- The rectifier on the items' pass. -/
theorem tail2_i (V : Valuation τ sig (Elt F)) :
    after opsT2 (V) (Proc.devRef .tc main_v167)
      = RefSpec.leaky (V (Proc.devRef .tc main_v165)) := by
  unfold RefSpec.leaky
  after_results_simp
  try rfl

/-- The layer's new user table: the rectifier of the sum of the two passes that reach the users. -/
theorem layer2_u (V : Valuation τ sig (Elt F)) :
    after opsT2 (after opsC2b (after opsC2a (after opsB2 (after opsA2b (after opsA2a (V)))))) (Proc.devRef .tc main_v166)
      = RefSpec.userOf (RefSpec.lin (V (Proc.devRef .tc main_v82)) (RefSpec.wAt10 (V (Proc.devRef .tc main_arg2))) (RefSpec.bAt10 (V (Proc.devRef .tc main_arg3)))) (RefSpec.lin (V (Proc.devRef .tc main_v83)) (RefSpec.wAt12 (V (Proc.devRef .tc main_arg2))) (RefSpec.bAt12 (V (Proc.devRef .tc main_arg3)))) (V (Proc.devRef .tc main_arg4)) (V (Proc.devRef .tc main_arg5)) (V (Proc.devRef .tc main_arg8)) (V (Proc.devRef .tc main_arg9)) := by
  unfold RefSpec.userOf
  rw [tail2_u, opsC2b_keep _ main_v138 (by decide), opsC2a_keep _ main_v138 (by decide), passB2_val, passA2_val,
    opsA2b_keep _ main_v83 (by decide), opsA2a_keep _ main_v83 (by decide),
    opsA2b_keep _ main_arg2 (by decide), opsA2a_keep _ main_arg2 (by decide),
    opsA2b_keep _ main_arg3 (by decide), opsA2a_keep _ main_arg3 (by decide),
    opsA2b_keep _ main_arg8 (by decide), opsA2a_keep _ main_arg8 (by decide),
    opsA2b_keep _ main_arg9 (by decide), opsA2a_keep _ main_arg9 (by decide)]

/-- The layer's new item table: the rectifier of the pass that reaches the items. -/
theorem layer2_i (V : Valuation τ sig (Elt F)) :
    after opsT2 (after opsC2b (after opsC2a (after opsB2 (after opsA2b (after opsA2a (V)))))) (Proc.devRef .tc main_v167)
      = RefSpec.itemOf (RefSpec.lin (V (Proc.devRef .tc main_v82)) (RefSpec.wAt11 (V (Proc.devRef .tc main_arg2))) (RefSpec.bAt11 (V (Proc.devRef .tc main_arg3)))) (V (Proc.devRef .tc main_arg6)) (V (Proc.devRef .tc main_arg7)) := by
  unfold RefSpec.itemOf
  rw [tail2_i, passC2_val,
    opsB2_keep _ main_v82 (by decide), opsA2b_keep _ main_v82 (by decide), opsA2a_keep _ main_v82 (by decide),
    opsB2_keep _ main_arg2 (by decide), opsA2b_keep _ main_arg2 (by decide), opsA2a_keep _ main_arg2 (by decide),
    opsB2_keep _ main_arg3 (by decide), opsA2b_keep _ main_arg3 (by decide), opsA2a_keep _ main_arg3 (by decide),
    opsB2_keep _ main_arg6 (by decide), opsA2b_keep _ main_arg6 (by decide), opsA2a_keep _ main_arg6 (by decide),
    opsB2_keep _ main_arg7 (by decide), opsA2b_keep _ main_arg7 (by decide), opsA2a_keep _ main_arg7 (by decide)]

/-- A buffer no operation of the layer writes keeps its contents. -/
theorem layer2_keep (V : Valuation τ sig (Elt F)) (r : Ref sig .tc) (h0 : r ∉ wrA2a) (h1 : r ∉ wrA2b) (h2 : r ∉ wrB2) (h3 : r ∉ wrC2a) (h4 : r ∉ wrC2b) (h5 : r ∉ wrT2) :
    after opsT2 (after opsC2b (after opsC2a (after opsB2 (after opsA2b (after opsA2a (V)))))) (Proc.devRef .tc r) = V (Proc.devRef .tc r) := by
  rw [opsT2_keep _ r h5, opsC2b_keep _ r h4, opsC2a_keep _ r h3, opsB2_keep _ r h2, opsA2b_keep _ r h1, opsA2a_keep _ r h0]

end Cert.ReferenceIdeal.RefRun

end
-- ==== Proof.RefRun.Val3.lean ====
/-
  What layer 3 of the reference leaves behind, as the value's own functions of the contents at the layer's entry:
  each message pass leaves the mean over incoming edges of the dense map's rows, the second pass then the sum of the
  two that reach the users, and the rectifier's two calls the new user and item tables; every buffer a piece does not
  write keeps its contents. No step looks inside a gather, a scatter or a division.
-/
import proofs.«102427_j13013750907161_1_alg».proof.Proof.RefRun.Ops3
import proofs.«102427_j13013750907161_1_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd Host.divf

/-- A buffer no operation of this piece writes keeps its contents. -/
theorem opsA3a_keep (V : Valuation τ sig (Elt F)) (r : Ref sig .tc) (hr : r ∉ wrA3a) :
    after opsA3a V (Proc.devRef .tc r) = V (Proc.devRef .tc r) :=
  after_of_writes_sub opsA3a V opsA3a_writes hr

/-- A buffer no operation of this piece writes keeps its contents. -/
theorem opsA3b_keep (V : Valuation τ sig (Elt F)) (r : Ref sig .tc) (hr : r ∉ wrA3b) :
    after opsA3b V (Proc.devRef .tc r) = V (Proc.devRef .tc r) :=
  after_of_writes_sub opsA3b V opsA3b_writes hr

/-- A buffer no operation of this piece writes keeps its contents. -/
theorem opsB3_keep (V : Valuation τ sig (Elt F)) (r : Ref sig .tc) (hr : r ∉ wrB3) :
    after opsB3 V (Proc.devRef .tc r) = V (Proc.devRef .tc r) :=
  after_of_writes_sub opsB3 V opsB3_writes hr

/-- A buffer no operation of this piece writes keeps its contents. -/
theorem opsC3a_keep (V : Valuation τ sig (Elt F)) (r : Ref sig .tc) (hr : r ∉ wrC3a) :
    after opsC3a V (Proc.devRef .tc r) = V (Proc.devRef .tc r) :=
  after_of_writes_sub opsC3a V opsC3a_writes hr

/-- A buffer no operation of this piece writes keeps its contents. -/
theorem opsC3b_keep (V : Valuation τ sig (Elt F)) (r : Ref sig .tc) (hr : r ∉ wrC3b) :
    after opsC3b V (Proc.devRef .tc r) = V (Proc.devRef .tc r) :=
  after_of_writes_sub opsC3b V opsC3b_writes hr

/-- A buffer no operation of this piece writes keeps its contents. -/
theorem opsT3_keep (V : Valuation τ sig (Elt F)) (r : Ref sig .tc) (hr : r ∉ wrT3) :
    after opsT3 V (Proc.devRef .tc r) = V (Proc.devRef .tc r) :=
  after_of_writes_sub opsT3 V opsT3_writes hr

/-- The first pass: the mean over incoming edges of the rows of the dense map of the user table. -/
theorem passA3_val (V : Valuation τ sig (Elt F)) :
    after opsA3b (after opsA3a (V)) (Proc.devRef .tc main_v194)
      = RefSpec.segMean (RefSpec.lin (V (Proc.devRef .tc main_v166)) (RefSpec.wAt20 (V (Proc.devRef .tc main_arg2))) (RefSpec.bAt20 (V (Proc.devRef .tc main_arg3)))) (V (Proc.devRef .tc main_arg4)) (V (Proc.devRef .tc main_arg5)) := by
  unfold RefSpec.segMean RefSpec.lin RefSpec.lin1 RefSpec.srcIdx RefSpec.wAt20 RefSpec.bAt20
  after_results_simp
  try rfl

/-- The second pass and the sum: the first pass's result plus the mean over incoming edges of the rows of the dense map of the item table. -/
theorem passB3_val (V : Valuation τ sig (Elt F)) :
    after opsB3 (V) (Proc.devRef .tc main_v222)
      = addf (V (Proc.devRef .tc main_v194)) (RefSpec.segMean (RefSpec.lin (V (Proc.devRef .tc main_v167)) (RefSpec.wAt22 (V (Proc.devRef .tc main_arg2))) (RefSpec.bAt22 (V (Proc.devRef .tc main_arg3)))) (V (Proc.devRef .tc main_arg8)) (V (Proc.devRef .tc main_arg9))) := by
  unfold RefSpec.segMean RefSpec.lin RefSpec.lin1 RefSpec.srcIdx RefSpec.wAt22 RefSpec.bAt22
  after_results_simp
  try rfl

/-- The third pass, into the items. -/
theorem passC3_val (V : Valuation τ sig (Elt F)) :
    after opsC3b (after opsC3a (V)) (Proc.devRef .tc main_v249)
      = RefSpec.segMean (RefSpec.lin (V (Proc.devRef .tc main_v166)) (RefSpec.wAt21 (V (Proc.devRef .tc main_arg2))) (RefSpec.bAt21 (V (Proc.devRef .tc main_arg3)))) (V (Proc.devRef .tc main_arg6)) (V (Proc.devRef .tc main_arg7)) := by
  unfold RefSpec.segMean RefSpec.lin RefSpec.lin1 RefSpec.srcIdx RefSpec.wAt21 RefSpec.bAt21
  after_results_simp
  try rfl

/-- The rectifier on the users' sum. -/
theorem tail3_u (V : Valuation τ sig (Elt F)) :
    after opsT3 (V) (Proc.devRef .tc main_v250)
      = RefSpec.leaky (V (Proc.devRef .tc main_v222)) := by
  unfold RefSpec.leaky
  after_results_simp
  try rfl

/-- The rectifier on the items' pass. -/
theorem tail3_i (V : Valuation τ sig (Elt F)) :
    after opsT3 (V) (Proc.devRef .tc main_v251)
      = RefSpec.leaky (V (Proc.devRef .tc main_v249)) := by
  unfold RefSpec.leaky
  after_results_simp
  try rfl

/-- The layer's new user table: the rectifier of the sum of the two passes that reach the users. -/
theorem layer3_u (V : Valuation τ sig (Elt F)) :
    after opsT3 (after opsC3b (after opsC3a (after opsB3 (after opsA3b (after opsA3a (V)))))) (Proc.devRef .tc main_v250)
      = RefSpec.userOf (RefSpec.lin (V (Proc.devRef .tc main_v166)) (RefSpec.wAt20 (V (Proc.devRef .tc main_arg2))) (RefSpec.bAt20 (V (Proc.devRef .tc main_arg3)))) (RefSpec.lin (V (Proc.devRef .tc main_v167)) (RefSpec.wAt22 (V (Proc.devRef .tc main_arg2))) (RefSpec.bAt22 (V (Proc.devRef .tc main_arg3)))) (V (Proc.devRef .tc main_arg4)) (V (Proc.devRef .tc main_arg5)) (V (Proc.devRef .tc main_arg8)) (V (Proc.devRef .tc main_arg9)) := by
  unfold RefSpec.userOf
  rw [tail3_u, opsC3b_keep _ main_v222 (by decide), opsC3a_keep _ main_v222 (by decide), passB3_val, passA3_val,
    opsA3b_keep _ main_v167 (by decide), opsA3a_keep _ main_v167 (by decide),
    opsA3b_keep _ main_arg2 (by decide), opsA3a_keep _ main_arg2 (by decide),
    opsA3b_keep _ main_arg3 (by decide), opsA3a_keep _ main_arg3 (by decide),
    opsA3b_keep _ main_arg8 (by decide), opsA3a_keep _ main_arg8 (by decide),
    opsA3b_keep _ main_arg9 (by decide), opsA3a_keep _ main_arg9 (by decide)]

/-- The layer's new item table: the rectifier of the pass that reaches the items. -/
theorem layer3_i (V : Valuation τ sig (Elt F)) :
    after opsT3 (after opsC3b (after opsC3a (after opsB3 (after opsA3b (after opsA3a (V)))))) (Proc.devRef .tc main_v251)
      = RefSpec.itemOf (RefSpec.lin (V (Proc.devRef .tc main_v166)) (RefSpec.wAt21 (V (Proc.devRef .tc main_arg2))) (RefSpec.bAt21 (V (Proc.devRef .tc main_arg3)))) (V (Proc.devRef .tc main_arg6)) (V (Proc.devRef .tc main_arg7)) := by
  unfold RefSpec.itemOf
  rw [tail3_i, passC3_val,
    opsB3_keep _ main_v166 (by decide), opsA3b_keep _ main_v166 (by decide), opsA3a_keep _ main_v166 (by decide),
    opsB3_keep _ main_arg2 (by decide), opsA3b_keep _ main_arg2 (by decide), opsA3a_keep _ main_arg2 (by decide),
    opsB3_keep _ main_arg3 (by decide), opsA3b_keep _ main_arg3 (by decide), opsA3a_keep _ main_arg3 (by decide),
    opsB3_keep _ main_arg6 (by decide), opsA3b_keep _ main_arg6 (by decide), opsA3a_keep _ main_arg6 (by decide),
    opsB3_keep _ main_arg7 (by decide), opsA3b_keep _ main_arg7 (by decide), opsA3a_keep _ main_arg7 (by decide)]

/-- A buffer no operation of the layer writes keeps its contents. -/
theorem layer3_keep (V : Valuation τ sig (Elt F)) (r : Ref sig .tc) (h0 : r ∉ wrA3a) (h1 : r ∉ wrA3b) (h2 : r ∉ wrB3) (h3 : r ∉ wrC3a) (h4 : r ∉ wrC3b) (h5 : r ∉ wrT3) :
    after opsT3 (after opsC3b (after opsC3a (after opsB3 (after opsA3b (after opsA3a (V)))))) (Proc.devRef .tc r) = V (Proc.devRef .tc r) := by
  rw [opsT3_keep _ r h5, opsC3b_keep _ r h4, opsC3a_keep _ r h3, opsB3_keep _ r h2, opsA3b_keep _ r h1, opsA3a_keep _ r h0]

end Cert.ReferenceIdeal.RefRun

end
-- ==== Proof.RefRun.lean ====
/-
  The reference's run: @main is a straight line of host operations, so every weakly fair execution
  terminates with each buffer at the fold of the operations' results over the launch contents; that fold at the
  result buffer is the value `RefSpec.out` of the ten argument arrays, layer by layer — a layer's two new tables
  are the value's `userOf` and `itemOf` of the tables and arguments at its entry, and the last step stacks the third
  layer's tables — and at an argument's buffer it is the argument, which no operation writes.
-/
import proofs.«102427_j13013750907161_1_alg».proof.Proof.Gen.ReferenceIdeal
import Idealize.ShloMosaic.Lib.StableHlo.Run
import proofs.«102427_j13013750907161_1_alg».proof.Proof.RefSpec
import proofs.«102427_j13013750907161_1_alg».proof.Proof.RefRun.Main
import proofs.«102427_j13013750907161_1_alg».proof.Proof.RefRun.Val1
import proofs.«102427_j13013750907161_1_alg».proof.Proof.RefRun.Val2
import proofs.«102427_j13013750907161_1_alg».proof.Proof.RefRun.Val3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A buffer the final stacking does not write keeps its contents. -/
theorem opsEnd_keep (V : Valuation τ sig (Elt F)) (r : Ref sig .tc) (hr : r ∉ wrEnd) :
    after opsEnd V (Proc.devRef .tc r) = V (Proc.devRef .tc r) :=
  after_of_writes_sub opsEnd V opsEnd_writes hr

/-- The final stacking: the two tables, each under a leading axis of length one, concatenated along it. -/
theorem end_val (V : Valuation τ sig (Elt F)) :
    after opsEnd V (Proc.devRef .tc main_v254) = RefSpec.stack (V (Proc.devRef .tc main_v250)) (V (Proc.devRef .tc main_v251)) := by
  unfold RefSpec.stack
  after_results_simp
  try rfl

/-- The fold at the result buffer is the value of the argument arrays. -/
theorem out_eq (V : Valuation τ sig (Elt F)) :
    after ops V (Proc.devRef .tc main_v254)
      = RefSpec.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  unfold RefSpec.out RefSpec.u3 RefSpec.i3 RefSpec.u2 RefSpec.i2 RefSpec.u1 RefSpec.i1
  rw [after_ops, end_val, layer3_u, layer3_i,
    layer2_keep _ main_arg2 (by decide) (by decide) (by decide) (by decide) (by decide) (by decide),
    layer2_keep _ main_arg3 (by decide) (by decide) (by decide) (by decide) (by decide) (by decide),
    layer2_keep _ main_arg4 (by decide) (by decide) (by decide) (by decide) (by decide) (by decide),
    layer2_keep _ main_arg5 (by decide) (by decide) (by decide) (by decide) (by decide) (by decide),
    layer2_keep _ main_arg6 (by decide) (by decide) (by decide) (by decide) (by decide) (by decide),
    layer2_keep _ main_arg7 (by decide) (by decide) (by decide) (by decide) (by decide) (by decide),
    layer2_keep _ main_arg8 (by decide) (by decide) (by decide) (by decide) (by decide) (by decide),
    layer2_keep _ main_arg9 (by decide) (by decide) (by decide) (by decide) (by decide) (by decide),
    layer2_u, layer2_i,
    layer1_keep _ main_arg2 (by decide) (by decide) (by decide) (by decide) (by decide),
    layer1_keep _ main_arg3 (by decide) (by decide) (by decide) (by decide) (by decide),
    layer1_keep _ main_arg4 (by decide) (by decide) (by decide) (by decide) (by decide),
    layer1_keep _ main_arg5 (by decide) (by decide) (by decide) (by decide) (by decide),
    layer1_keep _ main_arg6 (by decide) (by decide) (by decide) (by decide) (by decide),
    layer1_keep _ main_arg7 (by decide) (by decide) (by decide) (by decide) (by decide),
    layer1_keep _ main_arg8 (by decide) (by decide) (by decide) (by decide) (by decide),
    layer1_keep _ main_arg9 (by decide) (by decide) (by decide) (by decide) (by decide),
    layer1_u, layer1_i]

theorem arg0_eq (V : Valuation τ sig (Elt F)) : after ops V (Proc.devRef .tc main_arg0) = V (Proc.devRef .tc main_arg0) := by
  rw [after_ops, opsEnd_keep _ main_arg0 (by decide), layer3_keep _ main_arg0 (by decide) (by decide) (by decide) (by decide) (by decide) (by decide), layer2_keep _ main_arg0 (by decide) (by decide) (by decide) (by decide) (by decide) (by decide), layer1_keep _ main_arg0 (by decide) (by decide) (by decide) (by decide) (by decide)]

theorem arg1_eq (V : Valuation τ sig (Elt F)) : after ops V (Proc.devRef .tc main_arg1) = V (Proc.devRef .tc main_arg1) := by
  rw [after_ops, opsEnd_keep _ main_arg1 (by decide), layer3_keep _ main_arg1 (by decide) (by decide) (by decide) (by decide) (by decide) (by decide), layer2_keep _ main_arg1 (by decide) (by decide) (by decide) (by decide) (by decide) (by decide), layer1_keep _ main_arg1 (by decide) (by decide) (by decide) (by decide) (by decide)]

theorem arg2_eq (V : Valuation τ sig (Elt F)) : after ops V (Proc.devRef .tc main_arg2) = V (Proc.devRef .tc main_arg2) := by
  rw [after_ops, opsEnd_keep _ main_arg2 (by decide), layer3_keep _ main_arg2 (by decide) (by decide) (by decide) (by decide) (by decide) (by decide), layer2_keep _ main_arg2 (by decide) (by decide) (by decide) (by decide) (by decide) (by decide), layer1_keep _ main_arg2 (by decide) (by decide) (by decide) (by decide) (by decide)]

theorem arg3_eq (V : Valuation τ sig (Elt F)) : after ops V (Proc.devRef .tc main_arg3) = V (Proc.devRef .tc main_arg3) := by
  rw [after_ops, opsEnd_keep _ main_arg3 (by decide), layer3_keep _ main_arg3 (by decide) (by decide) (by decide) (by decide) (by decide) (by decide), layer2_keep _ main_arg3 (by decide) (by decide) (by decide) (by decide) (by decide) (by decide), layer1_keep _ main_arg3 (by decide) (by decide) (by decide) (by decide) (by decide)]

theorem arg4_eq (V : Valuation τ sig (Elt F)) : after ops V (Proc.devRef .tc main_arg4) = V (Proc.devRef .tc main_arg4) := by
  rw [after_ops, opsEnd_keep _ main_arg4 (by decide), layer3_keep _ main_arg4 (by decide) (by decide) (by decide) (by decide) (by decide) (by decide), layer2_keep _ main_arg4 (by decide) (by decide) (by decide) (by decide) (by decide) (by decide), layer1_keep _ main_arg4 (by decide) (by decide) (by decide) (by decide) (by decide)]

theorem arg5_eq (V : Valuation τ sig (Elt F)) : after ops V (Proc.devRef .tc main_arg5) = V (Proc.devRef .tc main_arg5) := by
  rw [after_ops, opsEnd_keep _ main_arg5 (by decide), layer3_keep _ main_arg5 (by decide) (by decide) (by decide) (by decide) (by decide) (by decide), layer2_keep _ main_arg5 (by decide) (by decide) (by decide) (by decide) (by decide) (by decide), layer1_keep _ main_arg5 (by decide) (by decide) (by decide) (by decide) (by decide)]

theorem arg6_eq (V : Valuation τ sig (Elt F)) : after ops V (Proc.devRef .tc main_arg6) = V (Proc.devRef .tc main_arg6) := by
  rw [after_ops, opsEnd_keep _ main_arg6 (by decide), layer3_keep _ main_arg6 (by decide) (by decide) (by decide) (by decide) (by decide) (by decide), layer2_keep _ main_arg6 (by decide) (by decide) (by decide) (by decide) (by decide) (by decide), layer1_keep _ main_arg6 (by decide) (by decide) (by decide) (by decide) (by decide)]

theorem arg7_eq (V : Valuation τ sig (Elt F)) : after ops V (Proc.devRef .tc main_arg7) = V (Proc.devRef .tc main_arg7) := by
  rw [after_ops, opsEnd_keep _ main_arg7 (by decide), layer3_keep _ main_arg7 (by decide) (by decide) (by decide) (by decide) (by decide) (by decide), layer2_keep _ main_arg7 (by decide) (by decide) (by decide) (by decide) (by decide) (by decide), layer1_keep _ main_arg7 (by decide) (by decide) (by decide) (by decide) (by decide)]

theorem arg8_eq (V : Valuation τ sig (Elt F)) : after ops V (Proc.devRef .tc main_arg8) = V (Proc.devRef .tc main_arg8) := by
  rw [after_ops, opsEnd_keep _ main_arg8 (by decide), layer3_keep _ main_arg8 (by decide) (by decide) (by decide) (by decide) (by decide) (by decide), layer2_keep _ main_arg8 (by decide) (by decide) (by decide) (by decide) (by decide) (by decide), layer1_keep _ main_arg8 (by decide) (by decide) (by decide) (by decide) (by decide)]

theorem arg9_eq (V : Valuation τ sig (Elt F)) : after ops V (Proc.devRef .tc main_arg9) = V (Proc.devRef .tc main_arg9) := by
  rw [after_ops, opsEnd_keep _ main_arg9 (by decide), layer3_keep _ main_arg9 (by decide) (by decide) (by decide) (by decide) (by decide) (by decide), layer2_keep _ main_arg9 (by decide) (by decide) (by decide) (by decide) (by decide) (by decide), layer1_keep _ main_arg9 (by decide) (by decide) (by decide) (by decide) (by decide)]

/-- On every device, for any float values, from any memory with zero counters: every weakly fair execution of @main
    terminates with the result buffer at the value of the ten argument arrays and the arguments unchanged. -/
theorem run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v254)
        = RefSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v254).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ (fun _ => ops_fresh))

end Cert.ReferenceIdeal.RefRun

end
-- ==== Proof.lean ====
/-
  A three-layer relational graph convolution on a two-type graph (users, items; relations follows, clicks and
  clicked-by), against its plain reference. Per layer and relation: a dense map `h ↦ h · W + b` of the source nodes'
  table, a gather of its rows along the edges' sources, a sum into the edges' targets divided by each target's number
  of incoming edges (at least one); the users' two passes are added; the leaky rectifier is applied. The kernel program
  runs the nine dense maps and the six activations as pipelined regions over blocks of 5000 rows and leaves the
  gathers, sums and quotients to the host, where they are the reference's own operations.
  At the exact values both programs compute one function of the ten arguments (`RefSpec.out`): a region's block
  product into a zero accumulator is the host's product row by row, its change of float format the identity, its
  bias row the same row; an activation region is the host's rectifier entry by entry; everything else is shared text.
  No law of the extended reals beyond reading sums at an index is used, so the precondition is never opened.
-/
import proofs.«102427_j13013750907161_1_alg».proof.Defs
import proofs.«102427_j13013750907161_1_alg».proof.Proof.Gen.Kernel
import proofs.«102427_j13013750907161_1_alg».proof.Proof.Gen.Kernel.Skeleton
import proofs.«102427_j13013750907161_1_alg».proof.Proof.Gen.Kernel.Launch
import proofs.«102427_j13013750907161_1_alg».proof.Proof.Gen.Kernel.Points
import proofs.«102427_j13013750907161_1_alg».proof.Proof.Gen.Kernel.Frame
import proofs.«102427_j13013750907161_1_alg».proof.Proof.Gen.KernelIdeal
import proofs.«102427_j13013750907161_1_alg».proof.Proof.Gen.KernelIdeal.Skeleton
import proofs.«102427_j13013750907161_1_alg».proof.Proof.Gen.KernelIdeal.Launch
import proofs.«102427_j13013750907161_1_alg».proof.Proof.Gen.KernelIdeal.Points
import proofs.«102427_j13013750907161_1_alg».proof.Proof.Gen.KernelIdeal.Frame
import proofs.«102427_j13013750907161_1_alg».proof.Proof.Gen.ReferenceIdeal
import proofs.«102427_j13013750907161_1_alg».proof.Proof.Gen.Pre_finite_inputs
import proofs.«102427_j13013750907161_1_alg».proof.Proof.Chain
import proofs.«102427_j13013750907161_1_alg».proof.Proof.RefRun
import Idealize.ShloMosaic.Adequacy
import Idealize.ShloMosaic.Init

noncomputable section

namespace Cert.Proof

open Idealize.ShloMosaic Idealize.SL.Sem

/-- The word-level program runs and keeps its arguments. -/
theorem frame_k : Cert.frame_Kernel := fun m ρ _ => Cert.Kernel.Gen.frame m ρ
/-- The idealized program runs and keeps its arguments. -/
theorem frame_ki : Cert.frame_KernelIdeal := fun m ρ _ => Cert.KernelIdeal.Gen.frame m ρ
/-- The reference runs and keeps its arguments: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end at the one function of the arguments. -/
theorem algebraic : Cert.algebraic_KernelIdeal_ReferenceIdeal := by
  intro m ρ m' ρ' _ hagree
  refine ⟨fun c => Cert.ReferenceIdeal.RefSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.KernelIdeal.KChain.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9⟩ := hagree c
  rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
